-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v307) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S2x1500000 : Shape := ⟨2, ![2, 1500000]⟩
abbrev S512x128 : Shape := ⟨2, ![512, 128]⟩
abbrev S128 : Shape := ⟨1, ![128]⟩
abbrev S128x128 : Shape := ⟨2, ![128, 128]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg16 : FVec F S128 .f32) (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg13 : FVec F S128 .f32) (main_arg14 : FVec F S128 .f32) (main_arg15 : FVec F S128x128 .f32) (main_arg16 : FVec F S128 .f32) (main_arg17 : FVec F S128x128 .f32) (main_arg18 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_v63 main_v67

def fn_part2 {F : FTy → Type} [FloatOps F] (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128x128 .f32) (main_arg18 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_v48 main_v49 main_v50

def fn_part1 {F : FTy → Type} [FloatOps F] (main_arg6 : FVec F S128 .f32) (main_arg7 : FVec F S512x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128x128 .f32) (main_arg18 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x128 .f32 := Host.absf main_arg7
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x512 .f32) (main_arg1 : IVec S2x1600000 32) (main_arg2 : IVec S2x1500000 32) (main_arg3 : FVec F S512x128 .f32) (main_arg4 : FVec F S128 .f32) (main_arg5 : FVec F S128x128 .f32) (main_arg6 : FVec F S128 .f32) (main_arg7 : FVec F S512x128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128x128 .f32) (main_arg18 : FVec F S128 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x512 : Shape := ⟨2, ![100000, 512]⟩
abbrev S2x1600000 : Shape := ⟨2, ![2, 1600000]⟩
abbrev S2x1500000 : Shape := ⟨2, ![2, 1500000]⟩
abbrev S512x128 : Shape := ⟨2, ![512, 128]⟩
abbrev S128 : Shape := ⟨1, ![128]⟩
abbrev S128x128 : Shape := ⟨2, ![128, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1x1500000 : Shape := ⟨2, ![1, 1500000]⟩
abbrev S1500000 : Shape := ⟨1, ![1500000]⟩
abbrev S1500000x1 : Shape := ⟨2, ![1500000, 1]⟩
abbrev S100000x128 : Shape := ⟨2, ![100000, 128]⟩
abbrev S2000x512 : Shape := ⟨2, ![2000, 512]⟩
abbrev S2000x1 : Shape := ⟨2, ![2000, 1]⟩
abbrev S2000x128 : Shape := ⟨2, ![2000, 128]⟩
abbrev S1700000x128 : Shape := ⟨2, ![1700000, 128]⟩
abbrev S1500000x128 : Shape := ⟨2, ![1500000, 128]⟩
abbrev S1x128 : Shape := ⟨2, ![1, 128]⟩
abbrev S2000 : Shape := ⟨1, ![2000]⟩

abbrev nBuf : Space → Nat
  | .hbm => 182
  | .vmem => 46
  | .smem => 0
  | _ => 0

abbrev hbmTy0_0 (i : Nat) : BufTy := match i % 128 with
  | 0 => ⟨S100000x512, .f32⟩
  | 1 => ⟨S2x1600000, .i32⟩
  | 2 => ⟨S2x1500000, .i32⟩
  | 3 => ⟨S512x128, .f32⟩
  | 4 => ⟨S128, .f32⟩
  | 5 => ⟨S128x128, .f32⟩
  | 6 => ⟨S128, .f32⟩
  | 7 => ⟨S512x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128, .f32⟩
  | 17 => ⟨S128x128, .f32⟩
  | 18 => ⟨S128, .f32⟩
  | 19 => ⟨S100000, .i32⟩
  | 20 => ⟨S1x1600000, .i32⟩
  | 21 => ⟨S1600000, .i32⟩
  | 22 => ⟨S1700000, .i32⟩
  | 23 => ⟨S1x1600000, .i32⟩
  | 24 => ⟨S1600000, .i32⟩
  | 25 => ⟨S1700000, .i32⟩
  | 26 => ⟨S_, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .i1⟩
  | 35 => ⟨S100000, .f32⟩
  | 36 => ⟨S_, .f32⟩
  | 37 => ⟨S_, .f32⟩
  | 38 => ⟨S100000, .f32⟩
  | 39 => ⟨S100000, .f32⟩
  | 40 => ⟨S100000x1, .f32⟩
  | 41 => ⟨S1x1500000, .i32⟩
  | 42 => ⟨S1500000, .i32⟩
  | 43 => ⟨S1x1500000, .i32⟩
  | 44 => ⟨S1500000, .i32⟩
  | 45 => ⟨S_, .f32⟩
  | 46 => ⟨S1500000, .f32⟩
  | 47 => ⟨S_, .f32⟩
  | 48 => ⟨S100000, .f32⟩
  | 49 => ⟨S1500000x1, .i32⟩
  | 50 => ⟨S100000, .f32⟩
  | 51 => ⟨S_, .f32⟩
  | 52 => ⟨S100000, .f32⟩
  | 53 => ⟨S100000, .i1⟩
  | 54 => ⟨S_, .f32⟩
  | 55 => ⟨S100000, .f32⟩
  | 56 => ⟨S100000, .f32⟩
  | 57 => ⟨S_, .f32⟩
  | 58 => ⟨S_, .f32⟩
  | 59 => ⟨S100000, .f32⟩
  | 60 => ⟨S100000, .f32⟩
  | 61 => ⟨S100000x1, .f32⟩
  | 62 => ⟨S_, .f32⟩
  | 63 => ⟨S100000, .f32⟩
  | 64 => ⟨S1500000x1, .i32⟩
  | 65 => ⟨S100000, .f32⟩
  | 66 => ⟨S_, .f32⟩
  | 67 => ⟨S100000, .f32⟩
  | 68 => ⟨S100000, .i1⟩
  | 69 => ⟨S_, .f32⟩
  | 70 => ⟨S100000, .f32⟩
  | 71 => ⟨S100000, .f32⟩
  | 72 => ⟨S_, .f32⟩
  | 73 => ⟨S_, .f32⟩
  | 74 => ⟨S100000, .f32⟩
  | 75 => ⟨S100000, .f32⟩
  | 76 => ⟨S100000x1, .f32⟩
  | 77 => ⟨S100000x128, .f32⟩
  | 78 => ⟨S100000x128, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x128, .f32⟩
  | 88 => ⟨S_, .f32⟩
  | 89 => ⟨S100000x128, .f32⟩
  | 90 => ⟨S1700000x1, .i32⟩
  | 91 => ⟨S100000x128, .f32⟩
  | 92 => ⟨S_, .i32⟩
  | 93 => ⟨S1500000, .i32⟩
  | 94 => ⟨S1500000, .i1⟩
  | 95 => ⟨S_, .i32⟩
  | 96 => ⟨S1500000, .i32⟩
  | 97 => ⟨S1500000, .i32⟩
  | 98 => ⟨S1500000, .i32⟩
  | 99 => ⟨S1500000x1, .i32⟩
  | 100 => ⟨S1500000x128, .f32⟩
  | 101 => ⟨S_, .f32⟩
  | 102 => ⟨S100000x128, .f32⟩
  | 103 => ⟨S1500000x1, .i32⟩
  | 104 => ⟨S100000x128, .f32⟩
  | 105 => ⟨S100000x128, .f32⟩
  | 106 => ⟨S100000x128, .f32⟩
  | 107 => ⟨S_, .i32⟩
  | 108 => ⟨S1500000, .i32⟩
  | 109 => ⟨S1500000, .i1⟩
  | 110 => ⟨S_, .i32⟩
  | 111 => ⟨S1500000, .i32⟩
  | 112 => ⟨S1500000, .i32⟩
  | 113 => ⟨S1500000, .i32⟩
  | 114 => ⟨S1500000x1, .i32⟩
  | 115 => ⟨S1500000x128, .f32⟩
  | 116 => ⟨S_, .f32⟩
  | 117 => ⟨S100000x128, .f32⟩
  | 118 => ⟨S1500000x1, .i32⟩
  | 119 => ⟨S100000x128, .f32⟩
  | 120 => ⟨S100000x128, .f32⟩
  | 121 => ⟨S100000x128, .f32⟩
  | 122 => ⟨S1x128, .f32⟩
  | 123 => ⟨S1x128, .f32⟩
  | 124 => ⟨S1x128, .f32⟩
  | 125 => ⟨S1x128, .f32⟩
  | 126 => ⟨S1x128, .f32⟩
  | 127 => ⟨S1x128, .f32⟩
  | _ => ⟨S100000x512, .f32⟩

abbrev hbmTy0_1 (i : Nat) : BufTy := match i % 128 with
  | 0 => ⟨S100000x128, .f32⟩
  | 1 => ⟨S100000x128, .f32⟩
  | 2 => ⟨S_, .i32⟩
  | 3 => ⟨S1700000, .i32⟩
  | 4 => ⟨S1700000, .i1⟩
  | 5 => ⟨S_, .i32⟩
  | 6 => ⟨S1700000, .i32⟩
  | 7 => ⟨S1700000, .i32⟩
  | 8 => ⟨S1700000, .i32⟩
  | 9 => ⟨S1700000x1, .i32⟩
  | 10 => ⟨S1700000x128, .f32⟩
  | 11 => ⟨S_, .f32⟩
  | 12 => ⟨S100000x128, .f32⟩
  | 13 => ⟨S1700000x1, .i32⟩
  | 14 => ⟨S100000x128, .f32⟩
  | 15 => ⟨S_, .i32⟩
  | 16 => ⟨S1500000, .i32⟩
  | 17 => ⟨S1500000, .i1⟩
  | 18 => ⟨S_, .i32⟩
  | 19 => ⟨S1500000, .i32⟩
  | 20 => ⟨S1500000, .i32⟩
  | 21 => ⟨S1500000, .i32⟩
  | 22 => ⟨S1500000x1, .i32⟩
  | 23 => ⟨S1500000x128, .f32⟩
  | 24 => ⟨S_, .f32⟩
  | 25 => ⟨S100000x128, .f32⟩
  | 26 => ⟨S1500000x1, .i32⟩
  | 27 => ⟨S100000x128, .f32⟩
  | 28 => ⟨S100000x128, .f32⟩
  | 29 => ⟨S100000x128, .f32⟩
  | 30 => ⟨S_, .i32⟩
  | 31 => ⟨S1500000, .i32⟩
  | 32 => ⟨S1500000, .i1⟩
  | 33 => ⟨S_, .i32⟩
  | 34 => ⟨S1500000, .i32⟩
  | 35 => ⟨S1500000, .i32⟩
  | 36 => ⟨S1500000, .i32⟩
  | 37 => ⟨S1500000x1, .i32⟩
  | 38 => ⟨S1500000x128, .f32⟩
  | 39 => ⟨S_, .f32⟩
  | 40 => ⟨S100000x128, .f32⟩
  | 41 => ⟨S1500000x1, .i32⟩
  | 42 => ⟨S100000x128, .f32⟩
  | 43 => ⟨S100000x128, .f32⟩
  | 44 => ⟨S100000x128, .f32⟩
  | 45 => ⟨S1x128, .f32⟩
  | 46 => ⟨S1x128, .f32⟩
  | 47 => ⟨S1x128, .f32⟩
  | 48 => ⟨S1x128, .f32⟩
  | 49 => ⟨S1x128, .f32⟩
  | 50 => ⟨S1x128, .f32⟩
  | 51 => ⟨S1x128, .f32⟩
  | 52 => ⟨S1x128, .f32⟩
  | 53 => ⟨S100000x128, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S512x128, .f32⟩
  | .local _ .vmem, ⟨4, _⟩ => ⟨S2000x1, .f32⟩
  | .local _ .vmem, ⟨5, _⟩ => ⟨S2000x1, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x1, .f32⟩
  | .local _ .vmem, ⟨13, _⟩ => ⟨S2000x1, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S128x128, .f32⟩
  | .local _ .vmem, ⟨18, _⟩ => ⟨S2000x128, .f32⟩
  | .local _ .vmem, ⟨19, _⟩ => ⟨S2000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S128x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x1, .f32⟩
  | .local _ .vmem, ⟨31, _⟩ => ⟨S2000x1, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S2000x128, .f32⟩
  | .local _ .vmem, ⟨36, _⟩ => ⟨S2000x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S128x128, .f32⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_3 : Ref sig .tc := ⟨.hbm, 45, rfl⟩
abbrev main_v20 : Ref sig .tc := ⟨.hbm, 46, rfl⟩
abbrev main_cst_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_5 : Ref sig .tc := ⟨.hbm, 51, rfl⟩
abbrev main_v24 : Ref sig .tc := ⟨.hbm, 52, rfl⟩
abbrev main_v25 : Ref sig .tc := ⟨.hbm, 53, rfl⟩
abbrev main_cst_6 : Ref sig .tc := ⟨.hbm, 54, rfl⟩
abbrev main_v26 : Ref sig .tc := ⟨.hbm, 55, rfl⟩
abbrev main_v27 : Ref sig .tc := ⟨.hbm, 56, rfl⟩
abbrev main_cst_7 : Ref sig .tc := ⟨.hbm, 57, rfl⟩
abbrev main_call1_v0 : Ref sig .tc := ⟨.hbm, 58, rfl⟩
abbrev main_call1_v1 : Ref sig .tc := ⟨.hbm, 59, rfl⟩
abbrev main_v28 : Ref sig .tc := ⟨.hbm, 60, rfl⟩
abbrev main_v29 : Ref sig .tc := ⟨.hbm, 61, rfl⟩
abbrev main_cst_8 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_9 : Ref sig .tc := ⟨.hbm, 66, rfl⟩
abbrev main_v33 : Ref sig .tc := ⟨.hbm, 67, rfl⟩
abbrev main_v34 : Ref sig .tc := ⟨.hbm, 68, rfl⟩
abbrev main_cst_10 : Ref sig .tc := ⟨.hbm, 69, rfl⟩
abbrev main_v35 : Ref sig .tc := ⟨.hbm, 70, rfl⟩
abbrev main_v36 : Ref sig .tc := ⟨.hbm, 71, rfl⟩
abbrev main_cst_11 : Ref sig .tc := ⟨.hbm, 72, rfl⟩
abbrev main_call2_v0 : Ref sig .tc := ⟨.hbm, 73, rfl⟩
abbrev main_call2_v1 : Ref sig .tc := ⟨.hbm, 74, rfl⟩
abbrev main_v37 : Ref sig .tc := ⟨.hbm, 75, rfl⟩
abbrev main_v38 : Ref sig .tc := ⟨.hbm, 76, rfl⟩
abbrev main_v39_0 : Ref sig .tc := ⟨.hbm, 77, rfl⟩
abbrev main_v39_1 : Ref sig .tc := ⟨.hbm, 78, rfl⟩
abbrev main_c : Ref sig .tc := ⟨.hbm, 79, rfl⟩
abbrev main_v40 : Ref sig .tc := ⟨.hbm, 80, rfl⟩
abbrev main_v41 : Ref sig .tc := ⟨.hbm, 81, rfl⟩
abbrev main_c_12 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_13 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_c_14 : Ref sig .tc := ⟨.hbm, 92, rfl⟩
abbrev main_v50 : Ref sig .tc := ⟨.hbm, 93, rfl⟩
abbrev main_v51 : Ref sig .tc := ⟨.hbm, 94, rfl⟩
abbrev main_c_15 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_16 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_17 : Ref sig .tc := ⟨.hbm, 107, rfl⟩
abbrev main_v62 : Ref sig .tc := ⟨.hbm, 108, rfl⟩
abbrev main_v63 : Ref sig .tc := ⟨.hbm, 109, rfl⟩
abbrev main_c_18 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_cst_19 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80_0 : Ref sig .tc := ⟨.hbm, 128, rfl⟩
abbrev main_v80_1 : Ref sig .tc := ⟨.hbm, 129, rfl⟩
abbrev main_c_20 : Ref sig .tc := ⟨.hbm, 130, rfl⟩
abbrev main_v81 : Ref sig .tc := ⟨.hbm, 131, rfl⟩
abbrev main_v82 : Ref sig .tc := ⟨.hbm, 132, rfl⟩
abbrev main_c_21 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_cst_22 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_c_23 : Ref sig .tc := ⟨.hbm, 143, rfl⟩
abbrev main_v91 : Ref sig .tc := ⟨.hbm, 144, rfl⟩
abbrev main_v92 : Ref sig .tc := ⟨.hbm, 145, rfl⟩
abbrev main_c_24 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_cst_25 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_c_26 : Ref sig .tc := ⟨.hbm, 158, rfl⟩
abbrev main_v103 : Ref sig .tc := ⟨.hbm, 159, rfl⟩
abbrev main_v104 : Ref sig .tc := ⟨.hbm, 160, rfl⟩
abbrev main_c_27 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_cst_28 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg11_1 : Ref sig .tc := ⟨.vmem, 25, rfl⟩
abbrev cc1_stg12_0 : Ref sig .tc := ⟨.vmem, 26, rfl⟩
abbrev cc1_stg12_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg5_1 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg8_0 : Ref sig .tc := ⟨.vmem, 39, rfl⟩
abbrev cc2_stg9_0 : Ref sig .tc := ⟨.vmem, 40, rfl⟩
abbrev cc2_stg10_0 : Ref sig .tc := ⟨.vmem, 41, rfl⟩
abbrev cc2_stg11_0 : Ref sig .tc := ⟨.vmem, 42, rfl⟩
abbrev cc2_stg12_0 : Ref sig .tc := ⟨.vmem, 43, rfl⟩
abbrev cc2_stg13_0 : Ref sig .tc := ⟨.vmem, 44, rfl⟩
abbrev cc2_stg13_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem11_1 : DmaSem sig := 25
abbrev cc1_sem12_0 : DmaSem sig := 26
abbrev cc1_sem12_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem5_1 : DmaSem sig := 36
abbrev cc2_sem6_0 : DmaSem sig := 37
abbrev cc2_sem7_0 : DmaSem sig := 38
abbrev cc2_sem8_0 : DmaSem sig := 39
abbrev cc2_sem9_0 : DmaSem sig := 40
abbrev cc2_sem10_0 : DmaSem sig := 41
abbrev cc2_sem11_0 : DmaSem sig := 42
abbrev cc2_sem12_0 : DmaSem sig := 43
abbrev cc2_sem13_0 : DmaSem sig := 44
abbrev cc2_sem13_1 : DmaSem sig := 45

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S2000x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S128x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S2000x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  slices_S2x1500000_S1x1500000_0_0 : S2x1500000.Slices ![0, 0] S1x1500000
  shapeCasts_S1x1500000_S1500000 : S1x1500000.ShapeCasts S1500000
  slices_S2x1500000_S1x1500000_1_0 : S2x1500000.Slices ![1, 0] S1x1500000
  bcast_S_S1500000 : S_.BroadcastsInDim S1500000 (![] : Fin 0 → Fin S1500000.rank)
  bcast_S1500000_S1500000x1_0 : S1500000.BroadcastsInDim S1500000x1 (![0] : Fin 1 → Fin S1500000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  inb_S128x128_S128x128_0_0 : ∀ a, (![0, 0] : Fin 2 → Nat) a + S128x128.size a ≤ S128x128.size a
  h_S128x128 : 0 < S128x128.numel
  scatter_S100000_S1700000x1_S1700000_n_0_0_1_wf : ScatterDims.WF S100000 S1700000x1 S1700000 [] [0] [0] 1
  scatter_S100000_S1500000x1_S1500000_n_0_0_1_wf : ScatterDims.WF S100000 S1500000x1 S1500000 [] [0] [0] 1
  dot_S2000x512_S512x128_S2000x128_1_0_0_1_n_n_wf : DotDims.WF S2000x512 S512x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  gather_S100000x128_S1500000x1_S1500000x128_1_0_n_n_0_1_1128_wf : GatherDims.WF S100000x128 S1500000x1 S1500000x128 [1] [0] [] [0] [] 1 ![1, 128]
  scatter_S100000x128_S1500000x1_S1500000x128_1_0_0_1_wf : ScatterDims.WF S100000x128 S1500000x1 S1500000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S100000x1.size a
  hwx0_3 : ∀ i : grid0.Coords, EltTy.bits .f32 = 32 ∨ (Rect.block (s := S100000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S100000x128.size a
  hwx1_11 : ∀ i : grid1.Coords, EltTy.bits .f32 = 32 ∨ (Rect.block (s := S100000x128) S2000x128.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x128.size a ≤ S100000x128.size a
  hwx1_12 : ∀ i : grid1.Coords, EltTy.bits .f32 = 32 ∨ (Rect.block (s := S100000x128) S2000x128.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x128.size a ≤ S128x128.size a
  hwx2_9 : ∀ i : grid2.Coords, EltTy.bits .f32 = 32 ∨ (Rect.block (s := S128x128) S128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x128.size a ≤ S128x128.size a
  hwx2_11 : ∀ i : grid2.Coords, EltTy.bits .f32 = 32 ∨ (Rect.block (s := S128x128) S128x128.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x128.size a ≤ S1x128.size a
  hwx2_12 : ∀ i : grid2.Coords, EltTy.bits .f32 = 32 ∨ (Rect.block (s := S1x128) S1x128.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S2000x128.size a ≤ S100000x128.size a
  hwx2_13 : ∀ i : grid2.Coords, EltTy.bits .f32 = 32 ∨ (Rect.block (s := S100000x128) S2000x128.size (cc2_transform_13 i) (hinb2_13 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def scatter_S100000_S1500000x1_S1500000_n_0_0_1 : ScatterDims S100000 S1500000x1 S1500000 where
  updateWindowDims := []
  insertedWindowDims := [0]
  scatterDimsToOperandDims := [0]
  indexVectorDim := 1
  wf := scatter_S100000_S1500000x1_S1500000_n_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def gather_S100000x128_S1500000x1_S1500000x128_1_0_n_n_0_1_1128 : GatherDims S100000x128 S1500000x1 S1500000x128 where
  offsetDims := [1]
  collapsedSliceDims := [0]
  operandBatchingDims := []
  startIndicesBatchingDims := []
  startIndexMap := [0]
  indexVectorDim := 1
  sliceSizes := ![1, 128]
  wf := gather_S100000x128_S1500000x1_S1500000x128_1_0_n_n_0_1_1128_wf
def scatter_S100000x128_S1500000x1_S1500000x128_1_0_0_1 : ScatterDims S100000x128 S1500000x1 S1500000x128 where
  updateWindowDims := [1]
  insertedWindowDims := [0]
  scatterDimsToOperandDims := [0]
  indexVectorDim := 1
  wf := scatter_S100000x128_S1500000x1_S1500000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v39_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v39_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v74) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v75) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v76) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v73) S2000x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v77) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v78) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v79) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg9) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v80_0) S2000x128.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v80_1) S2000x128.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v90) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v115) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v116) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v117) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v114) S2000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v118) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v119) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v120) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg15) S128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v121) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg17) S128x128.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v122) S1x128.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v123) S2000x128.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S2x1500000 : Shape := ⟨2, ![2, 1500000]⟩
abbrev S512x128 : Shape := ⟨2, ![512, 128]⟩
abbrev S128 : Shape := ⟨1, ![128]⟩
abbrev S128x128 : Shape := ⟨2, ![128, 128]⟩
abbrev S100000x128 : Shape := ⟨2, ![100000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1x1500000 : Shape := ⟨2, ![1, 1500000]⟩
abbrev S1500000 : Shape := ⟨1, ![1500000]⟩
abbrev S1500000x1 : Shape := ⟨2, ![1500000, 1]⟩
abbrev S1500000x128 : Shape := ⟨2, ![1500000, 128]⟩

abbrev nBuf : Space → Nat
  | .hbm => 422
  | .vmem => 0
  | .smem => 0
  | _ => 0

abbrev hbmTy0_0 (i : Nat) : BufTy := match i % 128 with
  | 0 => ⟨S100000x512, .f32⟩
  | 1 => ⟨S2x1600000, .i32⟩
  | 2 => ⟨S2x1500000, .i32⟩
  | 3 => ⟨S512x128, .f32⟩
  | 4 => ⟨S128, .f32⟩
  | 5 => ⟨S128x128, .f32⟩
  | 6 => ⟨S128, .f32⟩
  | 7 => ⟨S512x128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128, .f32⟩
  | 17 => ⟨S128x128, .f32⟩
  | 18 => ⟨S128, .f32⟩
  | 19 => ⟨S100000x128, .f32⟩
  | 20 => ⟨S100000, .i32⟩
  | 21 => ⟨S1x1600000, .i32⟩
  | 22 => ⟨S1600000, .i32⟩
  | 23 => ⟨S1700000, .i32⟩
  | 24 => ⟨S1x1600000, .i32⟩
  | 25 => ⟨S1600000, .i32⟩
  | 26 => ⟨S1700000, .i32⟩
  | 27 => ⟨S_, .f32⟩
  | 28 => ⟨S1700000, .f32⟩
  | 29 => ⟨S_, .f32⟩
  | 30 => ⟨S100000, .f32⟩
  | 31 => ⟨S1700000x1, .i32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x128, .f32⟩
  | 69 => ⟨S1700000x1, .f32⟩
  | 70 => ⟨S1700000x128, .f32⟩
  | 71 => ⟨S1700000x128, .f32⟩
  | 72 => ⟨S_, .f32⟩
  | 73 => ⟨S100000x128, .f32⟩
  | 74 => ⟨S1700000x1, .i32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000, .f32⟩
  | 81 => ⟨S100000x1, .f32⟩
  | 82 => ⟨S_, .f32⟩
  | 83 => ⟨S100000x1, .f32⟩
  | 84 => ⟨S100000x1, .f32⟩
  | 85 => ⟨S100000x128, .f32⟩
  | 86 => ⟨S100000x128, .f32⟩
  | 87 => ⟨S100000x128, .f32⟩
  | 88 => ⟨S_, .f32⟩
  | 89 => ⟨S100000, .f32⟩
  | 90 => ⟨S100000x1, .f32⟩
  | 91 => ⟨S_, .f32⟩
  | 92 => ⟨S100000x1, .f32⟩
  | 93 => ⟨S100000x1, .f32⟩
  | 94 => ⟨S100000x128, .f32⟩
  | 95 => ⟨S100000x128, .f32⟩
  | 96 => ⟨S_, .f32⟩
  | 97 => ⟨S100000x1, .f32⟩
  | 98 => ⟨S100000x1, .f32⟩
  | 99 => ⟨S100000x1, .f32⟩
  | 100 => ⟨S100000x128, .f32⟩
  | 101 => ⟨S100000x128, .f32⟩
  | 102 => ⟨S1x128, .f32⟩
  | 103 => ⟨S100000x128, .f32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S100000x128, .f32⟩
  | 112 => ⟨S100000, .i32⟩
  | 113 => ⟨S1x1600000, .i32⟩
  | 114 => ⟨S1600000, .i32⟩
  | 115 => ⟨S1700000, .i32⟩
  | 116 => ⟨S1x1600000, .i32⟩
  | 117 => ⟨S1600000, .i32⟩
  | 118 => ⟨S1700000, .i32⟩
  | 119 => ⟨S_, .f32⟩
  | 120 => ⟨S1700000, .f32⟩
  | 121 => ⟨S_, .f32⟩
  | 122 => ⟨S100000, .f32⟩
  | 123 => ⟨S1700000x1, .i32⟩
  | 124 => ⟨S100000, .f32⟩
  | 125 => ⟨S_, .f32⟩
  | 126 => ⟨S100000, .f32⟩
  | 127 => ⟨S100000, .i1⟩
  | _ => ⟨S100000x512, .f32⟩

abbrev hbmTy0_1 (i : Nat) : BufTy := match i % 128 with
  | 0 => ⟨S100000, .f32⟩
  | 1 => ⟨S_, .f32⟩
  | 2 => ⟨S_, .f32⟩
  | 3 => ⟨S100000, .f32⟩
  | 4 => ⟨S100000, .f32⟩
  | 5 => ⟨S_, .i32⟩
  | 6 => ⟨S1700000, .i32⟩
  | 7 => ⟨S1700000, .i1⟩
  | 8 => ⟨S_, .i32⟩
  | 9 => ⟨S1700000, .i32⟩
  | 10 => ⟨S1700000, .i32⟩
  | 11 => ⟨S1700000, .i32⟩
  | 12 => ⟨S1700000x1, .i32⟩
  | 13 => ⟨S1700000, .f32⟩
  | 14 => ⟨S_, .i32⟩
  | 15 => ⟨S1700000, .i32⟩
  | 16 => ⟨S1700000, .i1⟩
  | 17 => ⟨S_, .i32⟩
  | 18 => ⟨S1700000, .i32⟩
  | 19 => ⟨S1700000, .i32⟩
  | 20 => ⟨S1700000, .i32⟩
  | 21 => ⟨S1700000x1, .i32⟩
  | 22 => ⟨S1700000, .f32⟩
  | 23 => ⟨S1700000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000x128, .f32⟩
  | 33 => ⟨S1700000x1, .f32⟩
  | 34 => ⟨S1700000x128, .f32⟩
  | 35 => ⟨S1700000x128, .f32⟩
  | 36 => ⟨S_, .f32⟩
  | 37 => ⟨S100000x128, .f32⟩
  | 38 => ⟨S1700000x1, .i32⟩
  | 39 => ⟨S100000x128, .f32⟩
  | 40 => ⟨S1x128, .f32⟩
  | 41 => ⟨S100000x128, .f32⟩
  | 42 => ⟨S100000x128, .f32⟩
  | 43 => ⟨S_, .f32⟩
  | 44 => ⟨S100000, .f32⟩
  | 45 => ⟨S100000x1, .f32⟩
  | 46 => ⟨S_, .f32⟩
  | 47 => ⟨S100000x1, .f32⟩
  | 48 => ⟨S100000x1, .f32⟩
  | 49 => ⟨S100000x128, .f32⟩
  | 50 => ⟨S100000x128, .f32⟩
  | 51 => ⟨S100000x128, .f32⟩
  | 52 => ⟨S_, .f32⟩
  | 53 => ⟨S100000, .f32⟩
  | 54 => ⟨S100000x1, .f32⟩
  | 55 => ⟨S_, .f32⟩
  | 56 => ⟨S100000x1, .f32⟩
  | 57 => ⟨S100000x1, .f32⟩
  | 58 => ⟨S100000x128, .f32⟩
  | 59 => ⟨S100000x128, .f32⟩
  | 60 => ⟨S_, .f32⟩
  | 61 => ⟨S100000x1, .f32⟩
  | 62 => ⟨S100000x1, .f32⟩
  | 63 => ⟨S100000x1, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S1x1500000, .i32⟩
  | 77 => ⟨S1500000, .i32⟩
  | 78 => ⟨S1x1500000, .i32⟩
  | 79 => ⟨S1500000, .i32⟩
  | 80 => ⟨S_, .f32⟩
  | 81 => ⟨S1500000, .f32⟩
  | 82 => ⟨S_, .f32⟩
  | 83 => ⟨S100000, .f32⟩
  | 84 => ⟨S1500000x1, .i32⟩
  | 85 => ⟨S100000, .f32⟩
  | 86 => ⟨S_, .f32⟩
  | 87 => ⟨S100000, .f32⟩
  | 88 => ⟨S100000, .i1⟩
  | 89 => ⟨S_, .f32⟩
  | 90 => ⟨S100000, .f32⟩
  | 91 => ⟨S100000, .f32⟩
  | 92 => ⟨S_, .f32⟩
  | 93 => ⟨S_, .f32⟩
  | 94 => ⟨S100000, .f32⟩
  | 95 => ⟨S100000, .f32⟩
  | 96 => ⟨S_, .f32⟩
  | 97 => ⟨S100000, .f32⟩
  | 98 => ⟨S1500000x1, .i32⟩
  | 99 => ⟨S100000, .f32⟩
  | 100 => ⟨S_, .f32⟩
  | 101 => ⟨S100000, .f32⟩
  | 102 => ⟨S100000, .i1⟩
  | 103 => ⟨S_, .f32⟩
  | 104 => ⟨S100000, .f32⟩
  | 105 => ⟨S100000, .f32⟩
  | 106 => ⟨S_, .f32⟩
  | 107 => ⟨S_, .f32⟩
  | 108 => ⟨S100000, .f32⟩
  | 109 => ⟨S100000, .f32⟩
  | 110 => ⟨S_, .i32⟩
  | 111 => ⟨S1500000, .i32⟩
  | 112 => ⟨S1500000, .i1⟩
  | 113 => ⟨S_, .i32⟩
  | 114 => ⟨S1500000, .i32⟩
  | 115 => ⟨S1500000, .i32⟩
  | 116 => ⟨S1500000, .i32⟩
  | 117 => ⟨S1500000x1, .i32⟩
  | 118 => ⟨S1500000x128, .f32⟩
  | 119 => ⟨S_, .f32⟩
  | 120 => ⟨S100000x128, .f32⟩
  | 121 => ⟨S1500000x1, .i32⟩
  | 122 => ⟨S100000x128, .f32⟩
  | 123 => ⟨S100000x1, .f32⟩
  | 124 => ⟨S100000x128, .f32⟩
  | 125 => ⟨S100000x128, .f32⟩
  | 126 => ⟨S_, .i32⟩
  | 127 => ⟨S1500000, .i32⟩
  | _ => ⟨S100000x512, .f32⟩

abbrev hbmTy0_2 (i : Nat) : BufTy := match i % 128 with
  | 0 => ⟨S1500000, .i1⟩
  | 1 => ⟨S_, .i32⟩
  | 2 => ⟨S1500000, .i32⟩
  | 3 => ⟨S1500000, .i32⟩
  | 4 => ⟨S1500000, .i32⟩
  | 5 => ⟨S1500000x1, .i32⟩
  | 6 => ⟨S1500000x128, .f32⟩
  | 7 => ⟨S_, .f32⟩
  | 8 => ⟨S100000x128, .f32⟩
  | 9 => ⟨S1500000x1, .i32⟩
  | 10 => ⟨S100000x128, .f32⟩
  | 11 => ⟨S100000x1, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S_, .f32⟩
  | 18 => ⟨S100000, .f32⟩
  | 19 => ⟨S100000x1, .f32⟩
  | 20 => ⟨S_, .f32⟩
  | 21 => ⟨S100000x1, .f32⟩
  | 22 => ⟨S100000x1, .f32⟩
  | 23 => ⟨S100000x128, .f32⟩
  | 24 => ⟨S100000x128, .f32⟩
  | 25 => ⟨S100000x128, .f32⟩
  | 26 => ⟨S_, .f32⟩
  | 27 => ⟨S100000, .f32⟩
  | 28 => ⟨S100000x1, .f32⟩
  | 29 => ⟨S_, .f32⟩
  | 30 => ⟨S100000x1, .f32⟩
  | 31 => ⟨S100000x1, .f32⟩
  | 32 => ⟨S100000x128, .f32⟩
  | 33 => ⟨S100000x128, .f32⟩
  | 34 => ⟨S_, .f32⟩
  | 35 => ⟨S100000x1, .f32⟩
  | 36 => ⟨S100000x1, .f32⟩
  | 37 => ⟨S100000x1, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S100000x128, .f32⟩
  | 50 => ⟨S1x1500000, .i32⟩
  | 51 => ⟨S1500000, .i32⟩
  | 52 => ⟨S1x1500000, .i32⟩
  | 53 => ⟨S1500000, .i32⟩
  | 54 => ⟨S_, .f32⟩
  | 55 => ⟨S1500000, .f32⟩
  | 56 => ⟨S_, .f32⟩
  | 57 => ⟨S100000, .f32⟩
  | 58 => ⟨S1500000x1, .i32⟩
  | 59 => ⟨S100000, .f32⟩
  | 60 => ⟨S_, .f32⟩
  | 61 => ⟨S100000, .f32⟩
  | 62 => ⟨S100000, .i1⟩
  | 63 => ⟨S_, .f32⟩
  | 64 => ⟨S100000, .f32⟩
  | 65 => ⟨S100000, .f32⟩
  | 66 => ⟨S_, .f32⟩
  | 67 => ⟨S_, .f32⟩
  | 68 => ⟨S100000, .f32⟩
  | 69 => ⟨S100000, .f32⟩
  | 70 => ⟨S_, .f32⟩
  | 71 => ⟨S100000, .f32⟩
  | 72 => ⟨S1500000x1, .i32⟩
  | 73 => ⟨S100000, .f32⟩
  | 74 => ⟨S_, .f32⟩
  | 75 => ⟨S100000, .f32⟩
  | 76 => ⟨S100000, .i1⟩
  | 77 => ⟨S_, .f32⟩
  | 78 => ⟨S100000, .f32⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1500000, .i32⟩
  | 86 => ⟨S1500000, .i1⟩
  | 87 => ⟨S_, .i32⟩
  | 88 => ⟨S1500000, .i32⟩
  | 89 => ⟨S1500000, .i32⟩
  | 90 => ⟨S1500000, .i32⟩
  | 91 => ⟨S1500000x1, .i32⟩
  | 92 => ⟨S1500000x128, .f32⟩
  | 93 => ⟨S_, .f32⟩
  | 94 => ⟨S100000x128, .f32⟩
  | 95 => ⟨S1500000x1, .i32⟩
  | 96 => ⟨S100000x128, .f32⟩
  | 97 => ⟨S100000x1, .f32⟩
  | 98 => ⟨S100000x128, .f32⟩
  | 99 => ⟨S100000x128, .f32⟩
  | 100 => ⟨S_, .i32⟩
  | 101 => ⟨S1500000, .i32⟩
  | 102 => ⟨S1500000, .i1⟩
  | 103 => ⟨S_, .i32⟩
  | 104 => ⟨S1500000, .i32⟩
  | 105 => ⟨S1500000, .i32⟩
  | 106 => ⟨S1500000, .i32⟩
  | 107 => ⟨S1500000x1, .i32⟩
  | 108 => ⟨S1500000x128, .f32⟩
  | 109 => ⟨S_, .f32⟩
  | 110 => ⟨S100000x128, .f32⟩
  | 111 => ⟨S1500000x1, .i32⟩
  | 112 => ⟨S100000x128, .f32⟩
  | 113 => ⟨S100000x1, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000, .f32⟩
  | 121 => ⟨S100000x1, .f32⟩
  | 122 => ⟨S_, .f32⟩
  | 123 => ⟨S100000x1, .f32⟩
  | 124 => ⟨S100000x1, .f32⟩
  | 125 => ⟨S100000x128, .f32⟩
  | 126 => ⟨S100000x128, .f32⟩
  | 127 => ⟨S100000x128, .f32⟩
  | _ => ⟨S100000x512, .f32⟩

abbrev hbmTy0_3 (i : Nat) : BufTy := match i % 128 with
  | 0 => ⟨S_, .f32⟩
  | 1 => ⟨S100000, .f32⟩
  | 2 => ⟨S100000x1, .f32⟩
  | 3 => ⟨S_, .f32⟩
  | 4 => ⟨S100000x1, .f32⟩
  | 5 => ⟨S100000x1, .f32⟩
  | 6 => ⟨S100000x128, .f32⟩
  | 7 => ⟨S100000x128, .f32⟩
  | 8 => ⟨S_, .f32⟩
  | 9 => ⟨S100000x1, .f32⟩
  | 10 => ⟨S100000x1, .f32⟩
  | 11 => ⟨S100000x1, .f32⟩
  | 12 => ⟨S100000x128, .f32⟩
  | 13 => ⟨S100000x128, .f32⟩
  | 14 => ⟨S1x128, .f32⟩
  | 15 => ⟨S100000x128, .f32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S100000x128, .f32⟩
  | 28 => ⟨S1x128, .f32⟩
  | 29 => ⟨S100000x128, .f32⟩
  | 30 => ⟨S100000x128, .f32⟩
  | 31 => ⟨S_, .f32⟩
  | 32 => ⟨S100000x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | _ => ⟨S100000x512, .f32⟩

abbrev hbmTy (i : Nat) : BufTy := match i / 128 with
  | 0 => hbmTy0_0 i
  | 1 => hbmTy0_1 i
  | 2 => hbmTy0_2 i
  | 3 => hbmTy0_3 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_cst_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_c_3 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c_4 : Ref sig .tc := ⟨.hbm, 50, rfl⟩
abbrev main_v23 : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_6 : Ref sig .tc := ⟨.hbm, 60, rfl⟩
abbrev main_v31 : Ref sig .tc := ⟨.hbm, 61, rfl⟩
abbrev main_v32 : Ref sig .tc := ⟨.hbm, 62, rfl⟩
abbrev main_c_7 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_9 : Ref sig .tc := ⟨.hbm, 79, rfl⟩
abbrev main_v47 : Ref sig .tc := ⟨.hbm, 80, rfl⟩
abbrev main_v48 : Ref sig .tc := ⟨.hbm, 81, rfl⟩
abbrev main_cst_10 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_11 : Ref sig .tc := ⟨.hbm, 88, rfl⟩
abbrev main_v54 : Ref sig .tc := ⟨.hbm, 89, rfl⟩
abbrev main_v55 : Ref sig .tc := ⟨.hbm, 90, rfl⟩
abbrev main_cst_12 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_13 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_call1_cst : Ref sig .tc := ⟨.hbm, 108, rfl⟩
abbrev main_call1_v0 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_14 : Ref sig .tc := ⟨.hbm, 119, rfl⟩
abbrev main_v80 : Ref sig .tc := ⟨.hbm, 120, rfl⟩
abbrev main_cst_15 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_16 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_17 : Ref sig .tc := ⟨.hbm, 129, rfl⟩
abbrev main_call2_v0 : Ref sig .tc := ⟨.hbm, 130, rfl⟩
abbrev main_call2_v1 : Ref sig .tc := ⟨.hbm, 131, rfl⟩
abbrev main_v87 : Ref sig .tc := ⟨.hbm, 132, rfl⟩
abbrev main_c_18 : Ref sig .tc := ⟨.hbm, 133, rfl⟩
abbrev main_v88 : Ref sig .tc := ⟨.hbm, 134, rfl⟩
abbrev main_v89 : Ref sig .tc := ⟨.hbm, 135, rfl⟩
abbrev main_c_19 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_c_20 : Ref sig .tc := ⟨.hbm, 142, rfl⟩
abbrev main_v95 : Ref sig .tc := ⟨.hbm, 143, rfl⟩
abbrev main_v96 : Ref sig .tc := ⟨.hbm, 144, rfl⟩
abbrev main_c_21 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_c_22 : Ref sig .tc := ⟨.hbm, 152, rfl⟩
abbrev main_v103 : Ref sig .tc := ⟨.hbm, 153, rfl⟩
abbrev main_v104 : Ref sig .tc := ⟨.hbm, 154, rfl⟩
abbrev main_c_23 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_cst_24 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_25 : Ref sig .tc := ⟨.hbm, 171, rfl⟩
abbrev main_v119 : Ref sig .tc := ⟨.hbm, 172, rfl⟩
abbrev main_v120 : Ref sig .tc := ⟨.hbm, 173, rfl⟩
abbrev main_cst_26 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_cst_27 : Ref sig .tc := ⟨.hbm, 180, rfl⟩
abbrev main_v126 : Ref sig .tc := ⟨.hbm, 181, rfl⟩
abbrev main_v127 : Ref sig .tc := ⟨.hbm, 182, rfl⟩
abbrev main_cst_28 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_cst_29 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_call3_cst : Ref sig .tc := ⟨.hbm, 200, rfl⟩
abbrev main_call3_v0 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_cst_30 : Ref sig .tc := ⟨.hbm, 208, rfl⟩
abbrev main_v149 : Ref sig .tc := ⟨.hbm, 209, rfl⟩
abbrev main_cst_31 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_cst_32 : Ref sig .tc := ⟨.hbm, 214, rfl⟩
abbrev main_v153 : Ref sig .tc := ⟨.hbm, 215, rfl⟩
abbrev main_v154 : Ref sig .tc := ⟨.hbm, 216, rfl⟩
abbrev main_cst_33 : Ref sig .tc := ⟨.hbm, 217, rfl⟩
abbrev main_v155 : Ref sig .tc := ⟨.hbm, 218, rfl⟩
abbrev main_v156 : Ref sig .tc := ⟨.hbm, 219, rfl⟩
abbrev main_cst_34 : Ref sig .tc := ⟨.hbm, 220, rfl⟩
abbrev main_call4_v0 : Ref sig .tc := ⟨.hbm, 221, rfl⟩
abbrev main_call4_v1 : Ref sig .tc := ⟨.hbm, 222, rfl⟩
abbrev main_v157 : Ref sig .tc := ⟨.hbm, 223, rfl⟩
abbrev main_cst_35 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_cst_36 : Ref sig .tc := ⟨.hbm, 228, rfl⟩
abbrev main_v161 : Ref sig .tc := ⟨.hbm, 229, rfl⟩
abbrev main_v162 : Ref sig .tc := ⟨.hbm, 230, rfl⟩
abbrev main_cst_37 : Ref sig .tc := ⟨.hbm, 231, rfl⟩
abbrev main_v163 : Ref sig .tc := ⟨.hbm, 232, rfl⟩
abbrev main_v164 : Ref sig .tc := ⟨.hbm, 233, rfl⟩
abbrev main_cst_38 : Ref sig .tc := ⟨.hbm, 234, rfl⟩
abbrev main_call5_v0 : Ref sig .tc := ⟨.hbm, 235, rfl⟩
abbrev main_call5_v1 : Ref sig .tc := ⟨.hbm, 236, rfl⟩
abbrev main_v165 : Ref sig .tc := ⟨.hbm, 237, rfl⟩
abbrev main_c_39 : Ref sig .tc := ⟨.hbm, 238, rfl⟩
abbrev main_v166 : Ref sig .tc := ⟨.hbm, 239, rfl⟩
abbrev main_v167 : Ref sig .tc := ⟨.hbm, 240, rfl⟩
abbrev main_c_40 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_cst_41 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_c_42 : Ref sig .tc := ⟨.hbm, 254, rfl⟩
abbrev main_v179 : Ref sig .tc := ⟨.hbm, 255, rfl⟩
abbrev main_v180 : Ref sig .tc := ⟨.hbm, 256, rfl⟩
abbrev main_c_43 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_cst_44 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_v191 : Ref sig .tc := ⟨.hbm, 269, rfl⟩
abbrev main_v192 : Ref sig .tc := ⟨.hbm, 270, rfl⟩
abbrev main_v193 : Ref sig .tc := ⟨.hbm, 271, rfl⟩
abbrev main_v194 : Ref sig .tc := ⟨.hbm, 272, rfl⟩
abbrev main_cst_45 : Ref sig .tc := ⟨.hbm, 273, rfl⟩
abbrev main_v195 : Ref sig .tc := ⟨.hbm, 274, rfl⟩
abbrev main_v196 : Ref sig .tc := ⟨.hbm, 275, rfl⟩
abbrev main_cst_46 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_cst_47 : Ref sig .tc := ⟨.hbm, 282, rfl⟩
abbrev main_v202 : Ref sig .tc := ⟨.hbm, 283, rfl⟩
abbrev main_v203 : Ref sig .tc := ⟨.hbm, 284, rfl⟩
abbrev main_cst_48 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_cst_49 : Ref sig .tc := ⟨.hbm, 290, rfl⟩
abbrev main_v208 : Ref sig .tc := ⟨.hbm, 291, rfl⟩
abbrev main_v209 : Ref sig .tc := ⟨.hbm, 292, rfl⟩
abbrev main_v210 : Ref sig .tc := ⟨.hbm, 293, rfl⟩
abbrev main_v211 : Ref sig .tc := ⟨.hbm, 294, rfl⟩
abbrev main_v212 : Ref sig .tc := ⟨.hbm, 295, rfl⟩
abbrev main_v213 : Ref sig .tc := ⟨.hbm, 296, rfl⟩
abbrev main_v214 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_call6_cst : Ref sig .tc := ⟨.hbm, 302, rfl⟩
abbrev main_call6_v0 : Ref sig .tc := ⟨.hbm, 303, rfl⟩
abbrev main_v219 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_cst_50 : Ref sig .tc := ⟨.hbm, 310, rfl⟩
abbrev main_v225 : Ref sig .tc := ⟨.hbm, 311, rfl⟩
abbrev main_cst_51 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_cst_52 : Ref sig .tc := ⟨.hbm, 316, rfl⟩
abbrev main_v229 : Ref sig .tc := ⟨.hbm, 317, rfl⟩
abbrev main_v230 : Ref sig .tc := ⟨.hbm, 318, rfl⟩
abbrev main_cst_53 : Ref sig .tc := ⟨.hbm, 319, rfl⟩
abbrev main_v231 : Ref sig .tc := ⟨.hbm, 320, rfl⟩
abbrev main_v232 : Ref sig .tc := ⟨.hbm, 321, rfl⟩
abbrev main_cst_54 : Ref sig .tc := ⟨.hbm, 322, rfl⟩
abbrev main_call7_v0 : Ref sig .tc := ⟨.hbm, 323, rfl⟩
abbrev main_call7_v1 : Ref sig .tc := ⟨.hbm, 324, rfl⟩
abbrev main_v233 : Ref sig .tc := ⟨.hbm, 325, rfl⟩
abbrev main_cst_55 : Ref sig .tc := ⟨.hbm, 326, rfl⟩
abbrev main_v234 : Ref sig .tc := ⟨.hbm, 327, rfl⟩
abbrev main_v235 : Ref sig .tc := ⟨.hbm, 328, rfl⟩
abbrev main_v236 : Ref sig .tc := ⟨.hbm, 329, rfl⟩
abbrev main_cst_56 : Ref sig .tc := ⟨.hbm, 330, rfl⟩
abbrev main_v237 : Ref sig .tc := ⟨.hbm, 331, rfl⟩
abbrev main_v238 : Ref sig .tc := ⟨.hbm, 332, rfl⟩
abbrev main_cst_57 : Ref sig .tc := ⟨.hbm, 333, rfl⟩
abbrev main_v239 : Ref sig .tc := ⟨.hbm, 334, rfl⟩
abbrev main_v240 : Ref sig .tc := ⟨.hbm, 335, rfl⟩
abbrev main_cst_58 : Ref sig .tc := ⟨.hbm, 336, rfl⟩
abbrev main_call8_v0 : Ref sig .tc := ⟨.hbm, 337, rfl⟩
abbrev main_call8_v1 : Ref sig .tc := ⟨.hbm, 338, rfl⟩
abbrev main_v241 : Ref sig .tc := ⟨.hbm, 339, rfl⟩
abbrev main_c_59 : Ref sig .tc := ⟨.hbm, 340, rfl⟩
abbrev main_v242 : Ref sig .tc := ⟨.hbm, 341, rfl⟩
abbrev main_v243 : Ref sig .tc := ⟨.hbm, 342, rfl⟩
abbrev main_c_60 : Ref sig .tc := ⟨.hbm, 343, rfl⟩
abbrev main_v244 : Ref sig .tc := ⟨.hbm, 344, rfl⟩
abbrev main_v245 : Ref sig .tc := ⟨.hbm, 345, rfl⟩
abbrev main_v246 : Ref sig .tc := ⟨.hbm, 346, rfl⟩
abbrev main_v247 : Ref sig .tc := ⟨.hbm, 347, rfl⟩
abbrev main_v248 : Ref sig .tc := ⟨.hbm, 348, rfl⟩
abbrev main_cst_61 : Ref sig .tc := ⟨.hbm, 349, rfl⟩
abbrev main_v249 : Ref sig .tc := ⟨.hbm, 350, rfl⟩
abbrev main_v250 : Ref sig .tc := ⟨.hbm, 351, rfl⟩
abbrev main_v251 : Ref sig .tc := ⟨.hbm, 352, rfl⟩
abbrev main_v252 : Ref sig .tc := ⟨.hbm, 353, rfl⟩
abbrev main_v253 : Ref sig .tc := ⟨.hbm, 354, rfl⟩
abbrev main_v254 : Ref sig .tc := ⟨.hbm, 355, rfl⟩
abbrev main_c_62 : Ref sig .tc := ⟨.hbm, 356, rfl⟩
abbrev main_v255 : Ref sig .tc := ⟨.hbm, 357, rfl⟩
abbrev main_v256 : Ref sig .tc := ⟨.hbm, 358, rfl⟩
abbrev main_c_63 : Ref sig .tc := ⟨.hbm, 359, rfl⟩
abbrev main_v257 : Ref sig .tc := ⟨.hbm, 360, rfl⟩
abbrev main_v258 : Ref sig .tc := ⟨.hbm, 361, rfl⟩
abbrev main_v259 : Ref sig .tc := ⟨.hbm, 362, rfl⟩
abbrev main_v260 : Ref sig .tc := ⟨.hbm, 363, rfl⟩
abbrev main_v261 : Ref sig .tc := ⟨.hbm, 364, rfl⟩
abbrev main_cst_64 : Ref sig .tc := ⟨.hbm, 365, rfl⟩
abbrev main_v262 : Ref sig .tc := ⟨.hbm, 366, rfl⟩
abbrev main_v263 : Ref sig .tc := ⟨.hbm, 367, rfl⟩
abbrev main_v264 : Ref sig .tc := ⟨.hbm, 368, rfl⟩
abbrev main_v265 : Ref sig .tc := ⟨.hbm, 369, rfl⟩
abbrev main_v266 : Ref sig .tc := ⟨.hbm, 370, rfl⟩
abbrev main_v267 : Ref sig .tc := ⟨.hbm, 371, rfl⟩
abbrev main_v268 : Ref sig .tc := ⟨.hbm, 372, rfl⟩
abbrev main_v269 : Ref sig .tc := ⟨.hbm, 373, rfl⟩
abbrev main_v270 : Ref sig .tc := ⟨.hbm, 374, rfl⟩
abbrev main_cst_65 : Ref sig .tc := ⟨.hbm, 375, rfl⟩
abbrev main_v271 : Ref sig .tc := ⟨.hbm, 376, rfl⟩
abbrev main_v272 : Ref sig .tc := ⟨.hbm, 377, rfl⟩
abbrev main_cst_66 : Ref sig .tc := ⟨.hbm, 378, rfl⟩
abbrev main_v273 : Ref sig .tc := ⟨.hbm, 379, rfl⟩
abbrev main_v274 : Ref sig .tc := ⟨.hbm, 380, rfl⟩
abbrev main_v275 : Ref sig .tc := ⟨.hbm, 381, rfl⟩
abbrev main_v276 : Ref sig .tc := ⟨.hbm, 382, rfl⟩
abbrev main_v277 : Ref sig .tc := ⟨.hbm, 383, rfl⟩
abbrev main_cst_67 : Ref sig .tc := ⟨.hbm, 384, rfl⟩
abbrev main_v278 : Ref sig .tc := ⟨.hbm, 385, rfl⟩
abbrev main_v279 : Ref sig .tc := ⟨.hbm, 386, rfl⟩
abbrev main_cst_68 : Ref sig .tc := ⟨.hbm, 387, rfl⟩
abbrev main_v280 : Ref sig .tc := ⟨.hbm, 388, rfl⟩
abbrev main_v281 : Ref sig .tc := ⟨.hbm, 389, rfl⟩
abbrev main_v282 : Ref sig .tc := ⟨.hbm, 390, rfl⟩
abbrev main_v283 : Ref sig .tc := ⟨.hbm, 391, rfl⟩
abbrev main_cst_69 : Ref sig .tc := ⟨.hbm, 392, rfl⟩
abbrev main_v284 : Ref sig .tc := ⟨.hbm, 393, rfl⟩
abbrev main_v285 : Ref sig .tc := ⟨.hbm, 394, rfl⟩
abbrev main_v286 : Ref sig .tc := ⟨.hbm, 395, rfl⟩
abbrev main_v287 : Ref sig .tc := ⟨.hbm, 396, rfl⟩
abbrev main_v288 : Ref sig .tc := ⟨.hbm, 397, rfl⟩
abbrev main_v289 : Ref sig .tc := ⟨.hbm, 398, rfl⟩
abbrev main_v290 : Ref sig .tc := ⟨.hbm, 399, rfl⟩
abbrev main_v291 : Ref sig .tc := ⟨.hbm, 400, rfl⟩
abbrev main_v292 : Ref sig .tc := ⟨.hbm, 401, rfl⟩
abbrev main_v293 : Ref sig .tc := ⟨.hbm, 402, rfl⟩
abbrev main_v294 : Ref sig .tc := ⟨.hbm, 403, rfl⟩
abbrev main_call9_cst : Ref sig .tc := ⟨.hbm, 404, rfl⟩
abbrev main_call9_v0 : Ref sig .tc := ⟨.hbm, 405, rfl⟩
abbrev main_v295 : Ref sig .tc := ⟨.hbm, 406, rfl⟩
abbrev main_v296 : Ref sig .tc := ⟨.hbm, 407, rfl⟩
abbrev main_cst_70 : Ref sig .tc := ⟨.hbm, 408, rfl⟩
abbrev main_v297 : Ref sig .tc := ⟨.hbm, 409, rfl⟩
abbrev main_v298 : Ref sig .tc := ⟨.hbm, 410, rfl⟩
abbrev main_v299 : Ref sig .tc := ⟨.hbm, 411, rfl⟩
abbrev main_v300 : Ref sig .tc := ⟨.hbm, 412, rfl⟩
abbrev main_v301 : Ref sig .tc := ⟨.hbm, 413, rfl⟩
abbrev main_v302 : Ref sig .tc := ⟨.hbm, 414, rfl⟩
abbrev main_call10_cst : Ref sig .tc := ⟨.hbm, 415, rfl⟩
abbrev main_call10_v0 : Ref sig .tc := ⟨.hbm, 416, rfl⟩
abbrev main_v303 : Ref sig .tc := ⟨.hbm, 417, rfl⟩
abbrev main_v304 : Ref sig .tc := ⟨.hbm, 418, rfl⟩
abbrev main_v305 : Ref sig .tc := ⟨.hbm, 419, rfl⟩
abbrev main_v306 : Ref sig .tc := ⟨.hbm, 420, rfl⟩
abbrev main_v307 : Ref sig .tc := ⟨.hbm, 421, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S2x1500000_S1x1500000_0_0 : S2x1500000.Slices ![0, 0] S1x1500000
  shapeCasts_S1x1500000_S1500000 : S1x1500000.ShapeCasts S1500000
  slices_S2x1500000_S1x1500000_1_0 : S2x1500000.Slices ![1, 0] S1x1500000
  bcast_S_S1500000 : S_.BroadcastsInDim S1500000 (![] : Fin 0 → Fin S1500000.rank)
  bcast_S1500000_S1500000x1_0 : S1500000.BroadcastsInDim S1500000x1 (![0] : Fin 1 → Fin S1500000x1.rank)
  dot_S100000x512_S512x128_S100000x128_1_0_0_1_n_n_wf : DotDims.WF S100000x512 S512x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S100000_S1500000x1_S1500000_n_0_0_1_wf : ScatterDims.WF S100000 S1500000x1 S1500000 [] [0] [0] 1
  gather_S100000x128_S1500000x1_S1500000x128_1_0_n_n_0_1_1128_wf : GatherDims.WF S100000x128 S1500000x1 S1500000x128 [1] [0] [] [0] [] 1 ![1, 128]
  scatter_S100000x128_S1500000x1_S1500000x128_1_0_0_1_wf : ScatterDims.WF S100000x128 S1500000x1 S1500000x128 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1500000x1_S1500000_n_0_0_1 : ScatterDims S100000 S1500000x1 S1500000 where
  updateWindowDims := []
  insertedWindowDims := [0]
  scatterDimsToOperandDims := [0]
  indexVectorDim := 1
  wf := scatter_S100000_S1500000x1_S1500000_n_0_0_1_wf
def gather_S100000x128_S1500000x1_S1500000x128_1_0_n_n_0_1_1128 : GatherDims S100000x128 S1500000x1 S1500000x128 where
  offsetDims := [1]
  collapsedSliceDims := [0]
  operandBatchingDims := []
  startIndicesBatchingDims := []
  startIndexMap := [0]
  indexVectorDim := 1
  sliceSizes := ![1, 128]
  wf := gather_S100000x128_S1500000x1_S1500000x128_1_0_n_n_0_1_1128_wf
def scatter_S100000x128_S1500000x1_S1500000x128_1_0_0_1 : ScatterDims S100000x128 S1500000x1 S1500000x128 where
  updateWindowDims := [1]
  insertedWindowDims := [0]
  scatterDimsToOperandDims := [0]
  indexVectorDim := 1
  wf := scatter_S100000x128_S1500000x1_S1500000x128_1_0_0_1_wf

class Facts : Prop extends Facts₀ where

variable [Facts]
-- ==== Proof.RefRunOut.lean ====
/-
  The reference's result, evaluated along its operation list: from any contents `V` the result buffer ends at the last stage
  of the reference read one operation at a time, at the argument buffers' contents (every stage is by definition its operation
  applied to the stages of its operands, so the evaluation of the list and the stage are the same term).
-/
import proofs.«138258_j55997783605349_2_alg».proof.Proof.RefOps
import proofs.«138258_j55997783605349_2_alg».proof.Proof.RefRead

set_option maxRecDepth 16384

noncomputable section

namespace Cert.RefRun

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

set_option maxHeartbeats 400000000 in
theorem out_eq (V : Valuation τ sig (Elt F)) :
    StableHlo.after (ops (F := F)) V (Proc.devRef .tc main_v307)
      = val_main_v307 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) := by
  after_results_simp <;> rfl

end Cert.RefRun

end
-- ==== Proof.RefRunArgsA.lean ====
/-
  No operation of the reference writes an argument buffer: each keeps its contents through the whole list.
-/
import proofs.«138258_j55997783605349_2_alg».proof.Proof.RefOps

set_option maxRecDepth 16384

noncomputable section

namespace Cert.RefRun

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

set_option maxHeartbeats 40000000 in
theorem keep_arg0 (V : Valuation τ sig (Elt F)) : StableHlo.after (ops (F := F)) V (Proc.devRef .tc main_arg0) = V (Proc.devRef .tc main_arg0) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 40000000 in
theorem keep_arg1 (V : Valuation τ sig (Elt F)) : StableHlo.after (ops (F := F)) V (Proc.devRef .tc main_arg1) = V (Proc.devRef .tc main_arg1) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 40000000 in
theorem keep_arg2 (V : Valuation τ sig (Elt F)) : StableHlo.after (ops (F := F)) V (Proc.devRef .tc main_arg2) = V (Proc.devRef .tc main_arg2) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 40000000 in
theorem keep_arg3 (V : Valuation τ sig (Elt F)) : StableHlo.after (ops (F := F)) V (Proc.devRef .tc main_arg3) = V (Proc.devRef .tc main_arg3) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 40000000 in
theorem keep_arg4 (V : Valuation τ sig (Elt F)) : StableHlo.after (ops (F := F)) V (Proc.devRef .tc main_arg4) = V (Proc.devRef .tc main_arg4) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 40000000 in
theorem keep_arg5 (V : Valuation τ sig (Elt F)) : StableHlo.after (ops (F := F)) V (Proc.devRef .tc main_arg5) = V (Proc.devRef .tc main_arg5) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 40000000 in
theorem keep_arg6 (V : Valuation τ sig (Elt F)) : StableHlo.after (ops (F := F)) V (Proc.devRef .tc main_arg6) = V (Proc.devRef .tc main_arg6) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.RefRun

end
-- ==== Proof.RefRunArgsB.lean ====
/-
  No operation of the reference writes an argument buffer: each keeps its contents through the whole list.
-/
import proofs.«138258_j55997783605349_2_alg».proof.Proof.RefOps

set_option maxRecDepth 16384

noncomputable section

namespace Cert.RefRun

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

set_option maxHeartbeats 40000000 in
theorem keep_arg7 (V : Valuation τ sig (Elt F)) : StableHlo.after (ops (F := F)) V (Proc.devRef .tc main_arg7) = V (Proc.devRef .tc main_arg7) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 40000000 in
theorem keep_arg8 (V : Valuation τ sig (Elt F)) : StableHlo.after (ops (F := F)) V (Proc.devRef .tc main_arg8) = V (Proc.devRef .tc main_arg8) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 40000000 in
theorem keep_arg9 (V : Valuation τ sig (Elt F)) : StableHlo.after (ops (F := F)) V (Proc.devRef .tc main_arg9) = V (Proc.devRef .tc main_arg9) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 40000000 in
theorem keep_arg10 (V : Valuation τ sig (Elt F)) : StableHlo.after (ops (F := F)) V (Proc.devRef .tc main_arg10) = V (Proc.devRef .tc main_arg10) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 40000000 in
theorem keep_arg11 (V : Valuation τ sig (Elt F)) : StableHlo.after (ops (F := F)) V (Proc.devRef .tc main_arg11) = V (Proc.devRef .tc main_arg11) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 40000000 in
theorem keep_arg12 (V : Valuation τ sig (Elt F)) : StableHlo.after (ops (F := F)) V (Proc.devRef .tc main_arg12) = V (Proc.devRef .tc main_arg12) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.RefRun

end
-- ==== Proof.RefRunArgsC.lean ====
/-
  No operation of the reference writes an argument buffer: each keeps its contents through the whole list.
-/
import proofs.«138258_j55997783605349_2_alg».proof.Proof.RefOps

set_option maxRecDepth 16384

noncomputable section

namespace Cert.RefRun

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

set_option maxHeartbeats 40000000 in
theorem keep_arg13 (V : Valuation τ sig (Elt F)) : StableHlo.after (ops (F := F)) V (Proc.devRef .tc main_arg13) = V (Proc.devRef .tc main_arg13) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 40000000 in
theorem keep_arg14 (V : Valuation τ sig (Elt F)) : StableHlo.after (ops (F := F)) V (Proc.devRef .tc main_arg14) = V (Proc.devRef .tc main_arg14) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 40000000 in
theorem keep_arg15 (V : Valuation τ sig (Elt F)) : StableHlo.after (ops (F := F)) V (Proc.devRef .tc main_arg15) = V (Proc.devRef .tc main_arg15) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 40000000 in
theorem keep_arg16 (V : Valuation τ sig (Elt F)) : StableHlo.after (ops (F := F)) V (Proc.devRef .tc main_arg16) = V (Proc.devRef .tc main_arg16) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 40000000 in
theorem keep_arg17 (V : Valuation τ sig (Elt F)) : StableHlo.after (ops (F := F)) V (Proc.devRef .tc main_arg17) = V (Proc.devRef .tc main_arg17) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

set_option maxHeartbeats 40000000 in
theorem keep_arg18 (V : Valuation τ sig (Elt F)) : StableHlo.after (ops (F := F)) V (Proc.devRef .tc main_arg18) = V (Proc.devRef .tc main_arg18) :=
  StableHlo.after_of_forall_not_mem _ _ (List.forall_iff_forall_mem.mp (by
    simp only [ops, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

end Cert.RefRun

end
-- ==== Proof.RefRun.lean ====
/-
  The reference's run, read: every weakly fair execution of the reference terminates, nothing faulting, with its result at the
  last stage of the reference (as a function of the argument arrays as launched) and the argument arrays unchanged.
-/
import proofs.«138258_j55997783605349_2_alg».proof.Proof.RefRunOut
import proofs.«138258_j55997783605349_2_alg».proof.Proof.RefRunArgsA
import proofs.«138258_j55997783605349_2_alg».proof.Proof.RefRunArgsB
import proofs.«138258_j55997783605349_2_alg».proof.Proof.RefRunArgsC

set_option maxRecDepth 16384

noncomputable section

namespace Cert.RefRun

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

set_option maxHeartbeats 4000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v307) = val_main_v307 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c main_v307).trans (out_eq (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c)),
      (h c main_arg8).trans (keep_arg8 (launchContents m c)),
      (h c main_arg9).trans (keep_arg9 (launchContents m c)),
      (h c main_arg10).trans (keep_arg10 (launchContents m c)),
      (h c main_arg11).trans (keep_arg11 (launchContents m c)),
      (h c main_arg12).trans (keep_arg12 (launchContents m c)),
      (h c main_arg13).trans (keep_arg13 (launchContents m c)),
      (h c main_arg14).trans (keep_arg14 (launchContents m c)),
      (h c main_arg15).trans (keep_arg15 (launchContents m c)),
      (h c main_arg16).trans (keep_arg16 (launchContents m c)),
      (h c main_arg17).trans (keep_arg17 (launchContents m c)),
      (h c main_arg18).trans (keep_arg18 (launchContents m c))⟩)
    (run_seq scopedRefs_eq scopedSems_eq defs main (fun _ => ops) main_eq (fun _ => ops_sub) m ρ)

end Cert.RefRun

end
-- ==== Proof.Spec.lean ====
/-
  The specification both programs are compared with: every stage of the network as ONE function of whole arrays,
  index by index over the extended reals.

  A node array has 100000 rows of 128 features. `mm512` / `mm128` are the matrix products (a row of the left factor
  against a column of the weights), `rowScale` multiplies row r by a per-node scalar c r, `addRow` adds a bias to every
  row, `lnRelu` is the layer normalisation of each row (mean and variance over its 128 features, the variance floored by
  the shared literal eps) followed by the affine map and max(·, 0), `relu` is max(·, 0) and `halfSum` the mean of two
  arrays. The three aggregations are written with the host gather / accumulating scatter themselves, over the index
  arrays the reference derives from the edge lists (their stages are functions of the edge lists alone):
  `gatherSum` sums the rows gathered at the edges' sources into the edges' targets; `normSum` does the same with every
  gathered row first multiplied by the edge's coefficient dinv(source) · dinv(target); `hyperSum` is the two-hop
  hypergraph aggregation (nodes → hyperedges, scaled by 1/B; hyperedges → nodes, scaled by 1/D).
-/
import proofs.«138258_j55997783605349_2_alg».proof.Proof.RefRead

noncomputable section

open scoped BigOperators

namespace Cert.Spec

open Idealize.ShloMosaic Idealize.ShloMosaic.ValueIdx Cert.ReferenceIdeal Cert.ReferenceIdeal.Read

abbrev Mat := (⟨S100000x128, .f32⟩ : BufTy).Contents (Elt Ideal)
abbrev Row := (⟨S128, .f32⟩ : BufTy).Contents (Elt Ideal)
abbrev NodeVec := (⟨S100000, .f32⟩ : BufTy).Contents (Elt Ideal)
abbrev Edges := (⟨S2x1600000, .i32⟩ : BufTy).Contents (Elt Ideal)
abbrev HEdges := (⟨S2x1500000, .i32⟩ : BufTy).Contents (Elt Ideal)

/-- Rows of `a` (512 features) against the columns of `w`. -/
def mm512 (a : (⟨S100000x512, .f32⟩ : BufTy).Contents (Elt Ideal)) (w : (⟨S512x128, .f32⟩ : BufTy).Contents (Elt Ideal)) : Mat :=
  fun i => ∑ k : Fin 512, a (ix2 (i 0) k) * w (ix2 k (i 1))

/-- Rows of `a` (128 features) against the columns of `w`. -/
def mm128 (a : Mat) (w : (⟨S128x128, .f32⟩ : BufTy).Contents (Elt Ideal)) : Mat :=
  fun i => ∑ k : Fin 128, a (ix2 (i 0) k) * w (ix2 k (i 1))

/-- Row r multiplied by the scalar `c r`. -/
def rowScale (a : Mat) (c : NodeVec) : Mat := fun i => a i * c (ix1 (i 0))

/-- A bias added to every row. -/
def addRow (a : Mat) (b : Row) : Mat := fun i => a i + b (ix1 (i 1))

/-- The mean of row r: its sum divided by the literal 128. -/
def rowMean (a : Mat) (r : Fin 100000) : EReal :=
  Ideal.div (∑ k : Fin 128, a (ix2 r k)) (Ideal.ofBits .f32 0x43000000#32)

/-- The mean of the squared deviations of row r from its mean. -/
def rowVar (a : Mat) (r : Fin 100000) : EReal :=
  Ideal.div (∑ k : Fin 128, (a (ix2 r k) - rowMean a r) * (a (ix2 r k) - rowMean a r)) (Ideal.ofBits .f32 0x43000000#32)

/-- Layer normalisation of each row, the affine map (w, b), then max(·, 0). -/
def lnRelu (a : Mat) (w b : Row) : Mat := fun i =>
  max ((a i - rowMean a (i 0)) * Ideal.rsqrt (rowVar a (i 0) + Ideal.ofBits .f32 0x3727C5AC#32) * w (ix1 (i 1)) + b (ix1 (i 1)))
    (Ideal.ofBits .f32 0x00000000#32)

def relu (a : Mat) : Mat := fun i => max (a i) (Ideal.ofBits .f32 0x00000000#32)

def halfSum (a b : Mat) : Mat := fun i => (a i + b i) * Ideal.ofBits .f32 0x3F000000#32

/-- The per-node coefficient deg^(-1/2) (0 where the degree is not positive), a function of the edge list. -/
def dinv (x1 : Edges) : NodeVec := val_main_v15 (F := Ideal) x1

/-- Rows gathered at the edges' sources, summed into the edges' targets. -/
def gatherSum (g : Mat) (x1 : Edges) : Mat :=
  Host.scatterAdd (F := Ideal) (φ := .f32) scatter_S100000x128_S1700000x1_S1700000x128_1_0_0_1 (val_main_v41 (F := Ideal)) (val_main_v42 (F := Ideal) x1)
    (Host.gather (α := EReal) gather_S100000x128_S1700000x1_S1700000x128_1_0_n_n_0_1_1128 g (val_main_v36 (F := Ideal) x1))

/-- The same with each gathered row multiplied by its edge's coefficient dinv(source) · dinv(target). -/
def normSum (h : Mat) (x1 : Edges) : Mat :=
  Host.scatterAdd (F := Ideal) (φ := .f32) scatter_S100000x128_S1700000x1_S1700000x128_1_0_0_1 (val_main_v41 (F := Ideal)) (val_main_v42 (F := Ideal) x1)
    (mulf (F := Ideal) (φ := .f32) (Host.gather (α := EReal) gather_S100000x128_S1700000x1_S1700000x128_1_0_n_n_0_1_1128 h (val_main_v36 (F := Ideal) x1)) (val_main_v39 (F := Ideal) x1))

/-- The two-hop hypergraph aggregation: nodes → hyperedges (scaled by 1/B), hyperedges → nodes (scaled by 1/D). -/
def hyperSum (h : Mat) (x2 : HEdges) : Mat :=
  mulf (F := Ideal) (φ := .f32) (Host.scatterAdd (F := Ideal) (φ := .f32) scatter_S100000x128_S1500000x1_S1500000x128_1_0_0_1 (val_main_v186 (F := Ideal)) (val_main_v187 (F := Ideal) x2)
    (Host.gather (α := EReal) gather_S100000x128_S1500000x1_S1500000x128_1_0_n_n_0_1_1128
      (mulf (F := Ideal) (φ := .f32) (Host.scatterAdd (F := Ideal) (φ := .f32) scatter_S100000x128_S1500000x1_S1500000x128_1_0_0_1 (val_main_v173 (F := Ideal)) (val_main_v174 (F := Ideal) x2)
        (Host.gather (α := EReal) gather_S100000x128_S1500000x1_S1500000x128_1_0_n_n_0_1_1128 h (val_main_v171 (F := Ideal) x2))) (val_main_v177 (F := Ideal) x2))
      (val_main_v184 (F := Ideal) x2))) (val_main_v190 (F := Ideal) x2)

/-- The projection head on the two branches' outputs. -/
def head (g h : Mat) (wp1 : (⟨S128x128, .f32⟩ : BufTy).Contents (Elt Ideal)) (bp1 : Row)
    (wp2 : (⟨S128x128, .f32⟩ : BufTy).Contents (Elt Ideal)) (bp2 : Row) : Mat :=
  addRow (mm128 (relu (addRow (mm128 (halfSum g h) wp1) bp1)) wp2) bp2

/-- The reference network: the graph branch with the per-edge coefficients inside the sum. -/
def refNet (x0 : (⟨S100000x512, .f32⟩ : BufTy).Contents (Elt Ideal)) (x1 : Edges) (x2 : HEdges)
    (x3 : (⟨S512x128, .f32⟩ : BufTy).Contents (Elt Ideal)) (x4 : Row) (x5 : (⟨S128x128, .f32⟩ : BufTy).Contents (Elt Ideal)) (x6 : Row)
    (x7 : (⟨S512x128, .f32⟩ : BufTy).Contents (Elt Ideal)) (x8 : Row) (x9 : (⟨S128x128, .f32⟩ : BufTy).Contents (Elt Ideal))
    (x10 x11 x12 x13 x14 : Row) (x15 : (⟨S128x128, .f32⟩ : BufTy).Contents (Elt Ideal)) (x16 : Row)
    (x17 : (⟨S128x128, .f32⟩ : BufTy).Contents (Elt Ideal)) (x18 : Row) : Mat :=
  head
    (lnRelu (addRow (normSum (mm128 (lnRelu (addRow (normSum (mm512 x0 x3) x1) x4) x11 x12) x5) x1) x6) x11 x12)
    (lnRelu (addRow (hyperSum (mm128 (lnRelu (addRow (hyperSum (mm512 x0 x7) x2) x8) x13 x14) x9) x2) x10) x13 x14)
    x15 x16 x17 x18

/-- The kernel's network: the graph branch with the rows scaled by dinv before the gather and after the sum. -/
def kerNet (x0 : (⟨S100000x512, .f32⟩ : BufTy).Contents (Elt Ideal)) (x1 : Edges) (x2 : HEdges)
    (x3 : (⟨S512x128, .f32⟩ : BufTy).Contents (Elt Ideal)) (x4 : Row) (x5 : (⟨S128x128, .f32⟩ : BufTy).Contents (Elt Ideal)) (x6 : Row)
    (x7 : (⟨S512x128, .f32⟩ : BufTy).Contents (Elt Ideal)) (x8 : Row) (x9 : (⟨S128x128, .f32⟩ : BufTy).Contents (Elt Ideal))
    (x10 x11 x12 x13 x14 : Row) (x15 : (⟨S128x128, .f32⟩ : BufTy).Contents (Elt Ideal)) (x16 : Row)
    (x17 : (⟨S128x128, .f32⟩ : BufTy).Contents (Elt Ideal)) (x18 : Row) : Mat :=
  head
    (lnRelu (addRow (rowScale (gatherSum (rowScale (mm128 (lnRelu (addRow (rowScale (gatherSum (rowScale (mm512 x0 x3) (dinv x1)) x1) (dinv x1)) x4) x11 x12) x5) (dinv x1)) x1) (dinv x1)) x6) x11 x12)
    (lnRelu (addRow (hyperSum (mm128 (lnRelu (addRow (hyperSum (mm512 x0 x7) x2) x8) x13 x14) x9) x2) x10) x13 x14)
    x15 x16 x17 x18

end Cert.Spec

end
-- ==== Proof.RefIsSpec.lean ====
/-
  The reference program computes the specification's network `Cert.Spec.refNet`: each stage of the reference is the
  whole-array function of the specification applied to the stages before it (a matrix product, an aggregation over the
  edge lists, a bias added to every row, a layer normalisation followed by max(·, 0), the projection head), and the last
  stage is the network.
-/
import proofs.«138258_j55997783605349_2_alg».proof.Proof.Spec

noncomputable section

open scoped BigOperators

namespace Cert.RefSpec

open Idealize.ShloMosaic Idealize.ShloMosaic.ValueIdx Cert.ReferenceIdeal Cert.ReferenceIdeal.Read Cert.Spec

/-! ## The stages as functions of an arbitrary array -/

/-- The product of a 512-feature array with a weight matrix, entry by entry: row (i 0) against column (i 1). -/
theorem dot512_eq (a : (⟨S100000x512, .f32⟩ : BufTy).Contents (Elt Ideal)) (w : (⟨S512x128, .f32⟩ : BufTy).Contents (Elt Ideal)) :
    val_main_v0 (F := Ideal) a w = mm512 a w := by
  funext i
  rw [val_main_v0_apply]
  show _ = ∑ k : Fin 512, a (ix2 (i 0) k) * w (ix2 k (i 1))
  refine Finset.sum_congr rfl fun k _ => ?_
  rw [show lidx_main_v0 i k = ix2 (i 0) k from funext fun d => Fin.ext (by match d with | ⟨0, _⟩ => rfl | ⟨1, _⟩ => rfl),
    show ridx_main_v0 i k = ix2 k (i 1) from funext fun d => Fin.ext (by match d with | ⟨0, _⟩ => rfl | ⟨1, _⟩ => rfl)]
  rfl

/-- The product of a 128-feature array with a weight matrix, entry by entry: row (i 0) against column (i 1). -/
theorem dot128_eq (a : (⟨S100000x128, .f32⟩ : BufTy).Contents (Elt Ideal)) (w : (⟨S128x128, .f32⟩ : BufTy).Contents (Elt Ideal)) :
    Host.dotGeneral (F := Ideal) (φ₁ := .f32) (φ₂ := .f32) dot_S100000x128_S128x128_S100000x128_1_0_0_1_n_n none a w = mm128 a w := by
  funext i
  simp only [Host.dotGeneral]
  rw [Ideal.dotGeneral_apply, ← Equiv.sum_comp (ValueIdx.contrEquiv1 dot_S100000x128_S128x128_S100000x128_1_0_0_1_n_n 128 rfl rfl).symm]
  show _ = ∑ k : Fin 128, a (ix2 (i 0) k) * w (ix2 k (i 1))
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = ix2 (i 0) k := funext fun d => Fin.ext (by
    match d with
    | ⟨0, _⟩ => exact lhs_main_v72_0 _ _
    | ⟨1, _⟩ => exact (lhs_main_v72_1 _ _).trans hk)
  have er : dot_S100000x128_S128x128_S100000x128_1_0_0_1_n_n.rhsIdx i ((ValueIdx.contrEquiv1 dot_S100000x128_S128x128_S100000x128_1_0_0_1_n_n 128 rfl rfl).symm k) = ix2 k (i 1) := funext fun d => Fin.ext (by
    match d with
    | ⟨0, _⟩ => exact (rhs_main_v72_0 _ _).trans hk
    | ⟨1, _⟩ => exact rhs_main_v72_1 _ _)
  rw [el, er]
  rfl

/-- A bias vector, spread over the rows and added: entry i gets b at the column (i 1). -/
theorem addBias_eq (a : (⟨S100000x128, .f32⟩ : BufTy).Contents (Elt Ideal)) (b : (⟨S128, .f32⟩ : BufTy).Contents (Elt Ideal)) :
    addf (F := Ideal) (φ := .f32) a (val_main_v45 (F := Ideal) b) = addRow a b := by
  funext i
  show FloatOps.addf (F := Ideal) (φ := .f32) (a i) (val_main_v45 (F := Ideal) b i) = a i + b (ix1 (i 1))
  rw [val_main_v45_apply, val_main_v44_apply,
    show idx_main_v44 (idx_main_v45 i) = ix1 (i 1) from funext fun d => Fin.ext (by match d with | ⟨0, _⟩ => rfl)]
  rfl

/-- The maximum with the zero array is max(·, 0) entry by entry. -/
theorem relu_eq (a : (⟨S100000x128, .f32⟩ : BufTy).Contents (Elt Ideal)) :
    maximumf (F := Ideal) (φ := .f32) a (val_main_call10_v0 (F := Ideal)) = Cert.Spec.relu a := by
  funext i
  show FloatOps.maximumf (F := Ideal) (φ := .f32) (a i) (val_main_call10_v0 (F := Ideal) i) = max (a i) (Ideal.ofBits .f32 0x00000000#32)
  rw [val_main_call10_v0_apply, val_main_call10_cst_apply]
  rfl

/-- The sum of two arrays times the literal one half is their mean. -/
theorem halfSum_eq (g h : (⟨S100000x128, .f32⟩ : BufTy).Contents (Elt Ideal)) :
    mulf (F := Ideal) (φ := .f32) (addf (F := Ideal) (φ := .f32) g h) (val_main_v297 (F := Ideal)) = halfSum g h := by
  funext i
  show FloatOps.mulf (F := Ideal) (φ := .f32) (FloatOps.addf (F := Ideal) (φ := .f32) (g i) (h i)) (val_main_v297 (F := Ideal) i) = (g i + h i) * Ideal.ofBits .f32 0x3F000000#32
  rw [val_main_v297_apply, val_main_cst_70_apply]
  rfl

/-! ## The graph branch -/

/-- The first aggregation: the gathered rows times the edge coefficients, summed into the targets. -/
theorem v43_eq (x0 : (⟨S100000x512, .f32⟩ : BufTy).Contents (Elt Ideal)) (x1 : (⟨S2x1600000, .i32⟩ : BufTy).Contents (Elt Ideal)) (x3 : (⟨S512x128, .f32⟩ : BufTy).Contents (Elt Ideal)) :
    val_main_v43 (F := Ideal) x0 x1 x3 = normSum (val_main_v0 (F := Ideal) x0 x3) x1 := rfl

theorem v46_eq (x0 : (⟨S100000x512, .f32⟩ : BufTy).Contents (Elt Ideal)) (x1 : (⟨S2x1600000, .i32⟩ : BufTy).Contents (Elt Ideal)) (x3 : (⟨S512x128, .f32⟩ : BufTy).Contents (Elt Ideal)) (x4 : (⟨S128, .f32⟩ : BufTy).Contents (Elt Ideal)) :
    val_main_v46 (F := Ideal) x0 x1 x3 x4 = addRow (normSum (val_main_v0 (F := Ideal) x0 x3) x1) x4 := by
  rw [← v43_eq]
  exact addBias_eq (val_main_v43 (F := Ideal) x0 x1 x3) x4

/-- The mean of a row of stage 46, spread over the row (the copy subtracted before squaring). -/
theorem v71_mean (x0 : (⟨S100000x512, .f32⟩ : BufTy).Contents (Elt Ideal)) (x1 : (⟨S2x1600000, .i32⟩ : BufTy).Contents (Elt Ideal)) (x3 : (⟨S512x128, .f32⟩ : BufTy).Contents (Elt Ideal)) (x4 : (⟨S128, .f32⟩ : BufTy).Contents (Elt Ideal)) (m : S100000x128.Idx) :
    val_main_v51 (F := Ideal) x0 x1 x3 x4 m = rowMean (val_main_v46 (F := Ideal) x0 x1 x3 x4) (m 0) := by
  rw [val_main_v51_apply, val_main_v50_apply, val_main_v48_apply, val_main_v47_apply, val_main_v49_apply, val_main_cst_10_apply, val_main_cst_9_apply]
  generalize val_main_v46 (F := Ideal) x0 x1 x3 x4 = A
  simp only [Ideal.hostDivf_def, Ideal.ofBits_def, Ideal.ofBits_zero_f32, zero_add]
  unfold rowMean
  refine congrArg (fun s : EReal => Ideal.div s _) (Finset.sum_congr rfl fun k _ => congrArg A ?_)
  exact funext fun d => Fin.ext (by match d with | ⟨0, _⟩ => rfl | ⟨1, _⟩ => rfl)

/-- The same mean (the copy subtracted before the scaling). -/
theorem v71_mean' (x0 : (⟨S100000x512, .f32⟩ : BufTy).Contents (Elt Ideal)) (x1 : (⟨S2x1600000, .i32⟩ : BufTy).Contents (Elt Ideal)) (x3 : (⟨S512x128, .f32⟩ : BufTy).Contents (Elt Ideal)) (x4 : (⟨S128, .f32⟩ : BufTy).Contents (Elt Ideal)) (m : S100000x128.Idx) :
    val_main_v58 (F := Ideal) x0 x1 x3 x4 m = rowMean (val_main_v46 (F := Ideal) x0 x1 x3 x4) (m 0) := by
  rw [val_main_v58_apply, val_main_v50_apply, val_main_v48_apply, val_main_v47_apply, val_main_v49_apply, val_main_cst_10_apply, val_main_cst_9_apply]
  generalize val_main_v46 (F := Ideal) x0 x1 x3 x4 = A
  simp only [Ideal.hostDivf_def, Ideal.ofBits_def, Ideal.ofBits_zero_f32, zero_add]
  unfold rowMean
  refine congrArg (fun s : EReal => Ideal.div s _) (Finset.sum_congr rfl fun k _ => congrArg A ?_)
  exact funext fun d => Fin.ext (by match d with | ⟨0, _⟩ => rfl | ⟨1, _⟩ => rfl)

/-- The squared deviation of an entry of stage 46 from its row's mean. -/
theorem v71_sq (x0 : (⟨S100000x512, .f32⟩ : BufTy).Contents (Elt Ideal)) (x1 : (⟨S2x1600000, .i32⟩ : BufTy).Contents (Elt Ideal)) (x3 : (⟨S512x128, .f32⟩ : BufTy).Contents (Elt Ideal)) (x4 : (⟨S128, .f32⟩ : BufTy).Contents (Elt Ideal)) (m : S100000x128.Idx) :
    val_main_v53 (F := Ideal) x0 x1 x3 x4 m = (val_main_v46 (F := Ideal) x0 x1 x3 x4 m - rowMean (val_main_v46 (F := Ideal) x0 x1 x3 x4) (m 0)) * (val_main_v46 (F := Ideal) x0 x1 x3 x4 m - rowMean (val_main_v46 (F := Ideal) x0 x1 x3 x4) (m 0)) := by
  rw [val_main_v53_apply, val_main_v52_apply, v71_mean]
  generalize val_main_v46 (F := Ideal) x0 x1 x3 x4 = A
  rfl

/-- The reciprocal square root of a row's variance floored by eps, spread over the row. -/
theorem v71_rstd (x0 : (⟨S100000x512, .f32⟩ : BufTy).Contents (Elt Ideal)) (x1 : (⟨S2x1600000, .i32⟩ : BufTy).Contents (Elt Ideal)) (x3 : (⟨S512x128, .f32⟩ : BufTy).Contents (Elt Ideal)) (x4 : (⟨S128, .f32⟩ : BufTy).Contents (Elt Ideal)) (m : S100000x128.Idx) :
    val_main_v63 (F := Ideal) x0 x1 x3 x4 m = Ideal.rsqrt (rowVar (val_main_v46 (F := Ideal) x0 x1 x3 x4) (m 0) + Ideal.ofBits .f32 0x3727C5AC#32) := by
  rw [val_main_v63_apply, val_main_v62_apply, val_main_v61_apply, val_main_v60_apply, val_main_cst_13_apply, val_main_v57_apply, val_main_v55_apply, val_main_v54_apply, val_main_v56_apply, val_main_cst_12_apply, val_main_cst_11_apply,
    Finset.sum_congr (s₁ := Finset.univ) rfl fun k _ => v71_sq x0 x1 x3 x4 (idx_main_v54 (idx_main_v55 (idx_main_v63 m)) k)]
  generalize val_main_v46 (F := Ideal) x0 x1 x3 x4 = A
  simp only [Ideal.hostUnary_rsqrt_def, Ideal.addf_def, Ideal.hostDivf_def, Ideal.ofBits_def, Ideal.ofBits_zero_f32, zero_add]
  unfold rowVar
  refine congrArg Ideal.rsqrt (congrArg (fun s : EReal => s + _) (congrArg (fun s : EReal => Ideal.div s _)
    (Finset.sum_congr rfl fun k _ => ?_)))
  rw [show idx_main_v54 (idx_main_v55 (idx_main_v63 m)) k = ix2 (m 0) k from funext fun d => Fin.ext (by match d with | ⟨0, _⟩ => rfl | ⟨1, _⟩ => rfl)]
  rfl

/-- Layer normalisation of the rows of stage 46 (mean and variance over the 128 features, the variance floored by eps),
    the affine map and max(·, 0). -/
theorem v71_eq (x0 : (⟨S100000x512, .f32⟩ : BufTy).Contents (Elt Ideal)) (x1 : (⟨S2x1600000, .i32⟩ : BufTy).Contents (Elt Ideal)) (x3 : (⟨S512x128, .f32⟩ : BufTy).Contents (Elt Ideal)) (x4 : (⟨S128, .f32⟩ : BufTy).Contents (Elt Ideal)) (x11 : (⟨S128, .f32⟩ : BufTy).Contents (Elt Ideal)) (x12 : (⟨S128, .f32⟩ : BufTy).Contents (Elt Ideal)) :
    val_main_v71 (F := Ideal) x0 x1 x3 x4 x11 x12 = lnRelu (val_main_v46 (F := Ideal) x0 x1 x3 x4) x11 x12 := by
  funext i
  rw [val_main_v71_apply, val_main_v70_apply, val_main_v69_apply, val_main_v68_apply, val_main_v67_apply, val_main_v66_apply, val_main_v65_apply, val_main_v64_apply, val_main_v59_apply, v71_mean', v71_rstd,
    val_main_call1_v0_apply, val_main_call1_cst_apply,
    show idx_main_v65 (idx_main_v66 i) = ix1 (i 1) from funext fun d => Fin.ext (by match d with | ⟨0, _⟩ => rfl),
    show idx_main_v68 (idx_main_v69 i) = ix1 (i 1) from funext fun d => Fin.ext (by match d with | ⟨0, _⟩ => rfl)]
  generalize val_main_v46 (F := Ideal) x0 x1 x3 x4 = A
  rfl

theorem v72_eq (x0 : (⟨S100000x512, .f32⟩ : BufTy).Contents (Elt Ideal)) (x1 : (⟨S2x1600000, .i32⟩ : BufTy).Contents (Elt Ideal)) (x3 : (⟨S512x128, .f32⟩ : BufTy).Contents (Elt Ideal)) (x4 : (⟨S128, .f32⟩ : BufTy).Contents (Elt Ideal)) (x5 : (⟨S128x128, .f32⟩ : BufTy).Contents (Elt Ideal)) (x11 : (⟨S128, .f32⟩ : BufTy).Contents (Elt Ideal)) (x12 : (⟨S128, .f32⟩ : BufTy).Contents (Elt Ideal)) :
    val_main_v72 (F := Ideal) x0 x1 x3 x4 x5 x11 x12 = mm128 (val_main_v71 (F := Ideal) x0 x1 x3 x4 x11 x12) x5 :=
  dot128_eq (val_main_v71 (F := Ideal) x0 x1 x3 x4 x11 x12) x5

/-- The second aggregation: its index and coefficient stages are those of the first, computed again from the edge list. -/
theorem v115_eq (x0 : (⟨S100000x512, .f32⟩ : BufTy).Contents (Elt Ideal)) (x1 : (⟨S2x1600000, .i32⟩ : BufTy).Contents (Elt Ideal)) (x3 : (⟨S512x128, .f32⟩ : BufTy).Contents (Elt Ideal)) (x4 : (⟨S128, .f32⟩ : BufTy).Contents (Elt Ideal)) (x5 : (⟨S128x128, .f32⟩ : BufTy).Contents (Elt Ideal)) (x11 : (⟨S128, .f32⟩ : BufTy).Contents (Elt Ideal)) (x12 : (⟨S128, .f32⟩ : BufTy).Contents (Elt Ideal)) :
    val_main_v115 (F := Ideal) x0 x1 x3 x4 x5 x11 x12 = normSum (val_main_v72 (F := Ideal) x0 x1 x3 x4 x5 x11 x12) x1 := rfl

theorem v118_eq (x0 : (⟨S100000x512, .f32⟩ : BufTy).Contents (Elt Ideal)) (x1 : (⟨S2x1600000, .i32⟩ : BufTy).Contents (Elt Ideal)) (x3 : (⟨S512x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S128, .f32⟩ : BufTy).Contents (Elt Ideal)) (x12 : (⟨S128, .f32⟩ : BufTy).Contents (Elt Ideal)) :
    val_main_v118 (F := Ideal) x0 x1 x3 x4 x5 x6 x11 x12 = addRow (normSum (val_main_v72 (F := Ideal) x0 x1 x3 x4 x5 x11 x12) x1) x6 := by
  rw [← v115_eq]
  exact addBias_eq (val_main_v115 (F := Ideal) x0 x1 x3 x4 x5 x11 x12) x6

/-- The mean of a row of stage 118, spread over the row (the copy subtracted before squaring). -/
theorem v143_mean (x0 : (⟨S100000x512, .f32⟩ : BufTy).Contents (Elt Ideal)) (x1 : (⟨S2x1600000, .i32⟩ : BufTy).Contents (Elt Ideal)) (x3 : (⟨S512x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S128, .f32⟩ : BufTy).Contents (Elt Ideal)) (x12 : (⟨S128, .f32⟩ : BufTy).Contents (Elt Ideal)) (m : S100000x128.Idx) :
    val_main_v123 (F := Ideal) x0 x1 x3 x4 x5 x6 x11 x12 m = rowMean (val_main_v118 (F := Ideal) x0 x1 x3 x4 x5 x6 x11 x12) (m 0) := by
  rw [val_main_v123_apply, val_main_v122_apply, val_main_v120_apply, val_main_v119_apply, val_main_v121_apply, val_main_cst_26_apply, val_main_cst_25_apply]
  generalize val_main_v118 (F := Ideal) x0 x1 x3 x4 x5 x6 x11 x12 = A
  simp only [Ideal.hostDivf_def, Ideal.ofBits_def, Ideal.ofBits_zero_f32, zero_add]
  unfold rowMean
  refine congrArg (fun s : EReal => Ideal.div s _) (Finset.sum_congr rfl fun k _ => congrArg A ?_)
  exact funext fun d => Fin.ext (by match d with | ⟨0, _⟩ => rfl | ⟨1, _⟩ => rfl)

/-- The same mean (the copy subtracted before the scaling). -/
theorem v143_mean' (x0 : (⟨S100000x512, .f32⟩ : BufTy).Contents (Elt Ideal)) (x1 : (⟨S2x1600000, .i32⟩ : BufTy).Contents (Elt Ideal)) (x3 : (⟨S512x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S128, .f32⟩ : BufTy).Contents (Elt Ideal)) (x12 : (⟨S128, .f32⟩ : BufTy).Contents (Elt Ideal)) (m : S100000x128.Idx) :
    val_main_v130 (F := Ideal) x0 x1 x3 x4 x5 x6 x11 x12 m = rowMean (val_main_v118 (F := Ideal) x0 x1 x3 x4 x5 x6 x11 x12) (m 0) := by
  rw [val_main_v130_apply, val_main_v122_apply, val_main_v120_apply, val_main_v119_apply, val_main_v121_apply, val_main_cst_26_apply, val_main_cst_25_apply]
  generalize val_main_v118 (F := Ideal) x0 x1 x3 x4 x5 x6 x11 x12 = A
  simp only [Ideal.hostDivf_def, Ideal.ofBits_def, Ideal.ofBits_zero_f32, zero_add]
  unfold rowMean
  refine congrArg (fun s : EReal => Ideal.div s _) (Finset.sum_congr rfl fun k _ => congrArg A ?_)
  exact funext fun d => Fin.ext (by match d with | ⟨0, _⟩ => rfl | ⟨1, _⟩ => rfl)

/-- The squared deviation of an entry of stage 118 from its row's mean. -/
theorem v143_sq (x0 : (⟨S100000x512, .f32⟩ : BufTy).Contents (Elt Ideal)) (x1 : (⟨S2x1600000, .i32⟩ : BufTy).Contents (Elt Ideal)) (x3 : (⟨S512x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S128, .f32⟩ : BufTy).Contents (Elt Ideal)) (x12 : (⟨S128, .f32⟩ : BufTy).Contents (Elt Ideal)) (m : S100000x128.Idx) :
    val_main_v125 (F := Ideal) x0 x1 x3 x4 x5 x6 x11 x12 m = (val_main_v118 (F := Ideal) x0 x1 x3 x4 x5 x6 x11 x12 m - rowMean (val_main_v118 (F := Ideal) x0 x1 x3 x4 x5 x6 x11 x12) (m 0)) * (val_main_v118 (F := Ideal) x0 x1 x3 x4 x5 x6 x11 x12 m - rowMean (val_main_v118 (F := Ideal) x0 x1 x3 x4 x5 x6 x11 x12) (m 0)) := by
  rw [val_main_v125_apply, val_main_v124_apply, v143_mean]
  generalize val_main_v118 (F := Ideal) x0 x1 x3 x4 x5 x6 x11 x12 = A
  rfl

/-- The reciprocal square root of a row's variance floored by eps, spread over the row. -/
theorem v143_rstd (x0 : (⟨S100000x512, .f32⟩ : BufTy).Contents (Elt Ideal)) (x1 : (⟨S2x1600000, .i32⟩ : BufTy).Contents (Elt Ideal)) (x3 : (⟨S512x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S128, .f32⟩ : BufTy).Contents (Elt Ideal)) (x12 : (⟨S128, .f32⟩ : BufTy).Contents (Elt Ideal)) (m : S100000x128.Idx) :
    val_main_v135 (F := Ideal) x0 x1 x3 x4 x5 x6 x11 x12 m = Ideal.rsqrt (rowVar (val_main_v118 (F := Ideal) x0 x1 x3 x4 x5 x6 x11 x12) (m 0) + Ideal.ofBits .f32 0x3727C5AC#32) := by
  rw [val_main_v135_apply, val_main_v134_apply, val_main_v133_apply, val_main_v132_apply, val_main_cst_29_apply, val_main_v129_apply, val_main_v127_apply, val_main_v126_apply, val_main_v128_apply, val_main_cst_28_apply, val_main_cst_27_apply,
    Finset.sum_congr (s₁ := Finset.univ) rfl fun k _ => v143_sq x0 x1 x3 x4 x5 x6 x11 x12 (idx_main_v126 (idx_main_v127 (idx_main_v135 m)) k)]
  generalize val_main_v118 (F := Ideal) x0 x1 x3 x4 x5 x6 x11 x12 = A
  simp only [Ideal.hostUnary_rsqrt_def, Ideal.addf_def, Ideal.hostDivf_def, Ideal.ofBits_def, Ideal.ofBits_zero_f32, zero_add]
  unfold rowVar
  refine congrArg Ideal.rsqrt (congrArg (fun s : EReal => s + _) (congrArg (fun s : EReal => Ideal.div s _)
    (Finset.sum_congr rfl fun k _ => ?_)))
  rw [show idx_main_v126 (idx_main_v127 (idx_main_v135 m)) k = ix2 (m 0) k from funext fun d => Fin.ext (by match d with | ⟨0, _⟩ => rfl | ⟨1, _⟩ => rfl)]
  rfl

/-- Layer normalisation of the rows of stage 118 (mean and variance over the 128 features, the variance floored by eps),
    the affine map and max(·, 0). -/
theorem v143_eq (x0 : (⟨S100000x512, .f32⟩ : BufTy).Contents (Elt Ideal)) (x1 : (⟨S2x1600000, .i32⟩ : BufTy).Contents (Elt Ideal)) (x3 : (⟨S512x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S128, .f32⟩ : BufTy).Contents (Elt Ideal)) (x12 : (⟨S128, .f32⟩ : BufTy).Contents (Elt Ideal)) :
    val_main_v143 (F := Ideal) x0 x1 x3 x4 x5 x6 x11 x12 = lnRelu (val_main_v118 (F := Ideal) x0 x1 x3 x4 x5 x6 x11 x12) x11 x12 := by
  funext i
  rw [val_main_v143_apply, val_main_v142_apply, val_main_v141_apply, val_main_v140_apply, val_main_v139_apply, val_main_v138_apply, val_main_v137_apply, val_main_v136_apply, val_main_v131_apply, v143_mean', v143_rstd,
    val_main_call3_v0_apply, val_main_call3_cst_apply,
    show idx_main_v137 (idx_main_v138 i) = ix1 (i 1) from funext fun d => Fin.ext (by match d with | ⟨0, _⟩ => rfl),
    show idx_main_v140 (idx_main_v141 i) = ix1 (i 1) from funext fun d => Fin.ext (by match d with | ⟨0, _⟩ => rfl)]
  generalize val_main_v118 (F := Ideal) x0 x1 x3 x4 x5 x6 x11 x12 = A
  rfl

/-! ## The hypergraph branch -/

theorem v144_eq (x0 : (⟨S100000x512, .f32⟩ : BufTy).Contents (Elt Ideal)) (x7 : (⟨S512x128, .f32⟩ : BufTy).Contents (Elt Ideal)) :
    val_main_v144 (F := Ideal) x0 x7 = mm512 x0 x7 :=
  dot512_eq x0 x7

/-- The first two-hop aggregation. -/
theorem v191_eq (x0 : (⟨S100000x512, .f32⟩ : BufTy).Contents (Elt Ideal)) (x2 : (⟨S2x1500000, .i32⟩ : BufTy).Contents (Elt Ideal)) (x7 : (⟨S512x128, .f32⟩ : BufTy).Contents (Elt Ideal)) :
    val_main_v191 (F := Ideal) x0 x2 x7 = hyperSum (val_main_v144 (F := Ideal) x0 x7) x2 := rfl

theorem v194_eq (x0 : (⟨S100000x512, .f32⟩ : BufTy).Contents (Elt Ideal)) (x2 : (⟨S2x1500000, .i32⟩ : BufTy).Contents (Elt Ideal)) (x7 : (⟨S512x128, .f32⟩ : BufTy).Contents (Elt Ideal)) (x8 : (⟨S128, .f32⟩ : BufTy).Contents (Elt Ideal)) :
    val_main_v194 (F := Ideal) x0 x2 x7 x8 = addRow (hyperSum (val_main_v144 (F := Ideal) x0 x7) x2) x8 := by
  rw [← v191_eq]
  exact addBias_eq (val_main_v191 (F := Ideal) x0 x2 x7) x8

/-- The mean of a row of stage 194, spread over the row (the copy subtracted before squaring). -/
theorem v219_mean (x0 : (⟨S100000x512, .f32⟩ : BufTy).Contents (Elt Ideal)) (x2 : (⟨S2x1500000, .i32⟩ : BufTy).Contents (Elt Ideal)) (x7 : (⟨S512x128, .f32⟩ : BufTy).Contents (Elt Ideal)) (x8 : (⟨S128, .f32⟩ : BufTy).Contents (Elt Ideal)) (m : S100000x128.Idx) :
    val_main_v199 (F := Ideal) x0 x2 x7 x8 m = rowMean (val_main_v194 (F := Ideal) x0 x2 x7 x8) (m 0) := by
  rw [val_main_v199_apply, val_main_v198_apply, val_main_v196_apply, val_main_v195_apply, val_main_v197_apply, val_main_cst_46_apply, val_main_cst_45_apply]
  generalize val_main_v194 (F := Ideal) x0 x2 x7 x8 = A
  simp only [Ideal.hostDivf_def, Ideal.ofBits_def, Ideal.ofBits_zero_f32, zero_add]
  unfold rowMean
  refine congrArg (fun s : EReal => Ideal.div s _) (Finset.sum_congr rfl fun k _ => congrArg A ?_)
  exact funext fun d => Fin.ext (by match d with | ⟨0, _⟩ => rfl | ⟨1, _⟩ => rfl)

/-- The same mean (the copy subtracted before the scaling). -/
theorem v219_mean' (x0 : (⟨S100000x512, .f32⟩ : BufTy).Contents (Elt Ideal)) (x2 : (⟨S2x1500000, .i32⟩ : BufTy).Contents (Elt Ideal)) (x7 : (⟨S512x128, .f32⟩ : BufTy).Contents (Elt Ideal)) (x8 : (⟨S128, .f32⟩ : BufTy).Contents (Elt Ideal)) (m : S100000x128.Idx) :
    val_main_v206 (F := Ideal) x0 x2 x7 x8 m = rowMean (val_main_v194 (F := Ideal) x0 x2 x7 x8) (m 0) := by
  rw [val_main_v206_apply, val_main_v198_apply, val_main_v196_apply, val_main_v195_apply, val_main_v197_apply, val_main_cst_46_apply, val_main_cst_45_apply]
  generalize val_main_v194 (F := Ideal) x0 x2 x7 x8 = A
  simp only [Ideal.hostDivf_def, Ideal.ofBits_def, Ideal.ofBits_zero_f32, zero_add]
  unfold rowMean
  refine congrArg (fun s : EReal => Ideal.div s _) (Finset.sum_congr rfl fun k _ => congrArg A ?_)
  exact funext fun d => Fin.ext (by match d with | ⟨0, _⟩ => rfl | ⟨1, _⟩ => rfl)

/-- The squared deviation of an entry of stage 194 from its row's mean. -/
theorem v219_sq (x0 : (⟨S100000x512, .f32⟩ : BufTy).Contents (Elt Ideal)) (x2 : (⟨S2x1500000, .i32⟩ : BufTy).Contents (Elt Ideal)) (x7 : (⟨S512x128, .f32⟩ : BufTy).Contents (Elt Ideal)) (x8 : (⟨S128, .f32⟩ : BufTy).Contents (Elt Ideal)) (m : S100000x128.Idx) :
    val_main_v201 (F := Ideal) x0 x2 x7 x8 m = (val_main_v194 (F := Ideal) x0 x2 x7 x8 m - rowMean (val_main_v194 (F := Ideal) x0 x2 x7 x8) (m 0)) * (val_main_v194 (F := Ideal) x0 x2 x7 x8 m - rowMean (val_main_v194 (F := Ideal) x0 x2 x7 x8) (m 0)) := by
  rw [val_main_v201_apply, val_main_v200_apply, v219_mean]
  generalize val_main_v194 (F := Ideal) x0 x2 x7 x8 = A
  rfl

/-- The reciprocal square root of a row's variance floored by eps, spread over the row. -/
theorem v219_rstd (x0 : (⟨S100000x512, .f32⟩ : BufTy).Contents (Elt Ideal)) (x2 : (⟨S2x1500000, .i32⟩ : BufTy).Contents (Elt Ideal)) (x7 : (⟨S512x128, .f32⟩ : BufTy).Contents (Elt Ideal)) (x8 : (⟨S128, .f32⟩ : BufTy).Contents (Elt Ideal)) (m : S100000x128.Idx) :
    val_main_v211 (F := Ideal) x0 x2 x7 x8 m = Ideal.rsqrt (rowVar (val_main_v194 (F := Ideal) x0 x2 x7 x8) (m 0) + Ideal.ofBits .f32 0x3727C5AC#32) := by
  rw [val_main_v211_apply, val_main_v210_apply, val_main_v209_apply, val_main_v208_apply, val_main_cst_49_apply, val_main_v205_apply, val_main_v203_apply, val_main_v202_apply, val_main_v204_apply, val_main_cst_48_apply, val_main_cst_47_apply,
    Finset.sum_congr (s₁ := Finset.univ) rfl fun k _ => v219_sq x0 x2 x7 x8 (idx_main_v202 (idx_main_v203 (idx_main_v211 m)) k)]
  generalize val_main_v194 (F := Ideal) x0 x2 x7 x8 = A
  simp only [Ideal.hostUnary_rsqrt_def, Ideal.addf_def, Ideal.hostDivf_def, Ideal.ofBits_def, Ideal.ofBits_zero_f32, zero_add]
  unfold rowVar
  refine congrArg Ideal.rsqrt (congrArg (fun s : EReal => s + _) (congrArg (fun s : EReal => Ideal.div s _)
    (Finset.sum_congr rfl fun k _ => ?_)))
  rw [show idx_main_v202 (idx_main_v203 (idx_main_v211 m)) k = ix2 (m 0) k from funext fun d => Fin.ext (by match d with | ⟨0, _⟩ => rfl | ⟨1, _⟩ => rfl)]
  rfl

/-- Layer normalisation of the rows of stage 194 (mean and variance over the 128 features, the variance floored by eps),
    the affine map and max(·, 0). -/
theorem v219_eq (x0 : (⟨S100000x512, .f32⟩ : BufTy).Contents (Elt Ideal)) (x2 : (⟨S2x1500000, .i32⟩ : BufTy).Contents (Elt Ideal)) (x7 : (⟨S512x128, .f32⟩ : BufTy).Contents (Elt Ideal)) (x8 : (⟨S128, .f32⟩ : BufTy).Contents (Elt Ideal)) (x13 : (⟨S128, .f32⟩ : BufTy).Contents (Elt Ideal)) (x14 : (⟨S128, .f32⟩ : BufTy).Contents (Elt Ideal)) :
    val_main_v219 (F := Ideal) x0 x2 x7 x8 x13 x14 = lnRelu (val_main_v194 (F := Ideal) x0 x2 x7 x8) x13 x14 := by
  funext i
  rw [val_main_v219_apply, val_main_v218_apply, val_main_v217_apply, val_main_v216_apply, val_main_v215_apply, val_main_v214_apply, val_main_v213_apply, val_main_v212_apply, val_main_v207_apply, v219_mean', v219_rstd,
    val_main_call6_v0_apply, val_main_call6_cst_apply,
    show idx_main_v213 (idx_main_v214 i) = ix1 (i 1) from funext fun d => Fin.ext (by match d with | ⟨0, _⟩ => rfl),
    show idx_main_v216 (idx_main_v217 i) = ix1 (i 1) from funext fun d => Fin.ext (by match d with | ⟨0, _⟩ => rfl)]
  generalize val_main_v194 (F := Ideal) x0 x2 x7 x8 = A
  rfl

theorem v220_eq (x0 : (⟨S100000x512, .f32⟩ : BufTy).Contents (Elt Ideal)) (x2 : (⟨S2x1500000, .i32⟩ : BufTy).Contents (Elt Ideal)) (x7 : (⟨S512x128, .f32⟩ : BufTy).Contents (Elt Ideal)) (x8 : (⟨S128, .f32⟩ : BufTy).Contents (Elt Ideal)) (x9 : (⟨S128x128, .f32⟩ : BufTy).Contents (Elt Ideal)) (x13 : (⟨S128, .f32⟩ : BufTy).Contents (Elt Ideal)) (x14 : (⟨S128, .f32⟩ : BufTy).Contents (Elt Ideal)) :
    val_main_v220 (F := Ideal) x0 x2 x7 x8 x9 x13 x14 = mm128 (val_main_v219 (F := Ideal) x0 x2 x7 x8 x13 x14) x9 :=
  dot128_eq (val_main_v219 (F := Ideal) x0 x2 x7 x8 x13 x14) x9

/-- The second two-hop aggregation: its index and scaling stages are those of the first, computed again from the edge list. -/
theorem v267_eq (x0 : (⟨S100000x512, .f32⟩ : BufTy).Contents (Elt Ideal)) (x2 : (⟨S2x1500000, .i32⟩ : BufTy).Contents (Elt Ideal)) (x7 : (⟨S512x128, .f32⟩ : BufTy).Contents (Elt Ideal)) (x8 : (⟨S128, .f32⟩ : BufTy).Contents (Elt Ideal)) (x9 : (⟨S128x128, .f32⟩ : BufTy).Contents (Elt Ideal)) (x13 : (⟨S128, .f32⟩ : BufTy).Contents (Elt Ideal)) (x14 : (⟨S128, .f32⟩ : BufTy).Contents (Elt Ideal)) :
    val_main_v267 (F := Ideal) x0 x2 x7 x8 x9 x13 x14 = hyperSum (val_main_v220 (F := Ideal) x0 x2 x7 x8 x9 x13 x14) x2 := rfl

theorem v270_eq (x0 : (⟨S100000x512, .f32⟩ : BufTy).Contents (Elt Ideal)) (x2 : (⟨S2x1500000, .i32⟩ : BufTy).Contents (Elt Ideal)) (x7 : (⟨S512x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x13 : (⟨S128, .f32⟩ : BufTy).Contents (Elt Ideal)) (x14 : (⟨S128, .f32⟩ : BufTy).Contents (Elt Ideal)) :
    val_main_v270 (F := Ideal) x0 x2 x7 x8 x9 x10 x13 x14 = addRow (hyperSum (val_main_v220 (F := Ideal) x0 x2 x7 x8 x9 x13 x14) x2) x10 := by
  rw [← v267_eq]
  exact addBias_eq (val_main_v267 (F := Ideal) x0 x2 x7 x8 x9 x13 x14) x10

/-- The mean of a row of stage 270, spread over the row (the copy subtracted before squaring). -/
theorem v295_mean (x0 : (⟨S100000x512, .f32⟩ : BufTy).Contents (Elt Ideal)) (x2 : (⟨S2x1500000, .i32⟩ : BufTy).Contents (Elt Ideal)) (x7 : (⟨S512x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x13 : (⟨S128, .f32⟩ : BufTy).Contents (Elt Ideal)) (x14 : (⟨S128, .f32⟩ : BufTy).Contents (Elt Ideal)) (m : S100000x128.Idx) :
    val_main_v275 (F := Ideal) x0 x2 x7 x8 x9 x10 x13 x14 m = rowMean (val_main_v270 (F := Ideal) x0 x2 x7 x8 x9 x10 x13 x14) (m 0) := by
  rw [val_main_v275_apply, val_main_v274_apply, val_main_v272_apply, val_main_v271_apply, val_main_v273_apply, val_main_cst_66_apply, val_main_cst_65_apply]
  generalize val_main_v270 (F := Ideal) x0 x2 x7 x8 x9 x10 x13 x14 = A
  simp only [Ideal.hostDivf_def, Ideal.ofBits_def, Ideal.ofBits_zero_f32, zero_add]
  unfold rowMean
  refine congrArg (fun s : EReal => Ideal.div s _) (Finset.sum_congr rfl fun k _ => congrArg A ?_)
  exact funext fun d => Fin.ext (by match d with | ⟨0, _⟩ => rfl | ⟨1, _⟩ => rfl)

/-- The same mean (the copy subtracted before the scaling). -/
theorem v295_mean' (x0 : (⟨S100000x512, .f32⟩ : BufTy).Contents (Elt Ideal)) (x2 : (⟨S2x1500000, .i32⟩ : BufTy).Contents (Elt Ideal)) (x7 : (⟨S512x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x13 : (⟨S128, .f32⟩ : BufTy).Contents (Elt Ideal)) (x14 : (⟨S128, .f32⟩ : BufTy).Contents (Elt Ideal)) (m : S100000x128.Idx) :
    val_main_v282 (F := Ideal) x0 x2 x7 x8 x9 x10 x13 x14 m = rowMean (val_main_v270 (F := Ideal) x0 x2 x7 x8 x9 x10 x13 x14) (m 0) := by
  rw [val_main_v282_apply, val_main_v274_apply, val_main_v272_apply, val_main_v271_apply, val_main_v273_apply, val_main_cst_66_apply, val_main_cst_65_apply]
  generalize val_main_v270 (F := Ideal) x0 x2 x7 x8 x9 x10 x13 x14 = A
  simp only [Ideal.hostDivf_def, Ideal.ofBits_def, Ideal.ofBits_zero_f32, zero_add]
  unfold rowMean
  refine congrArg (fun s : EReal => Ideal.div s _) (Finset.sum_congr rfl fun k _ => congrArg A ?_)
  exact funext fun d => Fin.ext (by match d with | ⟨0, _⟩ => rfl | ⟨1, _⟩ => rfl)

/-- The squared deviation of an entry of stage 270 from its row's mean. -/
theorem v295_sq (x0 : (⟨S100000x512, .f32⟩ : BufTy).Contents (Elt Ideal)) (x2 : (⟨S2x1500000, .i32⟩ : BufTy).Contents (Elt Ideal)) (x7 : (⟨S512x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x13 : (⟨S128, .f32⟩ : BufTy).Contents (Elt Ideal)) (x14 : (⟨S128, .f32⟩ : BufTy).Contents (Elt Ideal)) (m : S100000x128.Idx) :
    val_main_v277 (F := Ideal) x0 x2 x7 x8 x9 x10 x13 x14 m = (val_main_v270 (F := Ideal) x0 x2 x7 x8 x9 x10 x13 x14 m - rowMean (val_main_v270 (F := Ideal) x0 x2 x7 x8 x9 x10 x13 x14) (m 0)) * (val_main_v270 (F := Ideal) x0 x2 x7 x8 x9 x10 x13 x14 m - rowMean (val_main_v270 (F := Ideal) x0 x2 x7 x8 x9 x10 x13 x14) (m 0)) := by
  rw [val_main_v277_apply, val_main_v276_apply, v295_mean]
  generalize val_main_v270 (F := Ideal) x0 x2 x7 x8 x9 x10 x13 x14 = A
  rfl

/-- The reciprocal square root of a row's variance floored by eps, spread over the row. -/
theorem v295_rstd (x0 : (⟨S100000x512, .f32⟩ : BufTy).Contents (Elt Ideal)) (x2 : (⟨S2x1500000, .i32⟩ : BufTy).Contents (Elt Ideal)) (x7 : (⟨S512x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x13 : (⟨S128, .f32⟩ : BufTy).Contents (Elt Ideal)) (x14 : (⟨S128, .f32⟩ : BufTy).Contents (Elt Ideal)) (m : S100000x128.Idx) :
    val_main_v287 (F := Ideal) x0 x2 x7 x8 x9 x10 x13 x14 m = Ideal.rsqrt (rowVar (val_main_v270 (F := Ideal) x0 x2 x7 x8 x9 x10 x13 x14) (m 0) + Ideal.ofBits .f32 0x3727C5AC#32) := by
  rw [val_main_v287_apply, val_main_v286_apply, val_main_v285_apply, val_main_v284_apply, val_main_cst_69_apply, val_main_v281_apply, val_main_v279_apply, val_main_v278_apply, val_main_v280_apply, val_main_cst_68_apply, val_main_cst_67_apply,
    Finset.sum_congr (s₁ := Finset.univ) rfl fun k _ => v295_sq x0 x2 x7 x8 x9 x10 x13 x14 (idx_main_v278 (idx_main_v279 (idx_main_v287 m)) k)]
  generalize val_main_v270 (F := Ideal) x0 x2 x7 x8 x9 x10 x13 x14 = A
  simp only [Ideal.hostUnary_rsqrt_def, Ideal.addf_def, Ideal.hostDivf_def, Ideal.ofBits_def, Ideal.ofBits_zero_f32, zero_add]
  unfold rowVar
  refine congrArg Ideal.rsqrt (congrArg (fun s : EReal => s + _) (congrArg (fun s : EReal => Ideal.div s _)
    (Finset.sum_congr rfl fun k _ => ?_)))
  rw [show idx_main_v278 (idx_main_v279 (idx_main_v287 m)) k = ix2 (m 0) k from funext fun d => Fin.ext (by match d with | ⟨0, _⟩ => rfl | ⟨1, _⟩ => rfl)]
  rfl

/-- Layer normalisation of the rows of stage 270 (mean and variance over the 128 features, the variance floored by eps),
    the affine map and max(·, 0). -/
theorem v295_eq (x0 : (⟨S100000x512, .f32⟩ : BufTy).Contents (Elt Ideal)) (x2 : (⟨S2x1500000, .i32⟩ : BufTy).Contents (Elt Ideal)) (x7 : (⟨S512x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x13 : (⟨S128, .f32⟩ : BufTy).Contents (Elt Ideal)) (x14 : (⟨S128, .f32⟩ : BufTy).Contents (Elt Ideal)) :
    val_main_v295 (F := Ideal) x0 x2 x7 x8 x9 x10 x13 x14 = lnRelu (val_main_v270 (F := Ideal) x0 x2 x7 x8 x9 x10 x13 x14) x13 x14 := by
  funext i
  rw [val_main_v295_apply, val_main_v294_apply, val_main_v293_apply, val_main_v292_apply, val_main_v291_apply, val_main_v290_apply, val_main_v289_apply, val_main_v288_apply, val_main_v283_apply, v295_mean', v295_rstd,
    val_main_call9_v0_apply, val_main_call9_cst_apply,
    show idx_main_v289 (idx_main_v290 i) = ix1 (i 1) from funext fun d => Fin.ext (by match d with | ⟨0, _⟩ => rfl),
    show idx_main_v292 (idx_main_v293 i) = ix1 (i 1) from funext fun d => Fin.ext (by match d with | ⟨0, _⟩ => rfl)]
  generalize val_main_v270 (F := Ideal) x0 x2 x7 x8 x9 x10 x13 x14 = A
  rfl

/-! ## The projection head -/

theorem v298_eq (x0 : (⟨S100000x512, .f32⟩ : BufTy).Contents (Elt Ideal)) (x1 : (⟨S2x1600000, .i32⟩ : BufTy).Contents (Elt Ideal)) (x2 : (⟨S2x1500000, .i32⟩ : BufTy).Contents (Elt Ideal)) (x3 : (⟨S512x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S512x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) :
    val_main_v298 (F := Ideal) x0 x1 x2 x3 x4 x5 x6 x7 x8 x9 x10 x11 x12 x13 x14 = halfSum (val_main_v143 (F := Ideal) x0 x1 x3 x4 x5 x6 x11 x12) (val_main_v295 (F := Ideal) x0 x2 x7 x8 x9 x10 x13 x14) :=
  halfSum_eq (val_main_v143 (F := Ideal) x0 x1 x3 x4 x5 x6 x11 x12) (val_main_v295 (F := Ideal) x0 x2 x7 x8 x9 x10 x13 x14)

theorem v299_eq (x0 : (⟨S100000x512, .f32⟩ : BufTy).Contents (Elt Ideal)) (x1 : (⟨S2x1600000, .i32⟩ : BufTy).Contents (Elt Ideal)) (x2 : (⟨S2x1500000, .i32⟩ : BufTy).Contents (Elt Ideal)) (x3 : (⟨S512x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S512x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128x128, .f32⟩ : BufTy).Contents (Elt Ideal)) :
    val_main_v299 (F := Ideal) x0 x1 x2 x3 x4 x5 x6 x7 x8 x9 x10 x11 x12 x13 x14 x15 = mm128 (val_main_v298 (F := Ideal) x0 x1 x2 x3 x4 x5 x6 x7 x8 x9 x10 x11 x12 x13 x14) x15 :=
  dot128_eq (val_main_v298 (F := Ideal) x0 x1 x2 x3 x4 x5 x6 x7 x8 x9 x10 x11 x12 x13 x14) x15

theorem v302_eq (x0 : (⟨S100000x512, .f32⟩ : BufTy).Contents (Elt Ideal)) (x1 : (⟨S2x1600000, .i32⟩ : BufTy).Contents (Elt Ideal)) (x2 : (⟨S2x1500000, .i32⟩ : BufTy).Contents (Elt Ideal)) (x3 : (⟨S512x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S512x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) :
    val_main_v302 (F := Ideal) x0 x1 x2 x3 x4 x5 x6 x7 x8 x9 x10 x11 x12 x13 x14 x15 x16 = addRow (val_main_v299 (F := Ideal) x0 x1 x2 x3 x4 x5 x6 x7 x8 x9 x10 x11 x12 x13 x14 x15) x16 :=
  addBias_eq (val_main_v299 (F := Ideal) x0 x1 x2 x3 x4 x5 x6 x7 x8 x9 x10 x11 x12 x13 x14 x15) x16

theorem v303_eq (x0 : (⟨S100000x512, .f32⟩ : BufTy).Contents (Elt Ideal)) (x1 : (⟨S2x1600000, .i32⟩ : BufTy).Contents (Elt Ideal)) (x2 : (⟨S2x1500000, .i32⟩ : BufTy).Contents (Elt Ideal)) (x3 : (⟨S512x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S512x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) :
    val_main_v303 (F := Ideal) x0 x1 x2 x3 x4 x5 x6 x7 x8 x9 x10 x11 x12 x13 x14 x15 x16 = Cert.Spec.relu (val_main_v302 (F := Ideal) x0 x1 x2 x3 x4 x5 x6 x7 x8 x9 x10 x11 x12 x13 x14 x15 x16) :=
  relu_eq (val_main_v302 (F := Ideal) x0 x1 x2 x3 x4 x5 x6 x7 x8 x9 x10 x11 x12 x13 x14 x15 x16)

theorem v304_eq (x0 : (⟨S100000x512, .f32⟩ : BufTy).Contents (Elt Ideal)) (x1 : (⟨S2x1600000, .i32⟩ : BufTy).Contents (Elt Ideal)) (x2 : (⟨S2x1500000, .i32⟩ : BufTy).Contents (Elt Ideal)) (x3 : (⟨S512x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S512x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) :
    val_main_v304 (F := Ideal) x0 x1 x2 x3 x4 x5 x6 x7 x8 x9 x10 x11 x12 x13 x14 x15 x16 x17 = mm128 (val_main_v303 (F := Ideal) x0 x1 x2 x3 x4 x5 x6 x7 x8 x9 x10 x11 x12 x13 x14 x15 x16) x17 :=
  dot128_eq (val_main_v303 (F := Ideal) x0 x1 x2 x3 x4 x5 x6 x7 x8 x9 x10 x11 x12 x13 x14 x15 x16) x17

theorem v307_eq (x0 : (⟨S100000x512, .f32⟩ : BufTy).Contents (Elt Ideal)) (x1 : (⟨S2x1600000, .i32⟩ : BufTy).Contents (Elt Ideal)) (x2 : (⟨S2x1500000, .i32⟩ : BufTy).Contents (Elt Ideal)) (x3 : (⟨S512x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S512x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) :
    val_main_v307 (F := Ideal) x0 x1 x2 x3 x4 x5 x6 x7 x8 x9 x10 x11 x12 x13 x14 x15 x16 x17 x18 = addRow (val_main_v304 (F := Ideal) x0 x1 x2 x3 x4 x5 x6 x7 x8 x9 x10 x11 x12 x13 x14 x15 x16 x17) x18 :=
  addBias_eq (val_main_v304 (F := Ideal) x0 x1 x2 x3 x4 x5 x6 x7 x8 x9 x10 x11 x12 x13 x14 x15 x16 x17) x18

/-! ## The network -/

/-- The reference's last stage is the specification's network of the arguments. -/
theorem ref_eq (x0 : (⟨S100000x512, .f32⟩ : BufTy).Contents (Elt Ideal)) (x1 : (⟨S2x1600000, .i32⟩ : BufTy).Contents (Elt Ideal)) (x2 : (⟨S2x1500000, .i32⟩ : BufTy).Contents (Elt Ideal)) (x3 : (⟨S512x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S512x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) :
    val_main_v307 (F := Ideal) x0 x1 x2 x3 x4 x5 x6 x7 x8 x9 x10 x11 x12 x13 x14 x15 x16 x17 x18 = Cert.Spec.refNet x0 x1 x2 x3 x4 x5 x6 x7 x8 x9 x10 x11 x12 x13 x14 x15 x16 x17 x18 := by
  rw [v307_eq, v304_eq, v303_eq, v302_eq, v299_eq, v298_eq,
    v143_eq, v118_eq, v72_eq, v71_eq, v46_eq, dot512_eq x0 x3,
    v295_eq, v270_eq, v220_eq, v219_eq, v194_eq, v144_eq]
  rfl

end Cert.RefSpec

end
-- ==== Proof.ScatterScale.lean ====
/-
  The one algebraic law between the two networks' graph aggregations.

  Summing into each target node d the gathered source rows h[s] · (dinv[s] · dinv[d]) over the edges s → d equals
  summing the rows (h · dinv)[s] and multiplying the sum by dinv[d]: associativity of the product, and
  right-distributivity of a NON-NEGATIVE REAL factor over a finite sum of extended reals (a negative or an infinite
  factor does not distribute over a sum that mixes +∞ and −∞). The coefficient dinv is a non-negative real at every
  node: it is the inverse square root of a positive degree (0 at the degree +∞), and 0 where the degree is not positive.

  The ingredients, in order: where an update of the accumulating scatter lands; the two gathers read at an index; the
  index normalisation and the clamp at an in-range index; the coefficient arrays read at an index; the law.
-/
import proofs.«138258_j55997783605349_2_alg».proof.Proof.Spec

noncomputable section

open scoped BigOperators

namespace Cert.ScatterLaw

open Idealize.ShloMosaic Idealize.ShloMosaic.ValueIdx Cert.ReferenceIdeal Cert.ReferenceIdeal.Read Cert.Spec

/-! ## Two facts about extended reals -/

/-- A non-negative real factor distributes over a finite sum of extended reals. -/
theorem sum_mul_coe {ι : Type} (s : Finset ι) (f : ι → EReal) (c : ℝ) (hc : 0 ≤ c) :
    ∑ j ∈ s, f j * (c : EReal) = (∑ j ∈ s, f j) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- The inverse square root of a positive extended real is a non-negative real (0 at +∞). -/
theorem rsqrt_of_pos (x : EReal) (hx : 0 < x) : ∃ c : ℝ, 0 ≤ c ∧ Ideal.rsqrt x = (c : EReal) := by
  induction x using EReal.rec with
  | bot => exact absurd hx (by simp)
  | top => exact ⟨0, le_rfl, rfl⟩
  | coe r =>
    have hr : 0 < r := by exact_mod_cast hx
    refine ⟨(Real.sqrt r)⁻¹, inv_nonneg.mpr (Real.sqrt_nonneg r), ?_⟩
    show (if r < 0 then (⊥ : EReal) else if r = 0 then ⊤ else ((Real.sqrt r)⁻¹ : ℝ)) = _
    rw [if_neg (not_lt.mpr hr.le), if_neg hr.ne']

/-- The scatter's dimension numbers: updates [E, 128] into [100000, 128] at row indices [E, 1]. -/
abbrev dS : ScatterDims S100000x128 S1700000x1 S1700000x128 := scatter_S100000x128_S1700000x1_S1700000x128_1_0_0_1
/-- The row gather's dimension numbers: rows of a [100000, 128] array at indices [E, 1]. -/
abbrev dG2 : GatherDims S100000x128 S1700000x1 S1700000x128 := gather_S100000x128_S1700000x1_S1700000x128_1_0_n_n_0_1_1128
/-- The vector gather's dimension numbers: elements of a [100000] vector at indices [E, 1]. -/
abbrev dG1 : GatherDims S100000 S1700000x1 S1700000 := gather_S100000_S1700000x1_S1700000_n_0_n_n_0_1_1

/-! ## The accumulating scatter: where an update lands -/

/-- Update index (e, k) reads its start index at position (e, 0) of the index array. -/
theorem scatter_siIdx (j : S1700000x128.Idx) (c : Fin dS.scatterDimsToOperandDims.length) :
    dS.siIdx j c = ix2 (j 0) (0 : Fin 1) := by
  funext b; refine Fin.ext ?_
  match b with
  | ⟨0, _⟩ => rfl
  | ⟨1, _⟩ =>
    have hc : c.val < 1 := c.isLt
    show c.val = 0
    omega

theorem scatter_start0 {w : Nat} (j : S1700000x128.Idx) (idx : IVec S1700000x1 w) :
    dS.start j idx 0 = (idx (ix2 (j 0) (0 : Fin 1))).toInt := by
  unfold ScatterDims.start
  rw [dif_pos (show (0 : Fin 2) ∈ dS.scatterDimsToOperandDims from List.mem_singleton.mpr rfl), scatter_siIdx]
  rfl

theorem scatter_start1 {w : Nat} (j : S1700000x128.Idx) (idx : IVec S1700000x1 w) :
    dS.start j idx 1 = 0 := by
  unfold ScatterDims.start
  rw [dif_neg (show ¬ (1 : Fin 2) ∈ dS.scatterDimsToOperandDims by decide)]

theorem scatter_window0 (j : S1700000x128.Idx) : dS.window j 0 = 0 := by
  unfold ScatterDims.window
  rw [dif_neg (show ¬ (0 : Fin 2) ∈ dS.sKept by decide)]

theorem scatter_window1 (j : S1700000x128.Idx) : dS.window j 1 = (j 1).val := by
  unfold ScatterDims.window
  rw [dif_pos (show (1 : Fin 2) ∈ dS.sKept by decide)]
  rfl

/-- An update (e, k) that lands on element i has its (signed, unclamped) start index equal to i's row, and k equal to
    i's column. -/
theorem scatter_landed {w : Nat} (idx : IVec S1700000x1 w) (j : S1700000x128.Idx) (i : S100000x128.Idx)
    (h : dS.resultIdx? j idx = some i) :
    (idx (ix2 (j 0) (0 : Fin 1))).toInt = ((i 0).val : Int) ∧ (j 1).val = (i 1).val := by
  unfold ScatterDims.resultIdx? at h
  split at h
  · rename_i hb
    have h' := Option.some.inj h
    have hb0 := hb 0
    rw [scatter_start0, scatter_window0] at hb0
    have h0 : (dS.start j idx 0 + ((dS.window j 0 : Nat) : Int)).toNat = (i 0).val := congrArg (fun f => (f 0).val) h'
    have h1 : (dS.start j idx 1 + ((dS.window j 1 : Nat) : Int)).toNat = (i 1).val := congrArg (fun f => (f 1).val) h'
    rw [scatter_start0, scatter_window0] at h0
    rw [scatter_start1, scatter_window1] at h1
    constructor <;> omega
  · exact absurd h (by simp)

/-- The same with both indices given by their coordinates. -/
theorem scatter_landed_at {w : Nat} (idx : IVec S1700000x1 w) (e : Fin 1700000) (k : Fin 128) (r : Fin 100000)
    (q : Fin 128) (h : dS.resultIdx? (ix2 e k) idx = some (ix2 r q)) :
    (idx (ix2 e (0 : Fin 1))).toInt = (r.val : Int) ∧ k.val = q.val :=
  scatter_landed idx (ix2 e k) (ix2 r q) h

/-! ## The two gathers read at an index -/

/-- The row a start index selects: read signed and clamped into [0, 99999]. -/
def clampRow (b : BitVec 32) : Fin 100000 := ⟨min b.toInt.toNat 99999, by omega⟩

theorem gather2_siIdx (y : S1700000x128.Idx) (c : Fin dG2.startIndexMap.length) :
    dG2.siIdx y c = ix2 (y 0) (0 : Fin 1) := by
  funext b; refine Fin.ext ?_
  match b with
  | ⟨0, _⟩ => rfl
  | ⟨1, _⟩ =>
    have hc : c.val < 1 := c.isLt
    show c.val = 0
    omega

/-- The row gather at (e, k): the operand at (the clamped start index of e, k). -/
theorem gather2_apply {α : Type} (x : S100000x128.Idx → α) (idx : IVec S1700000x1 32) (y : S1700000x128.Idx) :
    Host.gather dG2 x idx y = x (ix2 (clampRow (idx (ix2 (y 0) (0 : Fin 1)))) (⟨(y 1).val, idx2_lt1 y⟩ : Fin 128)) := by
  unfold Host.gather
  congr 1
  funext a
  refine Fin.ext ?_
  match a with
  | ⟨0, _⟩ =>
    show dG2.start y idx 0 + dG2.batchCoord y 0 + dG2.offCoord y 0 = _
    rw [GatherDims.batchCoord_eq_zero dG2 y 0 (by decide), GatherDims.offCoord_eq_zero dG2 y 0 (by decide)]
    simp only [Nat.add_zero]
    unfold GatherDims.start
    rw [dif_pos (show (0 : Fin 2) ∈ dG2.startIndexMap from List.mem_singleton.mpr rfl), gather2_siIdx]
    rfl
  | ⟨1, _⟩ =>
    show dG2.start y idx 1 + dG2.batchCoord y 1 + dG2.offCoord y 1 = _
    rw [GatherDims.batchCoord_eq_zero dG2 y 1 (by decide)]
    unfold GatherDims.start GatherDims.offCoord
    rw [dif_neg (show ¬ (1 : Fin 2) ∈ dG2.startIndexMap by decide), dif_pos (show (1 : Fin 2) ∈ dG2.sKept by decide)]
    simp only [Nat.add_zero, Nat.zero_add]
    rfl

/-- The same at (e, k) given by its coordinates. -/
theorem gather2_at {α : Type} (x : S100000x128.Idx → α) (idx : IVec S1700000x1 32) (e : Fin 1700000) (k : Fin 128) :
    Host.gather dG2 x idx (ix2 e k) = x (ix2 (clampRow (idx (ix2 e (0 : Fin 1)))) k) :=
  gather2_apply x idx (ix2 e k)

theorem gather1_siIdx (y : S1700000.Idx) (c : Fin dG1.startIndexMap.length) :
    dG1.siIdx y c = ix2 (y 0) (0 : Fin 1) := by
  funext b; refine Fin.ext ?_
  match b with
  | ⟨0, _⟩ => rfl
  | ⟨1, _⟩ =>
    have hc : c.val < 1 := c.isLt
    show c.val = 0
    omega

/-- The vector gather at e: the operand at the clamped start index of e. -/
theorem gather1_apply {α : Type} (x : S100000.Idx → α) (idx : IVec S1700000x1 32) (y : S1700000.Idx) :
    Host.gather dG1 x idx y = x (ix1 (clampRow (idx (ix2 (y 0) (0 : Fin 1))))) := by
  unfold Host.gather
  congr 1
  funext a
  obtain rfl : a = 0 := Subsingleton.elim _ _
  refine Fin.ext ?_
  show dG1.start y idx 0 + dG1.batchCoord y 0 + dG1.offCoord y 0 = _
  rw [GatherDims.batchCoord_eq_zero dG1 y 0 (by decide), GatherDims.offCoord_eq_zero dG1 y 0 (by decide)]
  simp only [Nat.add_zero]
  unfold GatherDims.start
  rw [dif_pos (show (0 : Fin 1) ∈ dG1.startIndexMap from List.mem_singleton.mpr rfl), gather1_siIdx]
  rfl

/-- The same at e given by its coordinate. -/
theorem gather1_at {α : Type} (x : S100000.Idx → α) (idx : IVec S1700000x1 32) (e : Fin 1700000) :
    Host.gather dG1 x idx (ix1 e) = x (ix1 (clampRow (idx (ix2 e (0 : Fin 1))))) :=
  gather1_apply x idx (ix1 e)

/-! ## The index normalisation and the clamp -/

/-- The reference's index normalisation: a negative index has the node count added. -/
def normIdx (b : BitVec 32) : BitVec 32 :=
  Scalar.select (IntOp.cmpi .slt b 0#32) (IntOp.addi b 100000#32) b

/-- An index whose signed value is a node number d is kept by the normalisation and by the clamp. -/
theorem clampRow_normIdx (b : BitVec 32) (d : Fin 100000) (h : b.toInt = (d.val : Int)) :
    clampRow (normIdx b) = d := by
  have hd : d.val < 100000 := d.isLt
  have hs : b.slt 0#32 = false := by
    simp [BitVec.slt, h]
  have hn : IntOp.cmpi .slt b 0#32 = 0#1 := by
    show BitVec.ofBool (b.slt 0#32) = 0#1
    rw [hs]; rfl
  unfold normIdx
  rw [hn, select_zero]
  apply Fin.ext
  show min b.toInt.toNat 99999 = d.val
  omega

/-! ## The index and coefficient arrays read at an index -/

/-- The raw source node of edge e: the edge list's first row followed by one self-loop per node. -/
def src (x1 : Edges) (e : Fin 1700000) : BitVec 32 := val_main_v4 (F := Ideal) x1 (ix1 e)
/-- The raw target node of edge e: the edge list's second row followed by one self-loop per node. -/
def dst (x1 : Edges) (e : Fin 1700000) : BitVec 32 := val_main_v7 (F := Ideal) x1 (ix1 e)

/-- Position (e, 0) of an [E, 1] array broadcast from an [E] array reads position e. -/
theorem idx36_at (e : Fin 1700000) : idx_main_v36 (ix2 e (0 : Fin 1)) = ix1 e := by
  funext a; match a with | ⟨0, _⟩ => rfl
theorem idx21_at (e : Fin 1700000) : idx_main_v21 (ix2 e (0 : Fin 1)) = ix1 e := by
  funext a; match a with | ⟨0, _⟩ => rfl
theorem idx28_at (e : Fin 1700000) : idx_main_v28 (ix2 e (0 : Fin 1)) = ix1 e := by
  funext a; match a with | ⟨0, _⟩ => rfl
theorem idx42_at (e : Fin 1700000) : idx_main_v42 (ix2 e (0 : Fin 1)) = ix1 e := by
  funext a; match a with | ⟨0, _⟩ => rfl

/-- The row gather's start indices: the normalised sources. -/
theorem v36_at (x1 : Edges) (e : Fin 1700000) :
    val_main_v36 (F := Ideal) x1 (ix2 e (0 : Fin 1)) = normIdx (src x1 e) := by
  rw [val_main_v36_apply, idx36_at, val_main_v35_apply, val_main_v32_apply, val_main_v34_apply, val_main_v31_apply,
    val_main_v33_apply, val_main_c_6_apply, val_main_c_7_apply]
  rfl

/-- The first coefficient gather's start indices: the normalised sources. -/
theorem v21_at (x1 : Edges) (e : Fin 1700000) :
    val_main_v21 (F := Ideal) x1 (ix2 e (0 : Fin 1)) = normIdx (src x1 e) := by
  rw [val_main_v21_apply, idx21_at, val_main_v20_apply, val_main_v17_apply, val_main_v19_apply, val_main_v16_apply,
    val_main_v18_apply, val_main_c_apply, val_main_c_3_apply]
  rfl

/-- The second coefficient gather's start indices: the normalised targets. -/
theorem v28_at (x1 : Edges) (e : Fin 1700000) :
    val_main_v28 (F := Ideal) x1 (ix2 e (0 : Fin 1)) = normIdx (dst x1 e) := by
  rw [val_main_v28_apply, idx28_at, val_main_v27_apply, val_main_v24_apply, val_main_v26_apply, val_main_v23_apply,
    val_main_v25_apply, val_main_c_4_apply, val_main_c_5_apply]
  rfl

/-- The scatter's indices: the raw targets. -/
theorem v42_at (x1 : Edges) (e : Fin 1700000) :
    val_main_v42 (F := Ideal) x1 (ix2 e (0 : Fin 1)) = dst x1 e := by
  rw [val_main_v42_apply, idx42_at]
  rfl

/-- The coefficient of update (e, k): dinv at the (normalised, clamped) source times dinv at the (normalised,
    clamped) target of edge e. -/
theorem v39_at (x1 : Edges) (e : Fin 1700000) (k : Fin 128) :
    val_main_v39 (F := Ideal) x1 (ix2 e k)
      = dinv x1 (ix1 (clampRow (normIdx (src x1 e)))) * dinv x1 (ix1 (clampRow (normIdx (dst x1 e)))) := by
  rw [val_main_v39_apply, val_main_v38_apply, val_main_v30_apply]
  have he : idx_main_v38 (idx_main_v39 (ix2 e k)) = ix1 e := by
    funext a; match a with | ⟨0, _⟩ => rfl
  rw [he]
  unfold val_main_v22 val_main_v29
  rw [gather1_at, gather1_at, v21_at, v28_at]
  rfl

/-- The scatter's operand is the zero array. -/
theorem v41_at (i : S100000x128.Idx) : val_main_v41 (F := Ideal) i = 0 := by
  rw [val_main_v41_apply, val_main_cst_8_apply, Ideal.ofBits_def, Ideal.ofBits_zero_f32]

/-! ## The coefficient is a non-negative real -/

/-- Whatever the degree is, dinv is a non-negative real: the inverse square root of a positive degree, else 0. -/
theorem dinv_nonneg (x1 : Edges) (r : S100000.Idx) : ∃ c : ℝ, 0 ≤ c ∧ dinv x1 r = (c : EReal) := by
  unfold dinv
  rw [val_main_v15_apply, val_main_v13_apply, val_main_v14_apply, val_main_call0_v1_apply, val_main_call0_v0_apply,
    val_main_cst_2_apply, val_main_v12_apply, val_main_cst_1_apply]
  generalize val_main_v11 (F := Ideal) x1 r = deg
  show ∃ c : ℝ, 0 ≤ c ∧ Scalar.select (Ideal.cmp .ogt deg (Ideal.ofBits .f32 0x00000000#32)) (Ideal.rsqrt deg)
    (Ideal.ofBits .f32 0x00000000#32) = (c : EReal)
  rw [Ideal.ofBits_zero_f32]
  by_cases hpos : 0 < deg
  · have hb : Ideal.cmp .ogt deg 0 = 1#1 := by
      show BitVec.ofBool (decide (0 < deg)) = 1#1
      rw [decide_eq_true hpos]; rfl
    rw [hb, select_one]
    exact rsqrt_of_pos deg hpos
  · have hb : Ideal.cmp .ogt deg 0 = 0#1 := by
      show BitVec.ofBool (decide (0 < deg)) = 0#1
      rw [decide_eq_false hpos]; rfl
    rw [hb, select_zero]
    exact ⟨0, le_rfl, EReal.coe_zero.symm⟩

/-! ## The law -/

/-- Row r of `rowScale a c`, read at (r, k). -/
theorem rowScale_at (a : Mat) (c : NodeVec) (r : Fin 100000) (k : Fin 128) :
    rowScale a c (ix2 r k) = a (ix2 r k) * c (ix1 r) := rfl

/-- The accumulating scatter at an element: the operand's element plus the sum of the updates that land on it. -/
theorem scatterAdd_apply {s si u : Shape} {w : Nat} (d : ScatterDims s si u) (x : FVec Ideal s .f32) (idx : IVec si w)
    (upd : FVec Ideal u .f32) (i : s.Idx) :
    Host.scatterAdd (F := Ideal) (φ := .f32) d x idx upd i
      = x i + ∑ j ∈ Finset.univ.filter (fun j => d.resultIdx? j idx = some i), upd j := rfl

/-- The coefficients inside the sum equal the rows scaled before the gather and the sums scaled after it. -/
theorem normSum_eq (h : Cert.Spec.Mat) (x1 : Cert.Spec.Edges) :
    Cert.Spec.normSum h x1
      = Cert.Spec.rowScale (Cert.Spec.gatherSum (Cert.Spec.rowScale h (Cert.Spec.dinv x1)) x1) (Cert.Spec.dinv x1) := by
  funext i
  obtain ⟨r, q, rfl⟩ : ∃ (r : Fin 100000) (q : Fin 128), i = ix2 r q := ⟨i 0, i 1, eq_ix2 i⟩
  obtain ⟨c, hc, hci⟩ := dinv_nonneg x1 (ix1 r)
  rw [rowScale_at, hci]
  delta normSum gatherSum
  rw [scatterAdd_apply, scatterAdd_apply]
  rw [v41_at, zero_add, zero_add, ← sum_mul_coe _ _ c hc]
  refine Finset.sum_congr rfl fun j hj => ?_
  obtain ⟨e, k, rfl⟩ : ∃ (e : Fin 1700000) (k : Fin 128), j = ix2 e k := ⟨j 0, j 1, eq_ix2 j⟩
  have h0 := (scatter_landed_at (val_main_v42 (F := Ideal) x1) e k r q (Finset.mem_filter.mp hj).2).1
  rw [v42_at] at h0
  have hd : clampRow (normIdx (dst x1 e)) = r := clampRow_normIdx _ r h0
  rw [mulf_apply, gather2_at, gather2_at, v39_at, v36_at, rowScale_at, hd, hci, mul_assoc]

end Cert.ScatterLaw

end
-- ==== Proof.NetEq.lean ====
/-
  The reference network and the kernel's network are one function of the arguments: in the graph branch the per-edge
  coefficient dinv(source) · dinv(target) inside the segment sum is the same as scaling the rows by dinv before the gather and
  the summed rows by dinv after it (the factor is a non-negative real, so it distributes over the sum of extended reals).
-/
import proofs.«138258_j55997783605349_2_alg».proof.Proof.ScatterScale

noncomputable section

namespace Cert.NetEq

open Idealize.ShloMosaic Cert.Spec

theorem refNet_eq_kerNet (x0 : (⟨Cert.ReferenceIdeal.S100000x512, .f32⟩ : BufTy).Contents (Elt Ideal)) (x1 : Edges) (x2 : HEdges) (x3 : (⟨Cert.ReferenceIdeal.S512x128, .f32⟩ : BufTy).Contents (Elt Ideal)) (x4 : Row) (x5 : (⟨Cert.ReferenceIdeal.S128x128, .f32⟩ : BufTy).Contents (Elt Ideal)) (x6 : Row) (x7 : (⟨Cert.ReferenceIdeal.S512x128, .f32⟩ : BufTy).Contents (Elt Ideal)) (x8 : Row) (x9 : (⟨Cert.ReferenceIdeal.S128x128, .f32⟩ : BufTy).Contents (Elt Ideal)) (x10 x11 x12 x13 x14 : Row) (x15 : (⟨Cert.ReferenceIdeal.S128x128, .f32⟩ : BufTy).Contents (Elt Ideal)) (x16 : Row) (x17 : (⟨Cert.ReferenceIdeal.S128x128, .f32⟩ : BufTy).Contents (Elt Ideal)) (x18 : Row) :
    refNet x0 x1 x2 x3 x4 x5 x6 x7 x8 x9 x10 x11 x12 x13 x14 x15 x16 x17 x18 = kerNet x0 x1 x2 x3 x4 x5 x6 x7 x8 x9 x10 x11 x12 x13 x14 x15 x16 x17 x18 := by
  unfold refNet kerNet
  rw [Cert.ScatterLaw.normSum_eq, Cert.ScatterLaw.normSum_eq]

end Cert.NetEq

end
-- ==== Proof.KerPay.lean ====
/-
  What the kernels' bodies compute, one entry at a time, over the extended reals.

  A body works on a block of 2000 rows. Every value in it is row-wise: entry (p, q) of a result depends on row p of the
  row-blocked operands and on the whole of the small operands (weights, biases). This module reads the layout operations
  at an index (a column [2000,1] or a row [1,128] broadcast over the block, a vector [2000] cast to a column), the lane
  sum of a row, the two matrix products, and the layer normalisation of a block (its mean and variance are lane sums
  divided by the literal 128, the variance floored by the literal eps before the reciprocal square root).
-/
import proofs.«138258_j55997783605349_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerPay

open Idealize.ShloMosaic Idealize.ShloMosaic.ValueIdx Cert.KernelIdeal Cert.KernelIdeal.Gen

/-! ## Layout operations read at an index -/

/-- A column broadcast over the block's 128 lanes reads the column's entry of the same row. -/
theorem bcastCol_apply (v : FVec Ideal S2000x1 .f32) (p : Fin 2000) (q : Fin 128) :
    broadcastTo S2000x128 v broadcasts_S2000x1_S2000x128 (ix2 p q) = v (ix2 p (0 : Fin 1)) := by
  refine broadcastTo_apply v _ (ix2 p q) (ix2 p (0 : Fin 1)) fun ax => ?_
  match ax with
  | ⟨0, _⟩ => rfl
  | ⟨1, _⟩ => rfl

/-- A row broadcast over the block's 2000 rows reads the row's entry of the same lane. -/
theorem bcastRow_apply (v : FVec Ideal S1x128 .f32) (p : Fin 2000) (q : Fin 128) :
    broadcastTo S2000x128 v broadcasts_S1x128_S2000x128 (ix2 p q) = v (ix2 (0 : Fin 1) q) :=
  broadcastTo_1b_ab_apply v _ p q

/-- A vector of 2000 entries cast to a column: entry (p, 0) is entry p. -/
theorem castCol_apply (v : FVec Ideal S2000 .f32) (p : Fin 2000) :
    shapeCast S2000x1 v shapeCasts_S2000_S2000x1 (ix2 p (0 : Fin 1)) = v (ix1 p) := by
  refine shapeCast_apply v _ (ix2 p (0 : Fin 1)) (ix1 p) ?_
  rw [Shape.rowMajor_val_two, Shape.rowMajor_val_one]
  show p.val = p.val * 1 + 0
  omega

/-- The lane sums of a block's rows, as the bodies take them. -/
def rowSumV (v : FVec Ideal S2000x128 .f32) : FVec Ideal S2000 .f32 :=
  multiReduction .add [1] S2000 v 0x00000000#32 reduces_S2000x128_S2000 (.inl rfl) rfl

/-- The lane sum of row p. -/
theorem rowSum_apply (v : FVec Ideal S2000x128 .f32) (p : Fin 2000) :
    rowSumV v (ix1 p) = ∑ k : Fin 128, v (ix2 p k) := by
  unfold rowSumV
  refine (Ideal.multiReduction_add_single v 0x00000000#32 reduces_S2000x128_S2000 (.inl rfl) rfl (ix1 p)).trans ?_
  refine Finset.sum_congr rfl fun k _ => congrArg v (funext fun a => Fin.ext ?_)
  match a with
  | ⟨0, _⟩ => rfl
  | ⟨1, _⟩ => rfl

/-! ## The matrix products at an index -/

theorem mm512_apply_l0 (i : S2000x128.Idx) (c : dot_S2000x512_S512x128_S2000x128_1_0_0_1_n_n.contr.Idx) : (dot_S2000x512_S512x128_S2000x128_1_0_0_1_n_n.lhsIdx i c 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem mm512_apply_l1 (i : S2000x128.Idx) (c : dot_S2000x512_S512x128_S2000x128_1_0_0_1_n_n.contr.Idx) : (dot_S2000x512_S512x128_S2000x128_1_0_0_1_n_n.lhsIdx i c 1).val = (c ⟨0, by decide⟩).val :=
  dot_S2000x512_S512x128_S2000x128_1_0_0_1_n_n.lhsIdx_val_of_single rfl i c
theorem mm512_apply_r0 (i : S2000x128.Idx) (c : dot_S2000x512_S512x128_S2000x128_1_0_0_1_n_n.contr.Idx) : (dot_S2000x512_S512x128_S2000x128_1_0_0_1_n_n.rhsIdx i c 0).val = (c ⟨0, by decide⟩).val :=
  dot_S2000x512_S512x128_S2000x128_1_0_0_1_n_n.rhsIdx_val_of_single rfl i c
theorem mm512_apply_r1 (i : S2000x128.Idx) (c : dot_S2000x512_S512x128_S2000x128_1_0_0_1_n_n.contr.Idx) : (dot_S2000x512_S512x128_S2000x128_1_0_0_1_n_n.rhsIdx i c 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- A block of S2000x512 against S512x128 weights into a zero accumulator, entry (p, q): the row-column sum over the 512 contracted lanes. -/
theorem mm512_apply (l : FVec Ideal S2000x512 .bf16) (r : FVec Ideal S512x128 .bf16) (p : Fin 2000) (q : Fin 128) :
    matmul dot_S2000x512_S512x128_S2000x128_1_0_0_1_n_n none l r (constant S2000x128 .f32 0x00000000#32) (ix2 p q)
      = ∑ k : Fin 512, l (ix2 p k) * r (ix2 k q) := by
  refine (Ideal.matmul_constant_zero_apply dot_S2000x512_S512x128_S2000x128_1_0_0_1_n_n none l r (ix2 p q)).trans ?_
  rw [← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx (ix2 p q) ((contrEquiv1 dot_S2000x512_S512x128_S2000x128_1_0_0_1_n_n 512 rfl rfl).symm k) = ix2 p k :=
    funext fun a => Fin.ext (by
      match a with
      | ⟨0, _⟩ => exact mm512_apply_l0 _ _
      | ⟨1, _⟩ => exact (mm512_apply_l1 _ _).trans hk)
  have er : dot_S2000x512_S512x128_S2000x128_1_0_0_1_n_n.rhsIdx (ix2 p q) ((contrEquiv1 dot_S2000x512_S512x128_S2000x128_1_0_0_1_n_n 512 rfl rfl).symm k) = ix2 k q :=
    funext fun a => Fin.ext (by
      match a with
      | ⟨0, _⟩ => exact (mm512_apply_r0 _ _).trans hk
      | ⟨1, _⟩ => exact mm512_apply_r1 _ _)
  rw [el, er]

theorem mm128_apply_l0 (i : S2000x128.Idx) (c : dot_S2000x128_S128x128_S2000x128_1_0_0_1_n_n.contr.Idx) : (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem mm128_apply_l1 (i : S2000x128.Idx) (c : dot_S2000x128_S128x128_S2000x128_1_0_0_1_n_n.contr.Idx) : (dot_S2000x128_S128x128_S2000x128_1_0_0_1_n_n.lhsIdx i c 1).val = (c ⟨0, by decide⟩).val :=
  dot_S2000x128_S128x128_S2000x128_1_0_0_1_n_n.lhsIdx_val_of_single rfl i c
theorem mm128_apply_r0 (i : S2000x128.Idx) (c : dot_S2000x128_S128x128_S2000x128_1_0_0_1_n_n.contr.Idx) : (dot_S2000x128_S128x128_S2000x128_1_0_0_1_n_n.rhsIdx i c 0).val = (c ⟨0, by decide⟩).val :=
  dot_S2000x128_S128x128_S2000x128_1_0_0_1_n_n.rhsIdx_val_of_single rfl i c
theorem mm128_apply_r1 (i : S2000x128.Idx) (c : dot_S2000x128_S128x128_S2000x128_1_0_0_1_n_n.contr.Idx) : (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A block of S2000x128 against S128x128 weights into a zero accumulator, entry (p, q): the row-column sum over the 128 contracted lanes. -/
theorem mm128_apply (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  refine (Ideal.matmul_constant_zero_apply dot_S2000x128_S128x128_S2000x128_1_0_0_1_n_n none l r (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k :=
    funext fun a => Fin.ext (by
      match a with
      | ⟨0, _⟩ => exact mm128_apply_l0 _ _
      | ⟨1, _⟩ => exact (mm128_apply_l1 _ _).trans hk)
  have er : dot_S2000x128_S128x128_S2000x128_1_0_0_1_n_n.rhsIdx (ix2 p q) ((contrEquiv1 dot_S2000x128_S128x128_S2000x128_1_0_0_1_n_n 128 rfl rfl).symm k) = ix2 k q :=
    funext fun a => Fin.ext (by
      match a with
      | ⟨0, _⟩ => exact (mm128_apply_r0 _ _).trans hk
      | ⟨1, _⟩ => exact mm128_apply_r1 _ _)
  rw [el, er]

/-! ## Layer normalisation of a block -/

/-- The reciprocal square root of a block, entry by entry. -/
theorem rsqrt_apply {s : Shape} (a : FVec Ideal s .f32) (i : s.Idx) : rsqrt a i = Ideal.rsqrt (a i) := rfl

/-- The bodies' layer normalisation of a block `v9` with scale row `v28` and shift row `v32`, then max(·, 0): the lane sum over
    128 divided by the literal 128 is the row mean; the centred block squared, summed and divided the same way is the row
    variance; the centred block times the reciprocal square root of (variance + eps), scaled, shifted, floored at 0. -/
def lnBlock (v9 : FVec Ideal S2000x128 .f32) (v28 v32 : FVec Ideal S1x128 .f32) : FVec Ideal S2000x128 .f32 :=
  have v10 : FVec Ideal S2000 .f32 := rowSumV v9
  have v11 : FVec Ideal S2000x1 .f32 := shapeCast S2000x1 v10 shapeCasts_S2000_S2000x1
  have cst_5 : Ideal .f32 := Scalar.ofBits .f32 0x43000000#32
  have v12 : FVec Ideal S2000x1 .f32 := broadcast S2000x1 cst_5
  have v13 : FVec Ideal S2000x1 .f32 := divf v11 v12
  have v14 : FVec Ideal S2000x128 .f32 := broadcastTo S2000x128 v13 broadcasts_S2000x1_S2000x128
  have v15 : FVec Ideal S2000x128 .f32 := subf v9 v14
  have v16 : FVec Ideal S2000x128 .f32 := mulf v15 v15
  have v17 : FVec Ideal S2000 .f32 := rowSumV v16
  have v18 : FVec Ideal S2000x1 .f32 := shapeCast S2000x1 v17 shapeCasts_S2000_S2000x1
  have cst_7 : Ideal .f32 := Scalar.ofBits .f32 0x43000000#32
  have v19 : FVec Ideal S2000x1 .f32 := broadcast S2000x1 cst_7
  have v20 : FVec Ideal S2000x1 .f32 := divf v18 v19
  have v21 : FVec Ideal S2000x128 .f32 := broadcastTo S2000x128 v13 broadcasts_S2000x1_S2000x128
  have v22 : FVec Ideal S2000x128 .f32 := subf v9 v21
  have cst_8 : Ideal .f32 := Scalar.ofBits .f32 0x3727C5AC#32
  have v23 : FVec Ideal S2000x1 .f32 := broadcast S2000x1 cst_8
  have v24 : FVec Ideal S2000x1 .f32 := addf v20 v23
  have v25 : FVec Ideal S2000x1 .f32 := rsqrt v24
  have v26 : FVec Ideal S2000x128 .f32 := broadcastTo S2000x128 v25 broadcasts_S2000x1_S2000x128
  have v27 : FVec Ideal S2000x128 .f32 := mulf v22 v26
  have v29 : FVec Ideal S1x128 .f32 := shapeCast S1x128 v28 shapeCasts_S1x128_S1x128
  have v30 : FVec Ideal S2000x128 .f32 := broadcastTo S2000x128 v29 broadcasts_S1x128_S2000x128
  have v31 : FVec Ideal S2000x128 .f32 := mulf v27 v30
  have v33 : FVec Ideal S1x128 .f32 := shapeCast S1x128 v32 shapeCasts_S1x128_S1x128
  have v34 : FVec Ideal S2000x128 .f32 := broadcastTo S2000x128 v33 broadcasts_S1x128_S2000x128
  have v35 : FVec Ideal S2000x128 .f32 := addf v31 v34
  have cst_13 : Ideal .f32 := Scalar.ofBits .f32 0x00000000#32
  have v36 : FVec Ideal S2000x128 .f32 := broadcast S2000x128 cst_13
  have v37 : FVec Ideal S2000x128 .f32 := maximumf v35 v36
  v37

/-- Layer normalisation, the affine map and max(·, 0) of ONE entry: `row` is the entry's row (128 lanes), `q` its lane, `wq` and
    `bq` the scale and shift of that lane. -/
def lnAt (row : Fin 128 → EReal) (q : Fin 128) (wq bq : EReal) : EReal :=
  max ((row q - Ideal.div (∑ k : Fin 128, row k) (Ideal.ofBits .f32 0x43000000#32))
        * Ideal.rsqrt (Ideal.div (∑ k : Fin 128, (row k - Ideal.div (∑ k' : Fin 128, row k') (Ideal.ofBits .f32 0x43000000#32))
              * (row k - Ideal.div (∑ k' : Fin 128, row k') (Ideal.ofBits .f32 0x43000000#32))) (Ideal.ofBits .f32 0x43000000#32)
            + Ideal.ofBits .f32 0x3727C5AC#32)
        * wq + bq) (Ideal.ofBits .f32 0x00000000#32)

/-- Entry (p, q) of the normalised block, from row p of the block alone. -/
theorem lnBlock_apply (a : FVec Ideal S2000x128 .f32) (w b : FVec Ideal S1x128 .f32) (p : Fin 2000) (q : Fin 128) :
    lnBlock a w b (ix2 p q) = lnAt (fun k => a (ix2 p k)) q (w (ix2 (0 : Fin 1) q)) (b (ix2 (0 : Fin 1) q)) := by
  unfold lnBlock
  simp only [maximumf_apply, addf_apply, mulf_apply, subf_apply, divf_apply, rsqrt_apply, broadcast_apply, bcastCol_apply, bcastRow_apply,
    castCol_apply, rowSum_apply, shapeCast_self]
  rfl

/-! ## The stored payloads at an index -/

/-- Region 0, graph branch: the product with the first weights, each row scaled by its node's coefficient. -/
theorem pay0g_apply (x0 : Vec Ideal S2000x512 .f32) (x1 : Vec Ideal S512x128 .f32) (x3 : Vec Ideal S2000x1 .f32) (p : Fin 2000) (q : Fin 128) :
    k0_pay3 x0 x1 x3 (ix2 p q) = (∑ k : Fin 512, x0 (ix2 p k) * x1 (ix2 k q)) * x3 (ix2 p (0 : Fin 1)) := by
  unfold k0_pay3 k0_pay1
  simp only [mulf_apply, bcastCol_apply, shapeCast_self, mm512_apply, truncf_apply]

/-- Region 0, hypergraph branch: the product with the first weights. -/
theorem pay0h_apply (x0 : Vec Ideal S2000x512 .f32) (x2 : Vec Ideal S512x128 .f32) (p : Fin 2000) (q : Fin 128) :
    k0_pay2 x0 x2 (ix2 p q) = ∑ k : Fin 512, x0 (ix2 p k) * x2 (ix2 k q) := by
  unfold k0_pay2 k0_pay1
  simp only [mm512_apply, truncf_apply]

/-- The graph branch's normalised activations of a block: rows scaled by the node coefficient, biased, normalised. -/
theorem lnG_apply (x0 : Vec Ideal S2000x128 .f32) (x1 : Vec Ideal S2000x1 .f32) (x2 x3 x4 : Vec Ideal S1x128 .f32) (p : Fin 2000) (k : Fin 128) :
    lnBlock (addf (mulf (shapeCast S2000x128 x0 shapeCasts_S2000x128_S2000x128) (broadcastTo S2000x128 (shapeCast S2000x1 x1 shapeCasts_S2000x1_S2000x1) broadcasts_S2000x1_S2000x128))
        (broadcastTo S2000x128 (shapeCast S1x128 x2 shapeCasts_S1x128_S1x128) broadcasts_S1x128_S2000x128)) x3 x4 (ix2 p k)
      = lnAt (fun j => x0 (ix2 p j) * x1 (ix2 p (0 : Fin 1)) + x2 (ix2 (0 : Fin 1) j)) k (x3 (ix2 (0 : Fin 1) k)) (x4 (ix2 (0 : Fin 1) k)) := by
  rw [lnBlock_apply]
  simp only [addf_apply, mulf_apply, bcastCol_apply, bcastRow_apply, shapeCast_self]

/-- The hypergraph branch's normalised activations of a block: biased, normalised. -/
theorem lnH_apply (x6 : Vec Ideal S2000x128 .f32) (x7 x8 x9 : Vec Ideal S1x128 .f32) (p : Fin 2000) (k : Fin 128) :
    lnBlock (addf (shapeCast S2000x128 x6 shapeCasts_S2000x128_S2000x128) (broadcastTo S2000x128 (shapeCast S1x128 x7 shapeCasts_S1x128_S1x128) broadcasts_S1x128_S2000x128)) x8 x9 (ix2 p k)
      = lnAt (fun j => x6 (ix2 p j) + x7 (ix2 (0 : Fin 1) j)) k (x8 (ix2 (0 : Fin 1) k)) (x9 (ix2 (0 : Fin 1) k)) := by
  rw [lnBlock_apply]
  simp only [addf_apply, bcastRow_apply, shapeCast_self]

theorem k1_pay2_apply (x0 : Vec Ideal S2000x128 .f32) (x1 : Vec Ideal S2000x1 .f32) (x2 x3 x4 : Vec Ideal S1x128 .f32) (p : Fin 2000) (k : Fin 128) :
    k1_pay2 x0 x1 x2 x3 x4 (ix2 p k)
      = lnAt (fun j => x0 (ix2 p j) * x1 (ix2 p (0 : Fin 1)) + x2 (ix2 (0 : Fin 1) j)) k (x3 (ix2 (0 : Fin 1) k)) (x4 (ix2 (0 : Fin 1) k)) :=
  lnG_apply x0 x1 x2 x3 x4 p k

theorem k2_pay2_apply (x0 : Vec Ideal S2000x128 .f32) (x1 : Vec Ideal S2000x1 .f32) (x2 x3 x4 : Vec Ideal S1x128 .f32) (p : Fin 2000) (k : Fin 128) :
    k2_pay2 x0 x1 x2 x3 x4 (ix2 p k)
      = lnAt (fun j => x0 (ix2 p j) * x1 (ix2 p (0 : Fin 1)) + x2 (ix2 (0 : Fin 1) j)) k (x3 (ix2 (0 : Fin 1) k)) (x4 (ix2 (0 : Fin 1) k)) :=
  lnG_apply x0 x1 x2 x3 x4 p k

theorem k1_pay5_apply (x6 : Vec Ideal S2000x128 .f32) (x7 x8 x9 : Vec Ideal S1x128 .f32) (p : Fin 2000) (k : Fin 128) :
    k1_pay5 x6 x7 x8 x9 (ix2 p k) = lnAt (fun j => x6 (ix2 p j) + x7 (ix2 (0 : Fin 1) j)) k (x8 (ix2 (0 : Fin 1) k)) (x9 (ix2 (0 : Fin 1) k)) :=
  lnH_apply x6 x7 x8 x9 p k

/-- Region 1, graph branch: the normalised activations times the second weights, rows scaled by the node coefficient. -/
theorem pay1g_apply (x0 : Vec Ideal S2000x128 .f32) (x1 : Vec Ideal S2000x1 .f32) (x2 x3 x4 : Vec Ideal S1x128 .f32) (x5 : Vec Ideal S128x128 .f32)
    (p : Fin 2000) (q : Fin 128) :
    k1_pay4 (k1_pay2 x0 x1 x2 x3 x4) (k1_pay3 x5) x1 (ix2 p q)
      = (∑ k : Fin 128, lnAt (fun j => x0 (ix2 p j) * x1 (ix2 p (0 : Fin 1)) + x2 (ix2 (0 : Fin 1) j)) k (x3 (ix2 (0 : Fin 1) k)) (x4 (ix2 (0 : Fin 1) k)) * x5 (ix2 k q))
        * x1 (ix2 p (0 : Fin 1)) := by
  unfold k1_pay4 k1_pay3
  simp only [mulf_apply, bcastCol_apply, shapeCast_self, mm128_apply, truncf_apply, k1_pay2_apply]

/-- Region 1, hypergraph branch: the normalised activations times the second weights. -/
theorem pay1h_apply (x6 : Vec Ideal S2000x128 .f32) (x7 x8 x9 : Vec Ideal S1x128 .f32) (x10 : Vec Ideal S128x128 .f32) (p : Fin 2000) (q : Fin 128) :
    k1_pay1 (k1_pay5 x6 x7 x8 x9) x10 (ix2 p q)
      = ∑ k : Fin 128, lnAt (fun j => x6 (ix2 p j) + x7 (ix2 (0 : Fin 1) j)) k (x8 (ix2 (0 : Fin 1) k)) (x9 (ix2 (0 : Fin 1) k)) * x10 (ix2 k q) := by
  unfold k1_pay1
  simp only [mm128_apply, truncf_apply, k1_pay5_apply]

/-- The second half of region 2's body with its layer normalisation named. -/
theorem k2_pay4_eq (v37 v39 : FVec Ideal S2000x128 .f32) (v40 v62 v66 : Vec Ideal S1x128 .f32) (v76 : Vec Ideal S128x128 .f32) (v79 : Vec Ideal S1x128 .f32) :
    k2_pay4 v37 v39 v40 v62 v66 v76 v79
      = addf (matmul dot_S2000x128_S128x128_S2000x128_1_0_0_1_n_n none
            (truncf .bf16 (mulf (addf v37 (lnBlock (addf v39 (broadcastTo S2000x128 (shapeCast S1x128 v40 shapeCasts_S1x128_S1x128) broadcasts_S1x128_S2000x128)) v62 v66))
              (broadcast S2000x128 (Scalar.ofBits .f32 0x3F000000#32))) bitsLt_bf16_f32)
            (truncf .bf16 v76 bitsLt_bf16_f32) (constant S2000x128 .f32 0x00000000#32))
          (broadcastTo S2000x128 (shapeCast S1x128 v79 shapeCasts_S1x128_S1x128) broadcasts_S1x128_S2000x128) := rfl

/-- Region 2: both branches normalised, averaged, and the two-layer head. -/
theorem pay2_apply (x0 : Vec Ideal S2000x128 .f32) (x1 : Vec Ideal S2000x1 .f32) (x2 x3 x4 : Vec Ideal S1x128 .f32) (x5 : Vec Ideal S2000x128 .f32)
    (x6 x7 x8 : Vec Ideal S1x128 .f32) (x9 : Vec Ideal S128x128 .f32) (x10 : Vec Ideal S1x128 .f32) (x11 : Vec Ideal S128x128 .f32) (x12 : Vec Ideal S1x128 .f32)
    (p : Fin 2000) (q : Fin 128) :
    k2_pay1 (k2_pay4 (k2_pay2 x0 x1 x2 x3 x4) (k2_pay3 x5) x6 x7 x8 x9 x10) x11 x12 (ix2 p q)
      = (∑ k2 : Fin 128, max ((∑ k : Fin 128,
            ((lnAt (fun j => x0 (ix2 p j) * x1 (ix2 p (0 : Fin 1)) + x2 (ix2 (0 : Fin 1) j)) k (x3 (ix2 (0 : Fin 1) k)) (x4 (ix2 (0 : Fin 1) k))
              + lnAt (fun j => x5 (ix2 p j) + x6 (ix2 (0 : Fin 1) j)) k (x7 (ix2 (0 : Fin 1) k)) (x8 (ix2 (0 : Fin 1) k))) * Ideal.ofBits .f32 0x3F000000#32)
              * x9 (ix2 k k2)) + x10 (ix2 (0 : Fin 1) k2)) (Ideal.ofBits .f32 0x00000000#32) * x11 (ix2 k2 q))
        + x12 (ix2 (0 : Fin 1) q) := by
  unfold k2_pay1
  rw [k2_pay4_eq]
  unfold k2_pay3
  simp only [addf_apply, mulf_apply, maximumf_apply, broadcast_apply, bcastRow_apply, shapeCast_self, mm128_apply, truncf_apply, k2_pay2_apply, lnBlock_apply]
  rfl

end Cert.KernelIdeal.KerPay

end
-- ==== Proof.KerReg0.lean ====
/-
  Region 0 (the two first-layer products), from blocks to arrays.

  The grid has 50 points; point t works on rows 2000 t … 2000 t + 1999 of the row-blocked operands (the node features, the
  per-node coefficient column) and on the whole of the two weight matrices, and writes rows 2000 t … of the two results.
  Every body value is row-wise, so each result array is ONE function of the operand arrays, index by index; the blocks
  tile the 100000 rows, so after the run the array IS that function.
-/
import proofs.«138258_j55997783605349_2_alg».proof.Proof.Gen.KernelIdeal.Frame
import proofs.«138258_j55997783605349_2_alg».proof.Proof.KerPay
import Idealize.ShloMosaic.Lib.Pipeline.Value

set_option maxRecDepth 16384

noncomputable section

open scoped BigOperators

namespace Cert.KernelIdeal.KerReg

open Idealize.ShloMosaic Idealize.ShloMosaic.TcCoe Idealize.ShloMosaic.ValueIdx Idealize.SL.Sem Cert.KernelIdeal Cert.KernelIdeal.Gen Cert.KernelIdeal.KerPay
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block indices of region 0's windows at point t: the row-blocked windows sit at block row t, the weights at (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row p of point t's block is row 2000 t + p of the array. -/
def row0 (t : Fin cfg0.N) (p : Fin 2000) : Fin 100000 :=
  ⟨t.val * 2000 + p.val, by have h := t.isLt; have hN : cfg0.N = 50 := N_0; have := p.isLt; omega⟩

/-- What region 0 leaves in its first result: the product with the first weights, each row scaled by its node's coefficient. -/
def G0g (A0 : S100000x512.Idx → EReal) (A1 : S512x128.Idx → EReal) (A3 : S100000x1.Idx → EReal) : S100000x128.Idx → EReal :=
  fun i => (∑ k : Fin 512, A0 (ix2 (i 0) k) * A1 (ix2 k (i 1))) * A3 (ix2 (i 0) (0 : Fin 1))

/-- What region 0 leaves in its second result: the product with the other first weights. -/
def G0h (A0 : S100000x512.Idx → EReal) (A2 : S512x128.Idx → EReal) : S100000x128.Idx → EReal :=
  fun i => ∑ k : Fin 512, A0 (ix2 (i 0) k) * A2 (ix2 k (i 1))

theorem blk0_0 (c : Dev nD) (t : Fin cfg0.N) (a : Fin 2000) (b : Fin 512) :
    iblk0 V c 0 t (ix2 a b) = V c (Pipeline.arrRef spec0 0) (ix2 (row0 t a) b) := by
  show V c (Pipeline.arrRef spec0 0) (((cfg0.win 0).blk t).view.emb (ix2 a b)) = _
  refine congrArg _ (funext fun ax => Fin.ext ?_)
  have hI := idx0 t
  match ax with
  | ⟨0, _⟩ => show win0_0.index t (0 : Fin 2) * 2000 + 1 * a.val = t.val * 2000 + a.val; omega
  | ⟨1, _⟩ => show win0_0.index t (1 : Fin 2) * 512 + 1 * b.val = b.val; omega

theorem blk0_1 (c : Dev nD) (t : Fin cfg0.N) (a : Fin 512) (b : Fin 128) :
    iblk0 V c 1 t (ix2 a b) = V c (Pipeline.arrRef spec0 1) (ix2 a b) := by
  show V c (Pipeline.arrRef spec0 1) (((cfg0.win 1).blk t).view.emb (ix2 a b)) = _
  refine congrArg _ (funext fun ax => Fin.ext ?_)
  have hI := idx0 t
  match ax with
  | ⟨0, _⟩ => show win0_1.index t (0 : Fin 2) * 512 + 1 * a.val = a.val; omega
  | ⟨1, _⟩ => show win0_1.index t (1 : Fin 2) * 128 + 1 * b.val = b.val; omega

theorem blk0_2 (c : Dev nD) (t : Fin cfg0.N) (a : Fin 512) (b : Fin 128) :
    iblk0 V c 2 t (ix2 a b) = V c (Pipeline.arrRef spec0 2) (ix2 a b) := by
  show V c (Pipeline.arrRef spec0 2) (((cfg0.win 2).blk t).view.emb (ix2 a b)) = _
  refine congrArg _ (funext fun ax => Fin.ext ?_)
  have hI := idx0 t
  match ax with
  | ⟨0, _⟩ => show win0_2.index t (0 : Fin 2) * 512 + 1 * a.val = a.val; omega
  | ⟨1, _⟩ => show win0_2.index t (1 : Fin 2) * 128 + 1 * b.val = b.val; omega

theorem blk0_3 (c : Dev nD) (t : Fin cfg0.N) (a : Fin 2000) (b : Fin 1) :
    iblk0 V c 3 t (ix2 a b) = V c (Pipeline.arrRef spec0 3) (ix2 (row0 t a) b) := by
  show V c (Pipeline.arrRef spec0 3) (((cfg0.win 3).blk t).view.emb (ix2 a b)) = _
  refine congrArg _ (funext fun ax => Fin.ext ?_)
  have hI := idx0 t
  match ax with
  | ⟨0, _⟩ => show win0_3.index t (0 : Fin 2) * 2000 + 1 * a.val = t.val * 2000 + a.val; omega
  | ⟨1, _⟩ => show win0_3.index t (1 : Fin 2) * 1 + 1 * b.val = b.val; omega

/-- Where entry (p, q) of point t's block of window 4 sits in the array. -/
theorem emb0_4 (t : Fin cfg0.N) (p : Fin 2000) (q : Fin 128) :
    ((cfg0.win 4).blk t).view.emb (ix2 p q) = ix2 (row0 t p) q := by
  refine funext fun ax => Fin.ext ?_
  have hI := idx0 t
  match ax with
  | ⟨0, _⟩ => show win0_4.index t (0 : Fin 2) * 2000 + 1 * p.val = t.val * 2000 + p.val; omega
  | ⟨1, _⟩ => show win0_4.index t (1 : Fin 2) * 128 + 1 * q.val = q.val; omega

/-- What point t writes back through window 4 is block t of ONE function of the region's operand arrays. -/
theorem flushed0_4 (c : Dev nD) (t : Fin cfg0.N) :
    (dat0 V c).flushed 4 t = ((cfg0.win 4).blk t).view.read (Elt Ideal) (G0g (V c (Pipeline.arrRef spec0 0)) (V c (Pipeline.arrRef spec0 1)) (V c (Pipeline.arrRef spec0 3))) := by
  show (cfg0.win 4).cut (grid0.coords t) ((dat0 V c).after 4 t) = _
  rw [after0_4]
  unfold out0_4
  rw [View.canon_unit_zero hz]
  simp only [View.ld_unit_zero (S := S2000x512) hz, View.ld_unit_zero (S := S512x128) hz, View.ld_unit_zero (S := S2000x1) hz]
  funext j
  obtain ⟨p, q, rfl⟩ : ∃ (p : Fin 2000) (q : Fin 128), j = ix2 p q := ⟨j 0, j 1, eq_ix2 j⟩
  refine (pay0g_apply _ _ _ p q).trans ?_
  rw [View.read_apply, emb0_4]
  simp only [blk0_0 V c t, blk0_1 V c t, blk0_3 V c t]
  rfl

/-- An index is in point t's block of window 4 iff each coordinate is in the block's range. -/
theorem mem_blk0_4 (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v39_0).slice (win0_4.rect t)).set ↔ _
  rw [View.set_slice_whole, Rect.mem_set_unit]
  exact Iff.rfl

/-- Every row of the array is in the block of the point its row number divided by 2000 names. -/
theorem cover0_4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by omega⟩, rfl⟩
  refine ⟨t, flush0_4 t, ?_⟩
  rw [mem_blk0_4]
  have hI := idx0 t
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- The array after the run. -/
theorem final0_4 (c : Dev nD) : (dat0 V c).arrAt 4 cfg0.N = G0g (V c (Pipeline.arrRef spec0 0)) (V c (Pipeline.arrRef spec0 1)) (V c (Pipeline.arrRef spec0 3)) :=
  (dat0 V c).arrAt_eq_of_cover 4 _ (fun t _ => flushed0_4 V c t) cover0_4

/-- Where entry (p, q) of point t's block of window 5 sits in the array. -/
theorem emb0_5 (t : Fin cfg0.N) (p : Fin 2000) (q : Fin 128) :
    ((cfg0.win 5).blk t).view.emb (ix2 p q) = ix2 (row0 t p) q := by
  refine funext fun ax => Fin.ext ?_
  have hI := idx0 t
  match ax with
  | ⟨0, _⟩ => show win0_5.index t (0 : Fin 2) * 2000 + 1 * p.val = t.val * 2000 + p.val; omega
  | ⟨1, _⟩ => show win0_5.index t (1 : Fin 2) * 128 + 1 * q.val = q.val; omega

/-- What point t writes back through window 5 is block t of ONE function of the region's operand arrays. -/
theorem flushed0_5 (c : Dev nD) (t : Fin cfg0.N) :
    (dat0 V c).flushed 5 t = ((cfg0.win 5).blk t).view.read (Elt Ideal) (G0h (V c (Pipeline.arrRef spec0 0)) (V c (Pipeline.arrRef spec0 2))) := by
  show (cfg0.win 5).cut (grid0.coords t) ((dat0 V c).after 5 t) = _
  rw [after0_5]
  unfold out0_5
  rw [View.canon_unit_zero hz]
  simp only [View.ld_unit_zero (S := S2000x512) hz, View.ld_unit_zero (S := S512x128) hz]
  funext j
  obtain ⟨p, q, rfl⟩ : ∃ (p : Fin 2000) (q : Fin 128), j = ix2 p q := ⟨j 0, j 1, eq_ix2 j⟩
  refine (pay0h_apply _ _ p q).trans ?_
  rw [View.read_apply, emb0_5]
  simp only [blk0_0 V c t, blk0_2 V c t]
  rfl

/-- An index is in point t's block of window 5 iff each coordinate is in the block's range. -/
theorem mem_blk0_5 (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v39_1).slice (win0_5.rect t)).set ↔ _
  rw [View.set_slice_whole, Rect.mem_set_unit]
  exact Iff.rfl

/-- Every row of the array is in the block of the point its row number divided by 2000 names. -/
theorem cover0_5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  obtain ⟨t, ht⟩ : ∃ t : Fin cfg0.N, t.val = (i 0).val / 2000 := ⟨⟨(i 0).val / 2000, by omega⟩, rfl⟩
  refine ⟨t, flush0_5 t, ?_⟩
  rw [mem_blk0_5]
  have hI := idx0 t
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The array after the run. -/
theorem final0_5 (c : Dev nD) : (dat0 V c).arrAt 5 cfg0.N = G0h (V c (Pipeline.arrRef spec0 0)) (V c (Pipeline.arrRef spec0 2)) :=
  (dat0 V c).arrAt_eq_of_cover 5 _ (fun t _ => flushed0_5 V c t) cover0_5

end Cert.KernelIdeal.KerReg

end
-- ==== Proof.KerReg1.lean ====
/-
  Region 1 (first-layer epilogue and second-layer products), from blocks to arrays.

  Point t works on rows 2000 t … of the two aggregated arrays and of the coefficient column, and on the whole of the bias,
  scale and shift rows and of the two weight matrices. Graph branch: rows scaled by the node coefficient, biased,
  normalised, floored at 0, multiplied by the second weights, rows scaled again. Hypergraph branch: biased, normalised,
  floored, multiplied by its second weights. Each result array is one row-wise function of the operand arrays.
-/
import proofs.«138258_j55997783605349_2_alg».proof.Proof.Gen.KernelIdeal.Frame
import proofs.«138258_j55997783605349_2_alg».proof.Proof.KerPay
import Idealize.ShloMosaic.Lib.Pipeline.Value

set_option maxRecDepth 16384

noncomputable section

open scoped BigOperators

namespace Cert.KernelIdeal.KerReg

open Idealize.ShloMosaic Idealize.ShloMosaic.TcCoe Idealize.ShloMosaic.ValueIdx Idealize.SL.Sem Cert.KernelIdeal Cert.KernelIdeal.Gen Cert.KernelIdeal.KerPay
open Idealize.ShloMosaic.Pipeline (Dat Cfg Window)

variable (V : (c : Dev nD) → (b : Ref sig .tc) → Buf (Elt Ideal) ((c : Thread nD τ).loc b))

theorem hz1 : (![0, 0] : Fin 2 → Nat) = fun _ => 0 := funext fun a => by fin_cases a <;> rfl

/-- The block indices of region 1's windows at point t: the row-blocked windows sit at block row t, the small operands at (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = t.val ∧ win1_11.index t (1 : Fin 2) = 0
    ∧ win1_12.index t (0 : Fin 2) = t.val ∧ win1_12.index t (1 : Fin 2) = 0 :=
  (by decide +kernel : ∀ t : Fin grid1.N, _)

/-- Row p of point t's block is row 2000 t + p of the array. -/
def row1 (t : Fin cfg1.N) (p : Fin 2000) : Fin 100000 :=
  ⟨t.val * 2000 + p.val, by have h := t.isLt; have hN : cfg1.N = 50 := N_1; have := p.isLt; omega⟩

/-- Region 1's first result. -/
def G1g (A0 : S100000x128.Idx → EReal) (A1 : S100000x1.Idx → EReal) (A2 A3 A4 : S1x128.Idx → EReal) (A5 : S128x128.Idx → EReal) : S100000x128.Idx → EReal :=
  fun i => (∑ k : Fin 128, lnAt (fun j => A0 (ix2 (i 0) j) * A1 (ix2 (i 0) (0 : Fin 1)) + A2 (ix2 (0 : Fin 1) j)) k (A3 (ix2 (0 : Fin 1) k)) (A4 (ix2 (0 : Fin 1) k)) * A5 (ix2 k (i 1))) * A1 (ix2 (i 0) (0 : Fin 1))

/-- Region 1's second result. -/
def G1h (A6 : S100000x128.Idx → EReal) (A7 A8 A9 : S1x128.Idx → EReal) (A10 : S128x128.Idx → EReal) : S100000x128.Idx → EReal :=
  fun i => ∑ k : Fin 128, lnAt (fun j => A6 (ix2 (i 0) j) + A7 (ix2 (0 : Fin 1) j)) k (A8 (ix2 (0 : Fin 1) k)) (A9 (ix2 (0 : Fin 1) k)) * A10 (ix2 k (i 1))

theorem blk1_0 (c : Dev nD) (t : Fin cfg1.N) (a : Fin 2000) (b : Fin 128) :
    iblk1 V c 0 t (ix2 a b) = V c (Pipeline.arrRef spec1 0) (ix2 (row1 t a) b) := by
  show V c (Pipeline.arrRef spec1 0) (((cfg1.win 0).blk t).view.emb (ix2 a b)) = _
  refine congrArg _ (funext fun ax => Fin.ext ?_)
  have hI := idx1 t
  match ax with
  | ⟨0, _⟩ => show win1_0.index t (0 : Fin 2) * 2000 + 1 * a.val = t.val * 2000 + a.val; omega
  | ⟨1, _⟩ => show win1_0.index t (1 : Fin 2) * 128 + 1 * b.val = b.val; omega

theorem blk1_1 (c : Dev nD) (t : Fin cfg1.N) (a : Fin 2000) (b : Fin 1) :
    iblk1 V c 1 t (ix2 a b) = V c (Pipeline.arrRef spec1 1) (ix2 (row1 t a) b) := by
  show V c (Pipeline.arrRef spec1 1) (((cfg1.win 1).blk t).view.emb (ix2 a b)) = _
  refine congrArg _ (funext fun ax => Fin.ext ?_)
  have hI := idx1 t
  match ax with
  | ⟨0, _⟩ => show win1_1.index t (0 : Fin 2) * 2000 + 1 * a.val = t.val * 2000 + a.val; omega
  | ⟨1, _⟩ => show win1_1.index t (1 : Fin 2) * 1 + 1 * b.val = b.val; omega

theorem blk1_2 (c : Dev nD) (t : Fin cfg1.N) (a : Fin 1) (b : Fin 128) :
    iblk1 V c 2 t (ix2 a b) = V c (Pipeline.arrRef spec1 2) (ix2 a b) := by
  show V c (Pipeline.arrRef spec1 2) (((cfg1.win 2).blk t).view.emb (ix2 a b)) = _
  refine congrArg _ (funext fun ax => Fin.ext ?_)
  have hI := idx1 t
  match ax with
  | ⟨0, _⟩ => show win1_2.index t (0 : Fin 2) * 1 + 1 * a.val = a.val; omega
  | ⟨1, _⟩ => show win1_2.index t (1 : Fin 2) * 128 + 1 * b.val = b.val; omega

theorem blk1_3 (c : Dev nD) (t : Fin cfg1.N) (a : Fin 1) (b : Fin 128) :
    iblk1 V c 3 t (ix2 a b) = V c (Pipeline.arrRef spec1 3) (ix2 a b) := by
  show V c (Pipeline.arrRef spec1 3) (((cfg1.win 3).blk t).view.emb (ix2 a b)) = _
  refine congrArg _ (funext fun ax => Fin.ext ?_)
  have hI := idx1 t
  match ax with
  | ⟨0, _⟩ => show win1_3.index t (0 : Fin 2) * 1 + 1 * a.val = a.val; omega
  | ⟨1, _⟩ => show win1_3.index t (1 : Fin 2) * 128 + 1 * b.val = b.val; omega

theorem blk1_4 (c : Dev nD) (t : Fin cfg1.N) (a : Fin 1) (b : Fin 128) :
    iblk1 V c 4 t (ix2 a b) = V c (Pipeline.arrRef spec1 4) (ix2 a b) := by
  show V c (Pipeline.arrRef spec1 4) (((cfg1.win 4).blk t).view.emb (ix2 a b)) = _
  refine congrArg _ (funext fun ax => Fin.ext ?_)
  have hI := idx1 t
  match ax with
  | ⟨0, _⟩ => show win1_4.index t (0 : Fin 2) * 1 + 1 * a.val = a.val; omega
  | ⟨1, _⟩ => show win1_4.index t (1 : Fin 2) * 128 + 1 * b.val = b.val; omega

theorem blk1_5 (c : Dev nD) (t : Fin cfg1.N) (a : Fin 128) (b : Fin 128) :
    iblk1 V c 5 t (ix2 a b) = V c (Pipeline.arrRef spec1 5) (ix2 a b) := by
  show V c (Pipeline.arrRef spec1 5) (((cfg1.win 5).blk t).view.emb (ix2 a b)) = _
  refine congrArg _ (funext fun ax => Fin.ext ?_)
  have hI := idx1 t
  match ax with
  | ⟨0, _⟩ => show win1_5.index t (0 : Fin 2) * 128 + 1 * a.val = a.val; omega
  | ⟨1, _⟩ => show win1_5.index t (1 : Fin 2) * 128 + 1 * b.val = b.val; omega

theorem blk1_6 (c : Dev nD) (t : Fin cfg1.N) (a : Fin 2000) (b : Fin 128) :
    iblk1 V c 6 t (ix2 a b) = V c (Pipeline.arrRef spec1 6) (ix2 (row1 t a) b) := by
  show V c (Pipeline.arrRef spec1 6) (((cfg1.win 6).blk t).view.emb (ix2 a b)) = _
  refine congrArg _ (funext fun ax => Fin.ext ?_)
  have hI := idx1 t
  match ax with
  | ⟨0, _⟩ => show win1_6.index t (0 : Fin 2) * 2000 + 1 * a.val = t.val * 2000 + a.val; omega
  | ⟨1, _⟩ => show win1_6.index t (1 : Fin 2) * 128 + 1 * b.val = b.val; omega

theorem blk1_7 (c : Dev nD) (t : Fin cfg1.N) (a : Fin 1) (b : Fin 128) :
    iblk1 V c 7 t (ix2 a b) = V c (Pipeline.arrRef spec1 7) (ix2 a b) := by
  show V c (Pipeline.arrRef spec1 7) (((cfg1.win 7).blk t).view.emb (ix2 a b)) = _
  refine congrArg _ (funext fun ax => Fin.ext ?_)
  have hI := idx1 t
  match ax with
  | ⟨0, _⟩ => show win1_7.index t (0 : Fin 2) * 1 + 1 * a.val = a.val; omega
  | ⟨1, _⟩ => show win1_7.index t (1 : Fin 2) * 128 + 1 * b.val = b.val; omega

theorem blk1_8 (c : Dev nD) (t : Fin cfg1.N) (a : Fin 1) (b : Fin 128) :
    iblk1 V c 8 t (ix2 a b) = V c (Pipeline.arrRef spec1 8) (ix2 a b) := by
  show V c (Pipeline.arrRef spec1 8) (((cfg1.win 8).blk t).view.emb (ix2 a b)) = _
  refine congrArg _ (funext fun ax => Fin.ext ?_)
  have hI := idx1 t
  match ax with
  | ⟨0, _⟩ => show win1_8.index t (0 : Fin 2) * 1 + 1 * a.val = a.val; omega
  | ⟨1, _⟩ => show win1_8.index t (1 : Fin 2) * 128 + 1 * b.val = b.val; omega

theorem blk1_9 (c : Dev nD) (t : Fin cfg1.N) (a : Fin 1) (b : Fin 128) :
    iblk1 V c 9 t (ix2 a b) = V c (Pipeline.arrRef spec1 9) (ix2 a b) := by
  show V c (Pipeline.arrRef spec1 9) (((cfg1.win 9).blk t).view.emb (ix2 a b)) = _
  refine congrArg _ (funext fun ax => Fin.ext ?_)
  have hI := idx1 t
  match ax with
  | ⟨0, _⟩ => show win1_9.index t (0 : Fin 2) * 1 + 1 * a.val = a.val; omega
  | ⟨1, _⟩ => show win1_9.index t (1 : Fin 2) * 128 + 1 * b.val = b.val; omega

theorem blk1_10 (c : Dev nD) (t : Fin cfg1.N) (a : Fin 128) (b : Fin 128) :
    iblk1 V c 10 t (ix2 a b) = V c (Pipeline.arrRef spec1 10) (ix2 a b) := by
  show V c (Pipeline.arrRef spec1 10) (((cfg1.win 10).blk t).view.emb (ix2 a b)) = _
  refine congrArg _ (funext fun ax => Fin.ext ?_)
  have hI := idx1 t
  match ax with
  | ⟨0, _⟩ => show win1_10.index t (0 : Fin 2) * 128 + 1 * a.val = a.val; omega
  | ⟨1, _⟩ => show win1_10.index t (1 : Fin 2) * 128 + 1 * b.val = b.val; omega

/-- Where entry (p, q) of point t's block of window 11 sits in the array. -/
theorem emb1_11 (t : Fin cfg1.N) (p : Fin 2000) (q : Fin 128) :
    ((cfg1.win 11).blk t).view.emb (ix2 p q) = ix2 (row1 t p) q := by
  refine funext fun ax => Fin.ext ?_
  have hI := idx1 t
  match ax with
  | ⟨0, _⟩ => show win1_11.index t (0 : Fin 2) * 2000 + 1 * p.val = t.val * 2000 + p.val; omega
  | ⟨1, _⟩ => show win1_11.index t (1 : Fin 2) * 128 + 1 * q.val = q.val; omega

/-- What point t writes back through window 11 is block t of ONE function of the region's operand arrays. -/
theorem flushed1_11 (c : Dev nD) (t : Fin cfg1.N) :
    (dat1 V c).flushed 11 t = ((cfg1.win 11).blk t).view.read (Elt Ideal) (G1g (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 11).cut (grid1.coords t) ((dat1 V c).after 11 t) = _
  rw [after1_11]
  unfold out1_11
  rw [View.canon_unit_zero hz1]
  simp only [View.ld_unit_zero (S := S2000x128) hz1, View.ld_unit_zero (S := S2000x1) hz1, View.ld_unit_zero (S := S1x128) hz1, View.ld_unit_zero (S := S128x128) hz1]
  funext j
  obtain ⟨p, q, rfl⟩ : ∃ (p : Fin 2000) (q : Fin 128), j = ix2 p q := ⟨j 0, j 1, eq_ix2 j⟩
  refine (pay1g_apply _ _ _ _ _ _ p q).trans ?_
  rw [View.read_apply, emb1_11]
  simp only [blk1_0 V c t, blk1_1 V c t, blk1_2 V c t, blk1_3 V c t, blk1_4 V c t, blk1_5 V c t]
  rfl

/-- An index is in point t's block of window 11 iff each coordinate is in the block's range. -/
theorem mem_blk1_11 (t : Fin cfg1.N) (i : S100000x128.Idx) :
    i ∈ ((cfg1.win 11).blk t).view.set ↔ ∀ a : Fin 2, win1_11.index t a * S2000x128.size a ≤ (i a).val ∧ (i a).val < win1_11.index t a * S2000x128.size a + S2000x128.size a := by
  show i ∈ ((View.whole main_v80_0).slice (win1_11.rect t)).set ↔ _
  rw [View.set_slice_whole, Rect.mem_set_unit]
  exact Iff.rfl

/-- Every row of the array is in the block of the point its row number divided by 2000 names. -/
theorem cover1_11 (i : S100000x128.Idx) : ∃ t : Fin cfg1.N, (cfg1.win 11).flush t = true ∧ i ∈ ((cfg1.win 11).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by omega⟩, rfl⟩
  refine ⟨t, flush1_11 t, ?_⟩
  rw [mem_blk1_11]
  have hI := idx1 t
  intro a
  match a with
  | ⟨0, _⟩ => show win1_11.index t (0 : Fin 2) * 2000 ≤ (i 0).val ∧ (i 0).val < win1_11.index t (0 : Fin 2) * 2000 + 2000; omega
  | ⟨1, _⟩ => show win1_11.index t (1 : Fin 2) * 128 ≤ (i 1).val ∧ (i 1).val < win1_11.index t (1 : Fin 2) * 128 + 128; omega

/-- The array after the run. -/
theorem final1_11 (c : Dev nD) : (dat1 V c).arrAt 11 cfg1.N = G1g (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 V c).arrAt_eq_of_cover 11 _ (fun t _ => flushed1_11 V c t) cover1_11

/-- Where entry (p, q) of point t's block of window 12 sits in the array. -/
theorem emb1_12 (t : Fin cfg1.N) (p : Fin 2000) (q : Fin 128) :
    ((cfg1.win 12).blk t).view.emb (ix2 p q) = ix2 (row1 t p) q := by
  refine funext fun ax => Fin.ext ?_
  have hI := idx1 t
  match ax with
  | ⟨0, _⟩ => show win1_12.index t (0 : Fin 2) * 2000 + 1 * p.val = t.val * 2000 + p.val; omega
  | ⟨1, _⟩ => show win1_12.index t (1 : Fin 2) * 128 + 1 * q.val = q.val; omega

/-- What point t writes back through window 12 is block t of ONE function of the region's operand arrays. -/
theorem flushed1_12 (c : Dev nD) (t : Fin cfg1.N) :
    (dat1 V c).flushed 12 t = ((cfg1.win 12).blk t).view.read (Elt Ideal) (G1h (V c (Pipeline.arrRef spec1 6)) (V c (Pipeline.arrRef spec1 7)) (V c (Pipeline.arrRef spec1 8)) (V c (Pipeline.arrRef spec1 9)) (V c (Pipeline.arrRef spec1 10))) := by
  show (cfg1.win 12).cut (grid1.coords t) ((dat1 V c).after 12 t) = _
  rw [after1_12]
  unfold out1_12
  rw [View.canon_unit_zero hz1]
  simp only [View.ld_unit_zero (S := S2000x128) hz1, View.ld_unit_zero (S := S1x128) hz1, View.ld_unit_zero (S := S128x128) hz1]
  funext j
  obtain ⟨p, q, rfl⟩ : ∃ (p : Fin 2000) (q : Fin 128), j = ix2 p q := ⟨j 0, j 1, eq_ix2 j⟩
  refine (pay1h_apply _ _ _ _ _ p q).trans ?_
  rw [View.read_apply, emb1_12]
  simp only [blk1_6 V c t, blk1_7 V c t, blk1_8 V c t, blk1_9 V c t, blk1_10 V c t]
  rfl

/-- An index is in point t's block of window 12 iff each coordinate is in the block's range. -/
theorem mem_blk1_12 (t : Fin cfg1.N) (i : S100000x128.Idx) :
    i ∈ ((cfg1.win 12).blk t).view.set ↔ ∀ a : Fin 2, win1_12.index t a * S2000x128.size a ≤ (i a).val ∧ (i a).val < win1_12.index t a * S2000x128.size a + S2000x128.size a := by
  show i ∈ ((View.whole main_v80_1).slice (win1_12.rect t)).set ↔ _
  rw [View.set_slice_whole, Rect.mem_set_unit]
  exact Iff.rfl

/-- Every row of the array is in the block of the point its row number divided by 2000 names. -/
theorem cover1_12 (i : S100000x128.Idx) : ∃ t : Fin cfg1.N, (cfg1.win 12).flush t = true ∧ i ∈ ((cfg1.win 12).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by omega⟩, rfl⟩
  refine ⟨t, flush1_12 t, ?_⟩
  rw [mem_blk1_12]
  have hI := idx1 t
  intro a
  match a with
  | ⟨0, _⟩ => show win1_12.index t (0 : Fin 2) * 2000 ≤ (i 0).val ∧ (i 0).val < win1_12.index t (0 : Fin 2) * 2000 + 2000; omega
  | ⟨1, _⟩ => show win1_12.index t (1 : Fin 2) * 128 ≤ (i 1).val ∧ (i 1).val < win1_12.index t (1 : Fin 2) * 128 + 128; omega

/-- The array after the run. -/
theorem final1_12 (c : Dev nD) : (dat1 V c).arrAt 12 cfg1.N = G1h (V c (Pipeline.arrRef spec1 6)) (V c (Pipeline.arrRef spec1 7)) (V c (Pipeline.arrRef spec1 8)) (V c (Pipeline.arrRef spec1 9)) (V c (Pipeline.arrRef spec1 10)) :=
  (dat1 V c).arrAt_eq_of_cover 12 _ (fun t _ => flushed1_12 V c t) cover1_12

end Cert.KernelIdeal.KerReg

end
-- ==== Proof.KerReg2.lean ====
/-
  Region 2 (second-layer epilogue, the average of the two branches and the two-layer head), from blocks to arrays.

  Point t works on rows 2000 t … of the two aggregated arrays and of the coefficient column and on the whole of the rows
  and weight matrices; the result array is one row-wise function of the operand arrays.
-/
import proofs.«138258_j55997783605349_2_alg».proof.Proof.Gen.KernelIdeal.Frame
import proofs.«138258_j55997783605349_2_alg».proof.Proof.KerPay
import Idealize.ShloMosaic.Lib.Pipeline.Value

set_option maxRecDepth 16384

noncomputable section

open scoped BigOperators

namespace Cert.KernelIdeal.KerReg

open Idealize.ShloMosaic Idealize.ShloMosaic.TcCoe Idealize.ShloMosaic.ValueIdx Idealize.SL.Sem Cert.KernelIdeal Cert.KernelIdeal.Gen Cert.KernelIdeal.KerPay
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- The block indices of region 2's windows at point t: the row-blocked windows sit at block row t, the small operands at (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0
    ∧ win2_12.index t (0 : Fin 2) = 0 ∧ win2_12.index t (1 : Fin 2) = 0
    ∧ win2_13.index t (0 : Fin 2) = t.val ∧ win2_13.index t (1 : Fin 2) = 0 :=
  (by decide +kernel : ∀ t : Fin grid2.N, _)

/-- Row p of point t's block is row 2000 t + p of the array. -/
def row2 (t : Fin cfg2.N) (p : Fin 2000) : Fin 100000 :=
  ⟨t.val * 2000 + p.val, by have h := t.isLt; have hN : cfg2.N = 50 := N_2; have := p.isLt; omega⟩

/-- Region 2's result. -/
def G2 (A0 : S100000x128.Idx → EReal) (A1 : S100000x1.Idx → EReal) (A2 A3 A4 : S1x128.Idx → EReal) (A5 : S100000x128.Idx → EReal) (A6 A7 A8 : S1x128.Idx → EReal) (A9 : S128x128.Idx → EReal) (A10 : S1x128.Idx → EReal) (A11 : S128x128.Idx → EReal) (A12 : S1x128.Idx → EReal) : S100000x128.Idx → EReal :=
  fun i => (∑ k2 : Fin 128, max ((∑ k : Fin 128,
            ((lnAt (fun j => A0 (ix2 (i 0) j) * A1 (ix2 (i 0) (0 : Fin 1)) + A2 (ix2 (0 : Fin 1) j)) k (A3 (ix2 (0 : Fin 1) k)) (A4 (ix2 (0 : Fin 1) k))
              + lnAt (fun j => A5 (ix2 (i 0) j) + A6 (ix2 (0 : Fin 1) j)) k (A7 (ix2 (0 : Fin 1) k)) (A8 (ix2 (0 : Fin 1) k))) * Ideal.ofBits .f32 0x3F000000#32)
              * A9 (ix2 k k2)) + A10 (ix2 (0 : Fin 1) k2)) (Ideal.ofBits .f32 0x00000000#32) * A11 (ix2 k2 (i 1)))
        + A12 (ix2 (0 : Fin 1) (i 1))

theorem blk2_0 (c : Dev nD) (t : Fin cfg2.N) (a : Fin 2000) (b : Fin 128) :
    iblk2 V c 0 t (ix2 a b) = V c (Pipeline.arrRef spec2 0) (ix2 (row2 t a) b) := by
  show V c (Pipeline.arrRef spec2 0) (((cfg2.win 0).blk t).view.emb (ix2 a b)) = _
  refine congrArg _ (funext fun ax => Fin.ext ?_)
  have hI := idx2 t
  match ax with
  | ⟨0, _⟩ => show win2_0.index t (0 : Fin 2) * 2000 + 1 * a.val = t.val * 2000 + a.val; omega
  | ⟨1, _⟩ => show win2_0.index t (1 : Fin 2) * 128 + 1 * b.val = b.val; omega

theorem blk2_1 (c : Dev nD) (t : Fin cfg2.N) (a : Fin 2000) (b : Fin 1) :
    iblk2 V c 1 t (ix2 a b) = V c (Pipeline.arrRef spec2 1) (ix2 (row2 t a) b) := by
  show V c (Pipeline.arrRef spec2 1) (((cfg2.win 1).blk t).view.emb (ix2 a b)) = _
  refine congrArg _ (funext fun ax => Fin.ext ?_)
  have hI := idx2 t
  match ax with
  | ⟨0, _⟩ => show win2_1.index t (0 : Fin 2) * 2000 + 1 * a.val = t.val * 2000 + a.val; omega
  | ⟨1, _⟩ => show win2_1.index t (1 : Fin 2) * 1 + 1 * b.val = b.val; omega

theorem blk2_2 (c : Dev nD) (t : Fin cfg2.N) (a : Fin 1) (b : Fin 128) :
    iblk2 V c 2 t (ix2 a b) = V c (Pipeline.arrRef spec2 2) (ix2 a b) := by
  show V c (Pipeline.arrRef spec2 2) (((cfg2.win 2).blk t).view.emb (ix2 a b)) = _
  refine congrArg _ (funext fun ax => Fin.ext ?_)
  have hI := idx2 t
  match ax with
  | ⟨0, _⟩ => show win2_2.index t (0 : Fin 2) * 1 + 1 * a.val = a.val; omega
  | ⟨1, _⟩ => show win2_2.index t (1 : Fin 2) * 128 + 1 * b.val = b.val; omega

theorem blk2_3 (c : Dev nD) (t : Fin cfg2.N) (a : Fin 1) (b : Fin 128) :
    iblk2 V c 3 t (ix2 a b) = V c (Pipeline.arrRef spec2 3) (ix2 a b) := by
  show V c (Pipeline.arrRef spec2 3) (((cfg2.win 3).blk t).view.emb (ix2 a b)) = _
  refine congrArg _ (funext fun ax => Fin.ext ?_)
  have hI := idx2 t
  match ax with
  | ⟨0, _⟩ => show win2_3.index t (0 : Fin 2) * 1 + 1 * a.val = a.val; omega
  | ⟨1, _⟩ => show win2_3.index t (1 : Fin 2) * 128 + 1 * b.val = b.val; omega

theorem blk2_4 (c : Dev nD) (t : Fin cfg2.N) (a : Fin 1) (b : Fin 128) :
    iblk2 V c 4 t (ix2 a b) = V c (Pipeline.arrRef spec2 4) (ix2 a b) := by
  show V c (Pipeline.arrRef spec2 4) (((cfg2.win 4).blk t).view.emb (ix2 a b)) = _
  refine congrArg _ (funext fun ax => Fin.ext ?_)
  have hI := idx2 t
  match ax with
  | ⟨0, _⟩ => show win2_4.index t (0 : Fin 2) * 1 + 1 * a.val = a.val; omega
  | ⟨1, _⟩ => show win2_4.index t (1 : Fin 2) * 128 + 1 * b.val = b.val; omega

theorem blk2_5 (c : Dev nD) (t : Fin cfg2.N) (a : Fin 2000) (b : Fin 128) :
    iblk2 V c 5 t (ix2 a b) = V c (Pipeline.arrRef spec2 5) (ix2 (row2 t a) b) := by
  show V c (Pipeline.arrRef spec2 5) (((cfg2.win 5).blk t).view.emb (ix2 a b)) = _
  refine congrArg _ (funext fun ax => Fin.ext ?_)
  have hI := idx2 t
  match ax with
  | ⟨0, _⟩ => show win2_5.index t (0 : Fin 2) * 2000 + 1 * a.val = t.val * 2000 + a.val; omega
  | ⟨1, _⟩ => show win2_5.index t (1 : Fin 2) * 128 + 1 * b.val = b.val; omega

theorem blk2_6 (c : Dev nD) (t : Fin cfg2.N) (a : Fin 1) (b : Fin 128) :
    iblk2 V c 6 t (ix2 a b) = V c (Pipeline.arrRef spec2 6) (ix2 a b) := by
  show V c (Pipeline.arrRef spec2 6) (((cfg2.win 6).blk t).view.emb (ix2 a b)) = _
  refine congrArg _ (funext fun ax => Fin.ext ?_)
  have hI := idx2 t
  match ax with
  | ⟨0, _⟩ => show win2_6.index t (0 : Fin 2) * 1 + 1 * a.val = a.val; omega
  | ⟨1, _⟩ => show win2_6.index t (1 : Fin 2) * 128 + 1 * b.val = b.val; omega

theorem blk2_7 (c : Dev nD) (t : Fin cfg2.N) (a : Fin 1) (b : Fin 128) :
    iblk2 V c 7 t (ix2 a b) = V c (Pipeline.arrRef spec2 7) (ix2 a b) := by
  show V c (Pipeline.arrRef spec2 7) (((cfg2.win 7).blk t).view.emb (ix2 a b)) = _
  refine congrArg _ (funext fun ax => Fin.ext ?_)
  have hI := idx2 t
  match ax with
  | ⟨0, _⟩ => show win2_7.index t (0 : Fin 2) * 1 + 1 * a.val = a.val; omega
  | ⟨1, _⟩ => show win2_7.index t (1 : Fin 2) * 128 + 1 * b.val = b.val; omega

theorem blk2_8 (c : Dev nD) (t : Fin cfg2.N) (a : Fin 1) (b : Fin 128) :
    iblk2 V c 8 t (ix2 a b) = V c (Pipeline.arrRef spec2 8) (ix2 a b) := by
  show V c (Pipeline.arrRef spec2 8) (((cfg2.win 8).blk t).view.emb (ix2 a b)) = _
  refine congrArg _ (funext fun ax => Fin.ext ?_)
  have hI := idx2 t
  match ax with
  | ⟨0, _⟩ => show win2_8.index t (0 : Fin 2) * 1 + 1 * a.val = a.val; omega
  | ⟨1, _⟩ => show win2_8.index t (1 : Fin 2) * 128 + 1 * b.val = b.val; omega

theorem blk2_9 (c : Dev nD) (t : Fin cfg2.N) (a : Fin 128) (b : Fin 128) :
    iblk2 V c 9 t (ix2 a b) = V c (Pipeline.arrRef spec2 9) (ix2 a b) := by
  show V c (Pipeline.arrRef spec2 9) (((cfg2.win 9).blk t).view.emb (ix2 a b)) = _
  refine congrArg _ (funext fun ax => Fin.ext ?_)
  have hI := idx2 t
  match ax with
  | ⟨0, _⟩ => show win2_9.index t (0 : Fin 2) * 128 + 1 * a.val = a.val; omega
  | ⟨1, _⟩ => show win2_9.index t (1 : Fin 2) * 128 + 1 * b.val = b.val; omega

theorem blk2_10 (c : Dev nD) (t : Fin cfg2.N) (a : Fin 1) (b : Fin 128) :
    iblk2 V c 10 t (ix2 a b) = V c (Pipeline.arrRef spec2 10) (ix2 a b) := by
  show V c (Pipeline.arrRef spec2 10) (((cfg2.win 10).blk t).view.emb (ix2 a b)) = _
  refine congrArg _ (funext fun ax => Fin.ext ?_)
  have hI := idx2 t
  match ax with
  | ⟨0, _⟩ => show win2_10.index t (0 : Fin 2) * 1 + 1 * a.val = a.val; omega
  | ⟨1, _⟩ => show win2_10.index t (1 : Fin 2) * 128 + 1 * b.val = b.val; omega

theorem blk2_11 (c : Dev nD) (t : Fin cfg2.N) (a : Fin 128) (b : Fin 128) :
    iblk2 V c 11 t (ix2 a b) = V c (Pipeline.arrRef spec2 11) (ix2 a b) := by
  show V c (Pipeline.arrRef spec2 11) (((cfg2.win 11).blk t).view.emb (ix2 a b)) = _
  refine congrArg _ (funext fun ax => Fin.ext ?_)
  have hI := idx2 t
  match ax with
  | ⟨0, _⟩ => show win2_11.index t (0 : Fin 2) * 128 + 1 * a.val = a.val; omega
  | ⟨1, _⟩ => show win2_11.index t (1 : Fin 2) * 128 + 1 * b.val = b.val; omega

theorem blk2_12 (c : Dev nD) (t : Fin cfg2.N) (a : Fin 1) (b : Fin 128) :
    iblk2 V c 12 t (ix2 a b) = V c (Pipeline.arrRef spec2 12) (ix2 a b) := by
  show V c (Pipeline.arrRef spec2 12) (((cfg2.win 12).blk t).view.emb (ix2 a b)) = _
  refine congrArg _ (funext fun ax => Fin.ext ?_)
  have hI := idx2 t
  match ax with
  | ⟨0, _⟩ => show win2_12.index t (0 : Fin 2) * 1 + 1 * a.val = a.val; omega
  | ⟨1, _⟩ => show win2_12.index t (1 : Fin 2) * 128 + 1 * b.val = b.val; omega

/-- Where entry (p, q) of point t's block of window 13 sits in the array. -/
theorem emb2_13 (t : Fin cfg2.N) (p : Fin 2000) (q : Fin 128) :
    ((cfg2.win 13).blk t).view.emb (ix2 p q) = ix2 (row2 t p) q := by
  refine funext fun ax => Fin.ext ?_
  have hI := idx2 t
  match ax with
  | ⟨0, _⟩ => show win2_13.index t (0 : Fin 2) * 2000 + 1 * p.val = t.val * 2000 + p.val; omega
  | ⟨1, _⟩ => show win2_13.index t (1 : Fin 2) * 128 + 1 * q.val = q.val; omega

/-- What point t writes back through window 13 is block t of ONE function of the region's operand arrays. -/
theorem flushed2_13 (c : Dev nD) (t : Fin cfg2.N) :
    (dat2 V c).flushed 13 t = ((cfg2.win 13).blk t).view.read (Elt Ideal) (G2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12))) := by
  show (cfg2.win 13).cut (grid2.coords t) ((dat2 V c).after 13 t) = _
  rw [after2_13]
  unfold out2_13
  rw [View.canon_unit_zero hz2]
  simp only [View.ld_unit_zero (S := S2000x128) hz2, View.ld_unit_zero (S := S2000x1) hz2, View.ld_unit_zero (S := S1x128) hz2, View.ld_unit_zero (S := S128x128) hz2]
  funext j
  obtain ⟨p, q, rfl⟩ : ∃ (p : Fin 2000) (q : Fin 128), j = ix2 p q := ⟨j 0, j 1, eq_ix2 j⟩
  refine (pay2_apply _ _ _ _ _ _ _ _ _ _ _ _ _ p q).trans ?_
  rw [View.read_apply, emb2_13]
  simp only [blk2_0 V c t, blk2_1 V c t, blk2_2 V c t, blk2_3 V c t, blk2_4 V c t, blk2_5 V c t, blk2_6 V c t, blk2_7 V c t, blk2_8 V c t, blk2_9 V c t, blk2_10 V c t, blk2_11 V c t, blk2_12 V c t]
  rfl

/-- An index is in point t's block of window 13 iff each coordinate is in the block's range. -/
theorem mem_blk2_13 (t : Fin cfg2.N) (i : S100000x128.Idx) :
    i ∈ ((cfg2.win 13).blk t).view.set ↔ ∀ a : Fin 2, win2_13.index t a * S2000x128.size a ≤ (i a).val ∧ (i a).val < win2_13.index t a * S2000x128.size a + S2000x128.size a := by
  show i ∈ ((View.whole main_v123).slice (win2_13.rect t)).set ↔ _
  rw [View.set_slice_whole, Rect.mem_set_unit]
  exact Iff.rfl

/-- Every row of the array is in the block of the point its row number divided by 2000 names. -/
theorem cover2_13 (i : S100000x128.Idx) : ∃ t : Fin cfg2.N, (cfg2.win 13).flush t = true ∧ i ∈ ((cfg2.win 13).blk t).view.set := by
  have hi0 : (i 0).val < 100000 := (i 0).isLt
  have hi1 : (i 1).val < 128 := (i 1).isLt
  have hN : cfg2.N = 50 := N_2
  obtain ⟨t, ht⟩ : ∃ t : Fin cfg2.N, t.val = (i 0).val / 2000 := ⟨⟨(i 0).val / 2000, by omega⟩, rfl⟩
  refine ⟨t, flush2_13 t, ?_⟩
  rw [mem_blk2_13]
  have hI := idx2 t
  intro a
  match a with
  | ⟨0, _⟩ => show win2_13.index t (0 : Fin 2) * 2000 ≤ (i 0).val ∧ (i 0).val < win2_13.index t (0 : Fin 2) * 2000 + 2000; omega
  | ⟨1, _⟩ => show win2_13.index t (1 : Fin 2) * 128 ≤ (i 1).val ∧ (i 1).val < win2_13.index t (1 : Fin 2) * 128 + 128; omega

/-- The array after the run. -/
theorem final2_13 (c : Dev nD) : (dat2 V c).arrAt 13 cfg2.N = G2 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11)) (V c (Pipeline.arrRef spec2 12)) :=
  (dat2 V c).arrAt_eq_of_cover 13 _ (fun t _ => flushed2_13 V c t) cover2_13

end Cert.KernelIdeal.KerReg

end
-- ==== Proof.KerHostA.lean ====
/-
  The idealized kernel's host operations between its regions, as functions of whole arrays.

  Before region 0 @main derives from the edge list the source and target index vectors (each followed by the self loops), the
  per-node coefficient dinv = deg^(-1/2) (0 where the degree is not positive) and, from the incidence list, the node and
  hyperedge index vectors and the columns 1/D and 1/B. Between the regions it aggregates: `aggG` sums the rows gathered at the
  sources into the targets; `aggH` is the two-hop hypergraph aggregation with its two scalings. This module names those values
  and reads every buffer a region is entered with as such a value of the argument arrays and of the previous region's results.
-/
import proofs.«138258_j55997783605349_2_alg».proof.Proof.Gen.KernelIdeal.Frame
import Idealize.ShloMosaic.Lib.StableHlo.Run
import Idealize.ShloMosaic.PureOps.Ideal

set_option maxRecDepth 16384

noncomputable section

namespace Cert.KernelIdeal.KerHost

open Idealize.ShloMosaic Idealize.ShloMosaic.TcCoe Idealize.SL.Sem Idealize.ShloMosaic.StableHlo Cert.KernelIdeal Cert.KernelIdeal.Gen

/-- The edges' sources followed by every node once (the self loops). -/
def kSrc (x1 : (⟨S2x1600000, .i32⟩ : BufTy).Contents (Elt Ideal)) : (⟨S1700000, .i32⟩ : BufTy).Contents (Elt Ideal) :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- The edges' targets followed by every node once. -/
def kDst (x1 : (⟨S2x1600000, .i32⟩ : BufTy).Contents (Elt Ideal)) : (⟨S1700000, .i32⟩ : BufTy).Contents (Elt Ideal) :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- The per-node coefficient deg^(-1/2) (0 where the degree is not positive), as a column. -/
def kDinv (x1 : (⟨S2x1600000, .i32⟩ : BufTy).Contents (Elt Ideal)) : (⟨S100000x1, .f32⟩ : BufTy).Contents (Elt Ideal) :=
  shapeCast _ (select (cmpf .ogt (Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant (F := Ideal) S_ .f32 0x3F800000#32))) (broadcastInDim S100000 ![] bcast_S_S100000 (constant (F := Ideal) S_ .f32 0x00000000#32))) (Host.rsqrt (Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0)) (broadcastInDim S1700000 ![] bcast_S_S1700000 (constant (F := Ideal) S_ .f32 0x3F800000#32)))) (broadcastInDim S100000 ![] bcast_S_S100000 (constant (F := Ideal) S_ .f32 0x00000000#32))) shapeCasts_S100000_S100000x1

/-- The incidences' nodes. -/
def kNode (x2 : (⟨S2x1500000, .i32⟩ : BufTy).Contents (Elt Ideal)) : (⟨S1500000, .i32⟩ : BufTy).Contents (Elt Ideal) :=
  shapeCast _ (extractStridedSlice S1x1500000 ![0, 0] x2 slices_S2x1500000_S1x1500000_0_0) shapeCasts_S1x1500000_S1500000

/-- The incidences' hyperedges. -/
def kHedge (x2 : (⟨S2x1500000, .i32⟩ : BufTy).Contents (Elt Ideal)) : (⟨S1500000, .i32⟩ : BufTy).Contents (Elt Ideal) :=
  shapeCast _ (extractStridedSlice S1x1500000 ![1, 0] x2 slices_S2x1500000_S1x1500000_1_0) shapeCasts_S1x1500000_S1500000

/-- 1/D per node (0 where D is not positive), as a column. -/
def kDcol (x2 : (⟨S2x1500000, .i32⟩ : BufTy).Contents (Elt Ideal)) : (⟨S100000x1, .f32⟩ : BufTy).Contents (Elt Ideal) :=
  shapeCast _ (select (cmpf .ogt (Host.scatterAdd scatter_S100000_S1500000x1_S1500000_n_0_0_1 (broadcastInDim S100000 ![] bcast_S_S100000 (constant (F := Ideal) S_ .f32 0x00000000#32)) (broadcastInDim S1500000x1 ![0] bcast_S1500000_S1500000x1_0 (shapeCast _ (extractStridedSlice S1x1500000 ![0, 0] x2 slices_S2x1500000_S1x1500000_0_0) shapeCasts_S1x1500000_S1500000)) (broadcastInDim S1500000 ![] bcast_S_S1500000 (constant (F := Ideal) S_ .f32 0x3F800000#32))) (broadcastInDim S100000 ![] bcast_S_S100000 (constant (F := Ideal) S_ .f32 0x00000000#32))) (Host.divf (broadcastInDim S100000 ![] bcast_S_S100000 (constant (F := Ideal) S_ .f32 0x3F800000#32)) (Host.scatterAdd scatter_S100000_S1500000x1_S1500000_n_0_0_1 (broadcastInDim S100000 ![] bcast_S_S100000 (constant (F := Ideal) S_ .f32 0x00000000#32)) (broadcastInDim S1500000x1 ![0] bcast_S1500000_S1500000x1_0 (shapeCast _ (extractStridedSlice S1x1500000 ![0, 0] x2 slices_S2x1500000_S1x1500000_0_0) shapeCasts_S1x1500000_S1500000)) (broadcastInDim S1500000 ![] bcast_S_S1500000 (constant (F := Ideal) S_ .f32 0x3F800000#32)))) (broadcastInDim S100000 ![] bcast_S_S100000 (constant (F := Ideal) S_ .f32 0x00000000#32))) shapeCasts_S100000_S100000x1

/-- 1/B per hyperedge (0 where B is not positive), as a column. -/
def kBcol (x2 : (⟨S2x1500000, .i32⟩ : BufTy).Contents (Elt Ideal)) : (⟨S100000x1, .f32⟩ : BufTy).Contents (Elt Ideal) :=
  shapeCast _ (select (cmpf .ogt (Host.scatterAdd scatter_S100000_S1500000x1_S1500000_n_0_0_1 (broadcastInDim S100000 ![] bcast_S_S100000 (constant (F := Ideal) S_ .f32 0x00000000#32)) (broadcastInDim S1500000x1 ![0] bcast_S1500000_S1500000x1_0 (shapeCast _ (extractStridedSlice S1x1500000 ![1, 0] x2 slices_S2x1500000_S1x1500000_1_0) shapeCasts_S1x1500000_S1500000)) (broadcastInDim S1500000 ![] bcast_S_S1500000 (constant (F := Ideal) S_ .f32 0x3F800000#32))) (broadcastInDim S100000 ![] bcast_S_S100000 (constant (F := Ideal) S_ .f32 0x00000000#32))) (Host.divf (broadcastInDim S100000 ![] bcast_S_S100000 (constant (F := Ideal) S_ .f32 0x3F800000#32)) (Host.scatterAdd scatter_S100000_S1500000x1_S1500000_n_0_0_1 (broadcastInDim S100000 ![] bcast_S_S100000 (constant (F := Ideal) S_ .f32 0x00000000#32)) (broadcastInDim S1500000x1 ![0] bcast_S1500000_S1500000x1_0 (shapeCast _ (extractStridedSlice S1x1500000 ![1, 0] x2 slices_S2x1500000_S1x1500000_1_0) shapeCasts_S1x1500000_S1500000)) (broadcastInDim S1500000 ![] bcast_S_S1500000 (constant (F := Ideal) S_ .f32 0x3F800000#32)))) (broadcastInDim S100000 ![] bcast_S_S100000 (constant (F := Ideal) S_ .f32 0x00000000#32))) shapeCasts_S100000_S100000x1

/-- Rows of `g` gathered at the sources (an index below 0 counted from the end), summed into the targets. -/
def aggG (g : (⟨S100000x128, .f32⟩ : BufTy).Contents (Elt Ideal)) (src dst : (⟨S1700000, .i32⟩ : BufTy).Contents (Elt Ideal)) : (⟨S100000x128, .f32⟩ : BufTy).Contents (Elt Ideal) :=
  Host.scatterAdd scatter_S100000x128_S1700000x1_S1700000x128_1_0_0_1 (broadcastInDim S100000x128 ![] bcast_S_S100000x128 (constant (F := Ideal) S_ .f32 0x00000000#32)) (broadcastInDim S1700000x1 ![0] bcast_S1700000_S1700000x1_0 dst) (Host.gather gather_S100000x128_S1700000x1_S1700000x128_1_0_n_n_0_1_1128 g (broadcastInDim S1700000x1 ![0] bcast_S1700000_S1700000x1_0 (select (cmpi .slt src (broadcastInDim S1700000 ![] bcast_S_S1700000 (constantI S_ 32 0#32))) (addi src (broadcastInDim S1700000 ![] bcast_S_S1700000 (constantI S_ 32 100000#32))) src)))

/-- Rows of `h` gathered at the incidences' nodes and summed into their hyperedges, scaled by 1/B; those gathered at the
    hyperedges and summed into the nodes, scaled by 1/D. -/
def aggH (h : (⟨S100000x128, .f32⟩ : BufTy).Contents (Elt Ideal)) (node hedge : (⟨S1500000, .i32⟩ : BufTy).Contents (Elt Ideal)) (dcol bcol : (⟨S100000x1, .f32⟩ : BufTy).Contents (Elt Ideal)) : (⟨S100000x128, .f32⟩ : BufTy).Contents (Elt Ideal) :=
  mulf (Host.scatterAdd scatter_S100000x128_S1500000x1_S1500000x128_1_0_0_1 (broadcastInDim S100000x128 ![] bcast_S_S100000x128 (constant (F := Ideal) S_ .f32 0x00000000#32)) (broadcastInDim S1500000x1 ![0] bcast_S1500000_S1500000x1_0 node) (Host.gather gather_S100000x128_S1500000x1_S1500000x128_1_0_n_n_0_1_1128 (mulf (Host.scatterAdd scatter_S100000x128_S1500000x1_S1500000x128_1_0_0_1 (broadcastInDim S100000x128 ![] bcast_S_S100000x128 (constant (F := Ideal) S_ .f32 0x00000000#32)) (broadcastInDim S1500000x1 ![0] bcast_S1500000_S1500000x1_0 hedge) (Host.gather gather_S100000x128_S1500000x1_S1500000x128_1_0_n_n_0_1_1128 h (broadcastInDim S1500000x1 ![0] bcast_S1500000_S1500000x1_0 (select (cmpi .slt node (broadcastInDim S1500000 ![] bcast_S_S1500000 (constantI S_ 32 0#32))) (addi node (broadcastInDim S1500000 ![] bcast_S_S1500000 (constantI S_ 32 100000#32))) node)))) (broadcastInDim S100000x128 ![0, 1] bcast_S100000x1_S100000x128_0_1 bcol)) (broadcastInDim S1500000x1 ![0] bcast_S1500000_S1500000x1_0 (select (cmpi .slt hedge (broadcastInDim S1500000 ![] bcast_S_S1500000 (constantI S_ 32 0#32))) (addi hedge (broadcastInDim S1500000 ![] bcast_S_S1500000 (constantI S_ 32 100000#32))) hedge)))) (broadcastInDim S100000x128 ![0, 1] bcast_S100000x1_S100000x128_0_1 dcol)

/-- A buffer that no operation of a stretch writes keeps its contents through the stretch. -/
macro "stretch_keeps" ops:ident : tactic => `(tactic|
  exact StableHlo.after_of_forall_not_mem _ _ (List.forall_iff_forall_mem.mp (by
    simp only [$ops:ident, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## Each stretch before region 0, from any contents `V`: what it computes, what it keeps -/

set_option maxHeartbeats 4000000 in
theorem L_hostOps0_main_v3 (V : Valuation τ sig (Elt Ideal)) : StableHlo.after hostOps0 V (Proc.devRef .tc main_v3) = concatenate S1700000 0 [⟨S1600000, (shapeCast _ (extractStridedSlice S1x1600000 ![0, 0] ((V (Proc.devRef .tc main_arg1))) slices_S2x1600000_S1x1600000_0_0) shapeCasts_S1x1600000_S1600000)⟩, ⟨S100000, (iotaInDim S100000 32 0)⟩] concatenates_S1600000_S100000_S1700000_d0 := by
  simp only [hostOps0]
  after_results
  all_goals rfl

set_option maxHeartbeats 4000000 in
theorem L_hostOps0_main_v6 (V : Valuation τ sig (Elt Ideal)) : StableHlo.after hostOps0 V (Proc.devRef .tc main_v6) = concatenate S1700000 0 [⟨S1600000, (shapeCast _ (extractStridedSlice S1x1600000 ![1, 0] ((V (Proc.devRef .tc main_arg1))) slices_S2x1600000_S1x1600000_1_0) shapeCasts_S1x1600000_S1600000)⟩, ⟨S100000, (iotaInDim S100000 32 0)⟩] concatenates_S1600000_S100000_S1700000_d0 := by
  simp only [hostOps0]
  after_results
  all_goals rfl

set_option maxHeartbeats 4000000 in
theorem L_hostOps0_main_v12 (V : Valuation τ sig (Elt Ideal)) : StableHlo.after hostOps0 V (Proc.devRef .tc main_v12) = cmpf .ogt (Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (concatenate S1700000 0 [⟨S1600000, (shapeCast _ (extractStridedSlice S1x1600000 ![1, 0] ((V (Proc.devRef .tc main_arg1))) slices_S2x1600000_S1x1600000_1_0) shapeCasts_S1x1600000_S1600000)⟩, ⟨S100000, (iotaInDim S100000 32 0)⟩] concatenates_S1600000_S100000_S1700000_d0)) (broadcastInDim S1700000 ![] bcast_S_S1700000 (constant (F := Ideal) S_ .f32 0x3F800000#32))) (broadcastInDim S100000 ![] bcast_S_S100000 (constant (F := Ideal) S_ .f32 0x00000000#32)) := by
  simp only [hostOps0]
  after_results
  all_goals rfl

set_option maxHeartbeats 4000000 in
theorem L_hostOps0_main_v13 (V : Valuation τ sig (Elt Ideal)) : StableHlo.after hostOps0 V (Proc.devRef .tc main_v13) = Host.rsqrt (Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (concatenate S1700000 0 [⟨S1600000, (shapeCast _ (extractStridedSlice S1x1600000 ![1, 0] ((V (Proc.devRef .tc main_arg1))) slices_S2x1600000_S1x1600000_1_0) shapeCasts_S1x1600000_S1600000)⟩, ⟨S100000, (iotaInDim S100000 32 0)⟩] concatenates_S1600000_S100000_S1700000_d0)) (broadcastInDim S1700000 ![] bcast_S_S1700000 (constant (F := Ideal) S_ .f32 0x3F800000#32))) := by
  simp only [hostOps0]
  after_results
  all_goals rfl

set_option maxHeartbeats 4000000 in
theorem L_hostOps0_main_cst_2 (V : Valuation τ sig (Elt Ideal)) : StableHlo.after hostOps0 V (Proc.devRef .tc main_cst_2) = constant (F := Ideal) S_ .f32 0x00000000#32 := by
  simp only [hostOps0]
  after_results
  all_goals rfl

set_option maxHeartbeats 4000000 in
theorem L_hostOps0_1_main_v14 (V : Valuation τ sig (Elt Ideal)) : StableHlo.after hostOps0_1 V (Proc.devRef .tc main_v14) = select ((V (Proc.devRef .tc main_v12))) ((V (Proc.devRef .tc main_v13))) (broadcastInDim S100000 ![] bcast_S_S100000 ((V (Proc.devRef .tc main_cst_2)))) := by
  simp only [hostOps0_1]
  after_results
  all_goals rfl

set_option maxHeartbeats 4000000 in
theorem L_hostOps0_2_main_v15 (V : Valuation τ sig (Elt Ideal)) : StableHlo.after hostOps0_2 V (Proc.devRef .tc main_v15) = shapeCast _ ((V (Proc.devRef .tc main_v14))) shapeCasts_S100000_S100000x1 := by
  simp only [hostOps0_2]
  after_results
  all_goals rfl

set_option maxHeartbeats 4000000 in
theorem L_hostOps0_2_main_v17 (V : Valuation τ sig (Elt Ideal)) : StableHlo.after hostOps0_2 V (Proc.devRef .tc main_v17) = shapeCast _ (extractStridedSlice S1x1500000 ![0, 0] ((V (Proc.devRef .tc main_arg2))) slices_S2x1500000_S1x1500000_0_0) shapeCasts_S1x1500000_S1500000 := by
  simp only [hostOps0_2]
  after_results
  all_goals rfl

set_option maxHeartbeats 4000000 in
theorem L_hostOps0_2_main_v19 (V : Valuation τ sig (Elt Ideal)) : StableHlo.after hostOps0_2 V (Proc.devRef .tc main_v19) = shapeCast _ (extractStridedSlice S1x1500000 ![1, 0] ((V (Proc.devRef .tc main_arg2))) slices_S2x1500000_S1x1500000_1_0) shapeCasts_S1x1500000_S1500000 := by
  simp only [hostOps0_2]
  after_results
  all_goals rfl

set_option maxHeartbeats 4000000 in
theorem L_hostOps0_2_main_v20 (V : Valuation τ sig (Elt Ideal)) : StableHlo.after hostOps0_2 V (Proc.devRef .tc main_v20) = broadcastInDim S1500000 ![] bcast_S_S1500000 (constant (F := Ideal) S_ .f32 0x3F800000#32) := by
  simp only [hostOps0_2]
  after_results
  all_goals rfl

set_option maxHeartbeats 4000000 in
theorem L_hostOps0_2_main_v25 (V : Valuation τ sig (Elt Ideal)) : StableHlo.after hostOps0_2 V (Proc.devRef .tc main_v25) = cmpf .ogt (Host.scatterAdd scatter_S100000_S1500000x1_S1500000_n_0_0_1 (broadcastInDim S100000 ![] bcast_S_S100000 (constant (F := Ideal) S_ .f32 0x00000000#32)) (broadcastInDim S1500000x1 ![0] bcast_S1500000_S1500000x1_0 (shapeCast _ (extractStridedSlice S1x1500000 ![0, 0] ((V (Proc.devRef .tc main_arg2))) slices_S2x1500000_S1x1500000_0_0) shapeCasts_S1x1500000_S1500000)) (broadcastInDim S1500000 ![] bcast_S_S1500000 (constant (F := Ideal) S_ .f32 0x3F800000#32))) (broadcastInDim S100000 ![] bcast_S_S100000 (constant (F := Ideal) S_ .f32 0x00000000#32)) := by
  simp only [hostOps0_2]
  after_results
  all_goals rfl

set_option maxHeartbeats 4000000 in
theorem L_hostOps0_2_main_v27 (V : Valuation τ sig (Elt Ideal)) : StableHlo.after hostOps0_2 V (Proc.devRef .tc main_v27) = Host.divf (broadcastInDim S100000 ![] bcast_S_S100000 (constant (F := Ideal) S_ .f32 0x3F800000#32)) (Host.scatterAdd scatter_S100000_S1500000x1_S1500000_n_0_0_1 (broadcastInDim S100000 ![] bcast_S_S100000 (constant (F := Ideal) S_ .f32 0x00000000#32)) (broadcastInDim S1500000x1 ![0] bcast_S1500000_S1500000x1_0 (shapeCast _ (extractStridedSlice S1x1500000 ![0, 0] ((V (Proc.devRef .tc main_arg2))) slices_S2x1500000_S1x1500000_0_0) shapeCasts_S1x1500000_S1500000)) (broadcastInDim S1500000 ![] bcast_S_S1500000 (constant (F := Ideal) S_ .f32 0x3F800000#32))) := by
  simp only [hostOps0_2]
  after_results
  all_goals rfl

set_option maxHeartbeats 4000000 in
theorem L_hostOps0_2_main_cst_7 (V : Valuation τ sig (Elt Ideal)) : StableHlo.after hostOps0_2 V (Proc.devRef .tc main_cst_7) = constant (F := Ideal) S_ .f32 0x00000000#32 := by
  simp only [hostOps0_2]
  after_results
  all_goals rfl

set_option maxHeartbeats 4000000 in
theorem L_hostOps0_3_main_v28 (V : Valuation τ sig (Elt Ideal)) : StableHlo.after hostOps0_3 V (Proc.devRef .tc main_v28) = select ((V (Proc.devRef .tc main_v25))) ((V (Proc.devRef .tc main_v27))) (broadcastInDim S100000 ![] bcast_S_S100000 ((V (Proc.devRef .tc main_cst_7)))) := by
  simp only [hostOps0_3]
  after_results
  all_goals rfl

set_option maxHeartbeats 4000000 in
theorem L_hostOps0_4_main_v29 (V : Valuation τ sig (Elt Ideal)) : StableHlo.after hostOps0_4 V (Proc.devRef .tc main_v29) = shapeCast _ ((V (Proc.devRef .tc main_v28))) shapeCasts_S100000_S100000x1 := by
  simp only [hostOps0_4]
  after_results
  all_goals rfl

set_option maxHeartbeats 4000000 in
theorem L_hostOps0_4_main_v34 (V : Valuation τ sig (Elt Ideal)) : StableHlo.after hostOps0_4 V (Proc.devRef .tc main_v34) = cmpf .ogt (Host.scatterAdd scatter_S100000_S1500000x1_S1500000_n_0_0_1 (broadcastInDim S100000 ![] bcast_S_S100000 (constant (F := Ideal) S_ .f32 0x00000000#32)) (broadcastInDim S1500000x1 ![0] bcast_S1500000_S1500000x1_0 ((V (Proc.devRef .tc main_v19)))) ((V (Proc.devRef .tc main_v20)))) (broadcastInDim S100000 ![] bcast_S_S100000 (constant (F := Ideal) S_ .f32 0x00000000#32)) := by
  simp only [hostOps0_4]
  after_results
  all_goals rfl

set_option maxHeartbeats 4000000 in
theorem L_hostOps0_4_main_v36 (V : Valuation τ sig (Elt Ideal)) : StableHlo.after hostOps0_4 V (Proc.devRef .tc main_v36) = Host.divf (broadcastInDim S100000 ![] bcast_S_S100000 (constant (F := Ideal) S_ .f32 0x3F800000#32)) (Host.scatterAdd scatter_S100000_S1500000x1_S1500000_n_0_0_1 (broadcastInDim S100000 ![] bcast_S_S100000 (constant (F := Ideal) S_ .f32 0x00000000#32)) (broadcastInDim S1500000x1 ![0] bcast_S1500000_S1500000x1_0 ((V (Proc.devRef .tc main_v19)))) ((V (Proc.devRef .tc main_v20)))) := by
  simp only [hostOps0_4]
  after_results
  all_goals rfl

set_option maxHeartbeats 4000000 in
theorem L_hostOps0_4_main_cst_11 (V : Valuation τ sig (Elt Ideal)) : StableHlo.after hostOps0_4 V (Proc.devRef .tc main_cst_11) = constant (F := Ideal) S_ .f32 0x00000000#32 := by
  simp only [hostOps0_4]
  after_results
  all_goals rfl

set_option maxHeartbeats 4000000 in
theorem L_hostOps0_5_main_v37 (V : Valuation τ sig (Elt Ideal)) : StableHlo.after hostOps0_5 V (Proc.devRef .tc main_v37) = select ((V (Proc.devRef .tc main_v34))) ((V (Proc.devRef .tc main_v36))) (broadcastInDim S100000 ![] bcast_S_S100000 ((V (Proc.devRef .tc main_cst_11)))) := by
  simp only [hostOps0_5]
  after_results
  all_goals rfl

set_option maxHeartbeats 4000000 in
theorem L_hostOps0_6_main_v38 (V : Valuation τ sig (Elt Ideal)) : StableHlo.after hostOps0_6 V (Proc.devRef .tc main_v38) = shapeCast _ ((V (Proc.devRef .tc main_v37))) shapeCasts_S100000_S100000x1 := by
  simp only [hostOps0_6]
  after_results
  all_goals rfl

set_option maxHeartbeats 4000000 in
theorem K_hostOps0_1_main_v3 (V : Valuation τ sig (Elt Ideal)) : StableHlo.after hostOps0_1 V (Proc.devRef .tc main_v3) = V (Proc.devRef .tc main_v3) := by
  stretch_keeps hostOps0_1

set_option maxHeartbeats 4000000 in
theorem K_hostOps0_2_main_v3 (V : Valuation τ sig (Elt Ideal)) : StableHlo.after hostOps0_2 V (Proc.devRef .tc main_v3) = V (Proc.devRef .tc main_v3) := by
  stretch_keeps hostOps0_2

set_option maxHeartbeats 4000000 in
theorem K_hostOps0_3_main_v3 (V : Valuation τ sig (Elt Ideal)) : StableHlo.after hostOps0_3 V (Proc.devRef .tc main_v3) = V (Proc.devRef .tc main_v3) := by
  stretch_keeps hostOps0_3

set_option maxHeartbeats 4000000 in
theorem K_hostOps0_4_main_v3 (V : Valuation τ sig (Elt Ideal)) : StableHlo.after hostOps0_4 V (Proc.devRef .tc main_v3) = V (Proc.devRef .tc main_v3) := by
  stretch_keeps hostOps0_4

set_option maxHeartbeats 4000000 in
theorem K_hostOps0_5_main_v3 (V : Valuation τ sig (Elt Ideal)) : StableHlo.after hostOps0_5 V (Proc.devRef .tc main_v3) = V (Proc.devRef .tc main_v3) := by
  stretch_keeps hostOps0_5

set_option maxHeartbeats 4000000 in
theorem K_hostOps0_6_main_v3 (V : Valuation τ sig (Elt Ideal)) : StableHlo.after hostOps0_6 V (Proc.devRef .tc main_v3) = V (Proc.devRef .tc main_v3) := by
  stretch_keeps hostOps0_6

set_option maxHeartbeats 4000000 in
theorem K_hostOps0_1_main_v6 (V : Valuation τ sig (Elt Ideal)) : StableHlo.after hostOps0_1 V (Proc.devRef .tc main_v6) = V (Proc.devRef .tc main_v6) := by
  stretch_keeps hostOps0_1

set_option maxHeartbeats 4000000 in
theorem K_hostOps0_2_main_v6 (V : Valuation τ sig (Elt Ideal)) : StableHlo.after hostOps0_2 V (Proc.devRef .tc main_v6) = V (Proc.devRef .tc main_v6) := by
  stretch_keeps hostOps0_2

set_option maxHeartbeats 4000000 in
theorem K_hostOps0_3_main_v6 (V : Valuation τ sig (Elt Ideal)) : StableHlo.after hostOps0_3 V (Proc.devRef .tc main_v6) = V (Proc.devRef .tc main_v6) := by
  stretch_keeps hostOps0_3

set_option maxHeartbeats 4000000 in
theorem K_hostOps0_4_main_v6 (V : Valuation τ sig (Elt Ideal)) : StableHlo.after hostOps0_4 V (Proc.devRef .tc main_v6) = V (Proc.devRef .tc main_v6) := by
  stretch_keeps hostOps0_4

set_option maxHeartbeats 4000000 in
theorem K_hostOps0_5_main_v6 (V : Valuation τ sig (Elt Ideal)) : StableHlo.after hostOps0_5 V (Proc.devRef .tc main_v6) = V (Proc.devRef .tc main_v6) := by
  stretch_keeps hostOps0_5

set_option maxHeartbeats 4000000 in
theorem K_hostOps0_6_main_v6 (V : Valuation τ sig (Elt Ideal)) : StableHlo.after hostOps0_6 V (Proc.devRef .tc main_v6) = V (Proc.devRef .tc main_v6) := by
  stretch_keeps hostOps0_6

set_option maxHeartbeats 4000000 in
theorem K_hostOps0_main_arg2 (V : Valuation τ sig (Elt Ideal)) : StableHlo.after hostOps0 V (Proc.devRef .tc main_arg2) = V (Proc.devRef .tc main_arg2) := by
  stretch_keeps hostOps0

set_option maxHeartbeats 4000000 in
theorem K_hostOps0_1_main_arg2 (V : Valuation τ sig (Elt Ideal)) : StableHlo.after hostOps0_1 V (Proc.devRef .tc main_arg2) = V (Proc.devRef .tc main_arg2) := by
  stretch_keeps hostOps0_1

set_option maxHeartbeats 4000000 in
theorem K_hostOps0_3_main_v15 (V : Valuation τ sig (Elt Ideal)) : StableHlo.after hostOps0_3 V (Proc.devRef .tc main_v15) = V (Proc.devRef .tc main_v15) := by
  stretch_keeps hostOps0_3

set_option maxHeartbeats 4000000 in
theorem K_hostOps0_4_main_v15 (V : Valuation τ sig (Elt Ideal)) : StableHlo.after hostOps0_4 V (Proc.devRef .tc main_v15) = V (Proc.devRef .tc main_v15) := by
  stretch_keeps hostOps0_4

set_option maxHeartbeats 4000000 in
theorem K_hostOps0_5_main_v15 (V : Valuation τ sig (Elt Ideal)) : StableHlo.after hostOps0_5 V (Proc.devRef .tc main_v15) = V (Proc.devRef .tc main_v15) := by
  stretch_keeps hostOps0_5

set_option maxHeartbeats 4000000 in
theorem K_hostOps0_6_main_v15 (V : Valuation τ sig (Elt Ideal)) : StableHlo.after hostOps0_6 V (Proc.devRef .tc main_v15) = V (Proc.devRef .tc main_v15) := by
  stretch_keeps hostOps0_6

set_option maxHeartbeats 4000000 in
theorem K_hostOps0_3_main_v17 (V : Valuation τ sig (Elt Ideal)) : StableHlo.after hostOps0_3 V (Proc.devRef .tc main_v17) = V (Proc.devRef .tc main_v17) := by
  stretch_keeps hostOps0_3

set_option maxHeartbeats 4000000 in
theorem K_hostOps0_4_main_v17 (V : Valuation τ sig (Elt Ideal)) : StableHlo.after hostOps0_4 V (Proc.devRef .tc main_v17) = V (Proc.devRef .tc main_v17) := by
  stretch_keeps hostOps0_4

set_option maxHeartbeats 4000000 in
theorem K_hostOps0_5_main_v17 (V : Valuation τ sig (Elt Ideal)) : StableHlo.after hostOps0_5 V (Proc.devRef .tc main_v17) = V (Proc.devRef .tc main_v17) := by
  stretch_keeps hostOps0_5

set_option maxHeartbeats 4000000 in
theorem K_hostOps0_6_main_v17 (V : Valuation τ sig (Elt Ideal)) : StableHlo.after hostOps0_6 V (Proc.devRef .tc main_v17) = V (Proc.devRef .tc main_v17) := by
  stretch_keeps hostOps0_6

set_option maxHeartbeats 4000000 in
theorem K_hostOps0_3_main_v19 (V : Valuation τ sig (Elt Ideal)) : StableHlo.after hostOps0_3 V (Proc.devRef .tc main_v19) = V (Proc.devRef .tc main_v19) := by
  stretch_keeps hostOps0_3

set_option maxHeartbeats 4000000 in
theorem K_hostOps0_4_main_v19 (V : Valuation τ sig (Elt Ideal)) : StableHlo.after hostOps0_4 V (Proc.devRef .tc main_v19) = V (Proc.devRef .tc main_v19) := by
  stretch_keeps hostOps0_4

set_option maxHeartbeats 4000000 in
theorem K_hostOps0_5_main_v19 (V : Valuation τ sig (Elt Ideal)) : StableHlo.after hostOps0_5 V (Proc.devRef .tc main_v19) = V (Proc.devRef .tc main_v19) := by
  stretch_keeps hostOps0_5

set_option maxHeartbeats 4000000 in
theorem K_hostOps0_6_main_v19 (V : Valuation τ sig (Elt Ideal)) : StableHlo.after hostOps0_6 V (Proc.devRef .tc main_v19) = V (Proc.devRef .tc main_v19) := by
  stretch_keeps hostOps0_6

set_option maxHeartbeats 4000000 in
theorem K_hostOps0_3_main_v20 (V : Valuation τ sig (Elt Ideal)) : StableHlo.after hostOps0_3 V (Proc.devRef .tc main_v20) = V (Proc.devRef .tc main_v20) := by
  stretch_keeps hostOps0_3

set_option maxHeartbeats 4000000 in
theorem K_hostOps0_5_main_v29 (V : Valuation τ sig (Elt Ideal)) : StableHlo.after hostOps0_5 V (Proc.devRef .tc main_v29) = V (Proc.devRef .tc main_v29) := by
  stretch_keeps hostOps0_5

set_option maxHeartbeats 4000000 in
theorem K_hostOps0_6_main_v29 (V : Valuation τ sig (Elt Ideal)) : StableHlo.after hostOps0_6 V (Proc.devRef .tc main_v29) = V (Proc.devRef .tc main_v29) := by
  stretch_keeps hostOps0_6

set_option maxHeartbeats 4000000 in
theorem K_hostOps0_main_arg0 (V : Valuation τ sig (Elt Ideal)) : StableHlo.after hostOps0 V (Proc.devRef .tc main_arg0) = V (Proc.devRef .tc main_arg0) := by
  stretch_keeps hostOps0

set_option maxHeartbeats 4000000 in
theorem K_hostOps0_1_main_arg0 (V : Valuation τ sig (Elt Ideal)) : StableHlo.after hostOps0_1 V (Proc.devRef .tc main_arg0) = V (Proc.devRef .tc main_arg0) := by
  stretch_keeps hostOps0_1

set_option maxHeartbeats 4000000 in
theorem K_hostOps0_2_main_arg0 (V : Valuation τ sig (Elt Ideal)) : StableHlo.after hostOps0_2 V (Proc.devRef .tc main_arg0) = V (Proc.devRef .tc main_arg0) := by
  stretch_keeps hostOps0_2

set_option maxHeartbeats 4000000 in
theorem K_hostOps0_3_main_arg0 (V : Valuation τ sig (Elt Ideal)) : StableHlo.after hostOps0_3 V (Proc.devRef .tc main_arg0) = V (Proc.devRef .tc main_arg0) := by
  stretch_keeps hostOps0_3

set_option maxHeartbeats 4000000 in
theorem K_hostOps0_4_main_arg0 (V : Valuation τ sig (Elt Ideal)) : StableHlo.after hostOps0_4 V (Proc.devRef .tc main_arg0) = V (Proc.devRef .tc main_arg0) := by
  stretch_keeps hostOps0_4

set_option maxHeartbeats 4000000 in
theorem K_hostOps0_5_main_arg0 (V : Valuation τ sig (Elt Ideal)) : StableHlo.after hostOps0_5 V (Proc.devRef .tc main_arg0) = V (Proc.devRef .tc main_arg0) := by
  stretch_keeps hostOps0_5

set_option maxHeartbeats 4000000 in
theorem K_hostOps0_6_main_arg0 (V : Valuation τ sig (Elt Ideal)) : StableHlo.after hostOps0_6 V (Proc.devRef .tc main_arg0) = V (Proc.devRef .tc main_arg0) := by
  stretch_keeps hostOps0_6

set_option maxHeartbeats 4000000 in
theorem K_hostOps0_main_arg3 (V : Valuation τ sig (Elt Ideal)) : StableHlo.after hostOps0 V (Proc.devRef .tc main_arg3) = V (Proc.devRef .tc main_arg3) := by
  stretch_keeps hostOps0

set_option maxHeartbeats 4000000 in
theorem K_hostOps0_1_main_arg3 (V : Valuation τ sig (Elt Ideal)) : StableHlo.after hostOps0_1 V (Proc.devRef .tc main_arg3) = V (Proc.devRef .tc main_arg3) := by
  stretch_keeps hostOps0_1

set_option maxHeartbeats 4000000 in
theorem K_hostOps0_2_main_arg3 (V : Valuation τ sig (Elt Ideal)) : StableHlo.after hostOps0_2 V (Proc.devRef .tc main_arg3) = V (Proc.devRef .tc main_arg3) := by
  stretch_keeps hostOps0_2

set_option maxHeartbeats 4000000 in
theorem K_hostOps0_3_main_arg3 (V : Valuation τ sig (Elt Ideal)) : StableHlo.after hostOps0_3 V (Proc.devRef .tc main_arg3) = V (Proc.devRef .tc main_arg3) := by
  stretch_keeps hostOps0_3

set_option maxHeartbeats 4000000 in
theorem K_hostOps0_4_main_arg3 (V : Valuation τ sig (Elt Ideal)) : StableHlo.after hostOps0_4 V (Proc.devRef .tc main_arg3) = V (Proc.devRef .tc main_arg3) := by
  stretch_keeps hostOps0_4

set_option maxHeartbeats 4000000 in
theorem K_hostOps0_5_main_arg3 (V : Valuation τ sig (Elt Ideal)) : StableHlo.after hostOps0_5 V (Proc.devRef .tc main_arg3) = V (Proc.devRef .tc main_arg3) := by
  stretch_keeps hostOps0_5

set_option maxHeartbeats 4000000 in
theorem K_hostOps0_6_main_arg3 (V : Valuation τ sig (Elt Ideal)) : StableHlo.after hostOps0_6 V (Proc.devRef .tc main_arg3) = V (Proc.devRef .tc main_arg3) := by
  stretch_keeps hostOps0_6

set_option maxHeartbeats 4000000 in
theorem K_hostOps0_main_arg4 (V : Valuation τ sig (Elt Ideal)) : StableHlo.after hostOps0 V (Proc.devRef .tc main_arg4) = V (Proc.devRef .tc main_arg4) := by
  stretch_keeps hostOps0

set_option maxHeartbeats 4000000 in
theorem K_hostOps0_1_main_arg4 (V : Valuation τ sig (Elt Ideal)) : StableHlo.after hostOps0_1 V (Proc.devRef .tc main_arg4) = V (Proc.devRef .tc main_arg4) := by
  stretch_keeps hostOps0_1

set_option maxHeartbeats 4000000 in
theorem K_hostOps0_2_main_arg4 (V : Valuation τ sig (Elt Ideal)) : StableHlo.after hostOps0_2 V (Proc.devRef .tc main_arg4) = V (Proc.devRef .tc main_arg4) := by
  stretch_keeps hostOps0_2

set_option maxHeartbeats 4000000 in
theorem K_hostOps0_3_main_arg4 (V : Valuation τ sig (Elt Ideal)) : StableHlo.after hostOps0_3 V (Proc.devRef .tc main_arg4) = V (Proc.devRef .tc main_arg4) := by
  stretch_keeps hostOps0_3

set_option maxHeartbeats 4000000 in
theorem K_hostOps0_4_main_arg4 (V : Valuation τ sig (Elt Ideal)) : StableHlo.after hostOps0_4 V (Proc.devRef .tc main_arg4) = V (Proc.devRef .tc main_arg4) := by
  stretch_keeps hostOps0_4

set_option maxHeartbeats 4000000 in
theorem K_hostOps0_5_main_arg4 (V : Valuation τ sig (Elt Ideal)) : StableHlo.after hostOps0_5 V (Proc.devRef .tc main_arg4) = V (Proc.devRef .tc main_arg4) := by
  stretch_keeps hostOps0_5

set_option maxHeartbeats 4000000 in
theorem K_hostOps0_6_main_arg4 (V : Valuation τ sig (Elt Ideal)) : StableHlo.after hostOps0_6 V (Proc.devRef .tc main_arg4) = V (Proc.devRef .tc main_arg4) := by
  stretch_keeps hostOps0_6

set_option maxHeartbeats 4000000 in
theorem K_hostOps0_main_arg5 (V : Valuation τ sig (Elt Ideal)) : StableHlo.after hostOps0 V (Proc.devRef .tc main_arg5) = V (Proc.devRef .tc main_arg5) := by
  stretch_keeps hostOps0

set_option maxHeartbeats 4000000 in
theorem K_hostOps0_1_main_arg5 (V : Valuation τ sig (Elt Ideal)) : StableHlo.after hostOps0_1 V (Proc.devRef .tc main_arg5) = V (Proc.devRef .tc main_arg5) := by
  stretch_keeps hostOps0_1

set_option maxHeartbeats 4000000 in
theorem K_hostOps0_2_main_arg5 (V : Valuation τ sig (Elt Ideal)) : StableHlo.after hostOps0_2 V (Proc.devRef .tc main_arg5) = V (Proc.devRef .tc main_arg5) := by
  stretch_keeps hostOps0_2

set_option maxHeartbeats 4000000 in
theorem K_hostOps0_3_main_arg5 (V : Valuation τ sig (Elt Ideal)) : StableHlo.after hostOps0_3 V (Proc.devRef .tc main_arg5) = V (Proc.devRef .tc main_arg5) := by
  stretch_keeps hostOps0_3

set_option maxHeartbeats 4000000 in
theorem K_hostOps0_4_main_arg5 (V : Valuation τ sig (Elt Ideal)) : StableHlo.after hostOps0_4 V (Proc.devRef .tc main_arg5) = V (Proc.devRef .tc main_arg5) := by
  stretch_keeps hostOps0_4

set_option maxHeartbeats 4000000 in
theorem K_hostOps0_5_main_arg5 (V : Valuation τ sig (Elt Ideal)) : StableHlo.after hostOps0_5 V (Proc.devRef .tc main_arg5) = V (Proc.devRef .tc main_arg5) := by
  stretch_keeps hostOps0_5

set_option maxHeartbeats 4000000 in
theorem K_hostOps0_6_main_arg5 (V : Valuation τ sig (Elt Ideal)) : StableHlo.after hostOps0_6 V (Proc.devRef .tc main_arg5) = V (Proc.devRef .tc main_arg5) := by
  stretch_keeps hostOps0_6

set_option maxHeartbeats 4000000 in
theorem K_hostOps0_main_arg6 (V : Valuation τ sig (Elt Ideal)) : StableHlo.after hostOps0 V (Proc.devRef .tc main_arg6) = V (Proc.devRef .tc main_arg6) := by
  stretch_keeps hostOps0

set_option maxHeartbeats 4000000 in
theorem K_hostOps0_1_main_arg6 (V : Valuation τ sig (Elt Ideal)) : StableHlo.after hostOps0_1 V (Proc.devRef .tc main_arg6) = V (Proc.devRef .tc main_arg6) := by
  stretch_keeps hostOps0_1

set_option maxHeartbeats 4000000 in
theorem K_hostOps0_2_main_arg6 (V : Valuation τ sig (Elt Ideal)) : StableHlo.after hostOps0_2 V (Proc.devRef .tc main_arg6) = V (Proc.devRef .tc main_arg6) := by
  stretch_keeps hostOps0_2

set_option maxHeartbeats 4000000 in
theorem K_hostOps0_3_main_arg6 (V : Valuation τ sig (Elt Ideal)) : StableHlo.after hostOps0_3 V (Proc.devRef .tc main_arg6) = V (Proc.devRef .tc main_arg6) := by
  stretch_keeps hostOps0_3

set_option maxHeartbeats 4000000 in
theorem K_hostOps0_4_main_arg6 (V : Valuation τ sig (Elt Ideal)) : StableHlo.after hostOps0_4 V (Proc.devRef .tc main_arg6) = V (Proc.devRef .tc main_arg6) := by
  stretch_keeps hostOps0_4

set_option maxHeartbeats 4000000 in
theorem K_hostOps0_5_main_arg6 (V : Valuation τ sig (Elt Ideal)) : StableHlo.after hostOps0_5 V (Proc.devRef .tc main_arg6) = V (Proc.devRef .tc main_arg6) := by
  stretch_keeps hostOps0_5

set_option maxHeartbeats 4000000 in
theorem K_hostOps0_6_main_arg6 (V : Valuation τ sig (Elt Ideal)) : StableHlo.after hostOps0_6 V (Proc.devRef .tc main_arg6) = V (Proc.devRef .tc main_arg6) := by
  stretch_keeps hostOps0_6

set_option maxHeartbeats 4000000 in
theorem K_hostOps0_main_arg7 (V : Valuation τ sig (Elt Ideal)) : StableHlo.after hostOps0 V (Proc.devRef .tc main_arg7) = V (Proc.devRef .tc main_arg7) := by
  stretch_keeps hostOps0

set_option maxHeartbeats 4000000 in
theorem K_hostOps0_1_main_arg7 (V : Valuation τ sig (Elt Ideal)) : StableHlo.after hostOps0_1 V (Proc.devRef .tc main_arg7) = V (Proc.devRef .tc main_arg7) := by
  stretch_keeps hostOps0_1

set_option maxHeartbeats 4000000 in
theorem K_hostOps0_2_main_arg7 (V : Valuation τ sig (Elt Ideal)) : StableHlo.after hostOps0_2 V (Proc.devRef .tc main_arg7) = V (Proc.devRef .tc main_arg7) := by
  stretch_keeps hostOps0_2

set_option maxHeartbeats 4000000 in
theorem K_hostOps0_3_main_arg7 (V : Valuation τ sig (Elt Ideal)) : StableHlo.after hostOps0_3 V (Proc.devRef .tc main_arg7) = V (Proc.devRef .tc main_arg7) := by
  stretch_keeps hostOps0_3

set_option maxHeartbeats 4000000 in
theorem K_hostOps0_4_main_arg7 (V : Valuation τ sig (Elt Ideal)) : StableHlo.after hostOps0_4 V (Proc.devRef .tc main_arg7) = V (Proc.devRef .tc main_arg7) := by
  stretch_keeps hostOps0_4

set_option maxHeartbeats 4000000 in
theorem K_hostOps0_5_main_arg7 (V : Valuation τ sig (Elt Ideal)) : StableHlo.after hostOps0_5 V (Proc.devRef .tc main_arg7) = V (Proc.devRef .tc main_arg7) := by
  stretch_keeps hostOps0_5

set_option maxHeartbeats 4000000 in
theorem K_hostOps0_6_main_arg7 (V : Valuation τ sig (Elt Ideal)) : StableHlo.after hostOps0_6 V (Proc.devRef .tc main_arg7) = V (Proc.devRef .tc main_arg7) := by
  stretch_keeps hostOps0_6

set_option maxHeartbeats 4000000 in
theorem K_hostOps0_main_arg8 (V : Valuation τ sig (Elt Ideal)) : StableHlo.after hostOps0 V (Proc.devRef .tc main_arg8) = V (Proc.devRef .tc main_arg8) := by
  stretch_keeps hostOps0

set_option maxHeartbeats 4000000 in
theorem K_hostOps0_1_main_arg8 (V : Valuation τ sig (Elt Ideal)) : StableHlo.after hostOps0_1 V (Proc.devRef .tc main_arg8) = V (Proc.devRef .tc main_arg8) := by
  stretch_keeps hostOps0_1

set_option maxHeartbeats 4000000 in
theorem K_hostOps0_2_main_arg8 (V : Valuation τ sig (Elt Ideal)) : StableHlo.after hostOps0_2 V (Proc.devRef .tc main_arg8) = V (Proc.devRef .tc main_arg8) := by
  stretch_keeps hostOps0_2

set_option maxHeartbeats 4000000 in
theorem K_hostOps0_3_main_arg8 (V : Valuation τ sig (Elt Ideal)) : StableHlo.after hostOps0_3 V (Proc.devRef .tc main_arg8) = V (Proc.devRef .tc main_arg8) := by
  stretch_keeps hostOps0_3

set_option maxHeartbeats 4000000 in
theorem K_hostOps0_4_main_arg8 (V : Valuation τ sig (Elt Ideal)) : StableHlo.after hostOps0_4 V (Proc.devRef .tc main_arg8) = V (Proc.devRef .tc main_arg8) := by
  stretch_keeps hostOps0_4

set_option maxHeartbeats 4000000 in
theorem K_hostOps0_5_main_arg8 (V : Valuation τ sig (Elt Ideal)) : StableHlo.after hostOps0_5 V (Proc.devRef .tc main_arg8) = V (Proc.devRef .tc main_arg8) := by
  stretch_keeps hostOps0_5

set_option maxHeartbeats 4000000 in
theorem K_hostOps0_6_main_arg8 (V : Valuation τ sig (Elt Ideal)) : StableHlo.after hostOps0_6 V (Proc.devRef .tc main_arg8) = V (Proc.devRef .tc main_arg8) := by
  stretch_keeps hostOps0_6

set_option maxHeartbeats 4000000 in
theorem K_hostOps0_main_arg9 (V : Valuation τ sig (Elt Ideal)) : StableHlo.after hostOps0 V (Proc.devRef .tc main_arg9) = V (Proc.devRef .tc main_arg9) := by
  stretch_keeps hostOps0

set_option maxHeartbeats 4000000 in
theorem K_hostOps0_1_main_arg9 (V : Valuation τ sig (Elt Ideal)) : StableHlo.after hostOps0_1 V (Proc.devRef .tc main_arg9) = V (Proc.devRef .tc main_arg9) := by
  stretch_keeps hostOps0_1

set_option maxHeartbeats 4000000 in
theorem K_hostOps0_2_main_arg9 (V : Valuation τ sig (Elt Ideal)) : StableHlo.after hostOps0_2 V (Proc.devRef .tc main_arg9) = V (Proc.devRef .tc main_arg9) := by
  stretch_keeps hostOps0_2

set_option maxHeartbeats 4000000 in
theorem K_hostOps0_3_main_arg9 (V : Valuation τ sig (Elt Ideal)) : StableHlo.after hostOps0_3 V (Proc.devRef .tc main_arg9) = V (Proc.devRef .tc main_arg9) := by
  stretch_keeps hostOps0_3

set_option maxHeartbeats 4000000 in
theorem K_hostOps0_4_main_arg9 (V : Valuation τ sig (Elt Ideal)) : StableHlo.after hostOps0_4 V (Proc.devRef .tc main_arg9) = V (Proc.devRef .tc main_arg9) := by
  stretch_keeps hostOps0_4

set_option maxHeartbeats 4000000 in
theorem K_hostOps0_5_main_arg9 (V : Valuation τ sig (Elt Ideal)) : StableHlo.after hostOps0_5 V (Proc.devRef .tc main_arg9) = V (Proc.devRef .tc main_arg9) := by
  stretch_keeps hostOps0_5

set_option maxHeartbeats 4000000 in
theorem K_hostOps0_6_main_arg9 (V : Valuation τ sig (Elt Ideal)) : StableHlo.after hostOps0_6 V (Proc.devRef .tc main_arg9) = V (Proc.devRef .tc main_arg9) := by
  stretch_keeps hostOps0_6

set_option maxHeartbeats 4000000 in
theorem K_hostOps0_main_arg10 (V : Valuation τ sig (Elt Ideal)) : StableHlo.after hostOps0 V (Proc.devRef .tc main_arg10) = V (Proc.devRef .tc main_arg10) := by
  stretch_keeps hostOps0

set_option maxHeartbeats 4000000 in
theorem K_hostOps0_1_main_arg10 (V : Valuation τ sig (Elt Ideal)) : StableHlo.after hostOps0_1 V (Proc.devRef .tc main_arg10) = V (Proc.devRef .tc main_arg10) := by
  stretch_keeps hostOps0_1

set_option maxHeartbeats 4000000 in
theorem K_hostOps0_2_main_arg10 (V : Valuation τ sig (Elt Ideal)) : StableHlo.after hostOps0_2 V (Proc.devRef .tc main_arg10) = V (Proc.devRef .tc main_arg10) := by
  stretch_keeps hostOps0_2

set_option maxHeartbeats 4000000 in
theorem K_hostOps0_3_main_arg10 (V : Valuation τ sig (Elt Ideal)) : StableHlo.after hostOps0_3 V (Proc.devRef .tc main_arg10) = V (Proc.devRef .tc main_arg10) := by
  stretch_keeps hostOps0_3

set_option maxHeartbeats 4000000 in
theorem K_hostOps0_4_main_arg10 (V : Valuation τ sig (Elt Ideal)) : StableHlo.after hostOps0_4 V (Proc.devRef .tc main_arg10) = V (Proc.devRef .tc main_arg10) := by
  stretch_keeps hostOps0_4

set_option maxHeartbeats 4000000 in
theorem K_hostOps0_5_main_arg10 (V : Valuation τ sig (Elt Ideal)) : StableHlo.after hostOps0_5 V (Proc.devRef .tc main_arg10) = V (Proc.devRef .tc main_arg10) := by
  stretch_keeps hostOps0_5

set_option maxHeartbeats 4000000 in
theorem K_hostOps0_6_main_arg10 (V : Valuation τ sig (Elt Ideal)) : StableHlo.after hostOps0_6 V (Proc.devRef .tc main_arg10) = V (Proc.devRef .tc main_arg10) := by
  stretch_keeps hostOps0_6

set_option maxHeartbeats 4000000 in
theorem K_hostOps0_main_arg11 (V : Valuation τ sig (Elt Ideal)) : StableHlo.after hostOps0 V (Proc.devRef .tc main_arg11) = V (Proc.devRef .tc main_arg11) := by
  stretch_keeps hostOps0

set_option maxHeartbeats 4000000 in
theorem K_hostOps0_1_main_arg11 (V : Valuation τ sig (Elt Ideal)) : StableHlo.after hostOps0_1 V (Proc.devRef .tc main_arg11) = V (Proc.devRef .tc main_arg11) := by
  stretch_keeps hostOps0_1

set_option maxHeartbeats 4000000 in
theorem K_hostOps0_2_main_arg11 (V : Valuation τ sig (Elt Ideal)) : StableHlo.after hostOps0_2 V (Proc.devRef .tc main_arg11) = V (Proc.devRef .tc main_arg11) := by
  stretch_keeps hostOps0_2

set_option maxHeartbeats 4000000 in
theorem K_hostOps0_3_main_arg11 (V : Valuation τ sig (Elt Ideal)) : StableHlo.after hostOps0_3 V (Proc.devRef .tc main_arg11) = V (Proc.devRef .tc main_arg11) := by
  stretch_keeps hostOps0_3

set_option maxHeartbeats 4000000 in
theorem K_hostOps0_4_main_arg11 (V : Valuation τ sig (Elt Ideal)) : StableHlo.after hostOps0_4 V (Proc.devRef .tc main_arg11) = V (Proc.devRef .tc main_arg11) := by
  stretch_keeps hostOps0_4

set_option maxHeartbeats 4000000 in
theorem K_hostOps0_5_main_arg11 (V : Valuation τ sig (Elt Ideal)) : StableHlo.after hostOps0_5 V (Proc.devRef .tc main_arg11) = V (Proc.devRef .tc main_arg11) := by
  stretch_keeps hostOps0_5

set_option maxHeartbeats 4000000 in
theorem K_hostOps0_6_main_arg11 (V : Valuation τ sig (Elt Ideal)) : StableHlo.after hostOps0_6 V (Proc.devRef .tc main_arg11) = V (Proc.devRef .tc main_arg11) := by
  stretch_keeps hostOps0_6

set_option maxHeartbeats 4000000 in
theorem K_hostOps0_main_arg12 (V : Valuation τ sig (Elt Ideal)) : StableHlo.after hostOps0 V (Proc.devRef .tc main_arg12) = V (Proc.devRef .tc main_arg12) := by
  stretch_keeps hostOps0

set_option maxHeartbeats 4000000 in
theorem K_hostOps0_1_main_arg12 (V : Valuation τ sig (Elt Ideal)) : StableHlo.after hostOps0_1 V (Proc.devRef .tc main_arg12) = V (Proc.devRef .tc main_arg12) := by
  stretch_keeps hostOps0_1

set_option maxHeartbeats 4000000 in
theorem K_hostOps0_2_main_arg12 (V : Valuation τ sig (Elt Ideal)) : StableHlo.after hostOps0_2 V (Proc.devRef .tc main_arg12) = V (Proc.devRef .tc main_arg12) := by
  stretch_keeps hostOps0_2

set_option maxHeartbeats 4000000 in
theorem K_hostOps0_3_main_arg12 (V : Valuation τ sig (Elt Ideal)) : StableHlo.after hostOps0_3 V (Proc.devRef .tc main_arg12) = V (Proc.devRef .tc main_arg12) := by
  stretch_keeps hostOps0_3

set_option maxHeartbeats 4000000 in
theorem K_hostOps0_4_main_arg12 (V : Valuation τ sig (Elt Ideal)) : StableHlo.after hostOps0_4 V (Proc.devRef .tc main_arg12) = V (Proc.devRef .tc main_arg12) := by
  stretch_keeps hostOps0_4

set_option maxHeartbeats 4000000 in
theorem K_hostOps0_5_main_arg12 (V : Valuation τ sig (Elt Ideal)) : StableHlo.after hostOps0_5 V (Proc.devRef .tc main_arg12) = V (Proc.devRef .tc main_arg12) := by
  stretch_keeps hostOps0_5

set_option maxHeartbeats 4000000 in
theorem K_hostOps0_6_main_arg12 (V : Valuation τ sig (Elt Ideal)) : StableHlo.after hostOps0_6 V (Proc.devRef .tc main_arg12) = V (Proc.devRef .tc main_arg12) := by
  stretch_keeps hostOps0_6

set_option maxHeartbeats 4000000 in
theorem K_hostOps0_main_arg13 (V : Valuation τ sig (Elt Ideal)) : StableHlo.after hostOps0 V (Proc.devRef .tc main_arg13) = V (Proc.devRef .tc main_arg13) := by
  stretch_keeps hostOps0

set_option maxHeartbeats 4000000 in
theorem K_hostOps0_1_main_arg13 (V : Valuation τ sig (Elt Ideal)) : StableHlo.after hostOps0_1 V (Proc.devRef .tc main_arg13) = V (Proc.devRef .tc main_arg13) := by
  stretch_keeps hostOps0_1

set_option maxHeartbeats 4000000 in
theorem K_hostOps0_2_main_arg13 (V : Valuation τ sig (Elt Ideal)) : StableHlo.after hostOps0_2 V (Proc.devRef .tc main_arg13) = V (Proc.devRef .tc main_arg13) := by
  stretch_keeps hostOps0_2

set_option maxHeartbeats 4000000 in
theorem K_hostOps0_3_main_arg13 (V : Valuation τ sig (Elt Ideal)) : StableHlo.after hostOps0_3 V (Proc.devRef .tc main_arg13) = V (Proc.devRef .tc main_arg13) := by
  stretch_keeps hostOps0_3

set_option maxHeartbeats 4000000 in
theorem K_hostOps0_4_main_arg13 (V : Valuation τ sig (Elt Ideal)) : StableHlo.after hostOps0_4 V (Proc.devRef .tc main_arg13) = V (Proc.devRef .tc main_arg13) := by
  stretch_keeps hostOps0_4

set_option maxHeartbeats 4000000 in
theorem K_hostOps0_5_main_arg13 (V : Valuation τ sig (Elt Ideal)) : StableHlo.after hostOps0_5 V (Proc.devRef .tc main_arg13) = V (Proc.devRef .tc main_arg13) := by
  stretch_keeps hostOps0_5

set_option maxHeartbeats 4000000 in
theorem K_hostOps0_6_main_arg13 (V : Valuation τ sig (Elt Ideal)) : StableHlo.after hostOps0_6 V (Proc.devRef .tc main_arg13) = V (Proc.devRef .tc main_arg13) := by
  stretch_keeps hostOps0_6

set_option maxHeartbeats 4000000 in
theorem K_hostOps0_main_arg14 (V : Valuation τ sig (Elt Ideal)) : StableHlo.after hostOps0 V (Proc.devRef .tc main_arg14) = V (Proc.devRef .tc main_arg14) := by
  stretch_keeps hostOps0

set_option maxHeartbeats 4000000 in
theorem K_hostOps0_1_main_arg14 (V : Valuation τ sig (Elt Ideal)) : StableHlo.after hostOps0_1 V (Proc.devRef .tc main_arg14) = V (Proc.devRef .tc main_arg14) := by
  stretch_keeps hostOps0_1

set_option maxHeartbeats 4000000 in
theorem K_hostOps0_2_main_arg14 (V : Valuation τ sig (Elt Ideal)) : StableHlo.after hostOps0_2 V (Proc.devRef .tc main_arg14) = V (Proc.devRef .tc main_arg14) := by
  stretch_keeps hostOps0_2

set_option maxHeartbeats 4000000 in
theorem K_hostOps0_3_main_arg14 (V : Valuation τ sig (Elt Ideal)) : StableHlo.after hostOps0_3 V (Proc.devRef .tc main_arg14) = V (Proc.devRef .tc main_arg14) := by
  stretch_keeps hostOps0_3

set_option maxHeartbeats 4000000 in
theorem K_hostOps0_4_main_arg14 (V : Valuation τ sig (Elt Ideal)) : StableHlo.after hostOps0_4 V (Proc.devRef .tc main_arg14) = V (Proc.devRef .tc main_arg14) := by
  stretch_keeps hostOps0_4

set_option maxHeartbeats 4000000 in
theorem K_hostOps0_5_main_arg14 (V : Valuation τ sig (Elt Ideal)) : StableHlo.after hostOps0_5 V (Proc.devRef .tc main_arg14) = V (Proc.devRef .tc main_arg14) := by
  stretch_keeps hostOps0_5

set_option maxHeartbeats 4000000 in
theorem K_hostOps0_6_main_arg14 (V : Valuation τ sig (Elt Ideal)) : StableHlo.after hostOps0_6 V (Proc.devRef .tc main_arg14) = V (Proc.devRef .tc main_arg14) := by
  stretch_keeps hostOps0_6

set_option maxHeartbeats 4000000 in
theorem K_hostOps0_main_arg15 (V : Valuation τ sig (Elt Ideal)) : StableHlo.after hostOps0 V (Proc.devRef .tc main_arg15) = V (Proc.devRef .tc main_arg15) := by
  stretch_keeps hostOps0

set_option maxHeartbeats 4000000 in
theorem K_hostOps0_1_main_arg15 (V : Valuation τ sig (Elt Ideal)) : StableHlo.after hostOps0_1 V (Proc.devRef .tc main_arg15) = V (Proc.devRef .tc main_arg15) := by
  stretch_keeps hostOps0_1

set_option maxHeartbeats 4000000 in
theorem K_hostOps0_2_main_arg15 (V : Valuation τ sig (Elt Ideal)) : StableHlo.after hostOps0_2 V (Proc.devRef .tc main_arg15) = V (Proc.devRef .tc main_arg15) := by
  stretch_keeps hostOps0_2

set_option maxHeartbeats 4000000 in
theorem K_hostOps0_3_main_arg15 (V : Valuation τ sig (Elt Ideal)) : StableHlo.after hostOps0_3 V (Proc.devRef .tc main_arg15) = V (Proc.devRef .tc main_arg15) := by
  stretch_keeps hostOps0_3

set_option maxHeartbeats 4000000 in
theorem K_hostOps0_4_main_arg15 (V : Valuation τ sig (Elt Ideal)) : StableHlo.after hostOps0_4 V (Proc.devRef .tc main_arg15) = V (Proc.devRef .tc main_arg15) := by
  stretch_keeps hostOps0_4

set_option maxHeartbeats 4000000 in
theorem K_hostOps0_5_main_arg15 (V : Valuation τ sig (Elt Ideal)) : StableHlo.after hostOps0_5 V (Proc.devRef .tc main_arg15) = V (Proc.devRef .tc main_arg15) := by
  stretch_keeps hostOps0_5

set_option maxHeartbeats 4000000 in
theorem K_hostOps0_6_main_arg15 (V : Valuation τ sig (Elt Ideal)) : StableHlo.after hostOps0_6 V (Proc.devRef .tc main_arg15) = V (Proc.devRef .tc main_arg15) := by
  stretch_keeps hostOps0_6

set_option maxHeartbeats 4000000 in
theorem K_hostOps0_main_arg16 (V : Valuation τ sig (Elt Ideal)) : StableHlo.after hostOps0 V (Proc.devRef .tc main_arg16) = V (Proc.devRef .tc main_arg16) := by
  stretch_keeps hostOps0

set_option maxHeartbeats 4000000 in
theorem K_hostOps0_1_main_arg16 (V : Valuation τ sig (Elt Ideal)) : StableHlo.after hostOps0_1 V (Proc.devRef .tc main_arg16) = V (Proc.devRef .tc main_arg16) := by
  stretch_keeps hostOps0_1

set_option maxHeartbeats 4000000 in
theorem K_hostOps0_2_main_arg16 (V : Valuation τ sig (Elt Ideal)) : StableHlo.after hostOps0_2 V (Proc.devRef .tc main_arg16) = V (Proc.devRef .tc main_arg16) := by
  stretch_keeps hostOps0_2

set_option maxHeartbeats 4000000 in
theorem K_hostOps0_3_main_arg16 (V : Valuation τ sig (Elt Ideal)) : StableHlo.after hostOps0_3 V (Proc.devRef .tc main_arg16) = V (Proc.devRef .tc main_arg16) := by
  stretch_keeps hostOps0_3

set_option maxHeartbeats 4000000 in
theorem K_hostOps0_4_main_arg16 (V : Valuation τ sig (Elt Ideal)) : StableHlo.after hostOps0_4 V (Proc.devRef .tc main_arg16) = V (Proc.devRef .tc main_arg16) := by
  stretch_keeps hostOps0_4

set_option maxHeartbeats 4000000 in
theorem K_hostOps0_5_main_arg16 (V : Valuation τ sig (Elt Ideal)) : StableHlo.after hostOps0_5 V (Proc.devRef .tc main_arg16) = V (Proc.devRef .tc main_arg16) := by
  stretch_keeps hostOps0_5

set_option maxHeartbeats 4000000 in
theorem K_hostOps0_6_main_arg16 (V : Valuation τ sig (Elt Ideal)) : StableHlo.after hostOps0_6 V (Proc.devRef .tc main_arg16) = V (Proc.devRef .tc main_arg16) := by
  stretch_keeps hostOps0_6

set_option maxHeartbeats 4000000 in
theorem K_hostOps0_main_arg17 (V : Valuation τ sig (Elt Ideal)) : StableHlo.after hostOps0 V (Proc.devRef .tc main_arg17) = V (Proc.devRef .tc main_arg17) := by
  stretch_keeps hostOps0

set_option maxHeartbeats 4000000 in
theorem K_hostOps0_1_main_arg17 (V : Valuation τ sig (Elt Ideal)) : StableHlo.after hostOps0_1 V (Proc.devRef .tc main_arg17) = V (Proc.devRef .tc main_arg17) := by
  stretch_keeps hostOps0_1

set_option maxHeartbeats 4000000 in
theorem K_hostOps0_2_main_arg17 (V : Valuation τ sig (Elt Ideal)) : StableHlo.after hostOps0_2 V (Proc.devRef .tc main_arg17) = V (Proc.devRef .tc main_arg17) := by
  stretch_keeps hostOps0_2

set_option maxHeartbeats 4000000 in
theorem K_hostOps0_3_main_arg17 (V : Valuation τ sig (Elt Ideal)) : StableHlo.after hostOps0_3 V (Proc.devRef .tc main_arg17) = V (Proc.devRef .tc main_arg17) := by
  stretch_keeps hostOps0_3

set_option maxHeartbeats 4000000 in
theorem K_hostOps0_4_main_arg17 (V : Valuation τ sig (Elt Ideal)) : StableHlo.after hostOps0_4 V (Proc.devRef .tc main_arg17) = V (Proc.devRef .tc main_arg17) := by
  stretch_keeps hostOps0_4

set_option maxHeartbeats 4000000 in
theorem K_hostOps0_5_main_arg17 (V : Valuation τ sig (Elt Ideal)) : StableHlo.after hostOps0_5 V (Proc.devRef .tc main_arg17) = V (Proc.devRef .tc main_arg17) := by
  stretch_keeps hostOps0_5

set_option maxHeartbeats 4000000 in
theorem K_hostOps0_6_main_arg17 (V : Valuation τ sig (Elt Ideal)) : StableHlo.after hostOps0_6 V (Proc.devRef .tc main_arg17) = V (Proc.devRef .tc main_arg17) := by
  stretch_keeps hostOps0_6

set_option maxHeartbeats 4000000 in
theorem K_hostOps0_main_arg18 (V : Valuation τ sig (Elt Ideal)) : StableHlo.after hostOps0 V (Proc.devRef .tc main_arg18) = V (Proc.devRef .tc main_arg18) := by
  stretch_keeps hostOps0

set_option maxHeartbeats 4000000 in
theorem K_hostOps0_1_main_arg18 (V : Valuation τ sig (Elt Ideal)) : StableHlo.after hostOps0_1 V (Proc.devRef .tc main_arg18) = V (Proc.devRef .tc main_arg18) := by
  stretch_keeps hostOps0_1

set_option maxHeartbeats 4000000 in
theorem K_hostOps0_2_main_arg18 (V : Valuation τ sig (Elt Ideal)) : StableHlo.after hostOps0_2 V (Proc.devRef .tc main_arg18) = V (Proc.devRef .tc main_arg18) := by
  stretch_keeps hostOps0_2

set_option maxHeartbeats 4000000 in
theorem K_hostOps0_3_main_arg18 (V : Valuation τ sig (Elt Ideal)) : StableHlo.after hostOps0_3 V (Proc.devRef .tc main_arg18) = V (Proc.devRef .tc main_arg18) := by
  stretch_keeps hostOps0_3

set_option maxHeartbeats 4000000 in
theorem K_hostOps0_4_main_arg18 (V : Valuation τ sig (Elt Ideal)) : StableHlo.after hostOps0_4 V (Proc.devRef .tc main_arg18) = V (Proc.devRef .tc main_arg18) := by
  stretch_keeps hostOps0_4

set_option maxHeartbeats 4000000 in
theorem K_hostOps0_5_main_arg18 (V : Valuation τ sig (Elt Ideal)) : StableHlo.after hostOps0_5 V (Proc.devRef .tc main_arg18) = V (Proc.devRef .tc main_arg18) := by
  stretch_keeps hostOps0_5

set_option maxHeartbeats 4000000 in
theorem K_hostOps0_6_main_arg18 (V : Valuation τ sig (Elt Ideal)) : StableHlo.after hostOps0_6 V (Proc.devRef .tc main_arg18) = V (Proc.devRef .tc main_arg18) := by
  stretch_keeps hostOps0_6

variable (m : (ℓ : Loc nD τ sig) → Buf (Elt Ideal) ℓ) (ρ : Dev nD → PrngReg)

/-! ## The buffers region 0 and the later stretches read, at region 0's entry -/

set_option maxHeartbeats 4000000 in
theorem W7_main_v3 (c : Dev nD) : W7 m ρ c (Proc.devRef .tc main_v3) = kSrc (m ((c : Thread nD τ).loc main_arg1)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v3) = _
  rw [K_hostOps0_6_main_v3, K_hostOps0_5_main_v3, K_hostOps0_4_main_v3, K_hostOps0_3_main_v3, K_hostOps0_2_main_v3, K_hostOps0_1_main_v3, L_hostOps0_main_v3]
  rfl

set_option maxHeartbeats 4000000 in
theorem W7_main_v6 (c : Dev nD) : W7 m ρ c (Proc.devRef .tc main_v6) = kDst (m ((c : Thread nD τ).loc main_arg1)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v6) = _
  rw [K_hostOps0_6_main_v6, K_hostOps0_5_main_v6, K_hostOps0_4_main_v6, K_hostOps0_3_main_v6, K_hostOps0_2_main_v6, K_hostOps0_1_main_v6, L_hostOps0_main_v6]
  rfl

set_option maxHeartbeats 4000000 in
theorem W7_main_v15 (c : Dev nD) : W7 m ρ c (Proc.devRef .tc main_v15) = kDinv (m ((c : Thread nD τ).loc main_arg1)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v15) = _
  rw [K_hostOps0_6_main_v15, K_hostOps0_5_main_v15, K_hostOps0_4_main_v15, K_hostOps0_3_main_v15, L_hostOps0_2_main_v15, L_hostOps0_1_main_v14, L_hostOps0_main_v12, L_hostOps0_main_v13, L_hostOps0_main_cst_2]
  rfl

set_option maxHeartbeats 4000000 in
theorem W7_main_v17 (c : Dev nD) : W7 m ρ c (Proc.devRef .tc main_v17) = kNode (m ((c : Thread nD τ).loc main_arg2)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v17) = _
  rw [K_hostOps0_6_main_v17, K_hostOps0_5_main_v17, K_hostOps0_4_main_v17, K_hostOps0_3_main_v17, L_hostOps0_2_main_v17, K_hostOps0_1_main_arg2, K_hostOps0_main_arg2]
  rfl

set_option maxHeartbeats 4000000 in
theorem W7_main_v19 (c : Dev nD) : W7 m ρ c (Proc.devRef .tc main_v19) = kHedge (m ((c : Thread nD τ).loc main_arg2)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v19) = _
  rw [K_hostOps0_6_main_v19, K_hostOps0_5_main_v19, K_hostOps0_4_main_v19, K_hostOps0_3_main_v19, L_hostOps0_2_main_v19, K_hostOps0_1_main_arg2, K_hostOps0_main_arg2]
  rfl

set_option maxHeartbeats 4000000 in
theorem W7_main_v29 (c : Dev nD) : W7 m ρ c (Proc.devRef .tc main_v29) = kDcol (m ((c : Thread nD τ).loc main_arg2)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v29) = _
  rw [K_hostOps0_6_main_v29, K_hostOps0_5_main_v29, L_hostOps0_4_main_v29, L_hostOps0_3_main_v28, L_hostOps0_2_main_v25, L_hostOps0_2_main_v27, L_hostOps0_2_main_cst_7, K_hostOps0_1_main_arg2, K_hostOps0_main_arg2]
  rfl

set_option maxHeartbeats 4000000 in
theorem W7_main_v38 (c : Dev nD) : W7 m ρ c (Proc.devRef .tc main_v38) = kBcol (m ((c : Thread nD τ).loc main_arg2)) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v38) = _
  rw [L_hostOps0_6_main_v38, L_hostOps0_5_main_v37, L_hostOps0_4_main_v34, L_hostOps0_4_main_v36, L_hostOps0_4_main_cst_11, K_hostOps0_3_main_v19, K_hostOps0_3_main_v20, L_hostOps0_2_main_v19, L_hostOps0_2_main_v20, K_hostOps0_1_main_arg2, K_hostOps0_main_arg2]
  rfl

set_option maxHeartbeats 4000000 in
theorem W7_main_arg0 (c : Dev nD) : W7 m ρ c (Proc.devRef .tc main_arg0) = m ((c : Thread nD τ).loc main_arg0) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg0) = _
  rw [K_hostOps0_6_main_arg0, K_hostOps0_5_main_arg0, K_hostOps0_4_main_arg0, K_hostOps0_3_main_arg0, K_hostOps0_2_main_arg0, K_hostOps0_1_main_arg0, K_hostOps0_main_arg0]

set_option maxHeartbeats 4000000 in
theorem W7_main_arg3 (c : Dev nD) : W7 m ρ c (Proc.devRef .tc main_arg3) = m ((c : Thread nD τ).loc main_arg3) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg3) = _
  rw [K_hostOps0_6_main_arg3, K_hostOps0_5_main_arg3, K_hostOps0_4_main_arg3, K_hostOps0_3_main_arg3, K_hostOps0_2_main_arg3, K_hostOps0_1_main_arg3, K_hostOps0_main_arg3]

set_option maxHeartbeats 4000000 in
theorem W7_main_arg4 (c : Dev nD) : W7 m ρ c (Proc.devRef .tc main_arg4) = m ((c : Thread nD τ).loc main_arg4) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg4) = _
  rw [K_hostOps0_6_main_arg4, K_hostOps0_5_main_arg4, K_hostOps0_4_main_arg4, K_hostOps0_3_main_arg4, K_hostOps0_2_main_arg4, K_hostOps0_1_main_arg4, K_hostOps0_main_arg4]

set_option maxHeartbeats 4000000 in
theorem W7_main_arg5 (c : Dev nD) : W7 m ρ c (Proc.devRef .tc main_arg5) = m ((c : Thread nD τ).loc main_arg5) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg5) = _
  rw [K_hostOps0_6_main_arg5, K_hostOps0_5_main_arg5, K_hostOps0_4_main_arg5, K_hostOps0_3_main_arg5, K_hostOps0_2_main_arg5, K_hostOps0_1_main_arg5, K_hostOps0_main_arg5]

set_option maxHeartbeats 4000000 in
theorem W7_main_arg6 (c : Dev nD) : W7 m ρ c (Proc.devRef .tc main_arg6) = m ((c : Thread nD τ).loc main_arg6) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg6) = _
  rw [K_hostOps0_6_main_arg6, K_hostOps0_5_main_arg6, K_hostOps0_4_main_arg6, K_hostOps0_3_main_arg6, K_hostOps0_2_main_arg6, K_hostOps0_1_main_arg6, K_hostOps0_main_arg6]

set_option maxHeartbeats 4000000 in
theorem W7_main_arg7 (c : Dev nD) : W7 m ρ c (Proc.devRef .tc main_arg7) = m ((c : Thread nD τ).loc main_arg7) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg7) = _
  rw [K_hostOps0_6_main_arg7, K_hostOps0_5_main_arg7, K_hostOps0_4_main_arg7, K_hostOps0_3_main_arg7, K_hostOps0_2_main_arg7, K_hostOps0_1_main_arg7, K_hostOps0_main_arg7]

set_option maxHeartbeats 4000000 in
theorem W7_main_arg8 (c : Dev nD) : W7 m ρ c (Proc.devRef .tc main_arg8) = m ((c : Thread nD τ).loc main_arg8) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg8) = _
  rw [K_hostOps0_6_main_arg8, K_hostOps0_5_main_arg8, K_hostOps0_4_main_arg8, K_hostOps0_3_main_arg8, K_hostOps0_2_main_arg8, K_hostOps0_1_main_arg8, K_hostOps0_main_arg8]

set_option maxHeartbeats 4000000 in
theorem W7_main_arg9 (c : Dev nD) : W7 m ρ c (Proc.devRef .tc main_arg9) = m ((c : Thread nD τ).loc main_arg9) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg9) = _
  rw [K_hostOps0_6_main_arg9, K_hostOps0_5_main_arg9, K_hostOps0_4_main_arg9, K_hostOps0_3_main_arg9, K_hostOps0_2_main_arg9, K_hostOps0_1_main_arg9, K_hostOps0_main_arg9]

set_option maxHeartbeats 4000000 in
theorem W7_main_arg10 (c : Dev nD) : W7 m ρ c (Proc.devRef .tc main_arg10) = m ((c : Thread nD τ).loc main_arg10) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg10) = _
  rw [K_hostOps0_6_main_arg10, K_hostOps0_5_main_arg10, K_hostOps0_4_main_arg10, K_hostOps0_3_main_arg10, K_hostOps0_2_main_arg10, K_hostOps0_1_main_arg10, K_hostOps0_main_arg10]

set_option maxHeartbeats 4000000 in
theorem W7_main_arg11 (c : Dev nD) : W7 m ρ c (Proc.devRef .tc main_arg11) = m ((c : Thread nD τ).loc main_arg11) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg11) = _
  rw [K_hostOps0_6_main_arg11, K_hostOps0_5_main_arg11, K_hostOps0_4_main_arg11, K_hostOps0_3_main_arg11, K_hostOps0_2_main_arg11, K_hostOps0_1_main_arg11, K_hostOps0_main_arg11]

set_option maxHeartbeats 4000000 in
theorem W7_main_arg12 (c : Dev nD) : W7 m ρ c (Proc.devRef .tc main_arg12) = m ((c : Thread nD τ).loc main_arg12) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg12) = _
  rw [K_hostOps0_6_main_arg12, K_hostOps0_5_main_arg12, K_hostOps0_4_main_arg12, K_hostOps0_3_main_arg12, K_hostOps0_2_main_arg12, K_hostOps0_1_main_arg12, K_hostOps0_main_arg12]

set_option maxHeartbeats 4000000 in
theorem W7_main_arg13 (c : Dev nD) : W7 m ρ c (Proc.devRef .tc main_arg13) = m ((c : Thread nD τ).loc main_arg13) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg13) = _
  rw [K_hostOps0_6_main_arg13, K_hostOps0_5_main_arg13, K_hostOps0_4_main_arg13, K_hostOps0_3_main_arg13, K_hostOps0_2_main_arg13, K_hostOps0_1_main_arg13, K_hostOps0_main_arg13]

set_option maxHeartbeats 4000000 in
theorem W7_main_arg14 (c : Dev nD) : W7 m ρ c (Proc.devRef .tc main_arg14) = m ((c : Thread nD τ).loc main_arg14) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg14) = _
  rw [K_hostOps0_6_main_arg14, K_hostOps0_5_main_arg14, K_hostOps0_4_main_arg14, K_hostOps0_3_main_arg14, K_hostOps0_2_main_arg14, K_hostOps0_1_main_arg14, K_hostOps0_main_arg14]

set_option maxHeartbeats 4000000 in
theorem W7_main_arg15 (c : Dev nD) : W7 m ρ c (Proc.devRef .tc main_arg15) = m ((c : Thread nD τ).loc main_arg15) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg15) = _
  rw [K_hostOps0_6_main_arg15, K_hostOps0_5_main_arg15, K_hostOps0_4_main_arg15, K_hostOps0_3_main_arg15, K_hostOps0_2_main_arg15, K_hostOps0_1_main_arg15, K_hostOps0_main_arg15]

set_option maxHeartbeats 4000000 in
theorem W7_main_arg16 (c : Dev nD) : W7 m ρ c (Proc.devRef .tc main_arg16) = m ((c : Thread nD τ).loc main_arg16) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg16) = _
  rw [K_hostOps0_6_main_arg16, K_hostOps0_5_main_arg16, K_hostOps0_4_main_arg16, K_hostOps0_3_main_arg16, K_hostOps0_2_main_arg16, K_hostOps0_1_main_arg16, K_hostOps0_main_arg16]

set_option maxHeartbeats 4000000 in
theorem W7_main_arg17 (c : Dev nD) : W7 m ρ c (Proc.devRef .tc main_arg17) = m ((c : Thread nD τ).loc main_arg17) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg17) = _
  rw [K_hostOps0_6_main_arg17, K_hostOps0_5_main_arg17, K_hostOps0_4_main_arg17, K_hostOps0_3_main_arg17, K_hostOps0_2_main_arg17, K_hostOps0_1_main_arg17, K_hostOps0_main_arg17]

set_option maxHeartbeats 4000000 in
theorem W7_main_arg18 (c : Dev nD) : W7 m ρ c (Proc.devRef .tc main_arg18) = m ((c : Thread nD τ).loc main_arg18) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg18) = _
  rw [K_hostOps0_6_main_arg18, K_hostOps0_5_main_arg18, K_hostOps0_4_main_arg18, K_hostOps0_3_main_arg18, K_hostOps0_2_main_arg18, K_hostOps0_1_main_arg18, K_hostOps0_main_arg18]

end Cert.KernelIdeal.KerHost

end
-- ==== Proof.KerHostB1.lean ====
/-
  The host operations between regions 0 and 1, from any contents `V`: the two aggregations of region 0's results and the
  bias / scale / shift vectors reshaped to rows.
-/
import proofs.«138258_j55997783605349_2_alg».proof.Proof.KerHostA

set_option maxRecDepth 16384

noncomputable section

namespace Cert.KernelIdeal.KerHost

open Idealize.ShloMosaic Idealize.ShloMosaic.TcCoe Idealize.SL.Sem Idealize.ShloMosaic.StableHlo Cert.KernelIdeal Cert.KernelIdeal.Gen

set_option maxHeartbeats 4000000 in
theorem L_hostOps1_main_v49 (V : Valuation τ sig (Elt Ideal)) : StableHlo.after hostOps1 V (Proc.devRef .tc main_v49) = Host.scatterAdd scatter_S100000x128_S1700000x1_S1700000x128_1_0_0_1 (broadcastInDim S100000x128 ![] bcast_S_S100000x128 (constant (F := Ideal) S_ .f32 0x00000000#32)) (broadcastInDim S1700000x1 ![0] bcast_S1700000_S1700000x1_0 ((V (Proc.devRef .tc main_v6)))) (Host.gather gather_S100000x128_S1700000x1_S1700000x128_1_0_n_n_0_1_1128 ((V (Proc.devRef .tc main_v39_0))) (broadcastInDim S1700000x1 ![0] bcast_S1700000_S1700000x1_0 (select (cmpi .slt ((V (Proc.devRef .tc main_v3))) (broadcastInDim S1700000 ![] bcast_S_S1700000 (constantI S_ 32 0#32))) (addi ((V (Proc.devRef .tc main_v3))) (broadcastInDim S1700000 ![] bcast_S_S1700000 (constantI S_ 32 100000#32))) ((V (Proc.devRef .tc main_v3)))))) := by
  simp only [hostOps1]
  after_results_simp
  all_goals rfl

theorem A_hostOps1_main_v49 (V : Valuation τ sig (Elt Ideal)) : StableHlo.after hostOps1 V (Proc.devRef .tc main_v49) = aggG (V (Proc.devRef .tc main_v39_0)) (V (Proc.devRef .tc main_v3)) (V (Proc.devRef .tc main_v6)) :=
  (L_hostOps1_main_v49 V).trans (by unfold aggG; rfl)

set_option maxHeartbeats 4000000 in
theorem L_hostOps1_main_v73 (V : Valuation τ sig (Elt Ideal)) : StableHlo.after hostOps1 V (Proc.devRef .tc main_v73) = mulf (Host.scatterAdd scatter_S100000x128_S1500000x1_S1500000x128_1_0_0_1 (broadcastInDim S100000x128 ![] bcast_S_S100000x128 (constant (F := Ideal) S_ .f32 0x00000000#32)) (broadcastInDim S1500000x1 ![0] bcast_S1500000_S1500000x1_0 ((V (Proc.devRef .tc main_v17)))) (Host.gather gather_S100000x128_S1500000x1_S1500000x128_1_0_n_n_0_1_1128 (mulf (Host.scatterAdd scatter_S100000x128_S1500000x1_S1500000x128_1_0_0_1 (broadcastInDim S100000x128 ![] bcast_S_S100000x128 (constant (F := Ideal) S_ .f32 0x00000000#32)) (broadcastInDim S1500000x1 ![0] bcast_S1500000_S1500000x1_0 ((V (Proc.devRef .tc main_v19)))) (Host.gather gather_S100000x128_S1500000x1_S1500000x128_1_0_n_n_0_1_1128 ((V (Proc.devRef .tc main_v39_1))) (broadcastInDim S1500000x1 ![0] bcast_S1500000_S1500000x1_0 (select (cmpi .slt ((V (Proc.devRef .tc main_v17))) (broadcastInDim S1500000 ![] bcast_S_S1500000 (constantI S_ 32 0#32))) (addi ((V (Proc.devRef .tc main_v17))) (broadcastInDim S1500000 ![] bcast_S_S1500000 (constantI S_ 32 100000#32))) ((V (Proc.devRef .tc main_v17))))))) (broadcastInDim S100000x128 ![0, 1] bcast_S100000x1_S100000x128_0_1 ((V (Proc.devRef .tc main_v38))))) (broadcastInDim S1500000x1 ![0] bcast_S1500000_S1500000x1_0 (select (cmpi .slt ((V (Proc.devRef .tc main_v19))) (broadcastInDim S1500000 ![] bcast_S_S1500000 (constantI S_ 32 0#32))) (addi ((V (Proc.devRef .tc main_v19))) (broadcastInDim S1500000 ![] bcast_S_S1500000 (constantI S_ 32 100000#32))) ((V (Proc.devRef .tc main_v19))))))) (broadcastInDim S100000x128 ![0, 1] bcast_S100000x1_S100000x128_0_1 ((V (Proc.devRef .tc main_v29)))) := by
  simp only [hostOps1]
  after_results_simp
  all_goals rfl

theorem A_hostOps1_main_v73 (V : Valuation τ sig (Elt Ideal)) : StableHlo.after hostOps1 V (Proc.devRef .tc main_v73) = aggH (V (Proc.devRef .tc main_v39_1)) (V (Proc.devRef .tc main_v17)) (V (Proc.devRef .tc main_v19)) (V (Proc.devRef .tc main_v29)) (V (Proc.devRef .tc main_v38)) :=
  (L_hostOps1_main_v73 V).trans (by unfold aggH; rfl)

set_option maxHeartbeats 4000000 in
theorem L_hostOps1_main_v74 (V : Valuation τ sig (Elt Ideal)) : StableHlo.after hostOps1 V (Proc.devRef .tc main_v74) = shapeCast _ ((V (Proc.devRef .tc main_arg4))) shapeCasts_S128_S1x128 := by
  simp only [hostOps1]
  after_results_simp
  all_goals rfl

set_option maxHeartbeats 4000000 in
theorem L_hostOps1_main_v75 (V : Valuation τ sig (Elt Ideal)) : StableHlo.after hostOps1 V (Proc.devRef .tc main_v75) = shapeCast _ ((V (Proc.devRef .tc main_arg11))) shapeCasts_S128_S1x128 := by
  simp only [hostOps1]
  after_results_simp
  all_goals rfl

set_option maxHeartbeats 4000000 in
theorem L_hostOps1_main_v76 (V : Valuation τ sig (Elt Ideal)) : StableHlo.after hostOps1 V (Proc.devRef .tc main_v76) = shapeCast _ ((V (Proc.devRef .tc main_arg12))) shapeCasts_S128_S1x128 := by
  simp only [hostOps1]
  after_results_simp
  all_goals rfl

set_option maxHeartbeats 4000000 in
theorem L_hostOps1_main_v77 (V : Valuation τ sig (Elt Ideal)) : StableHlo.after hostOps1 V (Proc.devRef .tc main_v77) = shapeCast _ ((V (Proc.devRef .tc main_arg8))) shapeCasts_S128_S1x128 := by
  simp only [hostOps1]
  after_results_simp
  all_goals rfl

set_option maxHeartbeats 4000000 in
theorem L_hostOps1_main_v78 (V : Valuation τ sig (Elt Ideal)) : StableHlo.after hostOps1 V (Proc.devRef .tc main_v78) = shapeCast _ ((V (Proc.devRef .tc main_arg13))) shapeCasts_S128_S1x128 := by
  simp only [hostOps1]
  after_results_simp
  all_goals rfl

set_option maxHeartbeats 4000000 in
theorem L_hostOps1_main_v79 (V : Valuation τ sig (Elt Ideal)) : StableHlo.after hostOps1 V (Proc.devRef .tc main_v79) = shapeCast _ ((V (Proc.devRef .tc main_arg14))) shapeCasts_S128_S1x128 := by
  simp only [hostOps1]
  after_results_simp
  all_goals rfl

end Cert.KernelIdeal.KerHost

end
-- ==== Proof.KerHostB2.lean ====
/-
  The host operations between regions 1 and 2, from any contents `V`: the two aggregations of region 1's results and the
  bias / scale / shift vectors reshaped to rows.
-/
import proofs.«138258_j55997783605349_2_alg».proof.Proof.KerHostA

set_option maxRecDepth 16384

noncomputable section

namespace Cert.KernelIdeal.KerHost

open Idealize.ShloMosaic Idealize.ShloMosaic.TcCoe Idealize.SL.Sem Idealize.ShloMosaic.StableHlo Cert.KernelIdeal Cert.KernelIdeal.Gen

set_option maxHeartbeats 4000000 in
theorem L_hostOps2_main_v90 (V : Valuation τ sig (Elt Ideal)) : StableHlo.after hostOps2 V (Proc.devRef .tc main_v90) = Host.scatterAdd scatter_S100000x128_S1700000x1_S1700000x128_1_0_0_1 (broadcastInDim S100000x128 ![] bcast_S_S100000x128 (constant (F := Ideal) S_ .f32 0x00000000#32)) (broadcastInDim S1700000x1 ![0] bcast_S1700000_S1700000x1_0 ((V (Proc.devRef .tc main_v6)))) (Host.gather gather_S100000x128_S1700000x1_S1700000x128_1_0_n_n_0_1_1128 ((V (Proc.devRef .tc main_v80_0))) (broadcastInDim S1700000x1 ![0] bcast_S1700000_S1700000x1_0 (select (cmpi .slt ((V (Proc.devRef .tc main_v3))) (broadcastInDim S1700000 ![] bcast_S_S1700000 (constantI S_ 32 0#32))) (addi ((V (Proc.devRef .tc main_v3))) (broadcastInDim S1700000 ![] bcast_S_S1700000 (constantI S_ 32 100000#32))) ((V (Proc.devRef .tc main_v3)))))) := by
  simp only [hostOps2]
  after_results_simp
  all_goals rfl

theorem A_hostOps2_main_v90 (V : Valuation τ sig (Elt Ideal)) : StableHlo.after hostOps2 V (Proc.devRef .tc main_v90) = aggG (V (Proc.devRef .tc main_v80_0)) (V (Proc.devRef .tc main_v3)) (V (Proc.devRef .tc main_v6)) :=
  (L_hostOps2_main_v90 V).trans (by unfold aggG; rfl)

set_option maxHeartbeats 4000000 in
theorem L_hostOps2_main_v114 (V : Valuation τ sig (Elt Ideal)) : StableHlo.after hostOps2 V (Proc.devRef .tc main_v114) = mulf (Host.scatterAdd scatter_S100000x128_S1500000x1_S1500000x128_1_0_0_1 (broadcastInDim S100000x128 ![] bcast_S_S100000x128 (constant (F := Ideal) S_ .f32 0x00000000#32)) (broadcastInDim S1500000x1 ![0] bcast_S1500000_S1500000x1_0 ((V (Proc.devRef .tc main_v17)))) (Host.gather gather_S100000x128_S1500000x1_S1500000x128_1_0_n_n_0_1_1128 (mulf (Host.scatterAdd scatter_S100000x128_S1500000x1_S1500000x128_1_0_0_1 (broadcastInDim S100000x128 ![] bcast_S_S100000x128 (constant (F := Ideal) S_ .f32 0x00000000#32)) (broadcastInDim S1500000x1 ![0] bcast_S1500000_S1500000x1_0 ((V (Proc.devRef .tc main_v19)))) (Host.gather gather_S100000x128_S1500000x1_S1500000x128_1_0_n_n_0_1_1128 ((V (Proc.devRef .tc main_v80_1))) (broadcastInDim S1500000x1 ![0] bcast_S1500000_S1500000x1_0 (select (cmpi .slt ((V (Proc.devRef .tc main_v17))) (broadcastInDim S1500000 ![] bcast_S_S1500000 (constantI S_ 32 0#32))) (addi ((V (Proc.devRef .tc main_v17))) (broadcastInDim S1500000 ![] bcast_S_S1500000 (constantI S_ 32 100000#32))) ((V (Proc.devRef .tc main_v17))))))) (broadcastInDim S100000x128 ![0, 1] bcast_S100000x1_S100000x128_0_1 ((V (Proc.devRef .tc main_v38))))) (broadcastInDim S1500000x1 ![0] bcast_S1500000_S1500000x1_0 (select (cmpi .slt ((V (Proc.devRef .tc main_v19))) (broadcastInDim S1500000 ![] bcast_S_S1500000 (constantI S_ 32 0#32))) (addi ((V (Proc.devRef .tc main_v19))) (broadcastInDim S1500000 ![] bcast_S_S1500000 (constantI S_ 32 100000#32))) ((V (Proc.devRef .tc main_v19))))))) (broadcastInDim S100000x128 ![0, 1] bcast_S100000x1_S100000x128_0_1 ((V (Proc.devRef .tc main_v29)))) := by
  simp only [hostOps2]
  after_results_simp
  all_goals rfl

theorem A_hostOps2_main_v114 (V : Valuation τ sig (Elt Ideal)) : StableHlo.after hostOps2 V (Proc.devRef .tc main_v114) = aggH (V (Proc.devRef .tc main_v80_1)) (V (Proc.devRef .tc main_v17)) (V (Proc.devRef .tc main_v19)) (V (Proc.devRef .tc main_v29)) (V (Proc.devRef .tc main_v38)) :=
  (L_hostOps2_main_v114 V).trans (by unfold aggH; rfl)

set_option maxHeartbeats 4000000 in
theorem L_hostOps2_main_v115 (V : Valuation τ sig (Elt Ideal)) : StableHlo.after hostOps2 V (Proc.devRef .tc main_v115) = shapeCast _ ((V (Proc.devRef .tc main_arg6))) shapeCasts_S128_S1x128 := by
  simp only [hostOps2]
  after_results_simp
  all_goals rfl

set_option maxHeartbeats 4000000 in
theorem L_hostOps2_main_v116 (V : Valuation τ sig (Elt Ideal)) : StableHlo.after hostOps2 V (Proc.devRef .tc main_v116) = shapeCast _ ((V (Proc.devRef .tc main_arg11))) shapeCasts_S128_S1x128 := by
  simp only [hostOps2]
  after_results_simp
  all_goals rfl

set_option maxHeartbeats 4000000 in
theorem L_hostOps2_main_v117 (V : Valuation τ sig (Elt Ideal)) : StableHlo.after hostOps2 V (Proc.devRef .tc main_v117) = shapeCast _ ((V (Proc.devRef .tc main_arg12))) shapeCasts_S128_S1x128 := by
  simp only [hostOps2]
  after_results_simp
  all_goals rfl

set_option maxHeartbeats 4000000 in
theorem L_hostOps2_main_v118 (V : Valuation τ sig (Elt Ideal)) : StableHlo.after hostOps2 V (Proc.devRef .tc main_v118) = shapeCast _ ((V (Proc.devRef .tc main_arg10))) shapeCasts_S128_S1x128 := by
  simp only [hostOps2]
  after_results_simp
  all_goals rfl

set_option maxHeartbeats 4000000 in
theorem L_hostOps2_main_v119 (V : Valuation τ sig (Elt Ideal)) : StableHlo.after hostOps2 V (Proc.devRef .tc main_v119) = shapeCast _ ((V (Proc.devRef .tc main_arg13))) shapeCasts_S128_S1x128 := by
  simp only [hostOps2]
  after_results_simp
  all_goals rfl

set_option maxHeartbeats 4000000 in
theorem L_hostOps2_main_v120 (V : Valuation τ sig (Elt Ideal)) : StableHlo.after hostOps2 V (Proc.devRef .tc main_v120) = shapeCast _ ((V (Proc.devRef .tc main_arg14))) shapeCasts_S128_S1x128 := by
  simp only [hostOps2]
  after_results_simp
  all_goals rfl

set_option maxHeartbeats 4000000 in
theorem L_hostOps2_main_v121 (V : Valuation τ sig (Elt Ideal)) : StableHlo.after hostOps2 V (Proc.devRef .tc main_v121) = shapeCast _ ((V (Proc.devRef .tc main_arg16))) shapeCasts_S128_S1x128 := by
  simp only [hostOps2]
  after_results_simp
  all_goals rfl

set_option maxHeartbeats 4000000 in
theorem L_hostOps2_main_v122 (V : Valuation τ sig (Elt Ideal)) : StableHlo.after hostOps2 V (Proc.devRef .tc main_v122) = shapeCast _ ((V (Proc.devRef .tc main_arg18))) shapeCasts_S128_S1x128 := by
  simp only [hostOps2]
  after_results_simp
  all_goals rfl

end Cert.KernelIdeal.KerHost

end
-- ==== Proof.KerHostB3.lean ====
/-
  Every buffer computed before region 0 that a later segment reads, and every argument, is written by no operation of the two
  stretches between the regions: each keeps them.
-/
import proofs.«138258_j55997783605349_2_alg».proof.Proof.KerHostA

set_option maxRecDepth 16384

noncomputable section

namespace Cert.KernelIdeal.KerHost

open Idealize.ShloMosaic Idealize.ShloMosaic.TcCoe Idealize.SL.Sem Idealize.ShloMosaic.StableHlo Cert.KernelIdeal Cert.KernelIdeal.Gen

set_option maxHeartbeats 4000000 in
theorem K_hostOps1_main_v3 (V : Valuation τ sig (Elt Ideal)) : StableHlo.after hostOps1 V (Proc.devRef .tc main_v3) = V (Proc.devRef .tc main_v3) := by
  stretch_keeps hostOps1

set_option maxHeartbeats 4000000 in
theorem K_hostOps2_main_v3 (V : Valuation τ sig (Elt Ideal)) : StableHlo.after hostOps2 V (Proc.devRef .tc main_v3) = V (Proc.devRef .tc main_v3) := by
  stretch_keeps hostOps2

set_option maxHeartbeats 4000000 in
theorem K_hostOps1_main_v6 (V : Valuation τ sig (Elt Ideal)) : StableHlo.after hostOps1 V (Proc.devRef .tc main_v6) = V (Proc.devRef .tc main_v6) := by
  stretch_keeps hostOps1

set_option maxHeartbeats 4000000 in
theorem K_hostOps2_main_v6 (V : Valuation τ sig (Elt Ideal)) : StableHlo.after hostOps2 V (Proc.devRef .tc main_v6) = V (Proc.devRef .tc main_v6) := by
  stretch_keeps hostOps2

set_option maxHeartbeats 4000000 in
theorem K_hostOps1_main_v15 (V : Valuation τ sig (Elt Ideal)) : StableHlo.after hostOps1 V (Proc.devRef .tc main_v15) = V (Proc.devRef .tc main_v15) := by
  stretch_keeps hostOps1

set_option maxHeartbeats 4000000 in
theorem K_hostOps2_main_v15 (V : Valuation τ sig (Elt Ideal)) : StableHlo.after hostOps2 V (Proc.devRef .tc main_v15) = V (Proc.devRef .tc main_v15) := by
  stretch_keeps hostOps2

set_option maxHeartbeats 4000000 in
theorem K_hostOps1_main_v17 (V : Valuation τ sig (Elt Ideal)) : StableHlo.after hostOps1 V (Proc.devRef .tc main_v17) = V (Proc.devRef .tc main_v17) := by
  stretch_keeps hostOps1

set_option maxHeartbeats 4000000 in
theorem K_hostOps2_main_v17 (V : Valuation τ sig (Elt Ideal)) : StableHlo.after hostOps2 V (Proc.devRef .tc main_v17) = V (Proc.devRef .tc main_v17) := by
  stretch_keeps hostOps2

set_option maxHeartbeats 4000000 in
theorem K_hostOps1_main_v19 (V : Valuation τ sig (Elt Ideal)) : StableHlo.after hostOps1 V (Proc.devRef .tc main_v19) = V (Proc.devRef .tc main_v19) := by
  stretch_keeps hostOps1

set_option maxHeartbeats 4000000 in
theorem K_hostOps2_main_v19 (V : Valuation τ sig (Elt Ideal)) : StableHlo.after hostOps2 V (Proc.devRef .tc main_v19) = V (Proc.devRef .tc main_v19) := by
  stretch_keeps hostOps2

set_option maxHeartbeats 4000000 in
theorem K_hostOps1_main_v29 (V : Valuation τ sig (Elt Ideal)) : StableHlo.after hostOps1 V (Proc.devRef .tc main_v29) = V (Proc.devRef .tc main_v29) := by
  stretch_keeps hostOps1

set_option maxHeartbeats 4000000 in
theorem K_hostOps2_main_v29 (V : Valuation τ sig (Elt Ideal)) : StableHlo.after hostOps2 V (Proc.devRef .tc main_v29) = V (Proc.devRef .tc main_v29) := by
  stretch_keeps hostOps2

set_option maxHeartbeats 4000000 in
theorem K_hostOps1_main_v38 (V : Valuation τ sig (Elt Ideal)) : StableHlo.after hostOps1 V (Proc.devRef .tc main_v38) = V (Proc.devRef .tc main_v38) := by
  stretch_keeps hostOps1

set_option maxHeartbeats 4000000 in
theorem K_hostOps2_main_v38 (V : Valuation τ sig (Elt Ideal)) : StableHlo.after hostOps2 V (Proc.devRef .tc main_v38) = V (Proc.devRef .tc main_v38) := by
  stretch_keeps hostOps2

set_option maxHeartbeats 4000000 in
theorem K_hostOps1_main_arg0 (V : Valuation τ sig (Elt Ideal)) : StableHlo.after hostOps1 V (Proc.devRef .tc main_arg0) = V (Proc.devRef .tc main_arg0) := by
  stretch_keeps hostOps1

set_option maxHeartbeats 4000000 in
theorem K_hostOps2_main_arg0 (V : Valuation τ sig (Elt Ideal)) : StableHlo.after hostOps2 V (Proc.devRef .tc main_arg0) = V (Proc.devRef .tc main_arg0) := by
  stretch_keeps hostOps2

set_option maxHeartbeats 4000000 in
theorem K_hostOps1_main_arg3 (V : Valuation τ sig (Elt Ideal)) : StableHlo.after hostOps1 V (Proc.devRef .tc main_arg3) = V (Proc.devRef .tc main_arg3) := by
  stretch_keeps hostOps1

set_option maxHeartbeats 4000000 in
theorem K_hostOps2_main_arg3 (V : Valuation τ sig (Elt Ideal)) : StableHlo.after hostOps2 V (Proc.devRef .tc main_arg3) = V (Proc.devRef .tc main_arg3) := by
  stretch_keeps hostOps2

set_option maxHeartbeats 4000000 in
theorem K_hostOps1_main_arg4 (V : Valuation τ sig (Elt Ideal)) : StableHlo.after hostOps1 V (Proc.devRef .tc main_arg4) = V (Proc.devRef .tc main_arg4) := by
  stretch_keeps hostOps1

set_option maxHeartbeats 4000000 in
theorem K_hostOps2_main_arg4 (V : Valuation τ sig (Elt Ideal)) : StableHlo.after hostOps2 V (Proc.devRef .tc main_arg4) = V (Proc.devRef .tc main_arg4) := by
  stretch_keeps hostOps2

set_option maxHeartbeats 4000000 in
theorem K_hostOps1_main_arg5 (V : Valuation τ sig (Elt Ideal)) : StableHlo.after hostOps1 V (Proc.devRef .tc main_arg5) = V (Proc.devRef .tc main_arg5) := by
  stretch_keeps hostOps1

set_option maxHeartbeats 4000000 in
theorem K_hostOps2_main_arg5 (V : Valuation τ sig (Elt Ideal)) : StableHlo.after hostOps2 V (Proc.devRef .tc main_arg5) = V (Proc.devRef .tc main_arg5) := by
  stretch_keeps hostOps2

set_option maxHeartbeats 4000000 in
theorem K_hostOps1_main_arg6 (V : Valuation τ sig (Elt Ideal)) : StableHlo.after hostOps1 V (Proc.devRef .tc main_arg6) = V (Proc.devRef .tc main_arg6) := by
  stretch_keeps hostOps1

set_option maxHeartbeats 4000000 in
theorem K_hostOps2_main_arg6 (V : Valuation τ sig (Elt Ideal)) : StableHlo.after hostOps2 V (Proc.devRef .tc main_arg6) = V (Proc.devRef .tc main_arg6) := by
  stretch_keeps hostOps2

set_option maxHeartbeats 4000000 in
theorem K_hostOps1_main_arg7 (V : Valuation τ sig (Elt Ideal)) : StableHlo.after hostOps1 V (Proc.devRef .tc main_arg7) = V (Proc.devRef .tc main_arg7) := by
  stretch_keeps hostOps1

set_option maxHeartbeats 4000000 in
theorem K_hostOps2_main_arg7 (V : Valuation τ sig (Elt Ideal)) : StableHlo.after hostOps2 V (Proc.devRef .tc main_arg7) = V (Proc.devRef .tc main_arg7) := by
  stretch_keeps hostOps2

set_option maxHeartbeats 4000000 in
theorem K_hostOps1_main_arg8 (V : Valuation τ sig (Elt Ideal)) : StableHlo.after hostOps1 V (Proc.devRef .tc main_arg8) = V (Proc.devRef .tc main_arg8) := by
  stretch_keeps hostOps1

set_option maxHeartbeats 4000000 in
theorem K_hostOps2_main_arg8 (V : Valuation τ sig (Elt Ideal)) : StableHlo.after hostOps2 V (Proc.devRef .tc main_arg8) = V (Proc.devRef .tc main_arg8) := by
  stretch_keeps hostOps2

set_option maxHeartbeats 4000000 in
theorem K_hostOps1_main_arg9 (V : Valuation τ sig (Elt Ideal)) : StableHlo.after hostOps1 V (Proc.devRef .tc main_arg9) = V (Proc.devRef .tc main_arg9) := by
  stretch_keeps hostOps1

set_option maxHeartbeats 4000000 in
theorem K_hostOps2_main_arg9 (V : Valuation τ sig (Elt Ideal)) : StableHlo.after hostOps2 V (Proc.devRef .tc main_arg9) = V (Proc.devRef .tc main_arg9) := by
  stretch_keeps hostOps2

set_option maxHeartbeats 4000000 in
theorem K_hostOps1_main_arg10 (V : Valuation τ sig (Elt Ideal)) : StableHlo.after hostOps1 V (Proc.devRef .tc main_arg10) = V (Proc.devRef .tc main_arg10) := by
  stretch_keeps hostOps1

set_option maxHeartbeats 4000000 in
theorem K_hostOps2_main_arg10 (V : Valuation τ sig (Elt Ideal)) : StableHlo.after hostOps2 V (Proc.devRef .tc main_arg10) = V (Proc.devRef .tc main_arg10) := by
  stretch_keeps hostOps2

set_option maxHeartbeats 4000000 in
theorem K_hostOps1_main_arg11 (V : Valuation τ sig (Elt Ideal)) : StableHlo.after hostOps1 V (Proc.devRef .tc main_arg11) = V (Proc.devRef .tc main_arg11) := by
  stretch_keeps hostOps1

set_option maxHeartbeats 4000000 in
theorem K_hostOps2_main_arg11 (V : Valuation τ sig (Elt Ideal)) : StableHlo.after hostOps2 V (Proc.devRef .tc main_arg11) = V (Proc.devRef .tc main_arg11) := by
  stretch_keeps hostOps2

set_option maxHeartbeats 4000000 in
theorem K_hostOps1_main_arg12 (V : Valuation τ sig (Elt Ideal)) : StableHlo.after hostOps1 V (Proc.devRef .tc main_arg12) = V (Proc.devRef .tc main_arg12) := by
  stretch_keeps hostOps1

set_option maxHeartbeats 4000000 in
theorem K_hostOps2_main_arg12 (V : Valuation τ sig (Elt Ideal)) : StableHlo.after hostOps2 V (Proc.devRef .tc main_arg12) = V (Proc.devRef .tc main_arg12) := by
  stretch_keeps hostOps2

set_option maxHeartbeats 4000000 in
theorem K_hostOps1_main_arg13 (V : Valuation τ sig (Elt Ideal)) : StableHlo.after hostOps1 V (Proc.devRef .tc main_arg13) = V (Proc.devRef .tc main_arg13) := by
  stretch_keeps hostOps1

set_option maxHeartbeats 4000000 in
theorem K_hostOps2_main_arg13 (V : Valuation τ sig (Elt Ideal)) : StableHlo.after hostOps2 V (Proc.devRef .tc main_arg13) = V (Proc.devRef .tc main_arg13) := by
  stretch_keeps hostOps2

set_option maxHeartbeats 4000000 in
theorem K_hostOps1_main_arg14 (V : Valuation τ sig (Elt Ideal)) : StableHlo.after hostOps1 V (Proc.devRef .tc main_arg14) = V (Proc.devRef .tc main_arg14) := by
  stretch_keeps hostOps1

set_option maxHeartbeats 4000000 in
theorem K_hostOps2_main_arg14 (V : Valuation τ sig (Elt Ideal)) : StableHlo.after hostOps2 V (Proc.devRef .tc main_arg14) = V (Proc.devRef .tc main_arg14) := by
  stretch_keeps hostOps2

set_option maxHeartbeats 4000000 in
theorem K_hostOps1_main_arg15 (V : Valuation τ sig (Elt Ideal)) : StableHlo.after hostOps1 V (Proc.devRef .tc main_arg15) = V (Proc.devRef .tc main_arg15) := by
  stretch_keeps hostOps1

set_option maxHeartbeats 4000000 in
theorem K_hostOps2_main_arg15 (V : Valuation τ sig (Elt Ideal)) : StableHlo.after hostOps2 V (Proc.devRef .tc main_arg15) = V (Proc.devRef .tc main_arg15) := by
  stretch_keeps hostOps2

set_option maxHeartbeats 4000000 in
theorem K_hostOps1_main_arg16 (V : Valuation τ sig (Elt Ideal)) : StableHlo.after hostOps1 V (Proc.devRef .tc main_arg16) = V (Proc.devRef .tc main_arg16) := by
  stretch_keeps hostOps1

set_option maxHeartbeats 4000000 in
theorem K_hostOps2_main_arg16 (V : Valuation τ sig (Elt Ideal)) : StableHlo.after hostOps2 V (Proc.devRef .tc main_arg16) = V (Proc.devRef .tc main_arg16) := by
  stretch_keeps hostOps2

set_option maxHeartbeats 4000000 in
theorem K_hostOps1_main_arg17 (V : Valuation τ sig (Elt Ideal)) : StableHlo.after hostOps1 V (Proc.devRef .tc main_arg17) = V (Proc.devRef .tc main_arg17) := by
  stretch_keeps hostOps1

set_option maxHeartbeats 4000000 in
theorem K_hostOps2_main_arg17 (V : Valuation τ sig (Elt Ideal)) : StableHlo.after hostOps2 V (Proc.devRef .tc main_arg17) = V (Proc.devRef .tc main_arg17) := by
  stretch_keeps hostOps2

set_option maxHeartbeats 4000000 in
theorem K_hostOps1_main_arg18 (V : Valuation τ sig (Elt Ideal)) : StableHlo.after hostOps1 V (Proc.devRef .tc main_arg18) = V (Proc.devRef .tc main_arg18) := by
  stretch_keeps hostOps1

set_option maxHeartbeats 4000000 in
theorem K_hostOps2_main_arg18 (V : Valuation τ sig (Elt Ideal)) : StableHlo.after hostOps2 V (Proc.devRef .tc main_arg18) = V (Proc.devRef .tc main_arg18) := by
  stretch_keeps hostOps2

end Cert.KernelIdeal.KerHost

end
-- ==== Proof.KerRun.lean ====
/-
  The idealized kernel's run with its whole final memory in the post.

  @main is twelve segments: nine stretches of host operations and three regions. Run segment by segment from the launch memory,
  every weakly fair execution terminates, nothing faulting, and every unscoped buffer of every core ends at the last boundary's
  contents: the fold of the segments over the launch memory (a host stretch rewrites the buffers its operations write; a region
  leaves each output array at what its write-backs fold to and every other buffer as it was entered).
-/
import proofs.«138258_j55997783605349_2_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the last
    boundary's contents. -/
theorem run_mem : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

end Cert.KernelIdeal.KerRun

end
-- ==== Proof.KerVal.lean ====
/-
  The idealized kernel's result as ONE function of the argument arrays.

  Walking @main's segments in order: the buffers region 0 is entered with are the arguments and the coefficient column; its
  results are the two first-layer products (the graph one with its rows scaled); the host aggregates them; region 1 is entered
  with the aggregates, the column and the reshaped bias / scale / shift rows, and leaves the second-layer products; the host
  aggregates again; region 2 leaves the result. Every buffer a later segment reads is kept by the segments in between.
-/
import proofs.«138258_j55997783605349_2_alg».proof.Proof.KerReg0
import proofs.«138258_j55997783605349_2_alg».proof.Proof.KerReg1
import proofs.«138258_j55997783605349_2_alg».proof.Proof.KerReg2
import proofs.«138258_j55997783605349_2_alg».proof.Proof.KerHostB1
import proofs.«138258_j55997783605349_2_alg».proof.Proof.KerHostB2
import proofs.«138258_j55997783605349_2_alg».proof.Proof.KerHostB3
import proofs.«138258_j55997783605349_2_alg».proof.Proof.KerRun

set_option maxRecDepth 16384

noncomputable section

namespace Cert.KernelIdeal.KerVal

open Idealize.ShloMosaic Idealize.ShloMosaic.TcCoe Idealize.SL.Sem Idealize.ShloMosaic.StableHlo Cert.KernelIdeal Cert.KernelIdeal.Gen
open Cert.KernelIdeal.KerReg Cert.KernelIdeal.KerHost

variable (m : (ℓ : Loc nD τ sig) → Buf (Elt Ideal) ℓ) (ρ : Dev nD → PrngReg)

/-! ## The buffers the later segments read are kept up to each boundary -/

theorem P8_main_v3 (c : Dev nD) : W8 m ρ c (Proc.devRef .tc main_v3) = (kSrc (m ((c : Thread nD τ).loc main_arg1))) := (W8_of_ne m ρ c main_v3 (by decide)).trans (W7_main_v3 m ρ c)
theorem P9_main_v3 (c : Dev nD) : W9 m ρ c (Proc.devRef .tc main_v3) = (kSrc (m ((c : Thread nD τ).loc main_arg1))) := (K_hostOps1_main_v3 (W8 m ρ c)).trans (P8_main_v3 m ρ c)
theorem P10_main_v3 (c : Dev nD) : W10 m ρ c (Proc.devRef .tc main_v3) = (kSrc (m ((c : Thread nD τ).loc main_arg1))) := (W10_of_ne m ρ c main_v3 (by decide)).trans (P9_main_v3 m ρ c)
theorem P11_main_v3 (c : Dev nD) : W11 m ρ c (Proc.devRef .tc main_v3) = (kSrc (m ((c : Thread nD τ).loc main_arg1))) := (K_hostOps2_main_v3 (W10 m ρ c)).trans (P10_main_v3 m ρ c)
theorem P8_main_v6 (c : Dev nD) : W8 m ρ c (Proc.devRef .tc main_v6) = (kDst (m ((c : Thread nD τ).loc main_arg1))) := (W8_of_ne m ρ c main_v6 (by decide)).trans (W7_main_v6 m ρ c)
theorem P9_main_v6 (c : Dev nD) : W9 m ρ c (Proc.devRef .tc main_v6) = (kDst (m ((c : Thread nD τ).loc main_arg1))) := (K_hostOps1_main_v6 (W8 m ρ c)).trans (P8_main_v6 m ρ c)
theorem P10_main_v6 (c : Dev nD) : W10 m ρ c (Proc.devRef .tc main_v6) = (kDst (m ((c : Thread nD τ).loc main_arg1))) := (W10_of_ne m ρ c main_v6 (by decide)).trans (P9_main_v6 m ρ c)
theorem P11_main_v6 (c : Dev nD) : W11 m ρ c (Proc.devRef .tc main_v6) = (kDst (m ((c : Thread nD τ).loc main_arg1))) := (K_hostOps2_main_v6 (W10 m ρ c)).trans (P10_main_v6 m ρ c)
theorem P8_main_v15 (c : Dev nD) : W8 m ρ c (Proc.devRef .tc main_v15) = (kDinv (m ((c : Thread nD τ).loc main_arg1))) :=
  ((W8_arr m ρ c 3).trans (((dat0 (V7 m ρ) c).arrAt_in 3 rfl _).trans (A_eq0 (V7 m ρ) c 3))).trans (W7_main_v15 m ρ c)
theorem P9_main_v15 (c : Dev nD) : W9 m ρ c (Proc.devRef .tc main_v15) = (kDinv (m ((c : Thread nD τ).loc main_arg1))) := (K_hostOps1_main_v15 (W8 m ρ c)).trans (P8_main_v15 m ρ c)
theorem P10_main_v15 (c : Dev nD) : W10 m ρ c (Proc.devRef .tc main_v15) = (kDinv (m ((c : Thread nD τ).loc main_arg1))) :=
  ((W10_arr m ρ c 1).trans (((dat1 (V9 m ρ) c).arrAt_in 1 rfl _).trans (A_eq1 (V9 m ρ) c 1))).trans (P9_main_v15 m ρ c)
theorem P11_main_v15 (c : Dev nD) : W11 m ρ c (Proc.devRef .tc main_v15) = (kDinv (m ((c : Thread nD τ).loc main_arg1))) := (K_hostOps2_main_v15 (W10 m ρ c)).trans (P10_main_v15 m ρ c)
theorem P8_main_v17 (c : Dev nD) : W8 m ρ c (Proc.devRef .tc main_v17) = (kNode (m ((c : Thread nD τ).loc main_arg2))) := (W8_of_ne m ρ c main_v17 (by decide)).trans (W7_main_v17 m ρ c)
theorem P9_main_v17 (c : Dev nD) : W9 m ρ c (Proc.devRef .tc main_v17) = (kNode (m ((c : Thread nD τ).loc main_arg2))) := (K_hostOps1_main_v17 (W8 m ρ c)).trans (P8_main_v17 m ρ c)
theorem P10_main_v17 (c : Dev nD) : W10 m ρ c (Proc.devRef .tc main_v17) = (kNode (m ((c : Thread nD τ).loc main_arg2))) := (W10_of_ne m ρ c main_v17 (by decide)).trans (P9_main_v17 m ρ c)
theorem P11_main_v17 (c : Dev nD) : W11 m ρ c (Proc.devRef .tc main_v17) = (kNode (m ((c : Thread nD τ).loc main_arg2))) := (K_hostOps2_main_v17 (W10 m ρ c)).trans (P10_main_v17 m ρ c)
theorem P8_main_v19 (c : Dev nD) : W8 m ρ c (Proc.devRef .tc main_v19) = (kHedge (m ((c : Thread nD τ).loc main_arg2))) := (W8_of_ne m ρ c main_v19 (by decide)).trans (W7_main_v19 m ρ c)
theorem P9_main_v19 (c : Dev nD) : W9 m ρ c (Proc.devRef .tc main_v19) = (kHedge (m ((c : Thread nD τ).loc main_arg2))) := (K_hostOps1_main_v19 (W8 m ρ c)).trans (P8_main_v19 m ρ c)
theorem P10_main_v19 (c : Dev nD) : W10 m ρ c (Proc.devRef .tc main_v19) = (kHedge (m ((c : Thread nD τ).loc main_arg2))) := (W10_of_ne m ρ c main_v19 (by decide)).trans (P9_main_v19 m ρ c)
theorem P11_main_v19 (c : Dev nD) : W11 m ρ c (Proc.devRef .tc main_v19) = (kHedge (m ((c : Thread nD τ).loc main_arg2))) := (K_hostOps2_main_v19 (W10 m ρ c)).trans (P10_main_v19 m ρ c)
theorem P8_main_v29 (c : Dev nD) : W8 m ρ c (Proc.devRef .tc main_v29) = (kDcol (m ((c : Thread nD τ).loc main_arg2))) := (W8_of_ne m ρ c main_v29 (by decide)).trans (W7_main_v29 m ρ c)
theorem P9_main_v29 (c : Dev nD) : W9 m ρ c (Proc.devRef .tc main_v29) = (kDcol (m ((c : Thread nD τ).loc main_arg2))) := (K_hostOps1_main_v29 (W8 m ρ c)).trans (P8_main_v29 m ρ c)
theorem P10_main_v29 (c : Dev nD) : W10 m ρ c (Proc.devRef .tc main_v29) = (kDcol (m ((c : Thread nD τ).loc main_arg2))) := (W10_of_ne m ρ c main_v29 (by decide)).trans (P9_main_v29 m ρ c)
theorem P11_main_v29 (c : Dev nD) : W11 m ρ c (Proc.devRef .tc main_v29) = (kDcol (m ((c : Thread nD τ).loc main_arg2))) := (K_hostOps2_main_v29 (W10 m ρ c)).trans (P10_main_v29 m ρ c)
theorem P8_main_v38 (c : Dev nD) : W8 m ρ c (Proc.devRef .tc main_v38) = (kBcol (m ((c : Thread nD τ).loc main_arg2))) := (W8_of_ne m ρ c main_v38 (by decide)).trans (W7_main_v38 m ρ c)
theorem P9_main_v38 (c : Dev nD) : W9 m ρ c (Proc.devRef .tc main_v38) = (kBcol (m ((c : Thread nD τ).loc main_arg2))) := (K_hostOps1_main_v38 (W8 m ρ c)).trans (P8_main_v38 m ρ c)
theorem P10_main_v38 (c : Dev nD) : W10 m ρ c (Proc.devRef .tc main_v38) = (kBcol (m ((c : Thread nD τ).loc main_arg2))) := (W10_of_ne m ρ c main_v38 (by decide)).trans (P9_main_v38 m ρ c)
theorem P11_main_v38 (c : Dev nD) : W11 m ρ c (Proc.devRef .tc main_v38) = (kBcol (m ((c : Thread nD τ).loc main_arg2))) := (K_hostOps2_main_v38 (W10 m ρ c)).trans (P10_main_v38 m ρ c)
theorem P8_main_arg0 (c : Dev nD) : W8 m ρ c (Proc.devRef .tc main_arg0) = (m ((c : Thread nD τ).loc main_arg0)) :=
  ((W8_arr m ρ c 0).trans (((dat0 (V7 m ρ) c).arrAt_in 0 rfl _).trans (A_eq0 (V7 m ρ) c 0))).trans (W7_main_arg0 m ρ c)
theorem P9_main_arg0 (c : Dev nD) : W9 m ρ c (Proc.devRef .tc main_arg0) = (m ((c : Thread nD τ).loc main_arg0)) := (K_hostOps1_main_arg0 (W8 m ρ c)).trans (P8_main_arg0 m ρ c)
theorem P10_main_arg0 (c : Dev nD) : W10 m ρ c (Proc.devRef .tc main_arg0) = (m ((c : Thread nD τ).loc main_arg0)) := (W10_of_ne m ρ c main_arg0 (by decide)).trans (P9_main_arg0 m ρ c)
theorem P11_main_arg0 (c : Dev nD) : W11 m ρ c (Proc.devRef .tc main_arg0) = (m ((c : Thread nD τ).loc main_arg0)) := (K_hostOps2_main_arg0 (W10 m ρ c)).trans (P10_main_arg0 m ρ c)
theorem P8_main_arg3 (c : Dev nD) : W8 m ρ c (Proc.devRef .tc main_arg3) = (m ((c : Thread nD τ).loc main_arg3)) :=
  ((W8_arr m ρ c 1).trans (((dat0 (V7 m ρ) c).arrAt_in 1 rfl _).trans (A_eq0 (V7 m ρ) c 1))).trans (W7_main_arg3 m ρ c)
theorem P9_main_arg3 (c : Dev nD) : W9 m ρ c (Proc.devRef .tc main_arg3) = (m ((c : Thread nD τ).loc main_arg3)) := (K_hostOps1_main_arg3 (W8 m ρ c)).trans (P8_main_arg3 m ρ c)
theorem P10_main_arg3 (c : Dev nD) : W10 m ρ c (Proc.devRef .tc main_arg3) = (m ((c : Thread nD τ).loc main_arg3)) := (W10_of_ne m ρ c main_arg3 (by decide)).trans (P9_main_arg3 m ρ c)
theorem P11_main_arg3 (c : Dev nD) : W11 m ρ c (Proc.devRef .tc main_arg3) = (m ((c : Thread nD τ).loc main_arg3)) := (K_hostOps2_main_arg3 (W10 m ρ c)).trans (P10_main_arg3 m ρ c)
theorem P8_main_arg4 (c : Dev nD) : W8 m ρ c (Proc.devRef .tc main_arg4) = (m ((c : Thread nD τ).loc main_arg4)) := (W8_of_ne m ρ c main_arg4 (by decide)).trans (W7_main_arg4 m ρ c)
theorem P9_main_arg4 (c : Dev nD) : W9 m ρ c (Proc.devRef .tc main_arg4) = (m ((c : Thread nD τ).loc main_arg4)) := (K_hostOps1_main_arg4 (W8 m ρ c)).trans (P8_main_arg4 m ρ c)
theorem P10_main_arg4 (c : Dev nD) : W10 m ρ c (Proc.devRef .tc main_arg4) = (m ((c : Thread nD τ).loc main_arg4)) := (W10_of_ne m ρ c main_arg4 (by decide)).trans (P9_main_arg4 m ρ c)
theorem P11_main_arg4 (c : Dev nD) : W11 m ρ c (Proc.devRef .tc main_arg4) = (m ((c : Thread nD τ).loc main_arg4)) := (K_hostOps2_main_arg4 (W10 m ρ c)).trans (P10_main_arg4 m ρ c)
theorem P8_main_arg5 (c : Dev nD) : W8 m ρ c (Proc.devRef .tc main_arg5) = (m ((c : Thread nD τ).loc main_arg5)) := (W8_of_ne m ρ c main_arg5 (by decide)).trans (W7_main_arg5 m ρ c)
theorem P9_main_arg5 (c : Dev nD) : W9 m ρ c (Proc.devRef .tc main_arg5) = (m ((c : Thread nD τ).loc main_arg5)) := (K_hostOps1_main_arg5 (W8 m ρ c)).trans (P8_main_arg5 m ρ c)
theorem P10_main_arg5 (c : Dev nD) : W10 m ρ c (Proc.devRef .tc main_arg5) = (m ((c : Thread nD τ).loc main_arg5)) :=
  ((W10_arr m ρ c 5).trans (((dat1 (V9 m ρ) c).arrAt_in 5 rfl _).trans (A_eq1 (V9 m ρ) c 5))).trans (P9_main_arg5 m ρ c)
theorem P11_main_arg5 (c : Dev nD) : W11 m ρ c (Proc.devRef .tc main_arg5) = (m ((c : Thread nD τ).loc main_arg5)) := (K_hostOps2_main_arg5 (W10 m ρ c)).trans (P10_main_arg5 m ρ c)
theorem P8_main_arg6 (c : Dev nD) : W8 m ρ c (Proc.devRef .tc main_arg6) = (m ((c : Thread nD τ).loc main_arg6)) := (W8_of_ne m ρ c main_arg6 (by decide)).trans (W7_main_arg6 m ρ c)
theorem P9_main_arg6 (c : Dev nD) : W9 m ρ c (Proc.devRef .tc main_arg6) = (m ((c : Thread nD τ).loc main_arg6)) := (K_hostOps1_main_arg6 (W8 m ρ c)).trans (P8_main_arg6 m ρ c)
theorem P10_main_arg6 (c : Dev nD) : W10 m ρ c (Proc.devRef .tc main_arg6) = (m ((c : Thread nD τ).loc main_arg6)) := (W10_of_ne m ρ c main_arg6 (by decide)).trans (P9_main_arg6 m ρ c)
theorem P11_main_arg6 (c : Dev nD) : W11 m ρ c (Proc.devRef .tc main_arg6) = (m ((c : Thread nD τ).loc main_arg6)) := (K_hostOps2_main_arg6 (W10 m ρ c)).trans (P10_main_arg6 m ρ c)
theorem P8_main_arg7 (c : Dev nD) : W8 m ρ c (Proc.devRef .tc main_arg7) = (m ((c : Thread nD τ).loc main_arg7)) :=
  ((W8_arr m ρ c 2).trans (((dat0 (V7 m ρ) c).arrAt_in 2 rfl _).trans (A_eq0 (V7 m ρ) c 2))).trans (W7_main_arg7 m ρ c)
theorem P9_main_arg7 (c : Dev nD) : W9 m ρ c (Proc.devRef .tc main_arg7) = (m ((c : Thread nD τ).loc main_arg7)) := (K_hostOps1_main_arg7 (W8 m ρ c)).trans (P8_main_arg7 m ρ c)
theorem P10_main_arg7 (c : Dev nD) : W10 m ρ c (Proc.devRef .tc main_arg7) = (m ((c : Thread nD τ).loc main_arg7)) := (W10_of_ne m ρ c main_arg7 (by decide)).trans (P9_main_arg7 m ρ c)
theorem P11_main_arg7 (c : Dev nD) : W11 m ρ c (Proc.devRef .tc main_arg7) = (m ((c : Thread nD τ).loc main_arg7)) := (K_hostOps2_main_arg7 (W10 m ρ c)).trans (P10_main_arg7 m ρ c)
theorem P8_main_arg8 (c : Dev nD) : W8 m ρ c (Proc.devRef .tc main_arg8) = (m ((c : Thread nD τ).loc main_arg8)) := (W8_of_ne m ρ c main_arg8 (by decide)).trans (W7_main_arg8 m ρ c)
theorem P9_main_arg8 (c : Dev nD) : W9 m ρ c (Proc.devRef .tc main_arg8) = (m ((c : Thread nD τ).loc main_arg8)) := (K_hostOps1_main_arg8 (W8 m ρ c)).trans (P8_main_arg8 m ρ c)
theorem P10_main_arg8 (c : Dev nD) : W10 m ρ c (Proc.devRef .tc main_arg8) = (m ((c : Thread nD τ).loc main_arg8)) := (W10_of_ne m ρ c main_arg8 (by decide)).trans (P9_main_arg8 m ρ c)
theorem P11_main_arg8 (c : Dev nD) : W11 m ρ c (Proc.devRef .tc main_arg8) = (m ((c : Thread nD τ).loc main_arg8)) := (K_hostOps2_main_arg8 (W10 m ρ c)).trans (P10_main_arg8 m ρ c)
theorem P8_main_arg9 (c : Dev nD) : W8 m ρ c (Proc.devRef .tc main_arg9) = (m ((c : Thread nD τ).loc main_arg9)) := (W8_of_ne m ρ c main_arg9 (by decide)).trans (W7_main_arg9 m ρ c)
theorem P9_main_arg9 (c : Dev nD) : W9 m ρ c (Proc.devRef .tc main_arg9) = (m ((c : Thread nD τ).loc main_arg9)) := (K_hostOps1_main_arg9 (W8 m ρ c)).trans (P8_main_arg9 m ρ c)
theorem P10_main_arg9 (c : Dev nD) : W10 m ρ c (Proc.devRef .tc main_arg9) = (m ((c : Thread nD τ).loc main_arg9)) :=
  ((W10_arr m ρ c 10).trans (((dat1 (V9 m ρ) c).arrAt_in 10 rfl _).trans (A_eq1 (V9 m ρ) c 10))).trans (P9_main_arg9 m ρ c)
theorem P11_main_arg9 (c : Dev nD) : W11 m ρ c (Proc.devRef .tc main_arg9) = (m ((c : Thread nD τ).loc main_arg9)) := (K_hostOps2_main_arg9 (W10 m ρ c)).trans (P10_main_arg9 m ρ c)
theorem P8_main_arg10 (c : Dev nD) : W8 m ρ c (Proc.devRef .tc main_arg10) = (m ((c : Thread nD τ).loc main_arg10)) := (W8_of_ne m ρ c main_arg10 (by decide)).trans (W7_main_arg10 m ρ c)
theorem P9_main_arg10 (c : Dev nD) : W9 m ρ c (Proc.devRef .tc main_arg10) = (m ((c : Thread nD τ).loc main_arg10)) := (K_hostOps1_main_arg10 (W8 m ρ c)).trans (P8_main_arg10 m ρ c)
theorem P10_main_arg10 (c : Dev nD) : W10 m ρ c (Proc.devRef .tc main_arg10) = (m ((c : Thread nD τ).loc main_arg10)) := (W10_of_ne m ρ c main_arg10 (by decide)).trans (P9_main_arg10 m ρ c)
theorem P11_main_arg10 (c : Dev nD) : W11 m ρ c (Proc.devRef .tc main_arg10) = (m ((c : Thread nD τ).loc main_arg10)) := (K_hostOps2_main_arg10 (W10 m ρ c)).trans (P10_main_arg10 m ρ c)
theorem P8_main_arg11 (c : Dev nD) : W8 m ρ c (Proc.devRef .tc main_arg11) = (m ((c : Thread nD τ).loc main_arg11)) := (W8_of_ne m ρ c main_arg11 (by decide)).trans (W7_main_arg11 m ρ c)
theorem P9_main_arg11 (c : Dev nD) : W9 m ρ c (Proc.devRef .tc main_arg11) = (m ((c : Thread nD τ).loc main_arg11)) := (K_hostOps1_main_arg11 (W8 m ρ c)).trans (P8_main_arg11 m ρ c)
theorem P10_main_arg11 (c : Dev nD) : W10 m ρ c (Proc.devRef .tc main_arg11) = (m ((c : Thread nD τ).loc main_arg11)) := (W10_of_ne m ρ c main_arg11 (by decide)).trans (P9_main_arg11 m ρ c)
theorem P11_main_arg11 (c : Dev nD) : W11 m ρ c (Proc.devRef .tc main_arg11) = (m ((c : Thread nD τ).loc main_arg11)) := (K_hostOps2_main_arg11 (W10 m ρ c)).trans (P10_main_arg11 m ρ c)
theorem P8_main_arg12 (c : Dev nD) : W8 m ρ c (Proc.devRef .tc main_arg12) = (m ((c : Thread nD τ).loc main_arg12)) := (W8_of_ne m ρ c main_arg12 (by decide)).trans (W7_main_arg12 m ρ c)
theorem P9_main_arg12 (c : Dev nD) : W9 m ρ c (Proc.devRef .tc main_arg12) = (m ((c : Thread nD τ).loc main_arg12)) := (K_hostOps1_main_arg12 (W8 m ρ c)).trans (P8_main_arg12 m ρ c)
theorem P10_main_arg12 (c : Dev nD) : W10 m ρ c (Proc.devRef .tc main_arg12) = (m ((c : Thread nD τ).loc main_arg12)) := (W10_of_ne m ρ c main_arg12 (by decide)).trans (P9_main_arg12 m ρ c)
theorem P11_main_arg12 (c : Dev nD) : W11 m ρ c (Proc.devRef .tc main_arg12) = (m ((c : Thread nD τ).loc main_arg12)) := (K_hostOps2_main_arg12 (W10 m ρ c)).trans (P10_main_arg12 m ρ c)
theorem P8_main_arg13 (c : Dev nD) : W8 m ρ c (Proc.devRef .tc main_arg13) = (m ((c : Thread nD τ).loc main_arg13)) := (W8_of_ne m ρ c main_arg13 (by decide)).trans (W7_main_arg13 m ρ c)
theorem P9_main_arg13 (c : Dev nD) : W9 m ρ c (Proc.devRef .tc main_arg13) = (m ((c : Thread nD τ).loc main_arg13)) := (K_hostOps1_main_arg13 (W8 m ρ c)).trans (P8_main_arg13 m ρ c)
theorem P10_main_arg13 (c : Dev nD) : W10 m ρ c (Proc.devRef .tc main_arg13) = (m ((c : Thread nD τ).loc main_arg13)) := (W10_of_ne m ρ c main_arg13 (by decide)).trans (P9_main_arg13 m ρ c)
theorem P11_main_arg13 (c : Dev nD) : W11 m ρ c (Proc.devRef .tc main_arg13) = (m ((c : Thread nD τ).loc main_arg13)) := (K_hostOps2_main_arg13 (W10 m ρ c)).trans (P10_main_arg13 m ρ c)
theorem P8_main_arg14 (c : Dev nD) : W8 m ρ c (Proc.devRef .tc main_arg14) = (m ((c : Thread nD τ).loc main_arg14)) := (W8_of_ne m ρ c main_arg14 (by decide)).trans (W7_main_arg14 m ρ c)
theorem P9_main_arg14 (c : Dev nD) : W9 m ρ c (Proc.devRef .tc main_arg14) = (m ((c : Thread nD τ).loc main_arg14)) := (K_hostOps1_main_arg14 (W8 m ρ c)).trans (P8_main_arg14 m ρ c)
theorem P10_main_arg14 (c : Dev nD) : W10 m ρ c (Proc.devRef .tc main_arg14) = (m ((c : Thread nD τ).loc main_arg14)) := (W10_of_ne m ρ c main_arg14 (by decide)).trans (P9_main_arg14 m ρ c)
theorem P11_main_arg14 (c : Dev nD) : W11 m ρ c (Proc.devRef .tc main_arg14) = (m ((c : Thread nD τ).loc main_arg14)) := (K_hostOps2_main_arg14 (W10 m ρ c)).trans (P10_main_arg14 m ρ c)
theorem P8_main_arg15 (c : Dev nD) : W8 m ρ c (Proc.devRef .tc main_arg15) = (m ((c : Thread nD τ).loc main_arg15)) := (W8_of_ne m ρ c main_arg15 (by decide)).trans (W7_main_arg15 m ρ c)
theorem P9_main_arg15 (c : Dev nD) : W9 m ρ c (Proc.devRef .tc main_arg15) = (m ((c : Thread nD τ).loc main_arg15)) := (K_hostOps1_main_arg15 (W8 m ρ c)).trans (P8_main_arg15 m ρ c)
theorem P10_main_arg15 (c : Dev nD) : W10 m ρ c (Proc.devRef .tc main_arg15) = (m ((c : Thread nD τ).loc main_arg15)) := (W10_of_ne m ρ c main_arg15 (by decide)).trans (P9_main_arg15 m ρ c)
theorem P11_main_arg15 (c : Dev nD) : W11 m ρ c (Proc.devRef .tc main_arg15) = (m ((c : Thread nD τ).loc main_arg15)) := (K_hostOps2_main_arg15 (W10 m ρ c)).trans (P10_main_arg15 m ρ c)
theorem P8_main_arg16 (c : Dev nD) : W8 m ρ c (Proc.devRef .tc main_arg16) = (m ((c : Thread nD τ).loc main_arg16)) := (W8_of_ne m ρ c main_arg16 (by decide)).trans (W7_main_arg16 m ρ c)
theorem P9_main_arg16 (c : Dev nD) : W9 m ρ c (Proc.devRef .tc main_arg16) = (m ((c : Thread nD τ).loc main_arg16)) := (K_hostOps1_main_arg16 (W8 m ρ c)).trans (P8_main_arg16 m ρ c)
theorem P10_main_arg16 (c : Dev nD) : W10 m ρ c (Proc.devRef .tc main_arg16) = (m ((c : Thread nD τ).loc main_arg16)) := (W10_of_ne m ρ c main_arg16 (by decide)).trans (P9_main_arg16 m ρ c)
theorem P11_main_arg16 (c : Dev nD) : W11 m ρ c (Proc.devRef .tc main_arg16) = (m ((c : Thread nD τ).loc main_arg16)) := (K_hostOps2_main_arg16 (W10 m ρ c)).trans (P10_main_arg16 m ρ c)
theorem P8_main_arg17 (c : Dev nD) : W8 m ρ c (Proc.devRef .tc main_arg17) = (m ((c : Thread nD τ).loc main_arg17)) := (W8_of_ne m ρ c main_arg17 (by decide)).trans (W7_main_arg17 m ρ c)
theorem P9_main_arg17 (c : Dev nD) : W9 m ρ c (Proc.devRef .tc main_arg17) = (m ((c : Thread nD τ).loc main_arg17)) := (K_hostOps1_main_arg17 (W8 m ρ c)).trans (P8_main_arg17 m ρ c)
theorem P10_main_arg17 (c : Dev nD) : W10 m ρ c (Proc.devRef .tc main_arg17) = (m ((c : Thread nD τ).loc main_arg17)) := (W10_of_ne m ρ c main_arg17 (by decide)).trans (P9_main_arg17 m ρ c)
theorem P11_main_arg17 (c : Dev nD) : W11 m ρ c (Proc.devRef .tc main_arg17) = (m ((c : Thread nD τ).loc main_arg17)) := (K_hostOps2_main_arg17 (W10 m ρ c)).trans (P10_main_arg17 m ρ c)
theorem P8_main_arg18 (c : Dev nD) : W8 m ρ c (Proc.devRef .tc main_arg18) = (m ((c : Thread nD τ).loc main_arg18)) := (W8_of_ne m ρ c main_arg18 (by decide)).trans (W7_main_arg18 m ρ c)
theorem P9_main_arg18 (c : Dev nD) : W9 m ρ c (Proc.devRef .tc main_arg18) = (m ((c : Thread nD τ).loc main_arg18)) := (K_hostOps1_main_arg18 (W8 m ρ c)).trans (P8_main_arg18 m ρ c)
theorem P10_main_arg18 (c : Dev nD) : W10 m ρ c (Proc.devRef .tc main_arg18) = (m ((c : Thread nD τ).loc main_arg18)) := (W10_of_ne m ρ c main_arg18 (by decide)).trans (P9_main_arg18 m ρ c)
theorem P11_main_arg18 (c : Dev nD) : W11 m ρ c (Proc.devRef .tc main_arg18) = (m ((c : Thread nD τ).loc main_arg18)) := (K_hostOps2_main_arg18 (W10 m ρ c)).trans (P10_main_arg18 m ρ c)

/-! ## Region 0 -/

/-- Region 0's first result: the first graph product, each row scaled by its node's coefficient. -/
theorem O0g (c : Dev nD) : W8 m ρ c (Proc.devRef .tc main_v39_0) = (G0g (m ((c : Thread nD τ).loc main_arg0)) (m ((c : Thread nD τ).loc main_arg3)) (kDinv (m ((c : Thread nD τ).loc main_arg1)))) := by
  refine (W8_arr m ρ c 4).trans ?_
  rw [final0_4 (V7 m ρ) c]
  show G0g (W7 m ρ c (Proc.devRef .tc main_arg0)) (W7 m ρ c (Proc.devRef .tc main_arg3)) (W7 m ρ c (Proc.devRef .tc main_v15)) = _
  rw [W7_main_arg0, W7_main_arg3, W7_main_v15]

/-- Region 0's second result: the first hypergraph product. -/
theorem O0h (c : Dev nD) : W8 m ρ c (Proc.devRef .tc main_v39_1) = (G0h (m ((c : Thread nD τ).loc main_arg0)) (m ((c : Thread nD τ).loc main_arg7))) := by
  refine (W8_arr m ρ c 5).trans ?_
  rw [final0_5 (V7 m ρ) c]
  show G0h (W7 m ρ c (Proc.devRef .tc main_arg0)) (W7 m ρ c (Proc.devRef .tc main_arg7)) = _
  rw [W7_main_arg0, W7_main_arg7]

/-! ## Region 1 -/

theorem I9_main_v49 (c : Dev nD) : W9 m ρ c (Proc.devRef .tc main_v49) = (aggG (G0g (m ((c : Thread nD τ).loc main_arg0)) (m ((c : Thread nD τ).loc main_arg3)) (kDinv (m ((c : Thread nD τ).loc main_arg1)))) (kSrc (m ((c : Thread nD τ).loc main_arg1))) (kDst (m ((c : Thread nD τ).loc main_arg1)))) :=
  (A_hostOps1_main_v49 (W8 m ρ c)).trans (by rw [O0g, P8_main_v3, P8_main_v6])
theorem I9_main_v73 (c : Dev nD) : W9 m ρ c (Proc.devRef .tc main_v73) = (aggH (G0h (m ((c : Thread nD τ).loc main_arg0)) (m ((c : Thread nD τ).loc main_arg7))) (kNode (m ((c : Thread nD τ).loc main_arg2))) (kHedge (m ((c : Thread nD τ).loc main_arg2))) (kDcol (m ((c : Thread nD τ).loc main_arg2))) (kBcol (m ((c : Thread nD τ).loc main_arg2)))) :=
  (A_hostOps1_main_v73 (W8 m ρ c)).trans (by rw [O0h, P8_main_v17, P8_main_v19, P8_main_v29, P8_main_v38])
theorem I9_main_v74 (c : Dev nD) : W9 m ρ c (Proc.devRef .tc main_v74) = (shapeCast _ (m ((c : Thread nD τ).loc main_arg4)) shapeCasts_S128_S1x128) :=
  (L_hostOps1_main_v74 (W8 m ρ c)).trans (by rw [P8_main_arg4])
theorem I9_main_v75 (c : Dev nD) : W9 m ρ c (Proc.devRef .tc main_v75) = (shapeCast _ (m ((c : Thread nD τ).loc main_arg11)) shapeCasts_S128_S1x128) :=
  (L_hostOps1_main_v75 (W8 m ρ c)).trans (by rw [P8_main_arg11])
theorem I9_main_v76 (c : Dev nD) : W9 m ρ c (Proc.devRef .tc main_v76) = (shapeCast _ (m ((c : Thread nD τ).loc main_arg12)) shapeCasts_S128_S1x128) :=
  (L_hostOps1_main_v76 (W8 m ρ c)).trans (by rw [P8_main_arg12])
theorem I9_main_v77 (c : Dev nD) : W9 m ρ c (Proc.devRef .tc main_v77) = (shapeCast _ (m ((c : Thread nD τ).loc main_arg8)) shapeCasts_S128_S1x128) :=
  (L_hostOps1_main_v77 (W8 m ρ c)).trans (by rw [P8_main_arg8])
theorem I9_main_v78 (c : Dev nD) : W9 m ρ c (Proc.devRef .tc main_v78) = (shapeCast _ (m ((c : Thread nD τ).loc main_arg13)) shapeCasts_S128_S1x128) :=
  (L_hostOps1_main_v78 (W8 m ρ c)).trans (by rw [P8_main_arg13])
theorem I9_main_v79 (c : Dev nD) : W9 m ρ c (Proc.devRef .tc main_v79) = (shapeCast _ (m ((c : Thread nD τ).loc main_arg14)) shapeCasts_S128_S1x128) :=
  (L_hostOps1_main_v79 (W8 m ρ c)).trans (by rw [P8_main_arg14])

/-- Region 1's first result. -/
theorem O1g (c : Dev nD) : W10 m ρ c (Proc.devRef .tc main_v80_0) = (G1g (aggG (G0g (m ((c : Thread nD τ).loc main_arg0)) (m ((c : Thread nD τ).loc main_arg3)) (kDinv (m ((c : Thread nD τ).loc main_arg1)))) (kSrc (m ((c : Thread nD τ).loc main_arg1))) (kDst (m ((c : Thread nD τ).loc main_arg1)))) (kDinv (m ((c : Thread nD τ).loc main_arg1))) (shapeCast _ (m ((c : Thread nD τ).loc main_arg4)) shapeCasts_S128_S1x128) (shapeCast _ (m ((c : Thread nD τ).loc main_arg11)) shapeCasts_S128_S1x128) (shapeCast _ (m ((c : Thread nD τ).loc main_arg12)) shapeCasts_S128_S1x128) (m ((c : Thread nD τ).loc main_arg5))) := by
  refine (W10_arr m ρ c 11).trans ?_
  rw [final1_11 (V9 m ρ) c]
  show G1g (W9 m ρ c (Proc.devRef .tc main_v49)) (W9 m ρ c (Proc.devRef .tc main_v15)) (W9 m ρ c (Proc.devRef .tc main_v74)) (W9 m ρ c (Proc.devRef .tc main_v75)) (W9 m ρ c (Proc.devRef .tc main_v76)) (W9 m ρ c (Proc.devRef .tc main_arg5)) = _
  rw [I9_main_v49, P9_main_v15, I9_main_v74, I9_main_v75, I9_main_v76, P9_main_arg5]

/-- Region 1's second result. -/
theorem O1h (c : Dev nD) : W10 m ρ c (Proc.devRef .tc main_v80_1) = (G1h (aggH (G0h (m ((c : Thread nD τ).loc main_arg0)) (m ((c : Thread nD τ).loc main_arg7))) (kNode (m ((c : Thread nD τ).loc main_arg2))) (kHedge (m ((c : Thread nD τ).loc main_arg2))) (kDcol (m ((c : Thread nD τ).loc main_arg2))) (kBcol (m ((c : Thread nD τ).loc main_arg2)))) (shapeCast _ (m ((c : Thread nD τ).loc main_arg8)) shapeCasts_S128_S1x128) (shapeCast _ (m ((c : Thread nD τ).loc main_arg13)) shapeCasts_S128_S1x128) (shapeCast _ (m ((c : Thread nD τ).loc main_arg14)) shapeCasts_S128_S1x128) (m ((c : Thread nD τ).loc main_arg9))) := by
  refine (W10_arr m ρ c 12).trans ?_
  rw [final1_12 (V9 m ρ) c]
  show G1h (W9 m ρ c (Proc.devRef .tc main_v73)) (W9 m ρ c (Proc.devRef .tc main_v77)) (W9 m ρ c (Proc.devRef .tc main_v78)) (W9 m ρ c (Proc.devRef .tc main_v79)) (W9 m ρ c (Proc.devRef .tc main_arg9)) = _
  rw [I9_main_v73, I9_main_v77, I9_main_v78, I9_main_v79, P9_main_arg9]

/-! ## Region 2 -/

theorem I11_main_v90 (c : Dev nD) : W11 m ρ c (Proc.devRef .tc main_v90) = (aggG (G1g (aggG (G0g (m ((c : Thread nD τ).loc main_arg0)) (m ((c : Thread nD τ).loc main_arg3)) (kDinv (m ((c : Thread nD τ).loc main_arg1)))) (kSrc (m ((c : Thread nD τ).loc main_arg1))) (kDst (m ((c : Thread nD τ).loc main_arg1)))) (kDinv (m ((c : Thread nD τ).loc main_arg1))) (shapeCast _ (m ((c : Thread nD τ).loc main_arg4)) shapeCasts_S128_S1x128) (shapeCast _ (m ((c : Thread nD τ).loc main_arg11)) shapeCasts_S128_S1x128) (shapeCast _ (m ((c : Thread nD τ).loc main_arg12)) shapeCasts_S128_S1x128) (m ((c : Thread nD τ).loc main_arg5))) (kSrc (m ((c : Thread nD τ).loc main_arg1))) (kDst (m ((c : Thread nD τ).loc main_arg1)))) :=
  (A_hostOps2_main_v90 (W10 m ρ c)).trans (by rw [O1g, P10_main_v3, P10_main_v6])
theorem I11_main_v114 (c : Dev nD) : W11 m ρ c (Proc.devRef .tc main_v114) = (aggH (G1h (aggH (G0h (m ((c : Thread nD τ).loc main_arg0)) (m ((c : Thread nD τ).loc main_arg7))) (kNode (m ((c : Thread nD τ).loc main_arg2))) (kHedge (m ((c : Thread nD τ).loc main_arg2))) (kDcol (m ((c : Thread nD τ).loc main_arg2))) (kBcol (m ((c : Thread nD τ).loc main_arg2)))) (shapeCast _ (m ((c : Thread nD τ).loc main_arg8)) shapeCasts_S128_S1x128) (shapeCast _ (m ((c : Thread nD τ).loc main_arg13)) shapeCasts_S128_S1x128) (shapeCast _ (m ((c : Thread nD τ).loc main_arg14)) shapeCasts_S128_S1x128) (m ((c : Thread nD τ).loc main_arg9))) (kNode (m ((c : Thread nD τ).loc main_arg2))) (kHedge (m ((c : Thread nD τ).loc main_arg2))) (kDcol (m ((c : Thread nD τ).loc main_arg2))) (kBcol (m ((c : Thread nD τ).loc main_arg2)))) :=
  (A_hostOps2_main_v114 (W10 m ρ c)).trans (by rw [O1h, P10_main_v17, P10_main_v19, P10_main_v29, P10_main_v38])
theorem I11_main_v115 (c : Dev nD) : W11 m ρ c (Proc.devRef .tc main_v115) = (shapeCast _ (m ((c : Thread nD τ).loc main_arg6)) shapeCasts_S128_S1x128) :=
  (L_hostOps2_main_v115 (W10 m ρ c)).trans (by rw [P10_main_arg6])
theorem I11_main_v116 (c : Dev nD) : W11 m ρ c (Proc.devRef .tc main_v116) = (shapeCast _ (m ((c : Thread nD τ).loc main_arg11)) shapeCasts_S128_S1x128) :=
  (L_hostOps2_main_v116 (W10 m ρ c)).trans (by rw [P10_main_arg11])
theorem I11_main_v117 (c : Dev nD) : W11 m ρ c (Proc.devRef .tc main_v117) = (shapeCast _ (m ((c : Thread nD τ).loc main_arg12)) shapeCasts_S128_S1x128) :=
  (L_hostOps2_main_v117 (W10 m ρ c)).trans (by rw [P10_main_arg12])
theorem I11_main_v118 (c : Dev nD) : W11 m ρ c (Proc.devRef .tc main_v118) = (shapeCast _ (m ((c : Thread nD τ).loc main_arg10)) shapeCasts_S128_S1x128) :=
  (L_hostOps2_main_v118 (W10 m ρ c)).trans (by rw [P10_main_arg10])
theorem I11_main_v119 (c : Dev nD) : W11 m ρ c (Proc.devRef .tc main_v119) = (shapeCast _ (m ((c : Thread nD τ).loc main_arg13)) shapeCasts_S128_S1x128) :=
  (L_hostOps2_main_v119 (W10 m ρ c)).trans (by rw [P10_main_arg13])
theorem I11_main_v120 (c : Dev nD) : W11 m ρ c (Proc.devRef .tc main_v120) = (shapeCast _ (m ((c : Thread nD τ).loc main_arg14)) shapeCasts_S128_S1x128) :=
  (L_hostOps2_main_v120 (W10 m ρ c)).trans (by rw [P10_main_arg14])
theorem I11_main_v121 (c : Dev nD) : W11 m ρ c (Proc.devRef .tc main_v121) = (shapeCast _ (m ((c : Thread nD τ).loc main_arg16)) shapeCasts_S128_S1x128) :=
  (L_hostOps2_main_v121 (W10 m ρ c)).trans (by rw [P10_main_arg16])
theorem I11_main_v122 (c : Dev nD) : W11 m ρ c (Proc.devRef .tc main_v122) = (shapeCast _ (m ((c : Thread nD τ).loc main_arg18)) shapeCasts_S128_S1x128) :=
  (L_hostOps2_main_v122 (W10 m ρ c)).trans (by rw [P10_main_arg18])

/-- The kernel's result as a function of the argument arrays. -/
def kerOut (c : Dev nD) : (⟨S100000x128, .f32⟩ : BufTy).Contents (Elt Ideal) :=
  G2 (aggG (G1g (aggG (G0g (m ((c : Thread nD τ).loc main_arg0)) (m ((c : Thread nD τ).loc main_arg3)) (kDinv (m ((c : Thread nD τ).loc main_arg1)))) (kSrc (m ((c : Thread nD τ).loc main_arg1))) (kDst (m ((c : Thread nD τ).loc main_arg1)))) (kDinv (m ((c : Thread nD τ).loc main_arg1))) (shapeCast _ (m ((c : Thread nD τ).loc main_arg4)) shapeCasts_S128_S1x128) (shapeCast _ (m ((c : Thread nD τ).loc main_arg11)) shapeCasts_S128_S1x128) (shapeCast _ (m ((c : Thread nD τ).loc main_arg12)) shapeCasts_S128_S1x128) (m ((c : Thread nD τ).loc main_arg5))) (kSrc (m ((c : Thread nD τ).loc main_arg1))) (kDst (m ((c : Thread nD τ).loc main_arg1)))) (kDinv (m ((c : Thread nD τ).loc main_arg1))) (shapeCast _ (m ((c : Thread nD τ).loc main_arg6)) shapeCasts_S128_S1x128) (shapeCast _ (m ((c : Thread nD τ).loc main_arg11)) shapeCasts_S128_S1x128) (shapeCast _ (m ((c : Thread nD τ).loc main_arg12)) shapeCasts_S128_S1x128) (aggH (G1h (aggH (G0h (m ((c : Thread nD τ).loc main_arg0)) (m ((c : Thread nD τ).loc main_arg7))) (kNode (m ((c : Thread nD τ).loc main_arg2))) (kHedge (m ((c : Thread nD τ).loc main_arg2))) (kDcol (m ((c : Thread nD τ).loc main_arg2))) (kBcol (m ((c : Thread nD τ).loc main_arg2)))) (shapeCast _ (m ((c : Thread nD τ).loc main_arg8)) shapeCasts_S128_S1x128) (shapeCast _ (m ((c : Thread nD τ).loc main_arg13)) shapeCasts_S128_S1x128) (shapeCast _ (m ((c : Thread nD τ).loc main_arg14)) shapeCasts_S128_S1x128) (m ((c : Thread nD τ).loc main_arg9))) (kNode (m ((c : Thread nD τ).loc main_arg2))) (kHedge (m ((c : Thread nD τ).loc main_arg2))) (kDcol (m ((c : Thread nD τ).loc main_arg2))) (kBcol (m ((c : Thread nD τ).loc main_arg2)))) (shapeCast _ (m ((c : Thread nD τ).loc main_arg10)) shapeCasts_S128_S1x128) (shapeCast _ (m ((c : Thread nD τ).loc main_arg13)) shapeCasts_S128_S1x128) (shapeCast _ (m ((c : Thread nD τ).loc main_arg14)) shapeCasts_S128_S1x128) (m ((c : Thread nD τ).loc main_arg15)) (shapeCast _ (m ((c : Thread nD τ).loc main_arg16)) shapeCasts_S128_S1x128) (m ((c : Thread nD τ).loc main_arg17)) (shapeCast _ (m ((c : Thread nD τ).loc main_arg18)) shapeCasts_S128_S1x128)

/-- The result buffer at the last boundary. -/
theorem out_eq (c : Dev nD) : W12 m ρ c (Proc.devRef .tc main_v123) = kerOut m c := by
  refine (W12_arr m ρ c 13).trans ?_
  rw [final2_13 (V11 m ρ) c]
  show G2 (W11 m ρ c (Proc.devRef .tc main_v90)) (W11 m ρ c (Proc.devRef .tc main_v15)) (W11 m ρ c (Proc.devRef .tc main_v115)) (W11 m ρ c (Proc.devRef .tc main_v116)) (W11 m ρ c (Proc.devRef .tc main_v117)) (W11 m ρ c (Proc.devRef .tc main_v114)) (W11 m ρ c (Proc.devRef .tc main_v118)) (W11 m ρ c (Proc.devRef .tc main_v119)) (W11 m ρ c (Proc.devRef .tc main_v120)) (W11 m ρ c (Proc.devRef .tc main_arg15)) (W11 m ρ c (Proc.devRef .tc main_v121)) (W11 m ρ c (Proc.devRef .tc main_arg17)) (W11 m ρ c (Proc.devRef .tc main_v122)) = _
  rw [I11_main_v90, P11_main_v15, I11_main_v115, I11_main_v116, I11_main_v117, I11_main_v114, I11_main_v118, I11_main_v119, I11_main_v120, P11_main_arg15, I11_main_v121, P11_main_arg17, I11_main_v122]
  unfold kerOut
  rfl

/-- THE KERNEL'S RUN, READ: every weakly fair execution terminates, nothing faulting, with the result buffer at `kerOut` of the
    argument arrays and the argument arrays as launched. -/
theorem run : θ_run defs (onTc (τ := τ) (main (F := Ideal))) ⟨m, fun _ => 0, ρ⟩ (fun r => ∀ c : Dev nD,
      r.2.mem ((c.tc : Thread nD τ).loc main_v123) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨(h c _ (mem_uc main_v123 (by decide))).trans (out_eq m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c),
     (h c _ (mem_uc main_arg14 (by decide))).trans (W12_main_arg14 m ρ c),
     (h c _ (mem_uc main_arg15 (by decide))).trans (W12_main_arg15 m ρ c),
     (h c _ (mem_uc main_arg16 (by decide))).trans (W12_main_arg16 m ρ c),
     (h c _ (mem_uc main_arg17 (by decide))).trans (W12_main_arg17 m ρ c),
     (h c _ (mem_uc main_arg18 (by decide))).trans (W12_main_arg18 m ρ c)⟩)
    (Cert.KernelIdeal.KerRun.run_mem m ρ)

end Cert.KernelIdeal.KerVal

end
-- ==== Proof.KerHostSpec.lean ====
/-
  The idealized kernel's host values are the specification's.

  Between its regions the kernel applies to the edge and incidence lists the same host operations as the reference:
  the same index vectors (sources, targets, nodes, hyperedges, each normalised by adding the node count to a negative
  index), the same accumulating scatters and gathers, the same degree counts and their coefficients. Two spellings
  differ. The kernel makes a column [100000, 1] out of a vector [100000] by a reshape where the reference broadcasts
  the vector along a new unit axis: both read the vector at the row, so they are one function. And the two programs
  name their shapes, dimension numbers and side conditions separately, with equal contents.

  Every equality below is a congruence: equal operations applied to operands proved equal, down to the leaves, which
  are index arrays and constants (no sum is opened anywhere).
-/
import proofs.«138258_j55997783605349_2_alg».proof.Proof.KerHostA
import proofs.«138258_j55997783605349_2_alg».proof.Proof.Spec

set_option maxRecDepth 16384

noncomputable section

namespace Cert.KerHostSpec

open Idealize.ShloMosaic Idealize.ShloMosaic.ValueIdx Cert.ReferenceIdeal.Read Cert.Spec Cert.KernelIdeal.KerHost

/-! ## Congruences -/

/-- A function of three arguments at equal arguments. -/
theorem congr3 {α β γ δ : Sort _} (f : α → β → γ → δ) {a a' : α} {b b' : β} {c c' : γ}
    (ha : a = a') (hb : b = b') (hc : c = c') : f a b c = f a' b' c' := by
  subst ha hb hc; rfl

/-- The accumulating scatter at equal dimension numbers, operands, indices and updates. -/
theorem scatterAdd_congr {s si u : Shape} {w : Nat} {d d' : ScatterDims s si u} (hd : d = d')
    {x x' : FVec Ideal s .f32} (hx : x = x') {idx idx' : IVec si w} (hi : idx = idx')
    {upd upd' : FVec Ideal u .f32} (hu : upd = upd') :
    Host.scatterAdd (F := Ideal) (φ := .f32) d x idx upd = Host.scatterAdd (F := Ideal) (φ := .f32) d' x' idx' upd' := by
  subst hd hx hi hu; rfl

/-- The gather at equal dimension numbers, operands and indices. -/
theorem gather_congr {α : Type} {s si t : Shape} {w : Nat} {d d' : GatherDims s si t} (hd : d = d')
    {x x' : s.Idx → α} (hx : x = x') {idx idx' : IVec si w} (hi : idx = idx') :
    Host.gather d x idx = Host.gather d' x' idx' := by
  subst hd hx hi; rfl

/-! ## A column out of a vector: the reshape is the broadcast -/

/-- The reshape of a vector [100000] to a column [100000, 1] reads the vector at the row. -/
theorem shapeCast_col_apply {α : Type} (v : Cert.KernelIdeal.S100000.Idx → α) (r : Fin 100000) :
    shapeCast Cert.KernelIdeal.S100000x1 v Cert.KernelIdeal.Facts₀.shapeCasts_S100000_S100000x1 (ix2 r (0 : Fin 1))
      = v (ix1 r) := by
  refine shapeCast_apply v _ (ix2 r (0 : Fin 1)) (ix1 r) ?_
  rewrite [Shape.rowMajor_val_one, Shape.rowMajor_val_two]
  show r.val = r.val * 1 + 0
  omega

/-- The reshape of a vector to a column and its broadcast along a new unit axis are one function. -/
theorem shapeCast_col {α : Type} (v : Cert.KernelIdeal.S100000.Idx → α) :
    shapeCast Cert.KernelIdeal.S100000x1 v Cert.KernelIdeal.Facts₀.shapeCasts_S100000_S100000x1
      = broadcastInDim Cert.ReferenceIdeal.S100000x1 ![0] Cert.ReferenceIdeal.Facts₀.bcast_S100000_S100000x1_0 v := by
  funext j
  obtain ⟨r, c, rfl⟩ : ∃ (r : Fin 100000) (c : Fin 1), j = ix2 r c := ⟨j 0, j 1, eq_ix2 j⟩
  obtain rfl : c = 0 := Subsingleton.elim _ _
  rw [shapeCast_col_apply]
  exact (broadcastInDim_apply _ Cert.ReferenceIdeal.Facts₀.bcast_S100000_S100000x1_0 v (ix2 r (0 : Fin 1)) (ix1 r)
    (fun a => match a with
      | ⟨0, _⟩ => by show r.val = if (100000 : Nat) = 1 then 0 else r.val; rw [if_neg (by decide)])).symm

/-! ## The graph branch -/

/-- Rows gathered at the sources and summed into the targets: the kernel's aggregation is the specification's. -/
theorem aggG_eq (g : Cert.Spec.Mat) (x1 : Cert.Spec.Edges) :
    Cert.KernelIdeal.KerHost.aggG g (kSrc x1) (kDst x1) = Cert.Spec.gatherSum g x1 := by
  delta Cert.KernelIdeal.KerHost.aggG Cert.Spec.gatherSum
  refine scatterAdd_congr ?_ ?_ ?_ (gather_congr ?_ rfl ?_)
  all_goals rfl

/-- The kernel's coefficient column at row r is the specification's coefficient at node r. -/
theorem kDinv_at (x1 : Cert.Spec.Edges) (r : Fin 100000) :
    Cert.KernelIdeal.KerHost.kDinv x1 (ix2 r (0 : Fin 1)) = Cert.Spec.dinv x1 (ix1 r) := by
  delta Cert.KernelIdeal.KerHost.kDinv
  rw [shapeCast_col_apply]
  refine congrFun ?_ (ix1 r)
  delta Cert.Spec.dinv val_main_v15 val_main_v13 val_main_v14 val_main_v11
  refine congr3 select (congrArg₂ (cmpf .ogt) (scatterAdd_congr ?_ ?_ ?_ ?_) ?_)
    (congrArg Host.rsqrt (scatterAdd_congr ?_ ?_ ?_ ?_)) ?_
  all_goals rfl

/-! ## The hypergraph branch -/

/-- The kernel's column 1/B is the reference's: the broadcast along a unit axis of the same vector. -/
theorem kBcol_eq (x2 : Cert.Spec.HEdges) : kBcol x2 = val_main_v176 (F := Ideal) x2 := by
  delta Cert.KernelIdeal.KerHost.kBcol val_main_v176 val_main_v165 val_main_v162 val_main_v164 val_main_v160
  rw [shapeCast_col]
  refine congrArg (broadcastInDim _ _ _) ?_
  refine congr3 select (congrArg₂ (cmpf .ogt) (scatterAdd_congr ?_ ?_ ?_ ?_) ?_)
    (congrArg₂ Host.divf ?_ (scatterAdd_congr ?_ ?_ ?_ ?_)) ?_
  all_goals rfl

/-- The kernel's column 1/D is the reference's. -/
theorem kDcol_eq (x2 : Cert.Spec.HEdges) : kDcol x2 = val_main_v189 (F := Ideal) x2 := by
  delta Cert.KernelIdeal.KerHost.kDcol val_main_v189 val_main_v157 val_main_v154 val_main_v156 val_main_v152
  rw [shapeCast_col]
  refine congrArg (broadcastInDim _ _ _) ?_
  refine congr3 select (congrArg₂ (cmpf .ogt) (scatterAdd_congr ?_ ?_ ?_ ?_) ?_)
    (congrArg₂ Host.divf ?_ (scatterAdd_congr ?_ ?_ ?_ ?_)) ?_
  all_goals rfl

/-- The two-hop hypergraph aggregation: the kernel's is the specification's. -/
theorem aggH_eq (h : Cert.Spec.Mat) (x2 : Cert.Spec.HEdges) :
    Cert.KernelIdeal.KerHost.aggH h (kNode x2) (kHedge x2) (kDcol x2) (kBcol x2) = Cert.Spec.hyperSum h x2 := by
  delta Cert.KernelIdeal.KerHost.aggH Cert.Spec.hyperSum val_main_v177 val_main_v190
  refine congrArg₂ mulf
    (scatterAdd_congr ?_ ?_ ?_
      (gather_congr ?_
        (congrArg₂ mulf
          (scatterAdd_congr ?_ ?_ ?_ (gather_congr ?_ rfl ?_))
          (congrArg (broadcastInDim _ _ _) (kBcol_eq x2)))
        ?_))
    (congrArg (broadcastInDim _ _ _) (kDcol_eq x2))
  all_goals rfl

end Cert.KerHostSpec

end
-- ==== Proof.KerBridge.lean ====
/-
  The kernel's result is the specification's `kerNet` of the argument arrays.

  Each region's result, read row-wise (its `G`), is a composition of the specification's stages: region 0 leaves
  rowScale (mm512 x W) dinv and mm512 x W'; region 1 leaves rowScale (mm128 (lnRelu (addRow (rowScale A dinv) b) w s) W) dinv and
  mm128 (lnRelu (addRow A' b') w' s') W''; region 2 leaves the head of the two normalised branches. The only facts used: a
  [128] vector reshaped to a row [1,128] reads the vector's entry, the coefficient column reads the coefficient vector's entry,
  and the host aggregations are the specification's.
-/
import proofs.«138258_j55997783605349_2_alg».proof.Proof.KerVal
import proofs.«138258_j55997783605349_2_alg».proof.Proof.KerHostSpec
import Idealize.ShloMosaic.Lib.ValueLayout

set_option maxRecDepth 16384

noncomputable section

open scoped BigOperators

namespace Cert.KerBridge

open Idealize.ShloMosaic Idealize.ShloMosaic.TcCoe Idealize.ShloMosaic.ValueIdx Idealize.SL.Sem
open Cert.KernelIdeal.KerReg Cert.KernelIdeal.KerHost Cert.KernelIdeal.KerPay Cert.Spec

/-- A vector of 128 entries reshaped to a row: entry (0, j) is entry j. -/
theorem sc_at (x : Row) (j : Fin 128) :
    shapeCast Cert.KernelIdeal.S1x128 x Cert.KernelIdeal.Gen.shapeCasts_S128_S1x128 (ix2 (0 : Fin 1) j) = x (ix1 j) :=
  shapeCast_a_1a_apply x _ 0 j

/-- Layer normalisation of one entry of the specification's array, as the bodies compute it. -/
theorem lnRelu_at (B : Mat) (w b : Row) (r : Fin 100000) (k : Fin 128) :
    lnRelu B w b (ix2 r k) = lnAt (fun j => B (ix2 r j)) k (w (ix1 k)) (b (ix1 k)) := rfl

theorem g0g_eq (x0 : (⟨Cert.ReferenceIdeal.S100000x512, .f32⟩ : BufTy).Contents (Elt Ideal)) (x3 : (⟨Cert.ReferenceIdeal.S512x128, .f32⟩ : BufTy).Contents (Elt Ideal)) (x1 : Edges) :
    G0g x0 x3 (kDinv x1) = rowScale (mm512 x0 x3) (dinv x1) := by
  funext i
  obtain ⟨r, q, rfl⟩ : ∃ (r : Fin 100000) (q : Fin 128), i = ix2 r q := ⟨i 0, i 1, eq_ix2 i⟩
  show (∑ k : Fin 512, x0 (ix2 r k) * x3 (ix2 k q)) * kDinv x1 (ix2 r (0 : Fin 1)) = (∑ k : Fin 512, x0 (ix2 r k) * x3 (ix2 k q)) * dinv x1 (ix1 r)
  rw [Cert.KerHostSpec.kDinv_at]

theorem g0h_eq (x0 : (⟨Cert.ReferenceIdeal.S100000x512, .f32⟩ : BufTy).Contents (Elt Ideal)) (x7 : (⟨Cert.ReferenceIdeal.S512x128, .f32⟩ : BufTy).Contents (Elt Ideal)) :
    G0h x0 x7 = mm512 x0 x7 := by
  funext i
  obtain ⟨r, q, rfl⟩ : ∃ (r : Fin 100000) (q : Fin 128), i = ix2 r q := ⟨i 0, i 1, eq_ix2 i⟩
  rfl

theorem g1g_eq (A : Mat) (x1 : Edges) (x4 x11 x12 : Row) (x5 : (⟨Cert.ReferenceIdeal.S128x128, .f32⟩ : BufTy).Contents (Elt Ideal)) :
    G1g A (kDinv x1) (shapeCast _ x4 Cert.KernelIdeal.Gen.shapeCasts_S128_S1x128) (shapeCast _ x11 Cert.KernelIdeal.Gen.shapeCasts_S128_S1x128) (shapeCast _ x12 Cert.KernelIdeal.Gen.shapeCasts_S128_S1x128) x5
      = rowScale (mm128 (lnRelu (addRow (rowScale A (dinv x1)) x4) x11 x12) x5) (dinv x1) := by
  funext i
  obtain ⟨r, q, rfl⟩ : ∃ (r : Fin 100000) (q : Fin 128), i = ix2 r q := ⟨i 0, i 1, eq_ix2 i⟩
  show (∑ k : Fin 128, lnAt (fun j => A (ix2 r j) * kDinv x1 (ix2 r (0 : Fin 1)) + (shapeCast _ x4 Cert.KernelIdeal.Gen.shapeCasts_S128_S1x128 : (⟨Cert.KernelIdeal.S1x128, .f32⟩ : BufTy).Contents (Elt Ideal)) (ix2 (0 : Fin 1) j)) k
        ((shapeCast _ x11 Cert.KernelIdeal.Gen.shapeCasts_S128_S1x128 : (⟨Cert.KernelIdeal.S1x128, .f32⟩ : BufTy).Contents (Elt Ideal)) (ix2 (0 : Fin 1) k))
        ((shapeCast _ x12 Cert.KernelIdeal.Gen.shapeCasts_S128_S1x128 : (⟨Cert.KernelIdeal.S1x128, .f32⟩ : BufTy).Contents (Elt Ideal)) (ix2 (0 : Fin 1) k)) * x5 (ix2 k q)) * kDinv x1 (ix2 r (0 : Fin 1))
      = (∑ k : Fin 128, lnRelu (addRow (rowScale A (dinv x1)) x4) x11 x12 (ix2 r k) * x5 (ix2 k q)) * dinv x1 (ix1 r)
  simp only [sc_at, shapeCast_a_1a_apply, Cert.KerHostSpec.kDinv_at, lnRelu_at]
  rfl

theorem g1h_eq (A : Mat) (x8 x13 x14 : Row) (x9 : (⟨Cert.ReferenceIdeal.S128x128, .f32⟩ : BufTy).Contents (Elt Ideal)) :
    G1h A (shapeCast _ x8 Cert.KernelIdeal.Gen.shapeCasts_S128_S1x128) (shapeCast _ x13 Cert.KernelIdeal.Gen.shapeCasts_S128_S1x128) (shapeCast _ x14 Cert.KernelIdeal.Gen.shapeCasts_S128_S1x128) x9
      = mm128 (lnRelu (addRow A x8) x13 x14) x9 := by
  funext i
  obtain ⟨r, q, rfl⟩ : ∃ (r : Fin 100000) (q : Fin 128), i = ix2 r q := ⟨i 0, i 1, eq_ix2 i⟩
  show (∑ k : Fin 128, lnAt (fun j => A (ix2 r j) + (shapeCast _ x8 Cert.KernelIdeal.Gen.shapeCasts_S128_S1x128 : (⟨Cert.KernelIdeal.S1x128, .f32⟩ : BufTy).Contents (Elt Ideal)) (ix2 (0 : Fin 1) j)) k
        ((shapeCast _ x13 Cert.KernelIdeal.Gen.shapeCasts_S128_S1x128 : (⟨Cert.KernelIdeal.S1x128, .f32⟩ : BufTy).Contents (Elt Ideal)) (ix2 (0 : Fin 1) k))
        ((shapeCast _ x14 Cert.KernelIdeal.Gen.shapeCasts_S128_S1x128 : (⟨Cert.KernelIdeal.S1x128, .f32⟩ : BufTy).Contents (Elt Ideal)) (ix2 (0 : Fin 1) k)) * x9 (ix2 k q))
      = ∑ k : Fin 128, lnRelu (addRow A x8) x13 x14 (ix2 r k) * x9 (ix2 k q)
  simp only [sc_at, shapeCast_a_1a_apply, lnRelu_at]
  rfl

theorem g2_eq (A Bh : Mat) (x1 : Edges) (x6 x10 x11 x12 x13 x14 : Row) (x15 : (⟨Cert.ReferenceIdeal.S128x128, .f32⟩ : BufTy).Contents (Elt Ideal)) (x16 : Row) (x17 : (⟨Cert.ReferenceIdeal.S128x128, .f32⟩ : BufTy).Contents (Elt Ideal)) (x18 : Row) :
    G2 A (kDinv x1) (shapeCast _ x6 Cert.KernelIdeal.Gen.shapeCasts_S128_S1x128 : (⟨Cert.KernelIdeal.S1x128, .f32⟩ : BufTy).Contents (Elt Ideal)) (shapeCast _ x11 Cert.KernelIdeal.Gen.shapeCasts_S128_S1x128 : (⟨Cert.KernelIdeal.S1x128, .f32⟩ : BufTy).Contents (Elt Ideal)) (shapeCast _ x12 Cert.KernelIdeal.Gen.shapeCasts_S128_S1x128 : (⟨Cert.KernelIdeal.S1x128, .f32⟩ : BufTy).Contents (Elt Ideal)) Bh (shapeCast _ x10 Cert.KernelIdeal.Gen.shapeCasts_S128_S1x128 : (⟨Cert.KernelIdeal.S1x128, .f32⟩ : BufTy).Contents (Elt Ideal)) (shapeCast _ x13 Cert.KernelIdeal.Gen.shapeCasts_S128_S1x128 : (⟨Cert.KernelIdeal.S1x128, .f32⟩ : BufTy).Contents (Elt Ideal)) (shapeCast _ x14 Cert.KernelIdeal.Gen.shapeCasts_S128_S1x128 : (⟨Cert.KernelIdeal.S1x128, .f32⟩ : BufTy).Contents (Elt Ideal)) x15 (shapeCast _ x16 Cert.KernelIdeal.Gen.shapeCasts_S128_S1x128 : (⟨Cert.KernelIdeal.S1x128, .f32⟩ : BufTy).Contents (Elt Ideal)) x17 (shapeCast _ x18 Cert.KernelIdeal.Gen.shapeCasts_S128_S1x128 : (⟨Cert.KernelIdeal.S1x128, .f32⟩ : BufTy).Contents (Elt Ideal))
      = head (lnRelu (addRow (rowScale A (dinv x1)) x6) x11 x12) (lnRelu (addRow Bh x10) x13 x14) x15 x16 x17 x18 := by
  funext i
  obtain ⟨r, q, rfl⟩ : ∃ (r : Fin 100000) (q : Fin 128), i = ix2 r q := ⟨i 0, i 1, eq_ix2 i⟩
  show (∑ k2 : Fin 128, max ((∑ k : Fin 128,
            ((lnAt (fun j => A (ix2 r j) * kDinv x1 (ix2 r (0 : Fin 1)) + (shapeCast _ x6 Cert.KernelIdeal.Gen.shapeCasts_S128_S1x128 : (⟨Cert.KernelIdeal.S1x128, .f32⟩ : BufTy).Contents (Elt Ideal)) (ix2 (0 : Fin 1) j)) k ((shapeCast _ x11 Cert.KernelIdeal.Gen.shapeCasts_S128_S1x128 : (⟨Cert.KernelIdeal.S1x128, .f32⟩ : BufTy).Contents (Elt Ideal)) (ix2 (0 : Fin 1) k)) ((shapeCast _ x12 Cert.KernelIdeal.Gen.shapeCasts_S128_S1x128 : (⟨Cert.KernelIdeal.S1x128, .f32⟩ : BufTy).Contents (Elt Ideal)) (ix2 (0 : Fin 1) k))
              + lnAt (fun j => Bh (ix2 r j) + (shapeCast _ x10 Cert.KernelIdeal.Gen.shapeCasts_S128_S1x128 : (⟨Cert.KernelIdeal.S1x128, .f32⟩ : BufTy).Contents (Elt Ideal)) (ix2 (0 : Fin 1) j)) k ((shapeCast _ x13 Cert.KernelIdeal.Gen.shapeCasts_S128_S1x128 : (⟨Cert.KernelIdeal.S1x128, .f32⟩ : BufTy).Contents (Elt Ideal)) (ix2 (0 : Fin 1) k)) ((shapeCast _ x14 Cert.KernelIdeal.Gen.shapeCasts_S128_S1x128 : (⟨Cert.KernelIdeal.S1x128, .f32⟩ : BufTy).Contents (Elt Ideal)) (ix2 (0 : Fin 1) k))) * Ideal.ofBits .f32 0x3F000000#32)
              * x15 (ix2 k k2)) + (shapeCast _ x16 Cert.KernelIdeal.Gen.shapeCasts_S128_S1x128 : (⟨Cert.KernelIdeal.S1x128, .f32⟩ : BufTy).Contents (Elt Ideal)) (ix2 (0 : Fin 1) k2)) (Ideal.ofBits .f32 0x00000000#32) * x17 (ix2 k2 q))
        + (shapeCast _ x18 Cert.KernelIdeal.Gen.shapeCasts_S128_S1x128 : (⟨Cert.KernelIdeal.S1x128, .f32⟩ : BufTy).Contents (Elt Ideal)) (ix2 (0 : Fin 1) q)
      = (∑ k2 : Fin 128, max ((∑ k : Fin 128, ((lnRelu (addRow (rowScale A (dinv x1)) x6) x11 x12 (ix2 r k) + lnRelu (addRow Bh x10) x13 x14 (ix2 r k)) * Ideal.ofBits .f32 0x3F000000#32)
              * x15 (ix2 k k2)) + x16 (ix1 k2)) (Ideal.ofBits .f32 0x00000000#32) * x17 (ix2 k2 q)) + x18 (ix1 q)
  simp only [sc_at, shapeCast_a_1a_apply, Cert.KerHostSpec.kDinv_at, lnRelu_at]
  rfl

/-- THE KERNEL'S RESULT is the specification's `kerNet` of the argument arrays. -/
theorem kerOut_eq (m : (ℓ : Loc Cert.KernelIdeal.nD Cert.KernelIdeal.τ Cert.KernelIdeal.sig) → Buf (Elt Ideal) ℓ) (c : Dev Cert.KernelIdeal.nD) :
    Cert.KernelIdeal.KerVal.kerOut m c
      = kerNet (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) (m ((c : Thread Cert.KernelIdeal.nD Cert.KernelIdeal.τ).loc Cert.KernelIdeal.main_arg16)) (m ((c : Thread Cert.KernelIdeal.nD Cert.KernelIdeal.τ).loc Cert.KernelIdeal.main_arg17)) (m ((c : Thread Cert.KernelIdeal.nD Cert.KernelIdeal.τ).loc Cert.KernelIdeal.main_arg18)) := by
  unfold Cert.KernelIdeal.KerVal.kerOut kerNet
  rw [g0g_eq, g0h_eq, Cert.KerHostSpec.aggG_eq, Cert.KerHostSpec.aggH_eq, g1g_eq, g1h_eq, Cert.KerHostSpec.aggG_eq, Cert.KerHostSpec.aggH_eq, g2_eq]

end Cert.KerBridge

end
-- ==== Proof.lean ====
/-
  The certificate of the graph / hypergraph encoder kernel against its reference.

  THE MATHEMATICS. Both programs compute, on 100000 nodes, two branches of two layers each and a two-layer head. A layer is a
  matrix product, an aggregation over the (hyper)graph, a bias, the layer normalisation of every row and max(·, 0). At the
  ideal instance a change of float format is the identity and a matrix product or a lane sum is the exact finite sum, so the
  kernel's three regions, read row by row, are the same functions as the reference's stages. The one place where the two
  programs are written differently is the graph aggregation: the reference multiplies every gathered row by its edge's
  coefficient dinv(source) · dinv(target) before summing into the target, the kernel scales the rows by dinv before the gather
  and the summed rows by dinv after it. The two agree because multiplication is associative and a NON-NEGATIVE REAL factor
  distributes over a finite sum of extended reals (dinv is 0 or the reciprocal square root of a positive degree, never
  infinite), and because an edge whose target index is out of range is dropped by both sums while an in-range target is its
  own clamped index. No finiteness of the inputs is used.

  THE MODULES. Spec: every stage as one whole-array function, and the two networks refNet / kerNet. RefIsSpec: the reference's
  last stage is refNet of the arguments. ScatterScale, NetEq: refNet = kerNet. KerPay: the bodies' values at an index.
  KerReg0 / 1 / 2: each region's result array is one row-wise function of its operand arrays (the blocks tile the rows).
  KerHostA / B1 / B2 / B3, KerHostSpec: the host operations between the regions. KerRun, KerVal: the kernel's run with its
  result at kerOut of the arguments. KerBridge: kerOut = kerNet. RefOps, RefRunOut, RefRunArgsA / B / C, RefRun: the reference's operation list, its result evaluated along the list, its
  arguments kept, and its run. RefRead: the reference read one operation at a time.
-/
import proofs.«138258_j55997783605349_2_alg».proof.Defs
import proofs.«138258_j55997783605349_2_alg».proof.Proof.Gen.Kernel
import proofs.«138258_j55997783605349_2_alg».proof.Proof.Gen.Kernel.Skeleton
import proofs.«138258_j55997783605349_2_alg».proof.Proof.Gen.Kernel.Launch
import proofs.«138258_j55997783605349_2_alg».proof.Proof.Gen.Kernel.Points
import proofs.«138258_j55997783605349_2_alg».proof.Proof.Gen.Kernel.Frame
import proofs.«138258_j55997783605349_2_alg».proof.Proof.Gen.KernelIdeal
import proofs.«138258_j55997783605349_2_alg».proof.Proof.Gen.KernelIdeal.Skeleton
import proofs.«138258_j55997783605349_2_alg».proof.Proof.Gen.KernelIdeal.Launch
import proofs.«138258_j55997783605349_2_alg».proof.Proof.Gen.KernelIdeal.Points
import proofs.«138258_j55997783605349_2_alg».proof.Proof.Gen.KernelIdeal.Frame
import proofs.«138258_j55997783605349_2_alg».proof.Proof.Gen.ReferenceIdeal
import proofs.«138258_j55997783605349_2_alg».proof.Proof.Gen.Pre_finite_inputs
import proofs.«138258_j55997783605349_2_alg».proof.Proof.RefRun
import proofs.«138258_j55997783605349_2_alg».proof.Proof.RefIsSpec
import proofs.«138258_j55997783605349_2_alg».proof.Proof.NetEq
import proofs.«138258_j55997783605349_2_alg».proof.Proof.KerBridge
import Idealize.ShloMosaic.Adequacy
import Idealize.ShloMosaic.Init

noncomputable section

namespace Cert.Proof

open Idealize.ShloMosaic Idealize.SL.Sem

/-- The word-level kernel runs and keeps its arguments: the generated frame. -/
theorem frame_p : Cert.frame_Kernel := fun m ρ _ => Cert.Kernel.Gen.frame m ρ

/-- So does the idealized kernel. -/
theorem frame_pi : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.RefRun.run (F := Ideal) m ρ)

/-- The ideal pass rewrote nothing in this kernel. -/
theorem preserves : Cert.preserves_Kernel_KernelIdeal := trivial

/-- From memories agreeing on the arguments both runs end with the same result: the kernel's is kerNet of the arguments, the
    reference's is refNet of the same arguments, and the two networks are one function. -/
theorem algebraic : Cert.algebraic_KernelIdeal_ReferenceIdeal := by
  intro m ρ m' ρ' _ hagree
  refine ⟨fun c => Cert.KernelIdeal.KerVal.kerOut m c, Cert.KernelIdeal.KerVal.run m ρ, ?_⟩
  refine (θ_run Cert.ReferenceIdeal.defs _ _).mono (fun _ h c => ⟨(h c).1.trans ?_, (h c).2⟩)
    (Cert.RefRun.run (F := Ideal) m' ρ')
  show _ = Cert.KernelIdeal.KerVal.kerOut m c
  obtain ⟨h0, h1, h2, h3, h4, h5, h6, h7, h8, h9, h10, h11, h12, h13, h14, h15, h16, h17, h18⟩ := hagree c
  rw [Cert.RefSpec.ref_eq, Cert.KerBridge.kerOut_eq, h0, h1, h2, h3, h4, h5, h6, h7, h8, h9, h10, h11, h12, h13, h14, h15, h16, h17, h18]
  exact Cert.NetEq.refNet_eq_kerNet ..

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
